-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S2x2048x4096 .f32) (main_arg1 : FVec F S4096x4096 .f32) (main_arg2 : FVec F S4096x4096 .f32) (main_arg3 : FVec F S4096x4096 .f32) (main_arg4 : FVec F S4096x4096 .f32) (main_arg5 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S2x2048x4096 : Shape := ⟨3, ![2, 2048, 4096]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩
abbrev S2x4096x4096 : Shape := ⟨3, ![2, 4096, 4096]⟩
abbrev S1x256x512 : Shape := ⟨3, ![1, 256, 512]⟩
abbrev S1x256x4096 : Shape := ⟨3, ![1, 256, 4096]⟩
abbrev S1x512x4096 : Shape := ⟨3, ![1, 512, 4096]⟩
abbrev S512x4096 : Shape := ⟨2, ![512, 4096]⟩
abbrev S256x512 : Shape := ⟨2, ![256, 512]⟩
abbrev S256x4096 : Shape := ⟨2, ![256, 4096]⟩
abbrev S512 : Shape := ⟨1, ![512]⟩
abbrev S512x1 : Shape := ⟨2, ![512, 1]⟩
abbrev S1x512x512 : Shape := ⟨3, ![1, 512, 512]⟩
abbrev S512x512 : Shape := ⟨2, ![512, 512]⟩
abbrev S2048x1024 : Shape := ⟨2, ![2048, 1024]⟩

abbrev nBuf : Space → Nat
  | .hbm => 22
  | .vmem => 47
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S2x2048x4096, .f32⟩
  | .hbm, ⟨14, _⟩ => ⟨S2x2048x4096, .f32⟩
  | .hbm, ⟨15, _⟩ => ⟨S2x2048x4096, .bf16⟩
  | .hbm, ⟨16, _⟩ => ⟨S2x4096x4096, .bf16⟩
  | .hbm, ⟨17, _⟩ => ⟨S2x2048x4096, .bf16⟩
  | .hbm, ⟨18, _⟩ => ⟨S4096x4096, .bf16⟩
  | .hbm, ⟨19, _⟩ => ⟨S4096x4096, .bf16⟩
  | .hbm, ⟨20, _⟩ => ⟨S4096x4096, .f32⟩
  | .hbm, ⟨21, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1x256x512, .f32⟩
  | .local _ .vmem, ⟨18, _⟩ => ⟨S1x256x512, .f32⟩
  | .local _ .vmem, ⟨19, _⟩ => ⟨S1x256x4096, .f32⟩
  | .local _ .vmem, ⟨20, _⟩ => ⟨S1x256x4096, .f32⟩
  | .local _ .vmem, ⟨21, _⟩ => ⟨S1x512x4096, .bf16⟩
  | .local _ .vmem, ⟨22, _⟩ => ⟨S1x512x4096, .bf16⟩
  | .local _ .vmem, ⟨23, _⟩ => ⟨S512x4096, .f32⟩
  | .local _ .vmem, ⟨24, _⟩ => ⟨S1x512x512, .bf16⟩
  | .local _ .vmem, ⟨25, _⟩ => ⟨S1x512x512, .bf16⟩
  | .local _ .vmem, ⟨26, _⟩ => ⟨S1x512x4096, .bf16⟩
  | .local _ .vmem, ⟨27, _⟩ => ⟨S1x512x4096, .bf16⟩
  | .local _ .vmem, ⟨28, _⟩ => ⟨S1x512x4096, .bf16⟩
  | .local _ .vmem, ⟨29, _⟩ => ⟨S1x512x4096, .bf16⟩
  | .local _ .vmem, ⟨30, _⟩ => ⟨S512x4096, .f32⟩
  | .local _ .vmem, ⟨31, _⟩ => ⟨S2048x1024, .bf16⟩
  | .local _ .vmem, ⟨32, _⟩ => ⟨S2048x1024, .bf16⟩
  | .local _ .vmem, ⟨33, _⟩ => ⟨S1024x1024, .bf16⟩
  | .local _ .vmem, ⟨34, _⟩ => ⟨S1024x1024, .bf16⟩
  | .local _ .vmem, ⟨35, _⟩ => ⟨S2048x1024, .bf16⟩
  | .local _ .vmem, ⟨36, _⟩ => ⟨S2048x1024, .bf16⟩
  | .local _ .vmem, ⟨37, _⟩ => ⟨S2048x1024, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .bf16⟩
  | .local _ .vmem, ⟨41, _⟩ => ⟨S1024x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_22 : BitVec 32 := 0#32
  let v30 : BitVec 1 := Scalar.cmpi .ne v29 c0_i32_22
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![2, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 4], ![false, false, false]⟩

def k4_cond2 (i : grid4.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, true]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  shapeCasts_S2x2048x4096_S4096x4096 : S2x2048x4096.ShapeCasts S4096x4096
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S1024x512_S1024x512_0_0 : (Rect.unit (s := S1024x512) ![0, 0] S1024x512.size inb_S1024x512_S1024x512_0_0).PackedRows (EltTy.packing .bf16)
  shapeCasts_S4096x4096_S2x2048x4096 : S4096x4096.ShapeCasts S2x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S512x4096_S512 : S512x4096.Reduces [1] S512
  shapeCasts_S512_S512x1 : S512.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  packedbf16_S1x512x4096_S1x512x4096_0_0_0 : (Rect.unit (s := S1x512x4096) ![0, 0, 0] S1x512x4096.size inb_S1x512x4096_S1x512x4096_0_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  dot_S1024x1024_S512x1024_S1024x512_1_1_0_0_n_n_wf : DotDims.WF S1024x1024 S512x1024 S1024x512 [1] [1] [0] [0] [] []
  dot_S256x512_S256x4096_S512x4096_0_0_1_1_n_n_wf : DotDims.WF S256x512 S256x4096 S512x4096 [0] [0] [1] [1] [] []
  dot_S512x512_S512x4096_S512x4096_1_0_0_1_n_n_wf : DotDims.WF S512x512 S512x4096 S512x4096 [1] [0] [0] [1] [] []
  dot_S2048x1024_S1024x1024_S2048x1024_1_1_0_0_n_n_wf : DotDims.WF S2048x1024 S1024x1024 S2048x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x4096.size a
  hwx0_6 : ∀ i : grid0.Coords, EltTy.bits .bf16 = 32 ∨ (Rect.block (s := S4096x4096) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x2048x4096.size a
  hwx1_0 : ∀ i : grid1.Coords, EltTy.bits .f32 = 32 ∨ (Rect.block (s := S2x2048x4096) S1x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S2x2048x4096.size a
  hwx1_1 : ∀ i : grid1.Coords, EltTy.bits .f32 = 32 ∨ (Rect.block (s := S2x2048x4096) S1x256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x4096.size a ≤ S2x4096x4096.size a
  hwx1_2 : ∀ i : grid1.Coords, EltTy.bits .bf16 = 32 ∨ (Rect.block (s := S2x4096x4096) S1x512x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S2x2048x4096.size a
  hwx2_0 : ∀ i : grid2.Coords, EltTy.bits .bf16 = 32 ∨ (Rect.block (s := S2x2048x4096) S1x512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x4096.size a ≤ S2x4096x4096.size a
  hwx2_1 : ∀ i : grid2.Coords, EltTy.bits .bf16 = 32 ∨ (Rect.block (s := S2x4096x4096) S1x512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x4096.size a ≤ S2x2048x4096.size a
  hwx2_2 : ∀ i : grid2.Coords, EltTy.bits .bf16 = 32 ∨ (Rect.block (s := S2x2048x4096) S1x512x4096.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S4096x4096.size a
  hwx3_0 : ∀ i : grid3.Coords, EltTy.bits .bf16 = 32 ∨ (Rect.block (s := S4096x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S4096x4096.size a
  hwx3_2 : ∀ i : grid3.Coords, EltTy.bits .bf16 = 32 ∨ (Rect.block (s := S4096x4096) S2048x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .bf16 = 32 ∨ (Rect.block (s := S4096x4096) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .bf16 = 32 ∨ (Rect.block (s := S4096x4096) S1024x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .f32 = 32 ∨ (Rect.block (s := S4096x4096) S1024x1024.size (cc4_transform_3 i) (hinb4_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S256x512_S256x4096_S512x4096_0_0_1_1_n_n : DotDims S256x512 S256x4096 S512x4096 where
  lhsContracting := [0]
  rhsContracting := [0]
  lhsNonContracting := [1]
  rhsNonContracting := [1]
  lhsBatch := []
  rhsBatch := []
  wf := dot_S256x512_S256x4096_S512x4096_0_0_1_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v5) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v7) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v10) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S1024x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x2048 : Shape := ⟨2, ![2, 2048]⟩
abbrev S2x2048x1 : Shape := ⟨3, ![2, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S2x2048x4096, .f32⟩
  | .hbm, ⟨7, _⟩ => ⟨S2x2048x4096, .f32⟩
  | .hbm, ⟨8, _⟩ => ⟨S2x2048x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S_, .f32⟩
  | .hbm, ⟨13, _⟩ => ⟨S2x4096, .f32⟩
  | .hbm, ⟨14, _⟩ => ⟨S2x4096, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S2x4096x4096, .f32⟩
  | .hbm, ⟨23, _⟩ => ⟨S2x4096x4096, .f32⟩
  | .hbm, ⟨24, _⟩ => ⟨S2x2048x4096, .f32⟩
  | .hbm, ⟨25, _⟩ => ⟨S_, .f32⟩
  | .hbm, ⟨26, _⟩ => ⟨S2x2048, .f32⟩
  | .hbm, ⟨27, _⟩ => ⟨S_, .f32⟩
  | .hbm, ⟨28, _⟩ => ⟨S2x2048, .f32⟩
  | .hbm, ⟨29, _⟩ => ⟨S2x2048, .f32⟩
  | .hbm, ⟨30, _⟩ => ⟨S2x2048x1, .f32⟩
  | .hbm, ⟨31, _⟩ => ⟨S2x2048x4096, .f32⟩
  | .hbm, ⟨32, _⟩ => ⟨S2x2048x4096, .f32⟩
  | .hbm, ⟨33, _⟩ => ⟨S2x2048x4096, .f32⟩
  | .hbm, ⟨34, _⟩ => ⟨S_, .f32⟩
  | .hbm, ⟨35, _⟩ => ⟨S2x2048, .f32⟩
  | .hbm, ⟨36, _⟩ => ⟨S2x2048x1, .f32⟩
  | .hbm, ⟨37, _⟩ => ⟨S2x2048x4096, .f32⟩
  | .hbm, ⟨38, _⟩ => ⟨S2x2048x4096, .f32⟩
  | .hbm, ⟨39, _⟩ => ⟨S2x2048x4096, .f32⟩
  | .hbm, ⟨40, _⟩ => ⟨S2x2048x4096, .f32⟩
  | .hbm, ⟨41, _⟩ => ⟨S2x2048x4096, .f32⟩
  | .hbm, ⟨42, _⟩ => ⟨S_, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S2x2048x4096, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | .hbm, ⟨50, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  reducesTo_S2x2048x4096_S2x2048_d2 : S2x2048x4096.ReducesTo [2] S2x2048
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  dot_S2x2048x4096_S4096x4096_S2x2048x4096_2_1_01_0_n_n_wf : DotDims.WF S2x2048x4096 S4096x4096 S2x2048x4096 [2] [1] [0, 1] [0] [] []
  dot_S2x2048x4096_S2x2048x4096_S2x4096x4096_1_1_2_2_0_0_wf : DotDims.WF S2x2048x4096 S2x2048x4096 S2x4096x4096 [1] [1] [2] [2] [0] [0]
  dot_S2x2048x4096_S2x4096x4096_S2x2048x4096_2_1_1_2_0_0_wf : DotDims.WF S2x2048x4096 S2x4096x4096 S2x2048x4096 [2] [1] [1] [2] [0] [0]

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf
def dot_S2x2048x4096_S2x2048x4096_S2x4096x4096_1_1_2_2_0_0 : DotDims S2x2048x4096 S2x2048x4096 S2x4096x4096 where
  lhsContracting := [1]
  rhsContracting := [1]
  lhsNonContracting := [2]
  rhsNonContracting := [2]
  lhsBatch := [0]
  rhsBatch := [0]
  wf := dot_S2x2048x4096_S2x2048x4096_S2x4096x4096_1_1_2_2_0_0_wf
def dot_S2x2048x4096_S2x4096x4096_S2x2048x4096_2_1_1_2_0_0 : DotDims S2x2048x4096 S2x4096x4096 S2x2048x4096 where
  lhsContracting := [2]
  rhsContracting := [1]
  lhsNonContracting := [1]
  rhsNonContracting := [2]
  lhsBatch := [0]
  rhsBatch := [0]
  wf := dot_S2x2048x4096_S2x4096x4096_S2x2048x4096_2_1_1_2_0_0_wf

class Facts : Prop extends Facts₀ where

variable [Facts]
-- ==== Proof.BR0Base.lean ====
/-
  The first kernel (the three projections of the input rows by W1, W2, W3): three [1024,512] accumulators kept in scratch buffers over the four steps of the contraction axis. This module fixes the vocabulary of its grid: the block of each operand at a grid point, the two branch
  conditions ("first step of the contraction", "last step") in closed form over the 128 points, where the output blocks
  are left untouched, and the scratch buffers split out of the buffers no operand stages.
-/
import proofs.«133833_j3100966388061_2_alg».proof.Proof.Gen.Kernel.Launch
import proofs.«133833_j3100966388061_2_alg».proof.Proof.Gen.Kernel.Skeleton
import proofs.«133833_j3100966388061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input operand 1's staging buffer holds the point's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input operand 2's staging buffer holds the point's block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input operand 3's staging buffer holds the point's block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- "This is the first step of the contraction axis": the accumulators are zeroed here. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the contraction axis": the output blocks are written here. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into output block 4, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Away from the last step nothing is stored into output block 5, and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
/-- Away from the last step nothing is stored into output block 6, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
/-- Accumulator 0, a whole buffer of the kernel's own. -/
abbrev scM0_0 : Memref sig .tc .vmem S1024x512 .f32 := Memref.whole cc0_scratch0
/-- Accumulator 1, a whole buffer of the kernel's own. -/
abbrev scM0_1 : Memref sig .tc .vmem S1024x512 .f32 := Memref.whole cc0_scratch1
/-- Accumulator 2, a whole buffer of the kernel's own. -/
abbrev scM0_2 : Memref sig .tc .vmem S1024x512 .f32 := Memref.whole cc0_scratch2

/-- What rides beside the accumulators through the kernel: every other buffer that no operand of this kernel stages. -/
abbrev Rest0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The invariant the launch hands the kernel, with the accumulators named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ Rest0 c) ∗ (∃ r, prngReg c r)) := by
  unfold Pipeline.ΦA; rw [scopedRest0_split]; simp only [scM0_0, scM0_1, scM0_2, owns_whole]; try rfl

end Cert.Kernel.Hand

end
-- ==== Proof.BR0RunA.lean ====
/-
  The first kernel (the three projections of the input rows by W1, W2, W3): its body at a first step of the contraction axis: the accumulators, whatever they held, are set to zero and the step's products are added; the output blocks are handed back untouched.
-/
import proofs.«133833_j3100966388061_2_alg».proof.Proof.BR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_A (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) :
    Σ' (LS0 : List (View.Piece (Elt F) S1024x512 .f32)), Σ' (LS1 : List (View.Piece (Elt F) S1024x512 .f32)), { LS2 : List (View.Piece (Elt F) S1024x512 .f32) //
      ∀ (xi4 : Vec F S1024x512 .f32) (xi5 : Vec F S1024x512 .f32) (xi6 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.BR0RunB.lean ====
/-
  The first kernel (the three projections of the input rows by W1, W2, W3): its body at a middle step of the contraction axis: the step's products are added to what the accumulators held; the output blocks are handed back untouched.
-/
import proofs.«133833_j3100966388061_2_alg».proof.Proof.BR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_B (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) :
    Σ' (LS0 : List (View.Piece (Elt F) S1024x512 .f32)), Σ' (LS1 : List (View.Piece (Elt F) S1024x512 .f32)), { LS2 : List (View.Piece (Elt F) S1024x512 .f32) //
      ∀ (xi4 : Vec F S1024x512 .f32) (xi5 : Vec F S1024x512 .f32) (xi6 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.BR0RunC.lean ====
/-
  The first kernel (the three projections of the input rows by W1, W2, W3): its body at a last step of the contraction axis: the step's products are added to what the accumulators held, and the result is stored into the output blocks.
-/
import proofs.«133833_j3100966388061_2_alg».proof.Proof.BR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_C (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) :
    Σ' (L4 : List (View.Piece (Elt F) S1024x512 .f32)), Σ' (L5 : List (View.Piece (Elt F) S1024x512 .f32)), Σ' (L6 : List (View.Piece (Elt F) S1024x512 .bf16)), Σ' (LS0 : List (View.Piece (Elt F) S1024x512 .f32)), Σ' (LS1 : List (View.Piece (Elt F) S1024x512 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.BR0Frame.lean ====
/-
  The first kernel (the three projections of the input rows by W1, W2, W3) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.BR0RunA
import proofs.«133833_j3100966388061_2_alg».proof.Proof.BR0RunB
import proofs.«133833_j3100966388061_2_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover0_A_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).1 S1024x512.size (by sl_kernel_rfl) y

def sout0_A_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).1

theorem scover0_A_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).2.1 S1024x512.size (by sl_kernel_rfl) y

def sout0_A_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).2.1

theorem scover0_A_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).2.2.1 S1024x512.size (by sl_kernel_rfl) y

def sout0_A_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).2.2.1

theorem scover0_B_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).1 S1024x512.size (by sl_kernel_rfl) y

def sout0_B_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).1

theorem scover0_B_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1 S1024x512.size (by sl_kernel_rfl) y

def sout0_B_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1

theorem scover0_B_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1 S1024x512.size (by sl_kernel_rfl) y

def sout0_B_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1

theorem cover0_C_4 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).1 S1024x512.size (by sl_kernel_rfl) y

def out0_C_4 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).1

theorem cover0_C_5 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1 S1024x512.size (by sl_kernel_rfl) y

def out0_C_5 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1

theorem cover0_C_6 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1 S1024x512.size (by sl_kernel_rfl) y

def out0_C_6 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .bf16 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1

theorem scover0_C_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1 S1024x512.size (by sl_kernel_rfl) y

def sout0_C_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1

theorem scover0_C_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1 S1024x512.size (by sl_kernel_rfl) y

def sout0_C_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1

theorem scover0_C_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1 S1024x512.size (by sl_kernel_rfl) y

def sout0_C_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1

/-- Output block 4 where nothing is stored into it: contents nothing reads. -/
def idle0_4 : Vec F S1024x512 .f32 := View.canon ([] : List (View.Piece (Elt F) S1024x512 .f32))
/-- Output block 5 where nothing is stored into it: contents nothing reads. -/
def idle0_5 : Vec F S1024x512 .f32 := View.canon ([] : List (View.Piece (Elt F) S1024x512 .f32))
/-- Output block 6 where nothing is stored into it: contents nothing reads. -/
def idle0_6 : Vec F S1024x512 .bf16 := View.canon ([] : List (View.Piece (Elt F) S1024x512 .bf16))

/-! ## The accumulation over the grid -/

theorem not_last_of_first0 {n : ℕ} (h : n % 4 = 0) : ¬ n % 4 = 3 := by omega

/-- After the body at position `n`: the output blocks, then the accumulators. -/
def outsAt0 (c : Dev nD) : (n : ℕ) → n < cfg0.N → Vec F S1024x512 .f32 × Vec F S1024x512 .f32 × Vec F S1024x512 .bf16 × Vec F S1024x512 .f32 × Vec F S1024x512 .f32 × Vec F S1024x512 .f32
  | 0, hn => (idle0_4,
       idle0_5,
       idle0_6,
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩),
       sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (idle0_4,
       idle0_5,
       idle0_6,
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else if h1 : (n + 1) % 4 = 3 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
    else
      (idle0_4,
       idle0_5,
       idle0_6,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 4 = 0) :
    outsAt0 V c t.val t.isLt = (idle0_4,
       idle0_5,
       idle0_6,
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t),
       sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0)

theorem outsAt0_B (c : Dev nD) (t : Fin cfg0.N) (h0 : ¬t.val % 4 = 0) (h1 : ¬t.val % 4 = 3) :
    outsAt0 V c t.val t.isLt = (idle0_4,
       idle0_5,
       idle0_6,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2)) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2)) ∗ Rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2.1) ∗ owns (c : Thread nD τ) scM0_2 fullShare ((outsAt0 V c (n - 1) (by omega)).2.2.2.2.2)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the operands' staging buffers hold their blocks; the point's position along the contraction
    axis says which of the three runs applies; the invariant hands over the accumulators (at anything at a first step)
    and takes them back at what the run left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · have hl : ¬cond0_1 (grid0.coords t) := fun h => not_last_of_first0 h0 ((hcond0_1 t).mp h)
    rw [Dat.leavesExact_idle (dat0 V c) 4 t (idleAt0_4 t hl) (noFlush0_4 t hl)]
    rw [Dat.leavesExact_idle (dat0 V c) 5 t (idleAt0_5 t hl) (noFlush0_5 t hl)]
    rw [Dat.leavesExact_idle (dat0 V c) 6 t (idleAt0_6 t hl) (noFlush0_6 t hl)]
    rw [outsAt0_A V c t h0]
    unfold sout0_A_0 sout0_A_1 sout0_A_2; (try dsimp only)
    by_cases hz : t.val = 0
    · rw [PhiS0_castSucc V c t, PhiS0_zero V c _ _ hz, PhiA0_eq]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) hl (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_A_0 _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_A_1 _ _ _ _ _ _ _ _ _ _ _ _ _ _ _ _ _ _ _ _ _ _ _ _ _ _ _ _)
            unfold owns; iexists _; isplitr
            swap; · iexact HS2
            ipureintro; exact View.read_writes_eq_canon _ _ _ (scover0_A_2 _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) hl (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_A_0 _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_A_1 _ _ _ _ _ _ _ _ _ _ _ _ _ _ _ _ _ _ _ _ _ _ _ _ _ _ _ _)
            unfold owns; iexists _; isplitr
            swap; · iexact HS2
            ipureintro; exact View.read_writes_eq_canon _ _ _ (scover0_A_2 _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h1 : t.val % 4 = 3
    ·
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_4 out0_C_5 out0_C_6 sout0_C_0 sout0_C_1 sout0_C_2; (try dsimp only)
      rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_C_0 _ _ _ _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_C_1 _ _ _ _ _ _ _ _ _ _ _ _ _ _ _ _ _ _ _ _ _ _ _ _ _ _ _ _ _ _ _)
            unfold owns; iexists _; isplitr
            swap; · iexact HS2
            ipureintro; exact View.read_writes_eq_canon _ _ _ (scover0_C_2 _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (cover0_C_4 _ _ _ _ _ _ _ _ _ _ _ _ _ _ _ _ _ _ _ _ _ _ _ _ _ _ _ _ _ _ _)
      isplitl [H5]
      · unfold owns; iexists _; isplitr
        swap; · iexact H5
        ipureintro; exact View.read_writes_eq_canon _ _ _ (cover0_C_5 _ _ _ _ _ _ _ _ _ _ _ _ _ _ _ _ _ _ _ _ _ _ _ _ _ _ _ _ _ _ _)
      unfold owns; iexists _; isplitr
      swap; · iexact H6
      ipureintro; exact View.read_writes_eq_canon _ _ _ (cover0_C_6 _ _ _ _ _ _ _ _ _ _ _ _ _ _ _ _ _ _ _ _ _ _ _ _ _ _ _ _ _ _ _)
    · have hl : ¬cond0_1 (grid0.coords t) := fun h => h1 ((hcond0_1 t).mp h)
      rw [Dat.leavesExact_idle (dat0 V c) 4 t (idleAt0_4 t hl) (noFlush0_4 t hl)]
      rw [Dat.leavesExact_idle (dat0 V c) 5 t (idleAt0_5 t hl) (noFlush0_5 t hl)]
      rw [Dat.leavesExact_idle (dat0 V c) 6 t (idleAt0_6 t hl) (noFlush0_6 t hl)]
      rw [outsAt0_B V c t h0 h1]
      unfold sout0_B_0 sout0_B_1 sout0_B_2; (try dsimp only)
      rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) hl (iblk0 V c 0 t) (iblk0 V c 1 t) (iblk0 V c 2 t) (iblk0 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_B_0 _ _ _ _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_B_1 _ _ _ _ _ _ _ _ _ _ _ _ _ _ _ _ _ _ _ _ _ _ _ _ _ _ _ _ _ _ _)
            unfold owns; iexists _; isplitr
            swap; · iexact HS2
            ipureintro; exact View.read_writes_eq_canon _ _ _ (scover0_B_2 _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.BR1Base.lean ====
/-
  The second kernel (the Gram matrix of the two projections over the sequence axis, then a softmax along each row): a [512,4096] accumulator kept in a scratch buffer over the eight steps of the contraction axis. This module fixes the vocabulary of its grid: the block of each operand at a grid point, the two branch
  conditions ("first step of the contraction", "last step") in closed form over the 128 points, where the output blocks
  are left untouched, and the scratch buffers split out of the buffers no operand stages.
-/
import proofs.«133833_j3100966388061_2_alg».proof.Proof.Gen.Kernel.Launch
import proofs.«133833_j3100966388061_2_alg».proof.Proof.Gen.Kernel.Skeleton
import proofs.«133833_j3100966388061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input operand 1's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "This is the first step of the contraction axis": the accumulators are zeroed here. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last step of the contraction axis": the output blocks are written here. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step nothing is stored into output block 2, and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x4096 .bf16 := win1_2.stage (cfg1.slots t 2)
abbrev hs1_2 (t : Fin cfg1.N) : (ms1_2 t).IsWhole := hstage1_2 ((cfg1.slots t 2).cast nbuf1_2)
/-- Accumulator 0, a whole buffer of the kernel's own. -/
abbrev scM1_0 : Memref sig .tc .vmem S512x4096 .f32 := Memref.whole cc1_scratch0

/-- What rides beside the accumulators through the kernel: every other buffer that no operand of this kernel stages. -/
abbrev Rest1 (c : Dev nD) : sProp 𝕄 :=
  Pipeline.scopedRestBut (Ix := Unit) (Name := ℕ) (U := UR sig nD τ) (Lvl := ℕ) (Val := Elt F) spec1 c [cc1_scratch0]

/-- The invariant the launch hands the kernel, with the accumulators named. -/
theorem PhiA1_eq (c : Dev nD) :
    (Pipeline.ΦA spec1 c : sProp 𝕄)
      = iprop(iprop(iprop((∃ d, owns (c : Thread nD τ) scM1_0 fullShare d)) ∗ Rest1 c) ∗ (∃ r, prngReg c r)) := by
  unfold Pipeline.ΦA; rw [scopedRest1_split]; simp only [scM1_0, owns_whole]; try rfl

end Cert.Kernel.Hand

end
-- ==== Proof.BR1RunA.lean ====
/-
  The second kernel (the Gram matrix of the two projections over the sequence axis, then a softmax along each row): its body at a first step of the contraction axis: the accumulators, whatever they held, are set to zero and the step's products are added; the output blocks are handed back untouched.
-/
import proofs.«133833_j3100966388061_2_alg».proof.Proof.BR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_A (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, fun xi2 E K => ?run⟩
  case run =>
    simp only [cc1__gram_softmax_kernel_eq_skeleton]; unfold cc1__gram_softmax_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR1RunB.lean ====
/-
  The second kernel (the Gram matrix of the two projections over the sequence axis, then a softmax along each row): its body at a middle step of the contraction axis: the step's products are added to what the accumulators held; the output blocks are handed back untouched.
-/
import proofs.«133833_j3100966388061_2_alg».proof.Proof.BR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_B (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, fun xi2 E K => ?run⟩
  case run =>
    simp only [cc1__gram_softmax_kernel_eq_skeleton]; unfold cc1__gram_softmax_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR1RunC.lean ====
/-
  The second kernel (the Gram matrix of the two projections over the sequence axis, then a softmax along each row): its body at a last step of the contraction axis: the step's products are added to what the accumulators held, and the result is stored into the output blocks.
-/
import proofs.«133833_j3100966388061_2_alg».proof.Proof.BR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_C (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) :
    Σ' (L2 : List (View.Piece (Elt F) S1x512x4096 .bf16)), { LS0 : List (View.Piece (Elt F) S512x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, ?_, fun E K => ?run⟩
  case run =>
    simp only [cc1__gram_softmax_kernel_eq_skeleton]; unfold cc1__gram_softmax_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BR1Frame.lean ====
/-
  The second kernel (the Gram matrix of the two projections over the sequence axis, then a softmax along each row) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.BR1RunA
import proofs.«133833_j3100966388061_2_alg».proof.Proof.BR1RunB
import proofs.«133833_j3100966388061_2_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover1_A_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) (y : S512x4096.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S512x4096.size (by sl_kernel_rfl) y

def sout1_A_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) : Vec F S512x4096 .f32 :=
  View.canon (kernelRun1_A c i arg3 harg3 arg4 harg4 arg5 harg5 arg6 harg6 hc0 hc1 x0 x1).1

theorem scover1_B_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) (y : S512x4096.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S512x4096.size (by sl_kernel_rfl) y

def sout1_B_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) : Vec F S512x4096 .f32 :=
  View.canon (kernelRun1_B c i arg3 harg3 arg4 harg4 arg5 harg5 arg6 harg6 hc0 hc1 x0 x1 xs0).1

theorem cover1_C_2 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) (y : S1x512x4096.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x512x4096.size (by sl_kernel_rfl) y

def out1_C_2 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) : Vec F S1x512x4096 .bf16 :=
  View.canon (kernelRun1_C c i arg3 harg3 arg4 harg4 arg5 harg5 arg6 harg6 hc0 hc1 x0 x1 xs0).1

theorem scover1_C_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) (y : S512x4096.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x4096.size (by sl_kernel_rfl) y

def sout1_C_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) : Vec F S512x4096 .f32 :=
  View.canon (kernelRun1_C c i arg3 harg3 arg4 harg4 arg5 harg5 arg6 harg6 hc0 hc1 x0 x1 xs0).2.1

/-- Output block 2 where nothing is stored into it: contents nothing reads. -/
def idle1_2 : Vec F S1x512x4096 .bf16 := View.canon ([] : List (View.Piece (Elt F) S1x512x4096 .bf16))

/-! ## The accumulation over the grid -/

theorem not_last_of_first1 {n : ℕ} (h : n % 8 = 0) : ¬ n % 8 = 7 := by omega

/-- After the body at position `n`: the output blocks, then the accumulators. -/
def outsAt1 (c : Dev nD) : (n : ℕ) → n < cfg1.N → Vec F S1x512x4096 .bf16 × Vec F S512x4096 .f32
  | 0, hn => (idle1_2,
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod 8)) (fun h => not_last_of_first1 (Nat.zero_mod 8) ((hcond1_1 ⟨0, hn⟩).mp h)) (iblk1 V c 0 ⟨0, hn⟩) (iblk1 V c 1 ⟨0, hn⟩))
  | n + 1, hn =>
    if h0 : (n + 1) % 8 = 0 then
      (idle1_2,
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_last_of_first1 h0 ((hcond1_1 ⟨n + 1, hn⟩).mp h)) (iblk1 V c 0 ⟨n + 1, hn⟩) (iblk1 V c 1 ⟨n + 1, hn⟩))
    else if h1 : (n + 1) % 8 = 7 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (idle1_2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (idle1_2,
       sout1_A_0 c (grid1.coords t) (ms1_0 t) (hs1_0 t) (ms1_1 t) (hs1_1 t) (ms1_2 t) (hs1_2 t) scM1_0 (Memref.isWhole_whole _) ((hcond1_0 t).mpr h0) (fun h => not_last_of_first1 h0 ((hcond1_1 t).mp h)) (iblk1 V c 0 t) (iblk1 V c 1 t)) := by
  obtain ⟨n, hn⟩ := t
  cases n with
  | zero => exact rfl
  | succ n => exact (dif_pos h0)

theorem outsAt1_B (c : Dev nD) (t : Fin cfg1.N) (h0 : ¬t.val % 8 = 0) (h1 : ¬t.val % 8 = 7) :
    outsAt1 V c t.val t.isLt = (idle1_2,
       sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have hl : ¬cond1_1 (grid1.coords t) := fun h => not_last_of_first1 h0 ((hcond1_1 t).mp h)
    rw [Dat.leavesExact_idle (dat1 V c) 2 t (idleAt1_2 t hl) (noFlush1_2 t hl)]
    rw [outsAt1_A V c t h0]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) hl (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A_0 _ _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) hl (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    ·
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover1_C_2 _ _ _ _ _ _ _ _ _ _ _ _ _ _ _)
    · have hl : ¬cond1_1 (grid1.coords t) := fun h => h1 ((hcond1_1 t).mp h)
      rw [Dat.leavesExact_idle (dat1 V c) 2 t (idleAt1_2 t hl) (noFlush1_2 t hl)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) hl (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_B_0 _ _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.BR2Base.lean ====
/-
  The third kernel (the third projection times the normalised Gram matrix, then a softmax along each row): a [512,4096] accumulator kept in a scratch buffer over the eight steps of the contraction axis. This module fixes the vocabulary of its grid: the block of each operand at a grid point, the two branch
  conditions ("first step of the contraction", "last step") in closed form over the 64 points, where the output blocks
  are left untouched, and the scratch buffers split out of the buffers no operand stages.
-/
import proofs.«133833_j3100966388061_2_alg».proof.Proof.Gen.Kernel.Launch
import proofs.«133833_j3100966388061_2_alg».proof.Proof.Gen.Kernel.Skeleton
import proofs.«133833_j3100966388061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input operand 1's staging buffer holds the point's block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- "This is the first step of the contraction axis": the accumulators are zeroed here. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "This is the last step of the contraction axis": the output blocks are written here. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last step nothing is stored into output block 2, and it is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev ms2_0 (t : Fin cfg2.N) : Memref sig .tc .vmem S1x512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x4096 .bf16 := win2_2.stage (cfg2.slots t 2)
abbrev hs2_2 (t : Fin cfg2.N) : (ms2_2 t).IsWhole := hstage2_2 ((cfg2.slots t 2).cast nbuf2_2)
/-- Accumulator 0, a whole buffer of the kernel's own. -/
abbrev scM2_0 : Memref sig .tc .vmem S512x4096 .f32 := Memref.whole cc2_scratch0

/-- What rides beside the accumulators through the kernel: every other buffer that no operand of this kernel stages. -/
abbrev Rest2 (c : Dev nD) : sProp 𝕄 :=
  Pipeline.scopedRestBut (Ix := Unit) (Name := ℕ) (U := UR sig nD τ) (Lvl := ℕ) (Val := Elt F) spec2 c [cc2_scratch0]

/-- The invariant the launch hands the kernel, with the accumulators named. -/
theorem PhiA2_eq (c : Dev nD) :
    (Pipeline.ΦA spec2 c : sProp 𝕄)
      = iprop(iprop(iprop((∃ d, owns (c : Thread nD τ) scM2_0 fullShare d)) ∗ Rest2 c) ∗ (∃ r, prngReg c r)) := by
  unfold Pipeline.ΦA; rw [scopedRest2_split]; simp only [scM2_0, owns_whole]; try rfl

end Cert.Kernel.Hand

end
-- ==== Proof.BR2RunA.lean ====
/-
  The third kernel (the third projection times the normalised Gram matrix, then a softmax along each row): its body at a first step of the contraction axis: the accumulators, whatever they held, are set to zero and the step's products are added; the output blocks are handed back untouched.
-/
import proofs.«133833_j3100966388061_2_alg».proof.Proof.BR2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_A (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, fun xi2 E K => ?run⟩
  case run =>
    simp only [cc2__attn_softmax_kernel_eq_skeleton]; unfold cc2__attn_softmax_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR2RunB.lean ====
/-
  The third kernel (the third projection times the normalised Gram matrix, then a softmax along each row): its body at a middle step of the contraction axis: the step's products are added to what the accumulators held; the output blocks are handed back untouched.
-/
import proofs.«133833_j3100966388061_2_alg».proof.Proof.BR2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_B (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, fun xi2 E K => ?run⟩
  case run =>
    simp only [cc2__attn_softmax_kernel_eq_skeleton]; unfold cc2__attn_softmax_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR2RunC.lean ====
/-
  The third kernel (the third projection times the normalised Gram matrix, then a softmax along each row): its body at a last step of the contraction axis: the step's products are added to what the accumulators held, and the result is stored into the output blocks.
-/
import proofs.«133833_j3100966388061_2_alg».proof.Proof.BR2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_C (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) :
    Σ' (L2 : List (View.Piece (Elt F) S1x512x4096 .bf16)), { LS0 : List (View.Piece (Elt F) S512x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, ?_, fun E K => ?run⟩
  case run =>
    simp only [cc2__attn_softmax_kernel_eq_skeleton]; unfold cc2__attn_softmax_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BR2Frame.lean ====
/-
  The third kernel (the third projection times the normalised Gram matrix, then a softmax along each row) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.BR2RunA
import proofs.«133833_j3100966388061_2_alg».proof.Proof.BR2RunB
import proofs.«133833_j3100966388061_2_alg».proof.Proof.BR2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover2_A_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) (y : S512x4096.Idx) :
    ∃ pc ∈ (kernelRun2_A c i arg3 harg3 arg4 harg4 arg5 harg5 arg6 harg6 hc0 hc1 x0 x1).1, y ∈ pc.1.set :=
  View.cover_of_tiledL (kernelRun2_A c i arg3 harg3 arg4 harg4 arg5 harg5 arg6 harg6 hc0 hc1 x0 x1).1 S512x4096.size (by sl_kernel_rfl) y

def sout2_A_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) : Vec F S512x4096 .f32 :=
  View.canon (kernelRun2_A c i arg3 harg3 arg4 harg4 arg5 harg5 arg6 harg6 hc0 hc1 x0 x1).1

theorem scover2_B_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) (y : S512x4096.Idx) :
    ∃ pc ∈ (kernelRun2_B c i arg3 harg3 arg4 harg4 arg5 harg5 arg6 harg6 hc0 hc1 x0 x1 xs0).1, y ∈ pc.1.set :=
  View.cover_of_tiledL (kernelRun2_B c i arg3 harg3 arg4 harg4 arg5 harg5 arg6 harg6 hc0 hc1 x0 x1 xs0).1 S512x4096.size (by sl_kernel_rfl) y

def sout2_B_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) : Vec F S512x4096 .f32 :=
  View.canon (kernelRun2_B c i arg3 harg3 arg4 harg4 arg5 harg5 arg6 harg6 hc0 hc1 x0 x1 xs0).1

theorem cover2_C_2 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) (y : S1x512x4096.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1x512x4096.size (by sl_kernel_rfl) y

def out2_C_2 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) : Vec F S1x512x4096 .bf16 :=
  View.canon (kernelRun2_C c i arg3 harg3 arg4 harg4 arg5 harg5 arg6 harg6 hc0 hc1 x0 x1 xs0).1

theorem scover2_C_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) (y : S512x4096.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x4096.size (by sl_kernel_rfl) y

def sout2_C_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) : Vec F S512x4096 .f32 :=
  View.canon (kernelRun2_C c i arg3 harg3 arg4 harg4 arg5 harg5 arg6 harg6 hc0 hc1 x0 x1 xs0).2.1

/-- Output block 2 where nothing is stored into it: contents nothing reads. -/
def idle2_2 : Vec F S1x512x4096 .bf16 := View.canon ([] : List (View.Piece (Elt F) S1x512x4096 .bf16))

/-! ## The accumulation over the grid -/

theorem not_last_of_first2 {n : ℕ} (h : n % 8 = 0) : ¬ n % 8 = 7 := by omega

/-- After the body at position `n`: the output blocks, then the accumulators. -/
def outsAt2 (c : Dev nD) : (n : ℕ) → n < cfg2.N → Vec F S1x512x4096 .bf16 × Vec F S512x4096 .f32
  | 0, hn => (idle2_2,
       sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod 8)) (fun h => not_last_of_first2 (Nat.zero_mod 8) ((hcond2_1 ⟨0, hn⟩).mp h)) (iblk2 V c 0 ⟨0, hn⟩) (iblk2 V c 1 ⟨0, hn⟩))
  | n + 1, hn =>
    if h0 : (n + 1) % 8 = 0 then
      (idle2_2,
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => not_last_of_first2 h0 ((hcond2_1 ⟨n + 1, hn⟩).mp h)) (iblk2 V c 0 ⟨n + 1, hn⟩) (iblk2 V c 1 ⟨n + 1, hn⟩))
    else if h1 : (n + 1) % 8 = 7 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (idle2_2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) :
    outsAt2 V c t.val t.isLt = (idle2_2,
       sout2_A_0 c (grid2.coords t) (ms2_0 t) (hs2_0 t) (ms2_1 t) (hs2_1 t) (ms2_2 t) (hs2_2 t) scM2_0 (Memref.isWhole_whole _) ((hcond2_0 t).mpr h0) (fun h => not_last_of_first2 h0 ((hcond2_1 t).mp h)) (iblk2 V c 0 t) (iblk2 V c 1 t)) := by
  obtain ⟨n, hn⟩ := t
  cases n with
  | zero => exact rfl
  | succ n => exact (dif_pos h0)

theorem outsAt2_B (c : Dev nD) (t : Fin cfg2.N) (h0 : ¬t.val % 8 = 0) (h1 : ¬t.val % 8 = 7) :
    outsAt2 V c t.val t.isLt = (idle2_2,
       sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have hl : ¬cond2_1 (grid2.coords t) := fun h => not_last_of_first2 h0 ((hcond2_1 t).mp h)
    rw [Dat.leavesExact_idle (dat2 V c) 2 t (idleAt2_2 t hl) (noFlush2_2 t hl)]
    rw [outsAt2_A V c t h0]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hl (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_A_0 _ _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hl (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    ·
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover2_C_2 _ _ _ _ _ _ _ _ _ _ _ _ _ _ _)
    · have hl : ¬cond2_1 (grid2.coords t) := fun h => h1 ((hcond2_1 t).mp h)
      rw [Dat.leavesExact_idle (dat2 V c) 2 t (idleAt2_2 t hl) (noFlush2_2 t hl)]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) hl (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_B_0 _ _ _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.BR3Base.lean ====
/-
  The fourth kernel (the W4 projection followed by x·σ(x)): a [2048,1024] accumulator kept in a scratch buffer over the four steps of the contraction axis. This module fixes the vocabulary of its grid: the block of each operand at a grid point, the two branch
  conditions ("first step of the contraction", "last step") in closed form over the 32 points, where the output blocks
  are left untouched, and the scratch buffers split out of the buffers no operand stages.
-/
import proofs.«133833_j3100966388061_2_alg».proof.Proof.Gen.Kernel.Launch
import proofs.«133833_j3100966388061_2_alg».proof.Proof.Gen.Kernel.Skeleton
import proofs.«133833_j3100966388061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input operand 0's staging buffer holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input operand 1's staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- "This is the first step of the contraction axis": the accumulators are zeroed here. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "This is the last step of the contraction axis": the output blocks are written here. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last step nothing is stored into output block 2, and it is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1024 .bf16 := win3_2.stage (cfg3.slots t 2)
abbrev hs3_2 (t : Fin cfg3.N) : (ms3_2 t).IsWhole := hstage3_2 ((cfg3.slots t 2).cast nbuf3_2)
/-- Accumulator 0, a whole buffer of the kernel's own. -/
abbrev scM3_0 : Memref sig .tc .vmem S2048x1024 .f32 := Memref.whole cc3_scratch0

/-- What rides beside the accumulators through the kernel: every other buffer that no operand of this kernel stages. -/
abbrev Rest3 (c : Dev nD) : sProp 𝕄 :=
  Pipeline.scopedRestBut (Ix := Unit) (Name := ℕ) (U := UR sig nD τ) (Lvl := ℕ) (Val := Elt F) spec3 c [cc3_scratch0]

/-- The invariant the launch hands the kernel, with the accumulators named. -/
theorem PhiA3_eq (c : Dev nD) :
    (Pipeline.ΦA spec3 c : sProp 𝕄)
      = iprop(iprop(iprop((∃ d, owns (c : Thread nD τ) scM3_0 fullShare d)) ∗ Rest3 c) ∗ (∃ r, prngReg c r)) := by
  unfold Pipeline.ΦA; rw [scopedRest3_split]; simp only [scM3_0, owns_whole]; try rfl

end Cert.Kernel.Hand

end
-- ==== Proof.BR3RunA.lean ====
/-
  The fourth kernel (the W4 projection followed by x·σ(x)): its body at a first step of the contraction axis: the accumulators, whatever they held, are set to zero and the step's products are added; the output blocks are handed back untouched.
-/
import proofs.«133833_j3100966388061_2_alg».proof.Proof.BR3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) :
    { LS0 : List (View.Piece (Elt F) S2048x1024 .f32) //
      ∀ (xi2 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, fun xi2 E K => ?run⟩
  case run =>
    simp only [cc3__w4_silu_kernel_eq_skeleton]; unfold cc3__w4_silu_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR3RunB.lean ====
/-
  The fourth kernel (the W4 projection followed by x·σ(x)): its body at a middle step of the contraction axis: the step's products are added to what the accumulators held; the output blocks are handed back untouched.
-/
import proofs.«133833_j3100966388061_2_alg».proof.Proof.BR3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, fun xi2 E K => ?run⟩
  case run =>
    simp only [cc3__w4_silu_kernel_eq_skeleton]; unfold cc3__w4_silu_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BR3RunC.lean ====
/-
  The fourth kernel (the W4 projection followed by x·σ(x)): its body at a last step of the contraction axis: the step's products are added to what the accumulators held, and the result is stored into the output blocks.
-/
import proofs.«133833_j3100966388061_2_alg».proof.Proof.BR3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) :
    Σ' (L2 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, ?_, fun E K => ?run⟩
  case run =>
    simp only [cc3__w4_silu_kernel_eq_skeleton]; unfold cc3__w4_silu_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BR3Frame.lean ====
/-
  The fourth kernel (the W4 projection followed by x·σ(x)) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.BR3RunA
import proofs.«133833_j3100966388061_2_alg».proof.Proof.BR3RunB
import proofs.«133833_j3100966388061_2_alg».proof.Proof.BR3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) (y : S2048x1024.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S2048x1024.size (by sl_kernel_rfl) y

def sout3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) : Vec F S2048x1024 .f32 :=
  View.canon (kernelRun3_A c i arg3 harg3 arg4 harg4 arg5 harg5 arg6 harg6 hc0 hc1 x0 x1).1

theorem scover3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) (y : S2048x1024.Idx) :
    ∃ pc ∈ (kernelRun3_B c i arg3 harg3 arg4 harg4 arg5 harg5 arg6 harg6 hc0 hc1 x0 x1 xs0).1, y ∈ pc.1.set :=
  View.cover_of_tiledL (kernelRun3_B c i arg3 harg3 arg4 harg4 arg5 harg5 arg6 harg6 hc0 hc1 x0 x1 xs0).1 S2048x1024.size (by sl_kernel_rfl) y

def sout3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) : Vec F S2048x1024 .f32 :=
  View.canon (kernelRun3_B c i arg3 harg3 arg4 harg4 arg5 harg5 arg6 harg6 hc0 hc1 x0 x1 xs0).1

theorem cover3_C_2 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) (y : S2048x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S2048x1024.size (by sl_kernel_rfl) y

def out3_C_2 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) : Vec F S2048x1024 .bf16 :=
  View.canon (kernelRun3_C c i arg3 harg3 arg4 harg4 arg5 harg5 arg6 harg6 hc0 hc1 x0 x1 xs0).1

theorem scover3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) (y : S2048x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S2048x1024.size (by sl_kernel_rfl) y

def sout3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) : Vec F S2048x1024 .f32 :=
  View.canon (kernelRun3_C c i arg3 harg3 arg4 harg4 arg5 harg5 arg6 harg6 hc0 hc1 x0 x1 xs0).2.1

/-- Output block 2 where nothing is stored into it: contents nothing reads. -/
def idle3_2 : Vec F S2048x1024 .bf16 := View.canon ([] : List (View.Piece (Elt F) S2048x1024 .bf16))

/-! ## The accumulation over the grid -/

theorem not_last_of_first3 {n : ℕ} (h : n % 4 = 0) : ¬ n % 4 = 3 := by omega

/-- After the body at position `n`: the output blocks, then the accumulators. -/
def outsAt3 (c : Dev nD) : (n : ℕ) → n < cfg3.N → Vec F S2048x1024 .bf16 × Vec F S2048x1024 .f32
  | 0, hn => (idle3_2,
       sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod 4)) (fun h => not_last_of_first3 (Nat.zero_mod 4) ((hcond3_1 ⟨0, hn⟩).mp h)) (iblk3 V c 0 ⟨0, hn⟩) (iblk3 V c 1 ⟨0, hn⟩))
  | n + 1, hn =>
    if h0 : (n + 1) % 4 = 0 then
      (idle3_2,
       sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => not_last_of_first3 h0 ((hcond3_1 ⟨n + 1, hn⟩).mp h)) (iblk3 V c 0 ⟨n + 1, hn⟩) (iblk3 V c 1 ⟨n + 1, hn⟩))
    else if h1 : (n + 1) % 4 = 3 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (idle3_2,
       sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) :
    outsAt3 V c t.val t.isLt = (idle3_2,
       sout3_A_0 c (grid3.coords t) (ms3_0 t) (hs3_0 t) (ms3_1 t) (hs3_1 t) (ms3_2 t) (hs3_2 t) scM3_0 (Memref.isWhole_whole _) ((hcond3_0 t).mpr h0) (fun h => not_last_of_first3 h0 ((hcond3_1 t).mp h)) (iblk3 V c 0 t) (iblk3 V c 1 t)) := by
  obtain ⟨n, hn⟩ := t
  cases n with
  | zero => exact rfl
  | succ n => exact (dif_pos h0)

theorem outsAt3_B (c : Dev nD) (t : Fin cfg3.N) (h0 : ¬t.val % 4 = 0) (h1 : ¬t.val % 4 = 3) :
    outsAt3 V c t.val t.isLt = (idle3_2,
       sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
       sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2)) ∗ Rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Rest3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 4 = 0
  · have hl : ¬cond3_1 (grid3.coords t) := fun h => not_last_of_first3 h0 ((hcond3_1 t).mp h)
    rw [Dat.leavesExact_idle (dat3 V c) 2 t (idleAt3_2 t hl) (noFlush3_2 t hl)]
    rw [outsAt3_A V c t h0]
    unfold sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hl (iblk3 V c 0 t) (iblk3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_A_0 _ _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hl (iblk3 V c 0 t) (iblk3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    ·
      rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover3_C_2 _ _ _ _ _ _ _ _ _ _ _ _ _ _ _)
    · have hl : ¬cond3_1 (grid3.coords t) := fun h => h1 ((hcond3_1 t).mp h)
      rw [Dat.leavesExact_idle (dat3 V c) 2 t (idleAt3_2 t hl) (noFlush3_2 t hl)]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) hl (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_B_0 _ _ _ _ _ _ _ _ _ _ _ _ _ _ _)
          iexact HR
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.Kernel.Hand

end
-- ==== Proof.BR4Base.lean ====
/-
  The fifth kernel (the input rows plus the fourth kernel's result, projected by W5): a [1024,1024] accumulator kept in a scratch buffer over the four steps of the contraction axis. This module fixes the vocabulary of its grid: the block of each operand at a grid point, the two branch
  conditions ("first step of the contraction", "last step") in closed form over the 64 points, where the output blocks
  are left untouched, and the scratch buffers split out of the buffers no operand stages.
-/
import proofs.«133833_j3100966388061_2_alg».proof.Proof.Gen.Kernel.Launch
import proofs.«133833_j3100966388061_2_alg».proof.Proof.Gen.Kernel.Skeleton
import proofs.«133833_j3100966388061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input operand 0's staging buffer holds the point's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input operand 1's staging buffer holds the point's block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input operand 2's staging buffer holds the point's block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- "This is the first step of the contraction axis": the accumulators are zeroed here. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "This is the last step of the contraction axis": the output blocks are written here. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last step nothing is stored into output block 3, and it is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- Accumulator 0, a whole buffer of the kernel's own. -/
abbrev scM4_0 : Memref sig .tc .vmem S1024x1024 .f32 := Memref.whole cc4_scratch0

/-- What rides beside the accumulators through the kernel: every other buffer that no operand of this kernel stages. -/
abbrev Rest4 (c : Dev nD) : sProp 𝕄 :=
  Pipeline.scopedRestBut (Ix := Unit) (Name := ℕ) (U := UR sig nD τ) (Lvl := ℕ) (Val := Elt F) spec4 c [cc4_scratch0]

/-- The invariant the launch hands the kernel, with the accumulators named. -/
theorem PhiA4_eq (c : Dev nD) :
    (Pipeline.ΦA spec4 c : sProp 𝕄)
      = iprop(iprop(iprop((∃ d, owns (c : Thread nD τ) scM4_0 fullShare d)) ∗ Rest4 c) ∗ (∃ r, prngReg c r)) := by
  unfold Pipeline.ΦA; rw [scopedRest4_split]; simp only [scM4_0, owns_whole]; try rfl

end Cert.Kernel.Hand

end
-- ==== Proof.BR4RunA.lean ====
/-
  The fifth kernel (the input rows plus the fourth kernel's result, projected by W5): its body at a first step of the contraction axis: the accumulators, whatever they held, are set to zero and the step's products are added; the output blocks are handed back untouched.
-/
import proofs.«133833_j3100966388061_2_alg».proof.Proof.BR4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_A (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, fun xi3 E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BR4RunB.lean ====
/-
  The fifth kernel (the input rows plus the fourth kernel's result, projected by W5): its body at a middle step of the contraction axis: the step's products are added to what the accumulators held; the output blocks are handed back untouched.
-/
import proofs.«133833_j3100966388061_2_alg».proof.Proof.BR4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_B (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, fun xi3 E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BR4RunC.lean ====
/-
  The fifth kernel (the input rows plus the fourth kernel's result, projected by W5): its body at a last step of the contraction axis: the step's products are added to what the accumulators held, and the result is stored into the output blocks.
-/
import proofs.«133833_j3100966388061_2_alg».proof.Proof.BR4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_C (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, ?_, fun E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR4Frame.lean ====
/-
  The fifth kernel (the input rows plus the fourth kernel's result, projected by W5) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.BR4RunA
import proofs.«133833_j3100966388061_2_alg».proof.Proof.BR4RunB
import proofs.«133833_j3100966388061_2_alg».proof.Proof.BR4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover4_A_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) (y : S1024x1024.Idx) :
    ∃ pc ∈ (kernelRun4_A c i arg3 harg3 arg4 harg4 arg5 harg5 arg6 harg6 arg7 harg7 hc0 hc1 x0 x1 x2).1, y ∈ pc.1.set :=
  View.cover_of_tiledL (kernelRun4_A c i arg3 harg3 arg4 harg4 arg5 harg5 arg6 harg6 arg7 harg7 hc0 hc1 x0 x1 x2).1 S1024x1024.size (by sl_kernel_rfl) y

def sout4_A_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) : Vec F S1024x1024 .f32 :=
  View.canon (kernelRun4_A c i arg3 harg3 arg4 harg4 arg5 harg5 arg6 harg6 arg7 harg7 hc0 hc1 x0 x1 x2).1

theorem scover4_B_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_B c i arg3 harg3 arg4 harg4 arg5 harg5 arg6 harg6 arg7 harg7 hc0 hc1 x0 x1 x2 xs0).1, y ∈ pc.1.set :=
  View.cover_of_tiledL (kernelRun4_B c i arg3 harg3 arg4 harg4 arg5 harg5 arg6 harg6 arg7 harg7 hc0 hc1 x0 x1 x2 xs0).1 S1024x1024.size (by sl_kernel_rfl) y

def sout4_B_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_B c i arg3 harg3 arg4 harg4 arg5 harg5 arg6 harg6 arg7 harg7 hc0 hc1 x0 x1 x2 xs0).1

theorem cover4_C_3 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1024x1024.size (by sl_kernel_rfl) y

def out4_C_3 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_C c i arg3 harg3 arg4 harg4 arg5 harg5 arg6 harg6 arg7 harg7 hc0 hc1 x0 x1 x2 xs0).1

theorem scover4_C_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S1024x1024.size (by sl_kernel_rfl) y

def sout4_C_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_C c i arg3 harg3 arg4 harg4 arg5 harg5 arg6 harg6 arg7 harg7 hc0 hc1 x0 x1 x2 xs0).2.1

/-- Output block 3 where nothing is stored into it: contents nothing reads. -/
def idle4_3 : Vec F S1024x1024 .f32 := View.canon ([] : List (View.Piece (Elt F) S1024x1024 .f32))

/-! ## The accumulation over the grid -/

theorem not_last_of_first4 {n : ℕ} (h : n % 4 = 0) : ¬ n % 4 = 3 := by omega

/-- After the body at position `n`: the output blocks, then the accumulators. -/
def outsAt4 (c : Dev nD) : (n : ℕ) → n < cfg4.N → Vec F S1024x1024 .f32 × Vec F S1024x1024 .f32
  | 0, hn => (idle4_3,
       sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod 4)) (fun h => not_last_of_first4 (Nat.zero_mod 4) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      (idle4_3,
       sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => not_last_of_first4 h0 ((hcond4_1 ⟨n + 1, hn⟩).mp h)) (iblk4 V c 0 ⟨n + 1, hn⟩) (iblk4 V c 1 ⟨n + 1, hn⟩) (iblk4 V c 2 ⟨n + 1, hn⟩))
    else if h1 : (n + 1) % 4 = 3 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
    else
      (idle4_3,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 4 = 0) :
    outsAt4 V c t.val t.isLt = (idle4_3,
       sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => not_last_of_first4 h0 ((hcond4_1 t).mp h)) (iblk4 V c 0 t) (iblk4 V c 1 t) (iblk4 V c 2 t)) := by
  obtain ⟨n, hn⟩ := t
  cases n with
  | zero => exact rfl
  | succ n => exact (dif_pos h0)

theorem outsAt4_B (c : Dev nD) (t : Fin cfg4.N) (h0 : ¬t.val % 4 = 0) (h1 : ¬t.val % 4 = 3) :
    outsAt4 V c t.val t.isLt = (idle4_3,
       sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
       sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Rest4 c) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the operands' staging buffers hold their blocks; the point's position along the contraction
    axis says which of the three runs applies; the invariant hands over the accumulators (at anything at a first step)
    and takes them back at what the run left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have hl : ¬cond4_1 (grid4.coords t) := fun h => not_last_of_first4 h0 ((hcond4_1 t).mp h)
    rw [Dat.leavesExact_idle (dat4 V c) 3 t (idleAt4_3 t hl) (noFlush4_3 t hl)]
    rw [outsAt4_A V c t h0]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) hl (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_A_0 _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) hl (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_A_0 _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    ·
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_C_0 _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_C_3 _ _ _ _ _ _ _ _ _ _ _ _ _ _ _ _ _ _)
    · have hl : ¬cond4_1 (grid4.coords t) := fun h => h1 ((hcond4_1 t).mp h)
      rw [Dat.leavesExact_idle (dat4 V c) 3 t (idleAt4_3 t hl) (noFlush4_3 t hl)]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) hl (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_B_0 _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 64 := N_4; omega)

end Cert.Kernel.Hand

end
-- ==== Proof.BRunAll.lean ====
/-
  The five kernels and the host steps between them as one run. The contents of every array between two consecutive
  items are named in order: the launch memory, then after each stretch of host steps the steps applied, then after each
  kernel its operand arrays at what its grid leaves (the inputs unchanged, each output's write-backs folded in) and every
  other array as it was. Each kernel's region is entered from the state before it and left at the state after it; the
  last state is read against the final memory.
-/
import proofs.«133833_j3100966388061_2_alg».proof.Proof.BR0Frame
import proofs.«133833_j3100966388061_2_alg».proof.Proof.BR1Frame
import proofs.«133833_j3100966388061_2_alg».proof.Proof.BR2Frame
import proofs.«133833_j3100966388061_2_alg».proof.Proof.BR3Frame
import proofs.«133833_j3100966388061_2_alg».proof.Proof.BR4Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

abbrev Wt0 : Dev nD → Valuation τ sig (Elt F) := fun c b => (⟨m, fun _ => 0, ρ⟩ : MemSt nD τ sig (Elt F)).mem ((c : Dev nD), b)
/-- After the host steps `hostOps0`. -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- After kernel 0: its operand arrays at what its grid leaves, every other array as entered. -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)
/-- After the host steps `hostOps1`. -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- After kernel 1: its operand arrays at what its grid leaves, every other array as entered. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)
/-- After kernel 2: its operand arrays at what its grid leaves, every other array as entered. -/
def Wt5 (c : Dev nD) : Valuation τ sig (Elt F) :=
  Pipeline.withArrays spec2 c (Wt4 m ρ c) fun w => (dat2 (Vt4 m ρ) c).arrAt w cfg2.N
theorem Wt5_arr (c : Dev nD) (w : Fin cfg2.W) :
    Wt5 m ρ c (Proc.devRef .tc (Pipeline.arrRef spec2 w)) = (dat2 (Vt4 m ρ) c).arrAt w cfg2.N := by
  unfold Wt5; exact Pipeline.withArrays_arr spec2 launch2.win.arr_inj c _ _ w
theorem Wt5_of_ne (c : Dev nD) (b : Ref sig .tc) (hb : ∀ w, Pipeline.arrRef spec2 w ≠ b) :
    Wt5 m ρ c (Proc.devRef .tc b) = Wt4 m ρ c (Proc.devRef .tc b) := by
  unfold Wt5; exact Pipeline.withArrays_of_ne spec2 c _ _ b hb
abbrev Vt5 : (c : Dev nD) → (b : Ref sig .tc) → Buf (Elt F) ((c : Thread nD τ).loc b) := fun c b => Wt5 m ρ c b
theorem hF2 (c : Dev nD) (w : Fin cfg2.W) : (dat2 (Vt4 m ρ) c).arrAt w cfg2.N = Vt5 m ρ c (Pipeline.arrRef spec2 w) :=
  (Wt5_arr m ρ c w).symm
theorem hrest2 (c : Dev nD) : ∀ b, b ∉ Finset.univ.image (Pipeline.arrRef spec2) → Vt5 m ρ c b = Vt4 m ρ c b :=
  fun b hb => Wt5_of_ne m ρ c b fun w e => hb (Finset.mem_image.mpr ⟨w, Finset.mem_univ _, e⟩)
/-- After the host steps `hostOps3`. -/
abbrev Wt6 : Dev nD → Valuation τ sig (Elt F) := fun c => StableHlo.after hostOps3 (Wt5 m ρ c)
abbrev Vt6 : (c : Dev nD) → (b : Ref sig .tc) → Buf (Elt F) ((c : Thread nD τ).loc b) := fun c b => Wt6 m ρ c b
/-- After kernel 3: its operand arrays at what its grid leaves, every other array as entered. -/
def Wt7 (c : Dev nD) : Valuation τ sig (Elt F) :=
  Pipeline.withArrays spec3 c (Wt6 m ρ c) fun w => (dat3 (Vt6 m ρ) c).arrAt w cfg3.N
theorem Wt7_arr (c : Dev nD) (w : Fin cfg3.W) :
    Wt7 m ρ c (Proc.devRef .tc (Pipeline.arrRef spec3 w)) = (dat3 (Vt6 m ρ) c).arrAt w cfg3.N := by
  unfold Wt7; exact Pipeline.withArrays_arr spec3 launch3.win.arr_inj c _ _ w
theorem Wt7_of_ne (c : Dev nD) (b : Ref sig .tc) (hb : ∀ w, Pipeline.arrRef spec3 w ≠ b) :
    Wt7 m ρ c (Proc.devRef .tc b) = Wt6 m ρ c (Proc.devRef .tc b) := by
  unfold Wt7; exact Pipeline.withArrays_of_ne spec3 c _ _ b hb
abbrev Vt7 : (c : Dev nD) → (b : Ref sig .tc) → Buf (Elt F) ((c : Thread nD τ).loc b) := fun c b => Wt7 m ρ c b
theorem hF3 (c : Dev nD) (w : Fin cfg3.W) : (dat3 (Vt6 m ρ) c).arrAt w cfg3.N = Vt7 m ρ c (Pipeline.arrRef spec3 w) :=
  (Wt7_arr m ρ c w).symm
theorem hrest3 (c : Dev nD) : ∀ b, b ∉ Finset.univ.image (Pipeline.arrRef spec3) → Vt7 m ρ c b = Vt6 m ρ c b :=
  fun b hb => Wt7_of_ne m ρ c b fun w e => hb (Finset.mem_image.mpr ⟨w, Finset.mem_univ _, e⟩)
/-- After kernel 4: its operand arrays at what its grid leaves, every other array as entered. -/
def Wt8 (c : Dev nD) : Valuation τ sig (Elt F) :=
  Pipeline.withArrays spec4 c (Wt7 m ρ c) fun w => (dat4 (Vt7 m ρ) c).arrAt w cfg4.N
theorem Wt8_arr (c : Dev nD) (w : Fin cfg4.W) :
    Wt8 m ρ c (Proc.devRef .tc (Pipeline.arrRef spec4 w)) = (dat4 (Vt7 m ρ) c).arrAt w cfg4.N := by
  unfold Wt8; exact Pipeline.withArrays_arr spec4 launch4.win.arr_inj c _ _ w
theorem Wt8_of_ne (c : Dev nD) (b : Ref sig .tc) (hb : ∀ w, Pipeline.arrRef spec4 w ≠ b) :
    Wt8 m ρ c (Proc.devRef .tc b) = Wt7 m ρ c (Proc.devRef .tc b) := by
  unfold Wt8; exact Pipeline.withArrays_of_ne spec4 c _ _ b hb
abbrev Vt8 : (c : Dev nD) → (b : Ref sig .tc) → Buf (Elt F) ((c : Thread nD τ).loc b) := fun c b => Wt8 m ρ c b
theorem hF4 (c : Dev nD) (w : Fin cfg4.W) : (dat4 (Vt7 m ρ) c).arrAt w cfg4.N = Vt8 m ρ c (Pipeline.arrRef spec4 w) :=
  (Wt8_arr m ρ c w).symm
theorem hrest4 (c : Dev nD) : ∀ b, b ∉ Finset.univ.image (Pipeline.arrRef spec4) → Vt8 m ρ c b = Vt7 m ρ c b :=
  fun b hb => Wt8_of_ne m ρ c b fun w e => hb (Finset.mem_image.mpr ⟨w, Finset.mem_univ _, e⟩)
/-- After the host steps `hostOps5`. -/
abbrev Wt9 : Dev nD → Valuation τ sig (Elt F) := fun c => StableHlo.after hostOps5 (Wt8 m ρ c)
abbrev Vt9 : (c : Dev nD) → (b : Ref sig .tc) → Buf (Elt F) ((c : Thread nD τ).loc b) := fun c b => Wt9 m ρ c b

/-! ## The proof data family and the thread state -/

abbrev admH : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) admH p) c
  | ⟨0, _⟩ => fun c => dat0 (Vt1 m ρ) c
  | ⟨1, _⟩ => fun c => dat1 (Vt3 m ρ) c
  | ⟨2, _⟩ => fun c => dat2 (Vt4 m ρ) c
  | ⟨3, _⟩ => fun c => dat3 (Vt6 m ρ) c
  | ⟨4, _⟩ => fun c => dat4 (Vt7 m ρ) c
abbrev 𝒱H : Variants := Variants.none
abbrev LH : GSem nD τ sig → Finset Unit := fun _ => ∅
abbrev lvH : GSem nD τ sig → Unit → ℕ := fun _ _ => 0
/-- What rides beside the arrays through every item: the generator register at some state and the core owing nothing. -/
abbrev RH (c : Dev nD) : sProp 𝕄 := iprop((∃ r, prngReg c r) ∗ ∃ W, owes (c : Thread nD τ) (0 : CellTallies nD τ sig Unit) W)
/-- At the end only the core owing nothing rides along. -/
abbrev RE (c : Dev nD) : sProp 𝕄 := iprop(∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) (RR : Dev nD → sProp 𝕄) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem hostOps5_freshH : (hostOps5 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := StableHlo.held (c : Thread nD τ) (Pipeline.ucRefs τ sig) (Wt9 m ρ c)

/-! ## The kernels as regions -/

set_option backward.isDefEq.respectTransparency.types false in
/-- Kernel 0's region: entered with every array at the contents before it, left with them at the contents after it. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ LH lvH 0 fun _ _ => rfl
  pre c := iprop(StableHlo.held (c : Thread nD τ) (Pipeline.ucRefs τ sig) (Wt1 m ρ c) ∗ RH c)
  post c := iprop(StableHlo.held (c : Thread nD τ) (Pipeline.ucRefs τ sig) (Wt2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vt1 m ρ) c
    unfold Pipeline.ΦA at h
    rw [show (pdats m ρ 0 c).Φ 0 = (dat0 (Vt1 m ρ) c).Φ 0 from rfl]
    iintro ⟨Hp, -, Hr⟩
    iapply h
    isplitl [Hr]; · iexact Hr
    iexact Hp
  hout c := by
    have h := hout0 (Vt1 m ρ) c
    unfold Pipeline.ΦA at h
    rw [Pipeline.ownSems0_none, show (pdats m ρ 0 c).Φ (Fin.last _) = (dat0 (Vt1 m ρ) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1's region: entered with every array at the contents before it, left with them at the contents after it. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ LH lvH 1 fun _ _ => rfl
  pre c := iprop(StableHlo.held (c : Thread nD τ) (Pipeline.ucRefs τ sig) (Wt3 m ρ c) ∗ RH c)
  post c := iprop(StableHlo.held (c : Thread nD τ) (Pipeline.ucRefs τ sig) (Wt4 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vt3 m ρ) c
    unfold Pipeline.ΦA at h
    rw [show (pdats m ρ 1 c).Φ 0 = (dat1 (Vt3 m ρ) c).Φ 0 from rfl]
    iintro ⟨Hp, -, Hr⟩
    iapply h
    isplitl [Hr]; · iexact Hr
    iexact Hp
  hout c := by
    have h := hout1 (Vt3 m ρ) c
    unfold Pipeline.ΦA at h
    rw [Pipeline.ownSems0_none, show (pdats m ρ 1 c).Φ (Fin.last _) = (dat1 (Vt3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2's region: entered with every array at the contents before it, left with them at the contents after it. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vt4 m ρ) c).loose
  hwaits := Pipeline.hwaits_of_owed_zero _ _ _ _ LH lvH 2 fun _ _ => rfl
  pre c := iprop(StableHlo.held (c : Thread nD τ) (Pipeline.ucRefs τ sig) (Wt4 m ρ c) ∗ RH c)
  post c := iprop(StableHlo.held (c : Thread nD τ) (Pipeline.ucRefs τ sig) (Wt5 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vt4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vt4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vt4 m ρ) c
    unfold Pipeline.ΦA at h
    rw [show (pdats m ρ 2 c).Φ 0 = (dat2 (Vt4 m ρ) c).Φ 0 from rfl]
    iintro ⟨Hp, -, Hr⟩
    iapply h
    isplitl [Hr]; · iexact Hr
    iexact Hp
  hout c := by
    have h := hout2 (Vt4 m ρ) c
    unfold Pipeline.ΦA at h
    rw [Pipeline.ownSems0_none, show (pdats m ρ 2 c).Φ (Fin.last _) = (dat2 (Vt4 m ρ) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vt4 m ρ c) (Vt5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 3's region: entered with every array at the contents before it, left with them at the contents after it. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vt6 m ρ) c).loose
  hwaits := Pipeline.hwaits_of_owed_zero _ _ _ _ LH lvH 3 fun _ _ => rfl
  pre c := iprop(StableHlo.held (c : Thread nD τ) (Pipeline.ucRefs τ sig) (Wt6 m ρ c) ∗ RH c)
  post c := iprop(StableHlo.held (c : Thread nD τ) (Pipeline.ucRefs τ sig) (Wt7 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vt6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (Vt6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Vt6 m ρ) c
    unfold Pipeline.ΦA at h
    rw [show (pdats m ρ 3 c).Φ 0 = (dat3 (Vt6 m ρ) c).Φ 0 from rfl]
    iintro ⟨Hp, -, Hr⟩
    iapply h
    isplitl [Hr]; · iexact Hr
    iexact Hp
  hout c := by
    have h := hout3 (Vt6 m ρ) c
    unfold Pipeline.ΦA at h
    rw [Pipeline.ownSems0_none, show (pdats m ρ 3 c).Φ (Fin.last _) = (dat3 (Vt6 m ρ) c).Φ (Fin.last cfg3.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (Vt6 m ρ c) (Vt7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 4's region: entered with every array at the contents before it, left with them at the contents after it. -/
def reg4 : Pipeline.RegionSeg (pcfgs (F := F)) admH (pdats m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vt7 m ρ) c).loose
  hwaits := Pipeline.hwaits_of_owed_zero _ _ _ _ LH lvH 4 fun _ _ => rfl
  pre c := iprop(StableHlo.held (c : Thread nD τ) (Pipeline.ucRefs τ sig) (Wt7 m ρ c) ∗ RH c)
  post c := iprop(StableHlo.held (c : Thread nD τ) (Pipeline.ucRefs τ sig) (Wt8 m ρ c) ∗ RE c)
  X c := iprop(∃ r, prngReg c r)
  Y c := iprop(∃ r, prngReg c r)
  Z c := Pipeline.unscopedRest (Ix := Unit) (Name := ℕ) (U := UR sig nD τ) (Lvl := ℕ) spec4 c (Vt7 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vt7 m ρ) c
    unfold Pipeline.ΦA at h
    rw [show (pdats m ρ 4 c).Φ 0 = (dat4 (Vt7 m ρ) c).Φ 0 from rfl]
    iintro ⟨Hp, -, Hr⟩
    iapply h
    isplitl [Hr]; · iexact Hr
    iexact Hp
  hout c := by
    have h := hout4 (Vt7 m ρ) c
    unfold Pipeline.ΦA at h
    rw [Pipeline.ownSems0_none, show (pdats m ρ 4 c).Φ (Fin.last _) = (dat4 (Vt7 m ρ) c).Φ (Fin.last cfg4.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (Vt7 m ρ c) (Vt8 m ρ c) ((pdats m ρ 4 c).arrAt · cfg4.N) (hF4 m ρ c) (hrest4 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The whole run -/

abbrev segsH : List (Pipeline.Seg (pcfgs (F := F)) admH (pdats m ρ) () defs₀ 𝒱H LH lvH) :=
  [ .host (hsegH hostOps0 hostOps0_sub hostOps0_freshH (Wt0 m ρ) RH),
    .region (reg0 m ρ),
    .host (hsegH hostOps1 hostOps1_sub hostOps1_freshH (Wt2 m ρ) RH),
    .region (reg1 m ρ),
    .region (reg2 m ρ),
    .host (hsegH hostOps3 hostOps3_sub hostOps3_freshH (Wt5 m ρ) RH),
    .region (reg3 m ρ),
    .region (reg4 m ρ),
    .host (hsegH hostOps5 hostOps5_sub hostOps5_freshH (Wt8 m ρ) RE) ]

theorem main_runH (c : Dev nD) : main (F := F) c = Pipeline.Seg.run (segsH m ρ) := (main_chain c).trans (by chain_rfl)

set_option backward.isDefEq.respectTransparency.types false in
/-- Every weakly fair execution of the program from memory `m` terminates, nothing faulting, and every final memory
    holds each array at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt9 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ RH c)) (Tₙ := fun c => StableHlo.held (c : Thread nD τ) (Pipeline.ucRefs τ sig) (Wt9 m ρ c))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt9 m ρ c b)
    (hfin := fun c s' => by
      iintro ⟨Hh, HSI⟩
      unfold StableHlo.held
      imodintro
      iapply (pointsTo_read_all (Pipeline.ucRefs τ sig) (fun b => (((c : Thread nD τ)).1, b)) (Wt9 m ρ c) s')
      isplitl [Hh] <;> iassumption)
    (hQ := fun s h c => h c)

end Cert.Kernel.Hand

end
-- ==== Proof.BCarry.lean ====
/-
  Arrays carried unchanged across the program's items, at any float instance: an array that a stretch of host steps does
  not write keeps its contents; an array that a kernel reads through an input window, or does not touch, keeps its
  contents. Hence the six argument arrays reach the end as launched.
-/
import proofs.«133833_j3100966388061_2_alg».proof.Proof.BRunAll
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Arrays carried unchanged across an item -/

theorem cy1_main_arg0 (c : Dev nD) : Wt1 m ρ c (Proc.devRef .tc main_arg0) = Wt0 m ρ c (Proc.devRef .tc main_arg0) := by
  show StableHlo.after hostOps0 (Wt0 m ρ c) (Proc.devRef .tc main_arg0) = _
  after_results
theorem cy1_main_arg1 (c : Dev nD) : Wt1 m ρ c (Proc.devRef .tc main_arg1) = Wt0 m ρ c (Proc.devRef .tc main_arg1) := by
  show StableHlo.after hostOps0 (Wt0 m ρ c) (Proc.devRef .tc main_arg1) = _
  after_results
theorem cy1_main_arg2 (c : Dev nD) : Wt1 m ρ c (Proc.devRef .tc main_arg2) = Wt0 m ρ c (Proc.devRef .tc main_arg2) := by
  show StableHlo.after hostOps0 (Wt0 m ρ c) (Proc.devRef .tc main_arg2) = _
  after_results
theorem cy1_main_arg3 (c : Dev nD) : Wt1 m ρ c (Proc.devRef .tc main_arg3) = Wt0 m ρ c (Proc.devRef .tc main_arg3) := by
  show StableHlo.after hostOps0 (Wt0 m ρ c) (Proc.devRef .tc main_arg3) = _
  after_results
theorem cy1_main_arg4 (c : Dev nD) : Wt1 m ρ c (Proc.devRef .tc main_arg4) = Wt0 m ρ c (Proc.devRef .tc main_arg4) := by
  show StableHlo.after hostOps0 (Wt0 m ρ c) (Proc.devRef .tc main_arg4) = _
  after_results
theorem cy1_main_arg5 (c : Dev nD) : Wt1 m ρ c (Proc.devRef .tc main_arg5) = Wt0 m ρ c (Proc.devRef .tc main_arg5) := by
  show StableHlo.after hostOps0 (Wt0 m ρ c) (Proc.devRef .tc main_arg5) = _
  after_results
theorem cy2_main_v0 (c : Dev nD) : Wt2 m ρ c (Proc.devRef .tc main_v0) = Wt1 m ρ c (Proc.devRef .tc main_v0) :=
  (Wt2_arr m ρ c 0).trans (((dat0 (Vt1 m ρ) c).arrAt_in 0 rfl _).trans (A_eq0 (Vt1 m ρ) c 0))
theorem cy2_main_v2 (c : Dev nD) : Wt2 m ρ c (Proc.devRef .tc main_v2) = Wt1 m ρ c (Proc.devRef .tc main_v2) :=
  Wt2_of_ne m ρ c main_v2 (by decide)
theorem cy2_main_v3 (c : Dev nD) : Wt2 m ρ c (Proc.devRef .tc main_v3) = Wt1 m ρ c (Proc.devRef .tc main_v3) :=
  Wt2_of_ne m ρ c main_v3 (by decide)
theorem cy2_main_arg0 (c : Dev nD) : Wt2 m ρ c (Proc.devRef .tc main_arg0) = Wt1 m ρ c (Proc.devRef .tc main_arg0) :=
  Wt2_of_ne m ρ c main_arg0 (by decide)
theorem cy2_main_arg1 (c : Dev nD) : Wt2 m ρ c (Proc.devRef .tc main_arg1) = Wt1 m ρ c (Proc.devRef .tc main_arg1) :=
  (Wt2_arr m ρ c 1).trans (((dat0 (Vt1 m ρ) c).arrAt_in 1 rfl _).trans (A_eq0 (Vt1 m ρ) c 1))
theorem cy2_main_arg2 (c : Dev nD) : Wt2 m ρ c (Proc.devRef .tc main_arg2) = Wt1 m ρ c (Proc.devRef .tc main_arg2) :=
  (Wt2_arr m ρ c 2).trans (((dat0 (Vt1 m ρ) c).arrAt_in 2 rfl _).trans (A_eq0 (Vt1 m ρ) c 2))
theorem cy2_main_arg3 (c : Dev nD) : Wt2 m ρ c (Proc.devRef .tc main_arg3) = Wt1 m ρ c (Proc.devRef .tc main_arg3) :=
  Wt2_of_ne m ρ c main_arg3 (by decide)
theorem cy2_main_arg4 (c : Dev nD) : Wt2 m ρ c (Proc.devRef .tc main_arg4) = Wt1 m ρ c (Proc.devRef .tc main_arg4) :=
  Wt2_of_ne m ρ c main_arg4 (by decide)
theorem cy2_main_arg5 (c : Dev nD) : Wt2 m ρ c (Proc.devRef .tc main_arg5) = Wt1 m ρ c (Proc.devRef .tc main_arg5) :=
  Wt2_of_ne m ρ c main_arg5 (by decide)
theorem cy3_main_v0 (c : Dev nD) : Wt3 m ρ c (Proc.devRef .tc main_v0) = Wt2 m ρ c (Proc.devRef .tc main_v0) := by
  show StableHlo.after hostOps1 (Wt2 m ρ c) (Proc.devRef .tc main_v0) = _
  after_results
theorem cy3_main_v2 (c : Dev nD) : Wt3 m ρ c (Proc.devRef .tc main_v2) = Wt2 m ρ c (Proc.devRef .tc main_v2) := by
  show StableHlo.after hostOps1 (Wt2 m ρ c) (Proc.devRef .tc main_v2) = _
  after_results
theorem cy3_main_v3 (c : Dev nD) : Wt3 m ρ c (Proc.devRef .tc main_v3) = Wt2 m ρ c (Proc.devRef .tc main_v3) := by
  show StableHlo.after hostOps1 (Wt2 m ρ c) (Proc.devRef .tc main_v3) = _
  after_results
theorem cy3_main_arg0 (c : Dev nD) : Wt3 m ρ c (Proc.devRef .tc main_arg0) = Wt2 m ρ c (Proc.devRef .tc main_arg0) := by
  show StableHlo.after hostOps1 (Wt2 m ρ c) (Proc.devRef .tc main_arg0) = _
  after_results
theorem cy3_main_arg1 (c : Dev nD) : Wt3 m ρ c (Proc.devRef .tc main_arg1) = Wt2 m ρ c (Proc.devRef .tc main_arg1) := by
  show StableHlo.after hostOps1 (Wt2 m ρ c) (Proc.devRef .tc main_arg1) = _
  after_results
theorem cy3_main_arg2 (c : Dev nD) : Wt3 m ρ c (Proc.devRef .tc main_arg2) = Wt2 m ρ c (Proc.devRef .tc main_arg2) := by
  show StableHlo.after hostOps1 (Wt2 m ρ c) (Proc.devRef .tc main_arg2) = _
  after_results
theorem cy3_main_arg3 (c : Dev nD) : Wt3 m ρ c (Proc.devRef .tc main_arg3) = Wt2 m ρ c (Proc.devRef .tc main_arg3) := by
  show StableHlo.after hostOps1 (Wt2 m ρ c) (Proc.devRef .tc main_arg3) = _
  after_results
theorem cy3_main_arg4 (c : Dev nD) : Wt3 m ρ c (Proc.devRef .tc main_arg4) = Wt2 m ρ c (Proc.devRef .tc main_arg4) := by
  show StableHlo.after hostOps1 (Wt2 m ρ c) (Proc.devRef .tc main_arg4) = _
  after_results
theorem cy3_main_arg5 (c : Dev nD) : Wt3 m ρ c (Proc.devRef .tc main_arg5) = Wt2 m ρ c (Proc.devRef .tc main_arg5) := by
  show StableHlo.after hostOps1 (Wt2 m ρ c) (Proc.devRef .tc main_arg5) = _
  after_results
theorem cy4_main_v7 (c : Dev nD) : Wt4 m ρ c (Proc.devRef .tc main_v7) = Wt3 m ρ c (Proc.devRef .tc main_v7) :=
  Wt4_of_ne m ρ c main_v7 (by decide)
theorem cy4_main_v0 (c : Dev nD) : Wt4 m ρ c (Proc.devRef .tc main_v0) = Wt3 m ρ c (Proc.devRef .tc main_v0) :=
  Wt4_of_ne m ρ c main_v0 (by decide)
theorem cy4_main_v2 (c : Dev nD) : Wt4 m ρ c (Proc.devRef .tc main_v2) = Wt3 m ρ c (Proc.devRef .tc main_v2) :=
  Wt4_of_ne m ρ c main_v2 (by decide)
theorem cy4_main_v3 (c : Dev nD) : Wt4 m ρ c (Proc.devRef .tc main_v3) = Wt3 m ρ c (Proc.devRef .tc main_v3) :=
  Wt4_of_ne m ρ c main_v3 (by decide)
theorem cy4_main_arg0 (c : Dev nD) : Wt4 m ρ c (Proc.devRef .tc main_arg0) = Wt3 m ρ c (Proc.devRef .tc main_arg0) :=
  Wt4_of_ne m ρ c main_arg0 (by decide)
theorem cy4_main_arg1 (c : Dev nD) : Wt4 m ρ c (Proc.devRef .tc main_arg1) = Wt3 m ρ c (Proc.devRef .tc main_arg1) :=
  Wt4_of_ne m ρ c main_arg1 (by decide)
theorem cy4_main_arg2 (c : Dev nD) : Wt4 m ρ c (Proc.devRef .tc main_arg2) = Wt3 m ρ c (Proc.devRef .tc main_arg2) :=
  Wt4_of_ne m ρ c main_arg2 (by decide)
theorem cy4_main_arg3 (c : Dev nD) : Wt4 m ρ c (Proc.devRef .tc main_arg3) = Wt3 m ρ c (Proc.devRef .tc main_arg3) :=
  Wt4_of_ne m ρ c main_arg3 (by decide)
theorem cy4_main_arg4 (c : Dev nD) : Wt4 m ρ c (Proc.devRef .tc main_arg4) = Wt3 m ρ c (Proc.devRef .tc main_arg4) :=
  Wt4_of_ne m ρ c main_arg4 (by decide)
theorem cy4_main_arg5 (c : Dev nD) : Wt4 m ρ c (Proc.devRef .tc main_arg5) = Wt3 m ρ c (Proc.devRef .tc main_arg5) :=
  Wt4_of_ne m ρ c main_arg5 (by decide)
theorem cy5_main_v0 (c : Dev nD) : Wt5 m ρ c (Proc.devRef .tc main_v0) = Wt4 m ρ c (Proc.devRef .tc main_v0) :=
  Wt5_of_ne m ρ c main_v0 (by decide)
theorem cy5_main_v2 (c : Dev nD) : Wt5 m ρ c (Proc.devRef .tc main_v2) = Wt4 m ρ c (Proc.devRef .tc main_v2) :=
  Wt5_of_ne m ρ c main_v2 (by decide)
theorem cy5_main_v3 (c : Dev nD) : Wt5 m ρ c (Proc.devRef .tc main_v3) = Wt4 m ρ c (Proc.devRef .tc main_v3) :=
  Wt5_of_ne m ρ c main_v3 (by decide)
theorem cy5_main_arg0 (c : Dev nD) : Wt5 m ρ c (Proc.devRef .tc main_arg0) = Wt4 m ρ c (Proc.devRef .tc main_arg0) :=
  Wt5_of_ne m ρ c main_arg0 (by decide)
theorem cy5_main_arg1 (c : Dev nD) : Wt5 m ρ c (Proc.devRef .tc main_arg1) = Wt4 m ρ c (Proc.devRef .tc main_arg1) :=
  Wt5_of_ne m ρ c main_arg1 (by decide)
theorem cy5_main_arg2 (c : Dev nD) : Wt5 m ρ c (Proc.devRef .tc main_arg2) = Wt4 m ρ c (Proc.devRef .tc main_arg2) :=
  Wt5_of_ne m ρ c main_arg2 (by decide)
theorem cy5_main_arg3 (c : Dev nD) : Wt5 m ρ c (Proc.devRef .tc main_arg3) = Wt4 m ρ c (Proc.devRef .tc main_arg3) :=
  Wt5_of_ne m ρ c main_arg3 (by decide)
theorem cy5_main_arg4 (c : Dev nD) : Wt5 m ρ c (Proc.devRef .tc main_arg4) = Wt4 m ρ c (Proc.devRef .tc main_arg4) :=
  Wt5_of_ne m ρ c main_arg4 (by decide)
theorem cy5_main_arg5 (c : Dev nD) : Wt5 m ρ c (Proc.devRef .tc main_arg5) = Wt4 m ρ c (Proc.devRef .tc main_arg5) :=
  Wt5_of_ne m ρ c main_arg5 (by decide)
theorem cy6_main_v0 (c : Dev nD) : Wt6 m ρ c (Proc.devRef .tc main_v0) = Wt5 m ρ c (Proc.devRef .tc main_v0) := by
  show StableHlo.after hostOps3 (Wt5 m ρ c) (Proc.devRef .tc main_v0) = _
  after_results
theorem cy6_main_v2 (c : Dev nD) : Wt6 m ρ c (Proc.devRef .tc main_v2) = Wt5 m ρ c (Proc.devRef .tc main_v2) := by
  show StableHlo.after hostOps3 (Wt5 m ρ c) (Proc.devRef .tc main_v2) = _
  after_results
theorem cy6_main_v3 (c : Dev nD) : Wt6 m ρ c (Proc.devRef .tc main_v3) = Wt5 m ρ c (Proc.devRef .tc main_v3) := by
  show StableHlo.after hostOps3 (Wt5 m ρ c) (Proc.devRef .tc main_v3) = _
  after_results
theorem cy6_main_arg0 (c : Dev nD) : Wt6 m ρ c (Proc.devRef .tc main_arg0) = Wt5 m ρ c (Proc.devRef .tc main_arg0) := by
  show StableHlo.after hostOps3 (Wt5 m ρ c) (Proc.devRef .tc main_arg0) = _
  after_results
theorem cy6_main_arg1 (c : Dev nD) : Wt6 m ρ c (Proc.devRef .tc main_arg1) = Wt5 m ρ c (Proc.devRef .tc main_arg1) := by
  show StableHlo.after hostOps3 (Wt5 m ρ c) (Proc.devRef .tc main_arg1) = _
  after_results
theorem cy6_main_arg2 (c : Dev nD) : Wt6 m ρ c (Proc.devRef .tc main_arg2) = Wt5 m ρ c (Proc.devRef .tc main_arg2) := by
  show StableHlo.after hostOps3 (Wt5 m ρ c) (Proc.devRef .tc main_arg2) = _
  after_results
theorem cy6_main_arg3 (c : Dev nD) : Wt6 m ρ c (Proc.devRef .tc main_arg3) = Wt5 m ρ c (Proc.devRef .tc main_arg3) := by
  show StableHlo.after hostOps3 (Wt5 m ρ c) (Proc.devRef .tc main_arg3) = _
  after_results
theorem cy6_main_arg4 (c : Dev nD) : Wt6 m ρ c (Proc.devRef .tc main_arg4) = Wt5 m ρ c (Proc.devRef .tc main_arg4) := by
  show StableHlo.after hostOps3 (Wt5 m ρ c) (Proc.devRef .tc main_arg4) = _
  after_results
theorem cy6_main_arg5 (c : Dev nD) : Wt6 m ρ c (Proc.devRef .tc main_arg5) = Wt5 m ρ c (Proc.devRef .tc main_arg5) := by
  show StableHlo.after hostOps3 (Wt5 m ρ c) (Proc.devRef .tc main_arg5) = _
  after_results
theorem cy7_main_v0 (c : Dev nD) : Wt7 m ρ c (Proc.devRef .tc main_v0) = Wt6 m ρ c (Proc.devRef .tc main_v0) :=
  Wt7_of_ne m ρ c main_v0 (by decide)
theorem cy7_main_v3 (c : Dev nD) : Wt7 m ρ c (Proc.devRef .tc main_v3) = Wt6 m ρ c (Proc.devRef .tc main_v3) :=
  Wt7_of_ne m ρ c main_v3 (by decide)
theorem cy7_main_arg0 (c : Dev nD) : Wt7 m ρ c (Proc.devRef .tc main_arg0) = Wt6 m ρ c (Proc.devRef .tc main_arg0) :=
  Wt7_of_ne m ρ c main_arg0 (by decide)
theorem cy7_main_arg1 (c : Dev nD) : Wt7 m ρ c (Proc.devRef .tc main_arg1) = Wt6 m ρ c (Proc.devRef .tc main_arg1) :=
  Wt7_of_ne m ρ c main_arg1 (by decide)
theorem cy7_main_arg2 (c : Dev nD) : Wt7 m ρ c (Proc.devRef .tc main_arg2) = Wt6 m ρ c (Proc.devRef .tc main_arg2) :=
  Wt7_of_ne m ρ c main_arg2 (by decide)
theorem cy7_main_arg3 (c : Dev nD) : Wt7 m ρ c (Proc.devRef .tc main_arg3) = Wt6 m ρ c (Proc.devRef .tc main_arg3) :=
  Wt7_of_ne m ρ c main_arg3 (by decide)
theorem cy7_main_arg4 (c : Dev nD) : Wt7 m ρ c (Proc.devRef .tc main_arg4) = Wt6 m ρ c (Proc.devRef .tc main_arg4) :=
  Wt7_of_ne m ρ c main_arg4 (by decide)
theorem cy7_main_arg5 (c : Dev nD) : Wt7 m ρ c (Proc.devRef .tc main_arg5) = Wt6 m ρ c (Proc.devRef .tc main_arg5) :=
  Wt7_of_ne m ρ c main_arg5 (by decide)
theorem cy8_main_arg0 (c : Dev nD) : Wt8 m ρ c (Proc.devRef .tc main_arg0) = Wt7 m ρ c (Proc.devRef .tc main_arg0) :=
  Wt8_of_ne m ρ c main_arg0 (by decide)
theorem cy8_main_arg1 (c : Dev nD) : Wt8 m ρ c (Proc.devRef .tc main_arg1) = Wt7 m ρ c (Proc.devRef .tc main_arg1) :=
  Wt8_of_ne m ρ c main_arg1 (by decide)
theorem cy8_main_arg2 (c : Dev nD) : Wt8 m ρ c (Proc.devRef .tc main_arg2) = Wt7 m ρ c (Proc.devRef .tc main_arg2) :=
  Wt8_of_ne m ρ c main_arg2 (by decide)
theorem cy8_main_arg3 (c : Dev nD) : Wt8 m ρ c (Proc.devRef .tc main_arg3) = Wt7 m ρ c (Proc.devRef .tc main_arg3) :=
  Wt8_of_ne m ρ c main_arg3 (by decide)
theorem cy8_main_arg4 (c : Dev nD) : Wt8 m ρ c (Proc.devRef .tc main_arg4) = Wt7 m ρ c (Proc.devRef .tc main_arg4) :=
  Wt8_of_ne m ρ c main_arg4 (by decide)
theorem cy8_main_arg5 (c : Dev nD) : Wt8 m ρ c (Proc.devRef .tc main_arg5) = Wt7 m ρ c (Proc.devRef .tc main_arg5) :=
  Wt8_of_ne m ρ c main_arg5 (by decide)
theorem cy9_main_arg0 (c : Dev nD) : Wt9 m ρ c (Proc.devRef .tc main_arg0) = Wt8 m ρ c (Proc.devRef .tc main_arg0) := by
  show StableHlo.after hostOps5 (Wt8 m ρ c) (Proc.devRef .tc main_arg0) = _
  after_results
theorem cy9_main_arg1 (c : Dev nD) : Wt9 m ρ c (Proc.devRef .tc main_arg1) = Wt8 m ρ c (Proc.devRef .tc main_arg1) := by
  show StableHlo.after hostOps5 (Wt8 m ρ c) (Proc.devRef .tc main_arg1) = _
  after_results
theorem cy9_main_arg2 (c : Dev nD) : Wt9 m ρ c (Proc.devRef .tc main_arg2) = Wt8 m ρ c (Proc.devRef .tc main_arg2) := by
  show StableHlo.after hostOps5 (Wt8 m ρ c) (Proc.devRef .tc main_arg2) = _
  after_results
theorem cy9_main_arg3 (c : Dev nD) : Wt9 m ρ c (Proc.devRef .tc main_arg3) = Wt8 m ρ c (Proc.devRef .tc main_arg3) := by
  show StableHlo.after hostOps5 (Wt8 m ρ c) (Proc.devRef .tc main_arg3) = _
  after_results
theorem cy9_main_arg4 (c : Dev nD) : Wt9 m ρ c (Proc.devRef .tc main_arg4) = Wt8 m ρ c (Proc.devRef .tc main_arg4) := by
  show StableHlo.after hostOps5 (Wt8 m ρ c) (Proc.devRef .tc main_arg4) = _
  after_results
theorem cy9_main_arg5 (c : Dev nD) : Wt9 m ρ c (Proc.devRef .tc main_arg5) = Wt8 m ρ c (Proc.devRef .tc main_arg5) := by
  show StableHlo.after hostOps5 (Wt8 m ρ c) (Proc.devRef .tc main_arg5) = _
  after_results

/-! ## The argument arrays reach the end as launched -/

theorem Wt9_main_arg0 (c : Dev nD) : Wt9 m ρ c (Proc.devRef .tc main_arg0) = m ((c : Thread nD τ).loc main_arg0) :=
  (cy9_main_arg0 m ρ c).trans <| (cy8_main_arg0 m ρ c).trans <| (cy7_main_arg0 m ρ c).trans <| (cy6_main_arg0 m ρ c).trans <| (cy5_main_arg0 m ρ c).trans <| (cy4_main_arg0 m ρ c).trans <| (cy3_main_arg0 m ρ c).trans <| (cy2_main_arg0 m ρ c).trans <| (cy1_main_arg0 m ρ c).trans rfl
theorem Wt9_main_arg1 (c : Dev nD) : Wt9 m ρ c (Proc.devRef .tc main_arg1) = m ((c : Thread nD τ).loc main_arg1) :=
  (cy9_main_arg1 m ρ c).trans <| (cy8_main_arg1 m ρ c).trans <| (cy7_main_arg1 m ρ c).trans <| (cy6_main_arg1 m ρ c).trans <| (cy5_main_arg1 m ρ c).trans <| (cy4_main_arg1 m ρ c).trans <| (cy3_main_arg1 m ρ c).trans <| (cy2_main_arg1 m ρ c).trans <| (cy1_main_arg1 m ρ c).trans rfl
theorem Wt9_main_arg2 (c : Dev nD) : Wt9 m ρ c (Proc.devRef .tc main_arg2) = m ((c : Thread nD τ).loc main_arg2) :=
  (cy9_main_arg2 m ρ c).trans <| (cy8_main_arg2 m ρ c).trans <| (cy7_main_arg2 m ρ c).trans <| (cy6_main_arg2 m ρ c).trans <| (cy5_main_arg2 m ρ c).trans <| (cy4_main_arg2 m ρ c).trans <| (cy3_main_arg2 m ρ c).trans <| (cy2_main_arg2 m ρ c).trans <| (cy1_main_arg2 m ρ c).trans rfl
theorem Wt9_main_arg3 (c : Dev nD) : Wt9 m ρ c (Proc.devRef .tc main_arg3) = m ((c : Thread nD τ).loc main_arg3) :=
  (cy9_main_arg3 m ρ c).trans <| (cy8_main_arg3 m ρ c).trans <| (cy7_main_arg3 m ρ c).trans <| (cy6_main_arg3 m ρ c).trans <| (cy5_main_arg3 m ρ c).trans <| (cy4_main_arg3 m ρ c).trans <| (cy3_main_arg3 m ρ c).trans <| (cy2_main_arg3 m ρ c).trans <| (cy1_main_arg3 m ρ c).trans rfl
theorem Wt9_main_arg4 (c : Dev nD) : Wt9 m ρ c (Proc.devRef .tc main_arg4) = m ((c : Thread nD τ).loc main_arg4) :=
  (cy9_main_arg4 m ρ c).trans <| (cy8_main_arg4 m ρ c).trans <| (cy7_main_arg4 m ρ c).trans <| (cy6_main_arg4 m ρ c).trans <| (cy5_main_arg4 m ρ c).trans <| (cy4_main_arg4 m ρ c).trans <| (cy3_main_arg4 m ρ c).trans <| (cy2_main_arg4 m ρ c).trans <| (cy1_main_arg4 m ρ c).trans rfl
theorem Wt9_main_arg5 (c : Dev nD) : Wt9 m ρ c (Proc.devRef .tc main_arg5) = m ((c : Thread nD τ).loc main_arg5) :=
  (cy9_main_arg5 m ρ c).trans <| (cy8_main_arg5 m ρ c).trans <| (cy7_main_arg5 m ρ c).trans <| (cy6_main_arg5 m ρ c).trans <| (cy5_main_arg5 m ρ c).trans <| (cy4_main_arg5 m ρ c).trans <| (cy3_main_arg5 m ρ c).trans <| (cy2_main_arg5 m ρ c).trans <| (cy1_main_arg5 m ρ c).trans rfl

end Cert.Kernel.Hand

end
-- ==== Proof.R0Base.lean ====
/-
  The first kernel (the three projections of the input rows by W1, W2, W3): three [1024,512] accumulators kept in scratch buffers over the four steps of the contraction axis. This module fixes the vocabulary of its grid: the block of each operand at a grid point, the two branch
  conditions ("first step of the contraction", "last step") in closed form over the 128 points, where the output blocks
  are left untouched, and the scratch buffers split out of the buffers no operand stages.
-/
import proofs.«133833_j3100966388061_2_alg».proof.Proof.Gen.KernelIdeal.Launch
import proofs.«133833_j3100966388061_2_alg».proof.Proof.Gen.KernelIdeal.Skeleton
import proofs.«133833_j3100966388061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input operand 0's staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input operand 1's staging buffer holds the point's block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input operand 2's staging buffer holds the point's block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input operand 3's staging buffer holds the point's block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- "This is the first step of the contraction axis": the accumulators are zeroed here. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the contraction axis": the output blocks are written here. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into output block 4, and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Away from the last step nothing is stored into output block 5, and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
/-- Away from the last step nothing is stored into output block 6, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
/-- Accumulator 0, a whole buffer of the kernel's own. -/
abbrev scM0_0 : Memref sig .tc .vmem S1024x512 .f32 := Memref.whole cc0_scratch0
/-- Accumulator 1, a whole buffer of the kernel's own. -/
abbrev scM0_1 : Memref sig .tc .vmem S1024x512 .f32 := Memref.whole cc0_scratch1
/-- Accumulator 2, a whole buffer of the kernel's own. -/
abbrev scM0_2 : Memref sig .tc .vmem S1024x512 .f32 := Memref.whole cc0_scratch2

/-- What rides beside the accumulators through the kernel: every other buffer that no operand of this kernel stages. -/
abbrev Rest0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The invariant the launch hands the kernel, with the accumulators named. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ Rest0 c) ∗ (∃ r, prngReg c r)) := by
  unfold Pipeline.ΦA; rw [scopedRest0_split]; simp only [scM0_0, scM0_1, scM0_2, owns_whole]; try rfl

end Cert.KernelIdeal.Hand

end
-- ==== Proof.R0RunA.lean ====
/-
  The first kernel (the three projections of the input rows by W1, W2, W3): its body at a first step of the contraction axis: the accumulators, whatever they held, are set to zero and the step's products are added; the output blocks are handed back untouched.
-/
import proofs.«133833_j3100966388061_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_A (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) :
    Σ' (LS0 : List (View.Piece (Elt F) S1024x512 .f32)), Σ' (LS1 : List (View.Piece (Elt F) S1024x512 .f32)), { LS2 : List (View.Piece (Elt F) S1024x512 .f32) //
      ∀ (xi4 : Vec F S1024x512 .f32) (xi5 : Vec F S1024x512 .f32) (xi6 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.R0RunB.lean ====
/-
  The first kernel (the three projections of the input rows by W1, W2, W3): its body at a middle step of the contraction axis: the step's products are added to what the accumulators held; the output blocks are handed back untouched.
-/
import proofs.«133833_j3100966388061_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_B (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) :
    Σ' (LS0 : List (View.Piece (Elt F) S1024x512 .f32)), Σ' (LS1 : List (View.Piece (Elt F) S1024x512 .f32)), { LS2 : List (View.Piece (Elt F) S1024x512 .f32) //
      ∀ (xi4 : Vec F S1024x512 .f32) (xi5 : Vec F S1024x512 .f32) (xi6 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.R0RunC.lean ====
/-
  The first kernel (the three projections of the input rows by W1, W2, W3): its body at a last step of the contraction axis: the step's products are added to what the accumulators held, and the result is stored into the output blocks.
-/
import proofs.«133833_j3100966388061_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun0_C (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) :
    Σ' (L4 : List (View.Piece (Elt F) S1024x512 .f32)), Σ' (L5 : List (View.Piece (Elt F) S1024x512 .f32)), Σ' (L6 : List (View.Piece (Elt F) S1024x512 .bf16)), Σ' (LS0 : List (View.Piece (Elt F) S1024x512 .f32)), Σ' (LS1 : List (View.Piece (Elt F) S1024x512 .f32)), { LS2 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__qkv_kernel i arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__qkv_kernel_eq_skeleton]; unfold cc0__qkv_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.R0Frame.lean ====
/-
  The first kernel (the three projections of the input rows by W1, W2, W3) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.R0RunA
import proofs.«133833_j3100966388061_2_alg».proof.Proof.R0RunB
import proofs.«133833_j3100966388061_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover0_A_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).1 S1024x512.size (by sl_kernel_rfl) y

def sout0_A_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).1

theorem scover0_A_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).2.1 S1024x512.size (by sl_kernel_rfl) y

def sout0_A_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).2.1

theorem scover0_A_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) (y : S1024x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3).2.2.1 S1024x512.size (by sl_kernel_rfl) y

def sout0_A_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : cond0_0 i) (hc1 : ¬cond0_1 i)
    (x0 : Vec F S1024x1024 .f32) (x1 : Vec F S512x1024 .f32) (x2 : Vec F S512x1024 .f32) (x3 : Vec F S512x1024 .bf16) : Vec F S1024x512 .f32 :=
  View.canon (kernelRun0_A c i arg3 harg3 arg4 harg4 arg5 harg5 arg6 harg6 arg7 harg7 arg8 harg8 arg9 harg9 arg10 harg10 arg11 harg11 arg12 harg12 hc0 hc1 x0 x1 x2 x3).2.2.1

theorem scover0_B_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).1 S1024x512.size (by sl_kernel_rfl) y

def sout0_B_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).1

theorem scover0_B_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1 S1024x512.size (by sl_kernel_rfl) y

def sout0_B_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.1

theorem scover0_B_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1 S1024x512.size (by sl_kernel_rfl) y

def sout0_B_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : ¬cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_B c i arg3 harg3 arg4 harg4 arg5 harg5 arg6 harg6 arg7 harg7 arg8 harg8 arg9 harg9 arg10 harg10 arg11 harg11 arg12 harg12 hc0 hc1 x0 x1 x2 x3 xs0 xs1 xs2).2.2.1

theorem cover0_C_4 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).1 S1024x512.size (by sl_kernel_rfl) y

def out0_C_4 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).1

theorem cover0_C_5 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1 S1024x512.size (by sl_kernel_rfl) y

def out0_C_5 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.1

theorem cover0_C_6 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1 S1024x512.size (by sl_kernel_rfl) y

def out0_C_6 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .bf16 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.1

theorem scover0_C_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1 S1024x512.size (by sl_kernel_rfl) y

def sout0_C_0 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.1

theorem scover0_C_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1 S1024x512.size (by sl_kernel_rfl) y

def sout0_C_1 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.1

theorem scover0_C_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) (y : S1024x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1 S1024x512.size (by sl_kernel_rfl) y

def sout0_C_2 (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (hc0 : ¬cond0_0 i) (hc1 : cond0_1 i)
    (x0 : Vec F S1024x1024 .f32) (x1 : Vec F S512x1024 .f32) (x2 : Vec F S512x1024 .f32) (x3 : Vec F S512x1024 .bf16) (xs0 : Vec F S1024x512 .f32) (xs1 : Vec F S1024x512 .f32) (xs2 : Vec F S1024x512 .f32) : Vec F S1024x512 .f32 :=
  View.canon (kernelRun0_C c i arg3 harg3 arg4 harg4 arg5 harg5 arg6 harg6 arg7 harg7 arg8 harg8 arg9 harg9 arg10 harg10 arg11 harg11 arg12 harg12 hc0 hc1 x0 x1 x2 x3 xs0 xs1 xs2).2.2.2.2.2.1

/-- Output block 4 where nothing is stored into it: contents nothing reads. -/
def idle0_4 : Vec F S1024x512 .f32 := View.canon ([] : List (View.Piece (Elt F) S1024x512 .f32))
/-- Output block 5 where nothing is stored into it: contents nothing reads. -/
def idle0_5 : Vec F S1024x512 .f32 := View.canon ([] : List (View.Piece (Elt F) S1024x512 .f32))
/-- Output block 6 where nothing is stored into it: contents nothing reads. -/
def idle0_6 : Vec F S1024x512 .bf16 := View.canon ([] : List (View.Piece (Elt F) S1024x512 .bf16))

/-! ## The accumulation over the grid -/

theorem not_last_of_first0 {n : ℕ} (h : n % 4 = 0) : ¬ n % 4 = 3 := by omega

/-- After the body at position `n`: the output blocks, then the accumulators. -/
def outsAt0 (c : Dev nD) : (n : ℕ) → n < cfg0.N → Vec F S1024x512 .f32 × Vec F S1024x512 .f32 × Vec F S1024x512 .bf16 × Vec F S1024x512 .f32 × Vec F S1024x512 .f32 × Vec F S1024x512 .f32
  | 0, hn => (idle0_4,
       idle0_5,
       idle0_6,
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩),
       sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod 4)) (fun h => not_last_of_first0 (Nat.zero_mod 4) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (idle0_4,
       idle0_5,
       idle0_6,
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩),
       sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => not_last_of_first0 h0 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else if h1 : (n + 1) % 4 = 3 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
    else
      (idle0_4,
       idle0_5,
       idle0_6,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2,
       sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 4 = 0) :
    outsAt0 V c t.val t.isLt = (idle0_4,
       idle0_5,
       idle0_6,
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t),
       sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t),
       sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => not_last_of_first0 h0 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0)

theorem outsAt0_B (c : Dev nD) (t : Fin cfg0.N) (h0 : ¬t.val % 4 = 0) (h1 : ¬t.val % 4 = 3) :
    outsAt0 V c t.val t.isLt = (idle0_4,
       idle0_5,
       idle0_6,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2,
       sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2)) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2)) ∗ Rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2.1) ∗ owns (c : Thread nD τ) scM0_2 fullShare ((outsAt0 V c (n - 1) (by omega)).2.2.2.2.2)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the operands' staging buffers hold their blocks; the point's position along the contraction
    axis says which of the three runs applies; the invariant hands over the accumulators (at anything at a first step)
    and takes them back at what the run left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · have hl : ¬cond0_1 (grid0.coords t) := fun h => not_last_of_first0 h0 ((hcond0_1 t).mp h)
    rw [Dat.leavesExact_idle (dat0 V c) 4 t (idleAt0_4 t hl) (noFlush0_4 t hl)]
    rw [Dat.leavesExact_idle (dat0 V c) 5 t (idleAt0_5 t hl) (noFlush0_5 t hl)]
    rw [Dat.leavesExact_idle (dat0 V c) 6 t (idleAt0_6 t hl) (noFlush0_6 t hl)]
    rw [outsAt0_A V c t h0]
    unfold sout0_A_0 sout0_A_1 sout0_A_2; (try dsimp only)
    by_cases hz : t.val = 0
    · rw [PhiS0_castSucc V c t, PhiS0_zero V c _ _ hz, PhiA0_eq]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) hl (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_A_0 _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_A_1 _ _ _ _ _ _ _ _ _ _ _ _ _ _ _ _ _ _ _ _ _ _ _ _ _ _ _ _)
            unfold owns; iexists _; isplitr
            swap; · iexact HS2
            ipureintro; exact View.read_writes_eq_canon _ _ _ (scover0_A_2 _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) hl (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_A_0 _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_A_1 _ _ _ _ _ _ _ _ _ _ _ _ _ _ _ _ _ _ _ _ _ _ _ _ _ _ _ _)
            unfold owns; iexists _; isplitr
            swap; · iexact HS2
            ipureintro; exact View.read_writes_eq_canon _ _ _ (scover0_A_2 _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h1 : t.val % 4 = 3
    ·
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_4 out0_C_5 out0_C_6 sout0_C_0 sout0_C_1 sout0_C_2; (try dsimp only)
      rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_C_0 _ _ _ _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_C_1 _ _ _ _ _ _ _ _ _ _ _ _ _ _ _ _ _ _ _ _ _ _ _ _ _ _ _ _ _ _ _)
            unfold owns; iexists _; isplitr
            swap; · iexact HS2
            ipureintro; exact View.read_writes_eq_canon _ _ _ (scover0_C_2 _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_eq_canon _ _ _ (cover0_C_4 _ _ _ _ _ _ _ _ _ _ _ _ _ _ _ _ _ _ _ _ _ _ _ _ _ _ _ _ _ _ _)
      isplitl [H5]
      · unfold owns; iexists _; isplitr
        swap; · iexact H5
        ipureintro; exact View.read_writes_eq_canon _ _ _ (cover0_C_5 _ _ _ _ _ _ _ _ _ _ _ _ _ _ _ _ _ _ _ _ _ _ _ _ _ _ _ _ _ _ _)
      unfold owns; iexists _; isplitr
      swap; · iexact H6
      ipureintro; exact View.read_writes_eq_canon _ _ _ (cover0_C_6 _ _ _ _ _ _ _ _ _ _ _ _ _ _ _ _ _ _ _ _ _ _ _ _ _ _ _ _ _ _ _)
    · have hl : ¬cond0_1 (grid0.coords t) := fun h => h1 ((hcond0_1 t).mp h)
      rw [Dat.leavesExact_idle (dat0 V c) 4 t (idleAt0_4 t hl) (noFlush0_4 t hl)]
      rw [Dat.leavesExact_idle (dat0 V c) 5 t (idleAt0_5 t hl) (noFlush0_5 t hl)]
      rw [Dat.leavesExact_idle (dat0 V c) 6 t (idleAt0_6 t hl) (noFlush0_6 t hl)]
      rw [outsAt0_B V c t h0 h1]
      unfold sout0_B_0 sout0_B_1 sout0_B_2; (try dsimp only)
      rw [PhiS0_castSucc V c t, PhiS0_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) hl (iblk0 V c 0 t) (iblk0 V c 1 t) (iblk0 V c 2 t) (iblk0 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact View.read_writes_eq_canon _ _ _ (scover0_B_0 _ _ _ _ _ _ _ _ _ _ _ _ _ _ _ _ _ _ _ _ _ _ _ _ _ _ _ _ _ _ _)
            isplitl [HS1]
            · unfold owns; iexists _; isplitr
              swap; · iexact HS1
              ipureintro; exact View.read_writes_eq_canon _ _ _ (scover0_B_1 _ _ _ _ _ _ _ _ _ _ _ _ _ _ _ _ _ _ _ _ _ _ _ _ _ _ _ _ _ _ _)
            unfold owns; iexists _; isplitr
            swap; · iexact HS2
            ipureintro; exact View.read_writes_eq_canon _ _ _ (scover0_B_2 _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.R1Base.lean ====
/-
  The second kernel (the Gram matrix of the two projections over the sequence axis, then a softmax along each row): a [512,4096] accumulator kept in a scratch buffer over the eight steps of the contraction axis. This module fixes the vocabulary of its grid: the block of each operand at a grid point, the two branch
  conditions ("first step of the contraction", "last step") in closed form over the 128 points, where the output blocks
  are left untouched, and the scratch buffers split out of the buffers no operand stages.
-/
import proofs.«133833_j3100966388061_2_alg».proof.Proof.Gen.KernelIdeal.Launch
import proofs.«133833_j3100966388061_2_alg».proof.Proof.Gen.KernelIdeal.Skeleton
import proofs.«133833_j3100966388061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input operand 0's staging buffer holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input operand 1's staging buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "This is the first step of the contraction axis": the accumulators are zeroed here. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last step of the contraction axis": the output blocks are written here. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step nothing is stored into output block 2, and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S1x256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x4096 .bf16 := win1_2.stage (cfg1.slots t 2)
abbrev hs1_2 (t : Fin cfg1.N) : (ms1_2 t).IsWhole := hstage1_2 ((cfg1.slots t 2).cast nbuf1_2)
/-- Accumulator 0, a whole buffer of the kernel's own. -/
abbrev scM1_0 : Memref sig .tc .vmem S512x4096 .f32 := Memref.whole cc1_scratch0

/-- What rides beside the accumulators through the kernel: every other buffer that no operand of this kernel stages. -/
abbrev Rest1 (c : Dev nD) : sProp 𝕄 :=
  Pipeline.scopedRestBut (Ix := Unit) (Name := ℕ) (U := UR sig nD τ) (Lvl := ℕ) (Val := Elt F) spec1 c [cc1_scratch0]

/-- The invariant the launch hands the kernel, with the accumulators named. -/
theorem PhiA1_eq (c : Dev nD) :
    (Pipeline.ΦA spec1 c : sProp 𝕄)
      = iprop(iprop(iprop((∃ d, owns (c : Thread nD τ) scM1_0 fullShare d)) ∗ Rest1 c) ∗ (∃ r, prngReg c r)) := by
  unfold Pipeline.ΦA; rw [scopedRest1_split]; simp only [scM1_0, owns_whole]; try rfl

end Cert.KernelIdeal.Hand

end
-- ==== Proof.R1RunA.lean ====
/-
  The second kernel (the Gram matrix of the two projections over the sequence axis, then a softmax along each row): its body at a first step of the contraction axis: the accumulators, whatever they held, are set to zero and the step's products are added; the output blocks are handed back untouched.
-/
import proofs.«133833_j3100966388061_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_A (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, fun xi2 E K => ?run⟩
  case run =>
    simp only [cc1__gram_softmax_kernel_eq_skeleton]; unfold cc1__gram_softmax_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R1RunB.lean ====
/-
  The second kernel (the Gram matrix of the two projections over the sequence axis, then a softmax along each row): its body at a middle step of the contraction axis: the step's products are added to what the accumulators held; the output blocks are handed back untouched.
-/
import proofs.«133833_j3100966388061_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_B (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, fun xi2 E K => ?run⟩
  case run =>
    simp only [cc1__gram_softmax_kernel_eq_skeleton]; unfold cc1__gram_softmax_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R1RunC.lean ====
/-
  The second kernel (the Gram matrix of the two projections over the sequence axis, then a softmax along each row): its body at a last step of the contraction axis: the step's products are added to what the accumulators held, and the result is stored into the output blocks.
-/
import proofs.«133833_j3100966388061_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun1_C (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) :
    Σ' (L2 : List (View.Piece (Elt F) S1x512x4096 .bf16)), { LS0 : List (View.Piece (Elt F) S512x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__gram_softmax_kernel i arg3 harg3 arg4 harg4 arg5 harg5 arg6 harg6) K } := by
  refine ⟨?_, ?_, fun E K => ?run⟩
  case run =>
    simp only [cc1__gram_softmax_kernel_eq_skeleton]; unfold cc1__gram_softmax_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.R1Frame.lean ====
/-
  The second kernel (the Gram matrix of the two projections over the sequence axis, then a softmax along each row) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.R1RunA
import proofs.«133833_j3100966388061_2_alg».proof.Proof.R1RunB
import proofs.«133833_j3100966388061_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover1_A_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) (y : S512x4096.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S512x4096.size (by sl_kernel_rfl) y

def sout1_A_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) : Vec F S512x4096 .f32 :=
  View.canon (kernelRun1_A c i arg3 harg3 arg4 harg4 arg5 harg5 arg6 harg6 hc0 hc1 x0 x1).1

theorem scover1_B_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) (y : S512x4096.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S512x4096.size (by sl_kernel_rfl) y

def sout1_B_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) : Vec F S512x4096 .f32 :=
  View.canon (kernelRun1_B c i arg3 harg3 arg4 harg4 arg5 harg5 arg6 harg6 hc0 hc1 x0 x1 xs0).1

theorem cover1_C_2 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) (y : S1x512x4096.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1x512x4096.size (by sl_kernel_rfl) y

def out1_C_2 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) : Vec F S1x512x4096 .bf16 :=
  View.canon (kernelRun1_C c i arg3 harg3 arg4 harg4 arg5 harg5 arg6 harg6 hc0 hc1 x0 x1 xs0).1

theorem scover1_C_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) (y : S512x4096.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x4096.size (by sl_kernel_rfl) y

def sout1_C_0 (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) : Vec F S512x4096 .f32 :=
  View.canon (kernelRun1_C c i arg3 harg3 arg4 harg4 arg5 harg5 arg6 harg6 hc0 hc1 x0 x1 xs0).2.1

/-- Output block 2 where nothing is stored into it: contents nothing reads. -/
def idle1_2 : Vec F S1x512x4096 .bf16 := View.canon ([] : List (View.Piece (Elt F) S1x512x4096 .bf16))

/-! ## The accumulation over the grid -/

theorem not_last_of_first1 {n : ℕ} (h : n % 8 = 0) : ¬ n % 8 = 7 := by omega

/-- After the body at position `n`: the output blocks, then the accumulators. -/
def outsAt1 (c : Dev nD) : (n : ℕ) → n < cfg1.N → Vec F S1x512x4096 .bf16 × Vec F S512x4096 .f32
  | 0, hn => (idle1_2,
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod 8)) (fun h => not_last_of_first1 (Nat.zero_mod 8) ((hcond1_1 ⟨0, hn⟩).mp h)) (iblk1 V c 0 ⟨0, hn⟩) (iblk1 V c 1 ⟨0, hn⟩))
  | n + 1, hn =>
    if h0 : (n + 1) % 8 = 0 then
      (idle1_2,
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_last_of_first1 h0 ((hcond1_1 ⟨n + 1, hn⟩).mp h)) (iblk1 V c 0 ⟨n + 1, hn⟩) (iblk1 V c 1 ⟨n + 1, hn⟩))
    else if h1 : (n + 1) % 8 = 7 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (idle1_2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (idle1_2,
       sout1_A_0 c (grid1.coords t) (ms1_0 t) (hs1_0 t) (ms1_1 t) (hs1_1 t) (ms1_2 t) (hs1_2 t) scM1_0 (Memref.isWhole_whole _) ((hcond1_0 t).mpr h0) (fun h => not_last_of_first1 h0 ((hcond1_1 t).mp h)) (iblk1 V c 0 t) (iblk1 V c 1 t)) := by
  obtain ⟨n, hn⟩ := t
  cases n with
  | zero => exact rfl
  | succ n => exact (dif_pos h0)

theorem outsAt1_B (c : Dev nD) (t : Fin cfg1.N) (h0 : ¬t.val % 8 = 0) (h1 : ¬t.val % 8 = 7) :
    outsAt1 V c t.val t.isLt = (idle1_2,
       sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have hl : ¬cond1_1 (grid1.coords t) := fun h => not_last_of_first1 h0 ((hcond1_1 t).mp h)
    rw [Dat.leavesExact_idle (dat1 V c) 2 t (idleAt1_2 t hl) (noFlush1_2 t hl)]
    rw [outsAt1_A V c t h0]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) hl (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A_0 _ _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) hl (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    ·
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover1_C_2 _ _ _ _ _ _ _ _ _ _ _ _ _ _ _)
    · have hl : ¬cond1_1 (grid1.coords t) := fun h => h1 ((hcond1_1 t).mp h)
      rw [Dat.leavesExact_idle (dat1 V c) 2 t (idleAt1_2 t hl) (noFlush1_2 t hl)]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) hl (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover1_B_0 _ _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.R2Base.lean ====
/-
  The third kernel (the third projection times the normalised Gram matrix, then a softmax along each row): a [512,4096] accumulator kept in a scratch buffer over the eight steps of the contraction axis. This module fixes the vocabulary of its grid: the block of each operand at a grid point, the two branch
  conditions ("first step of the contraction", "last step") in closed form over the 64 points, where the output blocks
  are left untouched, and the scratch buffers split out of the buffers no operand stages.
-/
import proofs.«133833_j3100966388061_2_alg».proof.Proof.Gen.KernelIdeal.Launch
import proofs.«133833_j3100966388061_2_alg».proof.Proof.Gen.KernelIdeal.Skeleton
import proofs.«133833_j3100966388061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input operand 0's staging buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input operand 1's staging buffer holds the point's block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- "This is the first step of the contraction axis": the accumulators are zeroed here. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "This is the last step of the contraction axis": the output blocks are written here. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last step nothing is stored into output block 2, and it is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

abbrev ms2_0 (t : Fin cfg2.N) : Memref sig .tc .vmem S1x512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x4096 .bf16 := win2_2.stage (cfg2.slots t 2)
abbrev hs2_2 (t : Fin cfg2.N) : (ms2_2 t).IsWhole := hstage2_2 ((cfg2.slots t 2).cast nbuf2_2)
/-- Accumulator 0, a whole buffer of the kernel's own. -/
abbrev scM2_0 : Memref sig .tc .vmem S512x4096 .f32 := Memref.whole cc2_scratch0

/-- What rides beside the accumulators through the kernel: every other buffer that no operand of this kernel stages. -/
abbrev Rest2 (c : Dev nD) : sProp 𝕄 :=
  Pipeline.scopedRestBut (Ix := Unit) (Name := ℕ) (U := UR sig nD τ) (Lvl := ℕ) (Val := Elt F) spec2 c [cc2_scratch0]

/-- The invariant the launch hands the kernel, with the accumulators named. -/
theorem PhiA2_eq (c : Dev nD) :
    (Pipeline.ΦA spec2 c : sProp 𝕄)
      = iprop(iprop(iprop((∃ d, owns (c : Thread nD τ) scM2_0 fullShare d)) ∗ Rest2 c) ∗ (∃ r, prngReg c r)) := by
  unfold Pipeline.ΦA; rw [scopedRest2_split]; simp only [scM2_0, owns_whole]; try rfl

end Cert.KernelIdeal.Hand

end
-- ==== Proof.R2RunA.lean ====
/-
  The third kernel (the third projection times the normalised Gram matrix, then a softmax along each row): its body at a first step of the contraction axis: the accumulators, whatever they held, are set to zero and the step's products are added; the output blocks are handed back untouched.
-/
import proofs.«133833_j3100966388061_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_A (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, fun xi2 E K => ?run⟩
  case run =>
    simp only [cc2__attn_softmax_kernel_eq_skeleton]; unfold cc2__attn_softmax_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R2RunB.lean ====
/-
  The third kernel (the third projection times the normalised Gram matrix, then a softmax along each row): its body at a middle step of the contraction axis: the step's products are added to what the accumulators held; the output blocks are handed back untouched.
-/
import proofs.«133833_j3100966388061_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_B (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) :
    { LS0 : List (View.Piece (Elt F) S512x4096 .f32) //
      ∀ (xi2 : Vec F S1x512x4096 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, fun xi2 E K => ?run⟩
  case run =>
    simp only [cc2__attn_softmax_kernel_eq_skeleton]; unfold cc2__attn_softmax_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R2RunC.lean ====
/-
  The third kernel (the third projection times the normalised Gram matrix, then a softmax along each row): its body at a last step of the contraction axis: the step's products are added to what the accumulators held, and the result is stored into the output blocks.
-/
import proofs.«133833_j3100966388061_2_alg».proof.Proof.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun2_C (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) :
    Σ' (L2 : List (View.Piece (Elt F) S1x512x4096 .bf16)), { LS0 : List (View.Piece (Elt F) S512x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__attn_softmax_kernel i arg3 harg3 arg4 harg4 arg5 harg5 arg6 harg6) K } := by
  refine ⟨?_, ?_, fun E K => ?run⟩
  case run =>
    simp only [cc2__attn_softmax_kernel_eq_skeleton]; unfold cc2__attn_softmax_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.R2Frame.lean ====
/-
  The third kernel (the third projection times the normalised Gram matrix, then a softmax along each row) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.R2RunA
import proofs.«133833_j3100966388061_2_alg».proof.Proof.R2RunB
import proofs.«133833_j3100966388061_2_alg».proof.Proof.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover2_A_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) (y : S512x4096.Idx) :
    ∃ pc ∈ (kernelRun2_A c i arg3 harg3 arg4 harg4 arg5 harg5 arg6 harg6 hc0 hc1 x0 x1).1, y ∈ pc.1.set :=
  View.cover_of_tiledL (kernelRun2_A c i arg3 harg3 arg4 harg4 arg5 harg5 arg6 harg6 hc0 hc1 x0 x1).1 S512x4096.size (by sl_kernel_rfl) y

def sout2_A_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) : Vec F S512x4096 .f32 :=
  View.canon (kernelRun2_A c i arg3 harg3 arg4 harg4 arg5 harg5 arg6 harg6 hc0 hc1 x0 x1).1

theorem scover2_B_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) (y : S512x4096.Idx) :
    ∃ pc ∈ (kernelRun2_B c i arg3 harg3 arg4 harg4 arg5 harg5 arg6 harg6 hc0 hc1 x0 x1 xs0).1, y ∈ pc.1.set :=
  View.cover_of_tiledL (kernelRun2_B c i arg3 harg3 arg4 harg4 arg5 harg5 arg6 harg6 hc0 hc1 x0 x1 xs0).1 S512x4096.size (by sl_kernel_rfl) y

def sout2_B_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) : Vec F S512x4096 .f32 :=
  View.canon (kernelRun2_B c i arg3 harg3 arg4 harg4 arg5 harg5 arg6 harg6 hc0 hc1 x0 x1 xs0).1

theorem cover2_C_2 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) (y : S1x512x4096.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S1x512x4096.size (by sl_kernel_rfl) y

def out2_C_2 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) : Vec F S1x512x4096 .bf16 :=
  View.canon (kernelRun2_C c i arg3 harg3 arg4 harg4 arg5 harg5 arg6 harg6 hc0 hc1 x0 x1 xs0).1

theorem scover2_C_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) (y : S512x4096.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x4096.size (by sl_kernel_rfl) y

def sout2_C_0 (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) : Vec F S512x4096 .f32 :=
  View.canon (kernelRun2_C c i arg3 harg3 arg4 harg4 arg5 harg5 arg6 harg6 hc0 hc1 x0 x1 xs0).2.1

/-- Output block 2 where nothing is stored into it: contents nothing reads. -/
def idle2_2 : Vec F S1x512x4096 .bf16 := View.canon ([] : List (View.Piece (Elt F) S1x512x4096 .bf16))

/-! ## The accumulation over the grid -/

theorem not_last_of_first2 {n : ℕ} (h : n % 8 = 0) : ¬ n % 8 = 7 := by omega

/-- After the body at position `n`: the output blocks, then the accumulators. -/
def outsAt2 (c : Dev nD) : (n : ℕ) → n < cfg2.N → Vec F S1x512x4096 .bf16 × Vec F S512x4096 .f32
  | 0, hn => (idle2_2,
       sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod 8)) (fun h => not_last_of_first2 (Nat.zero_mod 8) ((hcond2_1 ⟨0, hn⟩).mp h)) (iblk2 V c 0 ⟨0, hn⟩) (iblk2 V c 1 ⟨0, hn⟩))
  | n + 1, hn =>
    if h0 : (n + 1) % 8 = 0 then
      (idle2_2,
       sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => not_last_of_first2 h0 ((hcond2_1 ⟨n + 1, hn⟩).mp h)) (iblk2 V c 0 ⟨n + 1, hn⟩) (iblk2 V c 1 ⟨n + 1, hn⟩))
    else if h1 : (n + 1) % 8 = 7 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
    else
      (idle2_2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) :
    outsAt2 V c t.val t.isLt = (idle2_2,
       sout2_A_0 c (grid2.coords t) (ms2_0 t) (hs2_0 t) (ms2_1 t) (hs2_1 t) (ms2_2 t) (hs2_2 t) scM2_0 (Memref.isWhole_whole _) ((hcond2_0 t).mpr h0) (fun h => not_last_of_first2 h0 ((hcond2_1 t).mp h)) (iblk2 V c 0 t) (iblk2 V c 1 t)) := by
  obtain ⟨n, hn⟩ := t
  cases n with
  | zero => exact rfl
  | succ n => exact (dif_pos h0)

theorem outsAt2_B (c : Dev nD) (t : Fin cfg2.N) (h0 : ¬t.val % 8 = 0) (h1 : ¬t.val % 8 = 7) :
    outsAt2 V c t.val t.isLt = (idle2_2,
       sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have hl : ¬cond2_1 (grid2.coords t) := fun h => not_last_of_first2 h0 ((hcond2_1 t).mp h)
    rw [Dat.leavesExact_idle (dat2 V c) 2 t (idleAt2_2 t hl) (noFlush2_2 t hl)]
    rw [outsAt2_A V c t h0]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hl (iblk2 V c 0 t) (iblk2 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_A_0 _ _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) hl (iblk2 V c 0 t) (iblk2 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    ·
      rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover2_C_2 _ _ _ _ _ _ _ _ _ _ _ _ _ _ _)
    · have hl : ¬cond2_1 (grid2.coords t) := fun h => h1 ((hcond2_1 t).mp h)
      rw [Dat.leavesExact_idle (dat2 V c) 2 t (idleAt2_2 t hl) (noFlush2_2 t hl)]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) hl (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover2_B_0 _ _ _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.R3Base.lean ====
/-
  The fourth kernel (the W4 projection followed by x·σ(x)): a [2048,1024] accumulator kept in a scratch buffer over the four steps of the contraction axis. This module fixes the vocabulary of its grid: the block of each operand at a grid point, the two branch
  conditions ("first step of the contraction", "last step") in closed form over the 32 points, where the output blocks
  are left untouched, and the scratch buffers split out of the buffers no operand stages.
-/
import proofs.«133833_j3100966388061_2_alg».proof.Proof.Gen.KernelIdeal.Launch
import proofs.«133833_j3100966388061_2_alg».proof.Proof.Gen.KernelIdeal.Skeleton
import proofs.«133833_j3100966388061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input operand 0's staging buffer holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input operand 1's staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- "This is the first step of the contraction axis": the accumulators are zeroed here. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "This is the last step of the contraction axis": the output blocks are written here. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last step nothing is stored into output block 2, and it is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1024 .bf16 := win3_2.stage (cfg3.slots t 2)
abbrev hs3_2 (t : Fin cfg3.N) : (ms3_2 t).IsWhole := hstage3_2 ((cfg3.slots t 2).cast nbuf3_2)
/-- Accumulator 0, a whole buffer of the kernel's own. -/
abbrev scM3_0 : Memref sig .tc .vmem S2048x1024 .f32 := Memref.whole cc3_scratch0

/-- What rides beside the accumulators through the kernel: every other buffer that no operand of this kernel stages. -/
abbrev Rest3 (c : Dev nD) : sProp 𝕄 :=
  Pipeline.scopedRestBut (Ix := Unit) (Name := ℕ) (U := UR sig nD τ) (Lvl := ℕ) (Val := Elt F) spec3 c [cc3_scratch0]

/-- The invariant the launch hands the kernel, with the accumulators named. -/
theorem PhiA3_eq (c : Dev nD) :
    (Pipeline.ΦA spec3 c : sProp 𝕄)
      = iprop(iprop(iprop((∃ d, owns (c : Thread nD τ) scM3_0 fullShare d)) ∗ Rest3 c) ∗ (∃ r, prngReg c r)) := by
  unfold Pipeline.ΦA; rw [scopedRest3_split]; simp only [scM3_0, owns_whole]; try rfl

end Cert.KernelIdeal.Hand

end
-- ==== Proof.R3RunA.lean ====
/-
  The fourth kernel (the W4 projection followed by x·σ(x)): its body at a first step of the contraction axis: the accumulators, whatever they held, are set to zero and the step's products are added; the output blocks are handed back untouched.
-/
import proofs.«133833_j3100966388061_2_alg».proof.Proof.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) :
    { LS0 : List (View.Piece (Elt F) S2048x1024 .f32) //
      ∀ (xi2 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, fun xi2 E K => ?run⟩
  case run =>
    simp only [cc3__w4_silu_kernel_eq_skeleton]; unfold cc3__w4_silu_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R3RunB.lean ====
/-
  The fourth kernel (the W4 projection followed by x·σ(x)): its body at a middle step of the contraction axis: the step's products are added to what the accumulators held; the output blocks are handed back untouched.
-/
import proofs.«133833_j3100966388061_2_alg».proof.Proof.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) :
    { LS0 : List (View.Piece (Elt F) S2048x1024 .f32) //
      ∀ (xi2 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, fun xi2 E K => ?run⟩
  case run =>
    simp only [cc3__w4_silu_kernel_eq_skeleton]; unfold cc3__w4_silu_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.R3RunC.lean ====
/-
  The fourth kernel (the W4 projection followed by x·σ(x)): its body at a last step of the contraction axis: the step's products are added to what the accumulators held, and the result is stored into the output blocks.
-/
import proofs.«133833_j3100966388061_2_alg».proof.Proof.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) :
    Σ' (L2 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc3__w4_silu_kernel i arg3 harg3 arg4 harg4 arg5 harg5 arg6 harg6) K } := by
  refine ⟨?_, ?_, fun E K => ?run⟩
  case run =>
    simp only [cc3__w4_silu_kernel_eq_skeleton]; unfold cc3__w4_silu_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.R3Frame.lean ====
/-
  The fourth kernel (the W4 projection followed by x·σ(x)) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.R3RunA
import proofs.«133833_j3100966388061_2_alg».proof.Proof.R3RunB
import proofs.«133833_j3100966388061_2_alg».proof.Proof.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) (y : S2048x1024.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S2048x1024.size (by sl_kernel_rfl) y

def sout3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) : Vec F S2048x1024 .f32 :=
  View.canon (kernelRun3_A c i arg3 harg3 arg4 harg4 arg5 harg5 arg6 harg6 hc0 hc1 x0 x1).1

theorem scover3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) (y : S2048x1024.Idx) :
    ∃ pc ∈ (kernelRun3_B c i arg3 harg3 arg4 harg4 arg5 harg5 arg6 harg6 hc0 hc1 x0 x1 xs0).1, y ∈ pc.1.set :=
  View.cover_of_tiledL (kernelRun3_B c i arg3 harg3 arg4 harg4 arg5 harg5 arg6 harg6 hc0 hc1 x0 x1 xs0).1 S2048x1024.size (by sl_kernel_rfl) y

def sout3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) : Vec F S2048x1024 .f32 :=
  View.canon (kernelRun3_B c i arg3 harg3 arg4 harg4 arg5 harg5 arg6 harg6 hc0 hc1 x0 x1 xs0).1

theorem cover3_C_2 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) (y : S2048x1024.Idx) :
    ∃ pc ∈ (kernelRun3_C c i arg3 harg3 arg4 harg4 arg5 harg5 arg6 harg6 hc0 hc1 x0 x1 xs0).1, y ∈ pc.1.set :=
  View.cover_of_tiledL (kernelRun3_C c i arg3 harg3 arg4 harg4 arg5 harg5 arg6 harg6 hc0 hc1 x0 x1 xs0).1 S2048x1024.size (by sl_kernel_rfl) y

def out3_C_2 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) : Vec F S2048x1024 .bf16 :=
  View.canon (kernelRun3_C c i arg3 harg3 arg4 harg4 arg5 harg5 arg6 harg6 hc0 hc1 x0 x1 xs0).1

theorem scover3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) (y : S2048x1024.Idx) :
    ∃ pc ∈ (kernelRun3_C c i arg3 harg3 arg4 harg4 arg5 harg5 arg6 harg6 hc0 hc1 x0 x1 xs0).2.1, y ∈ pc.1.set :=
  View.cover_of_tiledL (kernelRun3_C c i arg3 harg3 arg4 harg4 arg5 harg5 arg6 harg6 hc0 hc1 x0 x1 xs0).2.1 S2048x1024.size (by sl_kernel_rfl) y

def sout3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) : Vec F S2048x1024 .f32 :=
  View.canon (kernelRun3_C c i arg3 harg3 arg4 harg4 arg5 harg5 arg6 harg6 hc0 hc1 x0 x1 xs0).2.1

/-- Output block 2 where nothing is stored into it: contents nothing reads. -/
def idle3_2 : Vec F S2048x1024 .bf16 := View.canon ([] : List (View.Piece (Elt F) S2048x1024 .bf16))

/-! ## The accumulation over the grid -/

theorem not_last_of_first3 {n : ℕ} (h : n % 4 = 0) : ¬ n % 4 = 3 := by omega

/-- After the body at position `n`: the output blocks, then the accumulators. -/
def outsAt3 (c : Dev nD) : (n : ℕ) → n < cfg3.N → Vec F S2048x1024 .bf16 × Vec F S2048x1024 .f32
  | 0, hn => (idle3_2,
       sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod 4)) (fun h => not_last_of_first3 (Nat.zero_mod 4) ((hcond3_1 ⟨0, hn⟩).mp h)) (iblk3 V c 0 ⟨0, hn⟩) (iblk3 V c 1 ⟨0, hn⟩))
  | n + 1, hn =>
    if h0 : (n + 1) % 4 = 0 then
      (idle3_2,
       sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => not_last_of_first3 h0 ((hcond3_1 ⟨n + 1, hn⟩).mp h)) (iblk3 V c 0 ⟨n + 1, hn⟩) (iblk3 V c 1 ⟨n + 1, hn⟩))
    else if h1 : (n + 1) % 4 = 3 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
    else
      (idle3_2,
       sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) :
    outsAt3 V c t.val t.isLt = (idle3_2,
       sout3_A_0 c (grid3.coords t) (ms3_0 t) (hs3_0 t) (ms3_1 t) (hs3_1 t) (ms3_2 t) (hs3_2 t) scM3_0 (Memref.isWhole_whole _) ((hcond3_0 t).mpr h0) (fun h => not_last_of_first3 h0 ((hcond3_1 t).mp h)) (iblk3 V c 0 t) (iblk3 V c 1 t)) := by
  obtain ⟨n, hn⟩ := t
  cases n with
  | zero => exact rfl
  | succ n => exact (dif_pos h0)

theorem outsAt3_B (c : Dev nD) (t : Fin cfg3.N) (h0 : ¬t.val % 4 = 0) (h1 : ¬t.val % 4 = 3) :
    outsAt3 V c t.val t.isLt = (idle3_2,
       sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2,
       sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2)) ∗ Rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Rest3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the operands' staging buffers hold their blocks; the point's position along the contraction
    axis says which of the three runs applies; the invariant hands over the accumulators (at anything at a first step)
    and takes them back at what the run left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val % 4 = 0
  · have hl : ¬cond3_1 (grid3.coords t) := fun h => not_last_of_first3 h0 ((hcond3_1 t).mp h)
    rw [Dat.leavesExact_idle (dat3 V c) 2 t (idleAt3_2 t hl) (noFlush3_2 t hl)]
    rw [outsAt3_A V c t h0]
    unfold sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hl (iblk3 V c 0 t) (iblk3 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_A_0 _ _ _ _ _ _ _ _ _ _ _ _ _ _)
          iexact HR
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_A c (grid3.coords t) _ _ _ _ _ _ _ _ ((hcond3_0 t).mpr h0) hl (iblk3 V c 0 t) (iblk3 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_A_0 _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    ·
      rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_C_0 _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_eq_canon _ _ _ (cover3_C_2 _ _ _ _ _ _ _ _ _ _ _ _ _ _ _)
    · have hl : ¬cond3_1 (grid3.coords t) := fun h => h1 ((hcond3_1 t).mp h)
      rw [Dat.leavesExact_idle (dat3 V c) 2 t (idleAt3_2 t hl) (noFlush3_2 t hl)]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) hl (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_eq_canon _ _ _ (scover3_B_0 _ _ _ _ _ _ _ _ _ _ _ _ _ _ _)
          iexact HR
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Hand

end
-- ==== Proof.R4Base.lean ====
/-
  The fifth kernel (the input rows plus the fourth kernel's result, projected by W5): a [1024,1024] accumulator kept in a scratch buffer over the four steps of the contraction axis. This module fixes the vocabulary of its grid: the block of each operand at a grid point, the two branch
  conditions ("first step of the contraction", "last step") in closed form over the 64 points, where the output blocks
  are left untouched, and the scratch buffers split out of the buffers no operand stages.
-/
import proofs.«133833_j3100966388061_2_alg».proof.Proof.Gen.KernelIdeal.Launch
import proofs.«133833_j3100966388061_2_alg».proof.Proof.Gen.KernelIdeal.Skeleton
import proofs.«133833_j3100966388061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s block at grid point `t`, read off its array as the kernel finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input operand 0's staging buffer holds the point's block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input operand 1's staging buffer holds the point's block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input operand 2's staging buffer holds the point's block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- "This is the first step of the contraction axis": the accumulators are zeroed here. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- "This is the last step of the contraction axis": the output blocks are written here. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last step nothing is stored into output block 3, and it is not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1024 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- Accumulator 0, a whole buffer of the kernel's own. -/
abbrev scM4_0 : Memref sig .tc .vmem S1024x1024 .f32 := Memref.whole cc4_scratch0

/-- What rides beside the accumulators through the kernel: every other buffer that no operand of this kernel stages. -/
abbrev Rest4 (c : Dev nD) : sProp 𝕄 :=
  Pipeline.scopedRestBut (Ix := Unit) (Name := ℕ) (U := UR sig nD τ) (Lvl := ℕ) (Val := Elt F) spec4 c [cc4_scratch0]

/-- The invariant the launch hands the kernel, with the accumulators named. -/
theorem PhiA4_eq (c : Dev nD) :
    (Pipeline.ΦA spec4 c : sProp 𝕄)
      = iprop(iprop(iprop((∃ d, owns (c : Thread nD τ) scM4_0 fullShare d)) ∗ Rest4 c) ∗ (∃ r, prngReg c r)) := by
  unfold Pipeline.ΦA; rw [scopedRest4_split]; simp only [scM4_0, owns_whole]; try rfl

end Cert.KernelIdeal.Hand

end
-- ==== Proof.R4RunA.lean ====
/-
  The fifth kernel (the input rows plus the fourth kernel's result, projected by W5): its body at a first step of the contraction axis: the accumulators, whatever they held, are set to zero and the step's products are added; the output blocks are handed back untouched.
-/
import proofs.«133833_j3100966388061_2_alg».proof.Proof.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_A (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, fun xi3 E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R4RunB.lean ====
/-
  The fifth kernel (the input rows plus the fourth kernel's result, projected by W5): its body at a middle step of the contraction axis: the step's products are added to what the accumulators held; the output blocks are handed back untouched.
-/
import proofs.«133833_j3100966388061_2_alg».proof.Proof.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_B (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, fun xi3 E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R4RunC.lean ====
/-
  The fifth kernel (the input rows plus the fourth kernel's result, projected by W5): its body at a last step of the contraction axis: the step's products are added to what the accumulators held, and the result is stored into the output blocks.
-/
import proofs.«133833_j3100966388061_2_alg».proof.Proof.R4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves at such a step, with the proof that the body runs. -/
noncomputable def kernelRun4_C (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__w5_resid_kernel i arg3 harg3 arg4 harg4 arg5 harg5 arg6 harg6 arg7 harg7) K } := by
  refine ⟨?_, ?_, fun E K => ?run⟩
  case run =>
    simp only [cc4__w5_resid_kernel_eq_skeleton]; unfold cc4__w5_resid_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R4Frame.lean ====
/-
  The fifth kernel (the input rows plus the fourth kernel's result, projected by W5) over its whole grid. After the body at a point each accumulator holds, at a first step of the
  contraction axis, the step's product added to zero; at a later step, the step's product added to what the point before
  left. The output blocks are stored at a last step only and written back there. From this the kernel's proof data: every
  operand's block after each point, the invariant carrying the accumulators from point to point, and the obligation that
  the body, run at any point, re-establishes it.
-/
import proofs.«133833_j3100966388061_2_alg».proof.Proof.R4RunA
import proofs.«133833_j3100966388061_2_alg».proof.Proof.R4RunB
import proofs.«133833_j3100966388061_2_alg».proof.Proof.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

theorem scover4_A_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) (y : S1024x1024.Idx) :
    ∃ pc ∈ (kernelRun4_A c i arg3 harg3 arg4 harg4 arg5 harg5 arg6 harg6 arg7 harg7 hc0 hc1 x0 x1 x2).1, y ∈ pc.1.set :=
  View.cover_of_tiledL (kernelRun4_A c i arg3 harg3 arg4 harg4 arg5 harg5 arg6 harg6 arg7 harg7 hc0 hc1 x0 x1 x2).1 S1024x1024.size (by sl_kernel_rfl) y

def sout4_A_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) : Vec F S1024x1024 .f32 :=
  View.canon (kernelRun4_A c i arg3 harg3 arg4 harg4 arg5 harg5 arg6 harg6 arg7 harg7 hc0 hc1 x0 x1 x2).1

theorem scover4_B_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_B c i arg3 harg3 arg4 harg4 arg5 harg5 arg6 harg6 arg7 harg7 hc0 hc1 x0 x1 x2 xs0).1, y ∈ pc.1.set :=
  View.cover_of_tiledL (kernelRun4_B c i arg3 harg3 arg4 harg4 arg5 harg5 arg6 harg6 arg7 harg7 hc0 hc1 x0 x1 x2 xs0).1 S1024x1024.size (by sl_kernel_rfl) y

def sout4_B_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_B c i arg3 harg3 arg4 harg4 arg5 harg5 arg6 harg6 arg7 harg7 hc0 hc1 x0 x1 x2 xs0).1

theorem cover4_C_3 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S1024x1024.size (by sl_kernel_rfl) y

def out4_C_3 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_C c i arg3 harg3 arg4 harg4 arg5 harg5 arg6 harg6 arg7 harg7 hc0 hc1 x0 x1 x2 xs0).1

theorem scover4_C_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) (y : S1024x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S1024x1024.size (by sl_kernel_rfl) y

def sout4_C_0 (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) : Vec F S1024x1024 .f32 :=
  View.canon (kernelRun4_C c i arg3 harg3 arg4 harg4 arg5 harg5 arg6 harg6 arg7 harg7 hc0 hc1 x0 x1 x2 xs0).2.1

/-- Output block 3 where nothing is stored into it: contents nothing reads. -/
def idle4_3 : Vec F S1024x1024 .f32 := View.canon ([] : List (View.Piece (Elt F) S1024x1024 .f32))

/-! ## The accumulation over the grid -/

theorem not_last_of_first4 {n : ℕ} (h : n % 4 = 0) : ¬ n % 4 = 3 := by omega

/-- After the body at position `n`: the output blocks, then the accumulators. -/
def outsAt4 (c : Dev nD) : (n : ℕ) → n < cfg4.N → Vec F S1024x1024 .f32 × Vec F S1024x1024 .f32
  | 0, hn => (idle4_3,
       sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod 4)) (fun h => not_last_of_first4 (Nat.zero_mod 4) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      (idle4_3,
       sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => not_last_of_first4 h0 ((hcond4_1 ⟨n + 1, hn⟩).mp h)) (iblk4 V c 0 ⟨n + 1, hn⟩) (iblk4 V c 1 ⟨n + 1, hn⟩) (iblk4 V c 2 ⟨n + 1, hn⟩))
    else if h1 : (n + 1) % 4 = 3 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
    else
      (idle4_3,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 4 = 0) :
    outsAt4 V c t.val t.isLt = (idle4_3,
       sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => not_last_of_first4 h0 ((hcond4_1 t).mp h)) (iblk4 V c 0 t) (iblk4 V c 1 t) (iblk4 V c 2 t)) := by
  obtain ⟨n, hn⟩ := t
  cases n with
  | zero => exact rfl
  | succ n => exact (dif_pos h0)

theorem outsAt4_B (c : Dev nD) (t : Fin cfg4.N) (h0 : ¬t.val % 4 = 0) (h1 : ¬t.val % 4 = 3) :
    outsAt4 V c t.val t.isLt = (idle4_3,
       sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
       sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-! ## The invariant -/

/-- Before position `n`: at the start what the launch hands over; afterwards the accumulators at what the point before
    left, the other buffers and the generator register riding along. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Rest4 c) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the operands' staging buffers hold their blocks; the point's position along the contraction
    axis says which of the three runs applies; the invariant hands over the accumulators (at anything at a first step)
    and takes them back at what the run left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 4 = 0
  · have hl : ¬cond4_1 (grid4.coords t) := fun h => not_last_of_first4 h0 ((hcond4_1 t).mp h)
    rw [Dat.leavesExact_idle (dat4 V c) 3 t (idleAt4_3 t hl) (noFlush4_3 t hl)]
    rw [outsAt4_A V c t h0]
    unfold sout4_A_0; (try dsimp only)
    by_cases hz : t.val = 0
    · rw [PhiS4_castSucc V c t, PhiS4_zero V c _ _ hz, PhiA4_eq]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) hl (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_A_0 _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) hl (iblk4 V c 0 t) (iblk4 V c 1 t) (iblk4 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_A_0 _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    ·
      rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_C_0 _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover4_C_3 _ _ _ _ _ _ _ _ _ _ _ _ _ _ _ _ _ _)
    · have hl : ¬cond4_1 (grid4.coords t) := fun h => h1 ((hcond4_1 t).mp h)
      rw [Dat.leavesExact_idle (dat4 V c) 3 t (idleAt4_3 t hl) (noFlush4_3 t hl)]
      rw [outsAt4_B V c t h0 h1]
      unfold sout4_B_0; (try dsimp only)
      rw [PhiS4_castSucc V c t, PhiS4_pos V c _ _ hz]
      iintro ⟨⟨⟨HS0, HR⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) hl (iblk4 V c 0 t) (iblk4 V c 1 t) (iblk4 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_eq_canon _ _ _ (scover4_B_0 _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 64 := N_4; omega)

end Cert.KernelIdeal.Hand

end
-- ==== Proof.RunAll.lean ====
/-
  The five kernels and the host steps between them as one run. The contents of every array between two consecutive
  items are named in order: the launch memory, then after each stretch of host steps the steps applied, then after each
  kernel its operand arrays at what its grid leaves (the inputs unchanged, each output's write-backs folded in) and every
  other array as it was. Each kernel's region is entered from the state before it and left at the state after it; the
  last state is read against the final memory.
-/
import proofs.«133833_j3100966388061_2_alg».proof.Proof.R0Frame
import proofs.«133833_j3100966388061_2_alg».proof.Proof.R1Frame
import proofs.«133833_j3100966388061_2_alg».proof.Proof.R2Frame
import proofs.«133833_j3100966388061_2_alg».proof.Proof.R3Frame
import proofs.«133833_j3100966388061_2_alg».proof.Proof.R4Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at each boundary -/

abbrev Wt0 : Dev nD → Valuation τ sig (Elt F) := fun c b => (⟨m, fun _ => 0, ρ⟩ : MemSt nD τ sig (Elt F)).mem ((c : Dev nD), b)
/-- After the host steps `hostOps0`. -/
abbrev Wt1 : Dev nD → Valuation τ sig (Elt F) := fun c => StableHlo.after hostOps0 (Wt0 m ρ c)
abbrev Vt1 : (c : Dev nD) → (b : Ref sig .tc) → Buf (Elt F) ((c : Thread nD τ).loc b) := fun c b => Wt1 m ρ c b
/-- After kernel 0: its operand arrays at what its grid leaves, every other array as entered. -/
def Wt2 (c : Dev nD) : Valuation τ sig (Elt F) :=
  Pipeline.withArrays spec0 c (Wt1 m ρ c) fun w => (dat0 (Vt1 m ρ) c).arrAt w cfg0.N
theorem Wt2_arr (c : Dev nD) (w : Fin cfg0.W) :
    Wt2 m ρ c (Proc.devRef .tc (Pipeline.arrRef spec0 w)) = (dat0 (Vt1 m ρ) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m ρ c (Proc.devRef .tc b) = Wt1 m ρ c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m ρ c b
theorem hF0 (c : Dev nD) (w : Fin cfg0.W) : (dat0 (Vt1 m ρ) c).arrAt w cfg0.N = Vt2 m ρ c (Pipeline.arrRef spec0 w) :=
  (Wt2_arr m ρ c w).symm
theorem hrest0 (c : Dev nD) : ∀ b, b ∉ Finset.univ.image (Pipeline.arrRef spec0) → Vt2 m ρ c b = Vt1 m ρ c b :=
  fun b hb => Wt2_of_ne m ρ c b fun w e => hb (Finset.mem_image.mpr ⟨w, Finset.mem_univ _, e⟩)
/-- After the host steps `hostOps1`. -/
abbrev Wt3 : Dev nD → Valuation τ sig (Elt F) := fun c => StableHlo.after hostOps1 (Wt2 m ρ c)
abbrev Vt3 : (c : Dev nD) → (b : Ref sig .tc) → Buf (Elt F) ((c : Thread nD τ).loc b) := fun c b => Wt3 m ρ c b
/-- After kernel 1: its operand arrays at what its grid leaves, every other array as entered. -/
def Wt4 (c : Dev nD) : Valuation τ sig (Elt F) :=
  Pipeline.withArrays spec1 c (Wt3 m ρ c) fun w => (dat1 (Vt3 m ρ) c).arrAt w cfg1.N
theorem Wt4_arr (c : Dev nD) (w : Fin cfg1.W) :
    Wt4 m ρ c (Proc.devRef .tc (Pipeline.arrRef spec1 w)) = (dat1 (Vt3 m ρ) c).arrAt w cfg1.N := by
  unfold Wt4; exact Pipeline.withArrays_arr spec1 launch1.win.arr_inj c _ _ w
theorem Wt4_of_ne (c : Dev nD) (b : Ref sig .tc) (hb : ∀ w, Pipeline.arrRef spec1 w ≠ b) :
    Wt4 m ρ c (Proc.devRef .tc b) = Wt3 m ρ c (Proc.devRef .tc b) := by
  unfold Wt4; exact Pipeline.withArrays_of_ne spec1 c _ _ b hb
abbrev Vt4 : (c : Dev nD) → (b : Ref sig .tc) → Buf (Elt F) ((c : Thread nD τ).loc b) := fun c b => Wt4 m ρ c b
theorem hF1 (c : Dev nD) (w : Fin cfg1.W) : (dat1 (Vt3 m ρ) c).arrAt w cfg1.N = Vt4 m ρ c (Pipeline.arrRef spec1 w) :=
  (Wt4_arr m ρ c w).symm
theorem hrest1 (c : Dev nD) : ∀ b, b ∉ Finset.univ.image (Pipeline.arrRef spec1) → Vt4 m ρ c b = Vt3 m ρ c b :=
  fun b hb => Wt4_of_ne m ρ c b fun w e => hb (Finset.mem_image.mpr ⟨w, Finset.mem_univ _, e⟩)
/-- After kernel 2: its operand arrays at what its grid leaves, every other array as entered. -/
def Wt5 (c : Dev nD) : Valuation τ sig (Elt F) :=
  Pipeline.withArrays spec2 c (Wt4 m ρ c) fun w => (dat2 (Vt4 m ρ) c).arrAt w cfg2.N
theorem Wt5_arr (c : Dev nD) (w : Fin cfg2.W) :
    Wt5 m ρ c (Proc.devRef .tc (Pipeline.arrRef spec2 w)) = (dat2 (Vt4 m ρ) c).arrAt w cfg2.N := by
  unfold Wt5; exact Pipeline.withArrays_arr spec2 launch2.win.arr_inj c _ _ w
theorem Wt5_of_ne (c : Dev nD) (b : Ref sig .tc) (hb : ∀ w, Pipeline.arrRef spec2 w ≠ b) :
    Wt5 m ρ c (Proc.devRef .tc b) = Wt4 m ρ c (Proc.devRef .tc b) := by
  unfold Wt5; exact Pipeline.withArrays_of_ne spec2 c _ _ b hb
abbrev Vt5 : (c : Dev nD) → (b : Ref sig .tc) → Buf (Elt F) ((c : Thread nD τ).loc b) := fun c b => Wt5 m ρ c b
theorem hF2 (c : Dev nD) (w : Fin cfg2.W) : (dat2 (Vt4 m ρ) c).arrAt w cfg2.N = Vt5 m ρ c (Pipeline.arrRef spec2 w) :=
  (Wt5_arr m ρ c w).symm
theorem hrest2 (c : Dev nD) : ∀ b, b ∉ Finset.univ.image (Pipeline.arrRef spec2) → Vt5 m ρ c b = Vt4 m ρ c b :=
  fun b hb => Wt5_of_ne m ρ c b fun w e => hb (Finset.mem_image.mpr ⟨w, Finset.mem_univ _, e⟩)
/-- After the host steps `hostOps3`. -/
abbrev Wt6 : Dev nD → Valuation τ sig (Elt F) := fun c => StableHlo.after hostOps3 (Wt5 m ρ c)
abbrev Vt6 : (c : Dev nD) → (b : Ref sig .tc) → Buf (Elt F) ((c : Thread nD τ).loc b) := fun c b => Wt6 m ρ c b
/-- After kernel 3: its operand arrays at what its grid leaves, every other array as entered. -/
def Wt7 (c : Dev nD) : Valuation τ sig (Elt F) :=
  Pipeline.withArrays spec3 c (Wt6 m ρ c) fun w => (dat3 (Vt6 m ρ) c).arrAt w cfg3.N
theorem Wt7_arr (c : Dev nD) (w : Fin cfg3.W) :
    Wt7 m ρ c (Proc.devRef .tc (Pipeline.arrRef spec3 w)) = (dat3 (Vt6 m ρ) c).arrAt w cfg3.N := by
  unfold Wt7; exact Pipeline.withArrays_arr spec3 launch3.win.arr_inj c _ _ w
theorem Wt7_of_ne (c : Dev nD) (b : Ref sig .tc) (hb : ∀ w, Pipeline.arrRef spec3 w ≠ b) :
    Wt7 m ρ c (Proc.devRef .tc b) = Wt6 m ρ c (Proc.devRef .tc b) := by
  unfold Wt7; exact Pipeline.withArrays_of_ne spec3 c _ _ b hb
abbrev Vt7 : (c : Dev nD) → (b : Ref sig .tc) → Buf (Elt F) ((c : Thread nD τ).loc b) := fun c b => Wt7 m ρ c b
theorem hF3 (c : Dev nD) (w : Fin cfg3.W) : (dat3 (Vt6 m ρ) c).arrAt w cfg3.N = Vt7 m ρ c (Pipeline.arrRef spec3 w) :=
  (Wt7_arr m ρ c w).symm
theorem hrest3 (c : Dev nD) : ∀ b, b ∉ Finset.univ.image (Pipeline.arrRef spec3) → Vt7 m ρ c b = Vt6 m ρ c b :=
  fun b hb => Wt7_of_ne m ρ c b fun w e => hb (Finset.mem_image.mpr ⟨w, Finset.mem_univ _, e⟩)
/-- After kernel 4: its operand arrays at what its grid leaves, every other array as entered. -/
def Wt8 (c : Dev nD) : Valuation τ sig (Elt F) :=
  Pipeline.withArrays spec4 c (Wt7 m ρ c) fun w => (dat4 (Vt7 m ρ) c).arrAt w cfg4.N
theorem Wt8_arr (c : Dev nD) (w : Fin cfg4.W) :
    Wt8 m ρ c (Proc.devRef .tc (Pipeline.arrRef spec4 w)) = (dat4 (Vt7 m ρ) c).arrAt w cfg4.N := by
  unfold Wt8; exact Pipeline.withArrays_arr spec4 launch4.win.arr_inj c _ _ w
theorem Wt8_of_ne (c : Dev nD) (b : Ref sig .tc) (hb : ∀ w, Pipeline.arrRef spec4 w ≠ b) :
    Wt8 m ρ c (Proc.devRef .tc b) = Wt7 m ρ c (Proc.devRef .tc b) := by
  unfold Wt8; exact Pipeline.withArrays_of_ne spec4 c _ _ b hb
abbrev Vt8 : (c : Dev nD) → (b : Ref sig .tc) → Buf (Elt F) ((c : Thread nD τ).loc b) := fun c b => Wt8 m ρ c b
theorem hF4 (c : Dev nD) (w : Fin cfg4.W) : (dat4 (Vt7 m ρ) c).arrAt w cfg4.N = Vt8 m ρ c (Pipeline.arrRef spec4 w) :=
  (Wt8_arr m ρ c w).symm
theorem hrest4 (c : Dev nD) : ∀ b, b ∉ Finset.univ.image (Pipeline.arrRef spec4) → Vt8 m ρ c b = Vt7 m ρ c b :=
  fun b hb => Wt8_of_ne m ρ c b fun w e => hb (Finset.mem_image.mpr ⟨w, Finset.mem_univ _, e⟩)
/-- After the host steps `hostOps5`. -/
abbrev Wt9 : Dev nD → Valuation τ sig (Elt F) := fun c => StableHlo.after hostOps5 (Wt8 m ρ c)
abbrev Vt9 : (c : Dev nD) → (b : Ref sig .tc) → Buf (Elt F) ((c : Thread nD τ).loc b) := fun c b => Wt9 m ρ c b

/-! ## The proof data family and the thread state -/

abbrev admH : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) admH p) c
  | ⟨0, _⟩ => fun c => dat0 (Vt1 m ρ) c
  | ⟨1, _⟩ => fun c => dat1 (Vt3 m ρ) c
  | ⟨2, _⟩ => fun c => dat2 (Vt4 m ρ) c
  | ⟨3, _⟩ => fun c => dat3 (Vt6 m ρ) c
  | ⟨4, _⟩ => fun c => dat4 (Vt7 m ρ) c
abbrev 𝒱H : Variants := Variants.none
abbrev LH : GSem nD τ sig → Finset Unit := fun _ => ∅
abbrev lvH : GSem nD τ sig → Unit → ℕ := fun _ _ => 0
/-- What rides beside the arrays through every item: the generator register at some state and the core owing nothing. -/
abbrev RH (c : Dev nD) : sProp 𝕄 := iprop((∃ r, prngReg c r) ∗ ∃ W, owes (c : Thread nD τ) (0 : CellTallies nD τ sig Unit) W)
/-- At the end only the core owing nothing rides along. -/
abbrev RE (c : Dev nD) : sProp 𝕄 := iprop(∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) (RR : Dev nD → sProp 𝕄) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem hostOps5_freshH : (hostOps5 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := StableHlo.held (c : Thread nD τ) (Pipeline.ucRefs τ sig) (Wt9 m ρ c)

/-! ## The kernels as regions -/

set_option backward.isDefEq.respectTransparency.types false in
/-- Kernel 0's region: entered with every array at the contents before it, left with them at the contents after it. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ LH lvH 0 fun _ _ => rfl
  pre c := iprop(StableHlo.held (c : Thread nD τ) (Pipeline.ucRefs τ sig) (Wt1 m ρ c) ∗ RH c)
  post c := iprop(StableHlo.held (c : Thread nD τ) (Pipeline.ucRefs τ sig) (Wt2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vt1 m ρ) c
    unfold Pipeline.ΦA at h
    rw [show (pdats m ρ 0 c).Φ 0 = (dat0 (Vt1 m ρ) c).Φ 0 from rfl]
    iintro ⟨Hp, -, Hr⟩
    iapply h
    isplitl [Hr]; · iexact Hr
    iexact Hp
  hout c := by
    have h := hout0 (Vt1 m ρ) c
    unfold Pipeline.ΦA at h
    rw [Pipeline.ownSems0_none, show (pdats m ρ 0 c).Φ (Fin.last _) = (dat0 (Vt1 m ρ) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1's region: entered with every array at the contents before it, left with them at the contents after it. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ LH lvH 1 fun _ _ => rfl
  pre c := iprop(StableHlo.held (c : Thread nD τ) (Pipeline.ucRefs τ sig) (Wt3 m ρ c) ∗ RH c)
  post c := iprop(StableHlo.held (c : Thread nD τ) (Pipeline.ucRefs τ sig) (Wt4 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vt3 m ρ) c
    unfold Pipeline.ΦA at h
    rw [show (pdats m ρ 1 c).Φ 0 = (dat1 (Vt3 m ρ) c).Φ 0 from rfl]
    iintro ⟨Hp, -, Hr⟩
    iapply h
    isplitl [Hr]; · iexact Hr
    iexact Hp
  hout c := by
    have h := hout1 (Vt3 m ρ) c
    unfold Pipeline.ΦA at h
    rw [Pipeline.ownSems0_none, show (pdats m ρ 1 c).Φ (Fin.last _) = (dat1 (Vt3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2's region: entered with every array at the contents before it, left with them at the contents after it. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vt4 m ρ) c).loose
  hwaits := Pipeline.hwaits_of_owed_zero _ _ _ _ LH lvH 2 fun _ _ => rfl
  pre c := iprop(StableHlo.held (c : Thread nD τ) (Pipeline.ucRefs τ sig) (Wt4 m ρ c) ∗ RH c)
  post c := iprop(StableHlo.held (c : Thread nD τ) (Pipeline.ucRefs τ sig) (Wt5 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vt4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (Vt4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vt4 m ρ) c
    unfold Pipeline.ΦA at h
    rw [show (pdats m ρ 2 c).Φ 0 = (dat2 (Vt4 m ρ) c).Φ 0 from rfl]
    iintro ⟨Hp, -, Hr⟩
    iapply h
    isplitl [Hr]; · iexact Hr
    iexact Hp
  hout c := by
    have h := hout2 (Vt4 m ρ) c
    unfold Pipeline.ΦA at h
    rw [Pipeline.ownSems0_none, show (pdats m ρ 2 c).Φ (Fin.last _) = (dat2 (Vt4 m ρ) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (Vt4 m ρ c) (Vt5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 3's region: entered with every array at the contents before it, left with them at the contents after it. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vt6 m ρ) c).loose
  hwaits := Pipeline.hwaits_of_owed_zero _ _ _ _ LH lvH 3 fun _ _ => rfl
  pre c := iprop(StableHlo.held (c : Thread nD τ) (Pipeline.ucRefs τ sig) (Wt6 m ρ c) ∗ RH c)
  post c := iprop(StableHlo.held (c : Thread nD τ) (Pipeline.ucRefs τ sig) (Wt7 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vt6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (Vt6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (Vt6 m ρ) c
    unfold Pipeline.ΦA at h
    rw [show (pdats m ρ 3 c).Φ 0 = (dat3 (Vt6 m ρ) c).Φ 0 from rfl]
    iintro ⟨Hp, -, Hr⟩
    iapply h
    isplitl [Hr]; · iexact Hr
    iexact Hp
  hout c := by
    have h := hout3 (Vt6 m ρ) c
    unfold Pipeline.ΦA at h
    rw [Pipeline.ownSems0_none, show (pdats m ρ 3 c).Φ (Fin.last _) = (dat3 (Vt6 m ρ) c).Φ (Fin.last cfg3.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (Vt6 m ρ c) (Vt7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 4's region: entered with every array at the contents before it, left with them at the contents after it. -/
def reg4 : Pipeline.RegionSeg (pcfgs (F := F)) admH (pdats m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vt7 m ρ) c).loose
  hwaits := Pipeline.hwaits_of_owed_zero _ _ _ _ LH lvH 4 fun _ _ => rfl
  pre c := iprop(StableHlo.held (c : Thread nD τ) (Pipeline.ucRefs τ sig) (Wt7 m ρ c) ∗ RH c)
  post c := iprop(StableHlo.held (c : Thread nD τ) (Pipeline.ucRefs τ sig) (Wt8 m ρ c) ∗ RE c)
  X c := iprop(∃ r, prngReg c r)
  Y c := iprop(∃ r, prngReg c r)
  Z c := Pipeline.unscopedRest (Ix := Unit) (Name := ℕ) (U := UR sig nD τ) (Lvl := ℕ) spec4 c (Vt7 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (Vt7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (Vt7 m ρ) c
    unfold Pipeline.ΦA at h
    rw [show (pdats m ρ 4 c).Φ 0 = (dat4 (Vt7 m ρ) c).Φ 0 from rfl]
    iintro ⟨Hp, -, Hr⟩
    iapply h
    isplitl [Hr]; · iexact Hr
    iexact Hp
  hout c := by
    have h := hout4 (Vt7 m ρ) c
    unfold Pipeline.ΦA at h
    rw [Pipeline.ownSems0_none, show (pdats m ρ 4 c).Φ (Fin.last _) = (dat4 (Vt7 m ρ) c).Φ (Fin.last cfg4.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (Vt7 m ρ c) (Vt8 m ρ c) ((pdats m ρ 4 c).arrAt · cfg4.N) (hF4 m ρ c) (hrest4 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The whole run -/

abbrev segsH : List (Pipeline.Seg (pcfgs (F := F)) admH (pdats m ρ) () defs₀ 𝒱H LH lvH) :=
  [ .host (hsegH hostOps0 hostOps0_sub hostOps0_freshH (Wt0 m ρ) RH),
    .region (reg0 m ρ),
    .host (hsegH hostOps1 hostOps1_sub hostOps1_freshH (Wt2 m ρ) RH),
    .region (reg1 m ρ),
    .region (reg2 m ρ),
    .host (hsegH hostOps3 hostOps3_sub hostOps3_freshH (Wt5 m ρ) RH),
    .region (reg3 m ρ),
    .region (reg4 m ρ),
    .host (hsegH hostOps5 hostOps5_sub hostOps5_freshH (Wt8 m ρ) RE) ]

theorem main_runH (c : Dev nD) : main (F := F) c = Pipeline.Seg.run (segsH m ρ) := (main_chain c).trans (by chain_rfl)

set_option backward.isDefEq.respectTransparency.types false in
/-- Every weakly fair execution of the program from memory `m` terminates, nothing faulting, and every final memory
    holds each array at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt9 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m ρ c) ∗ RH c)) (Tₙ := fun c => StableHlo.held (c : Thread nD τ) (Pipeline.ucRefs τ sig) (Wt9 m ρ c))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wt0 m ρ c)
        from Pipeline.unscopedBufs_held c (Wt0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt9 m ρ c b)
    (hfin := fun c s' => by
      iintro ⟨Hh, HSI⟩
      unfold StableHlo.held
      imodintro
      iapply (pointsTo_read_all (Pipeline.ucRefs τ sig) (fun b => (((c : Thread nD τ)).1, b)) (Wt9 m ρ c) s')
      isplitl [Hh] <;> iassumption)
    (hQ := fun s h c => h c)

end Cert.KernelIdeal.Hand

end
-- ==== Proof.Carry.lean ====
/-
  Arrays carried unchanged across the program's items, at any float instance: an array that a stretch of host steps does
  not write keeps its contents; an array that a kernel reads through an input window, or does not touch, keeps its
  contents. Hence the six argument arrays reach the end as launched.
-/
import proofs.«133833_j3100966388061_2_alg».proof.Proof.RunAll
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Arrays carried unchanged across an item -/

theorem cy1_main_arg0 (c : Dev nD) : Wt1 m ρ c (Proc.devRef .tc main_arg0) = Wt0 m ρ c (Proc.devRef .tc main_arg0) := by
  show StableHlo.after hostOps0 (Wt0 m ρ c) (Proc.devRef .tc main_arg0) = _
  after_results
theorem cy1_main_arg1 (c : Dev nD) : Wt1 m ρ c (Proc.devRef .tc main_arg1) = Wt0 m ρ c (Proc.devRef .tc main_arg1) := by
  show StableHlo.after hostOps0 (Wt0 m ρ c) (Proc.devRef .tc main_arg1) = _
  after_results
theorem cy1_main_arg2 (c : Dev nD) : Wt1 m ρ c (Proc.devRef .tc main_arg2) = Wt0 m ρ c (Proc.devRef .tc main_arg2) := by
  show StableHlo.after hostOps0 (Wt0 m ρ c) (Proc.devRef .tc main_arg2) = _
  after_results
theorem cy1_main_arg3 (c : Dev nD) : Wt1 m ρ c (Proc.devRef .tc main_arg3) = Wt0 m ρ c (Proc.devRef .tc main_arg3) := by
  show StableHlo.after hostOps0 (Wt0 m ρ c) (Proc.devRef .tc main_arg3) = _
  after_results
theorem cy1_main_arg4 (c : Dev nD) : Wt1 m ρ c (Proc.devRef .tc main_arg4) = Wt0 m ρ c (Proc.devRef .tc main_arg4) := by
  show StableHlo.after hostOps0 (Wt0 m ρ c) (Proc.devRef .tc main_arg4) = _
  after_results
theorem cy1_main_arg5 (c : Dev nD) : Wt1 m ρ c (Proc.devRef .tc main_arg5) = Wt0 m ρ c (Proc.devRef .tc main_arg5) := by
  show StableHlo.after hostOps0 (Wt0 m ρ c) (Proc.devRef .tc main_arg5) = _
  after_results
theorem cy2_main_v0 (c : Dev nD) : Wt2 m ρ c (Proc.devRef .tc main_v0) = Wt1 m ρ c (Proc.devRef .tc main_v0) :=
  (Wt2_arr m ρ c 0).trans (((dat0 (Vt1 m ρ) c).arrAt_in 0 rfl _).trans (A_eq0 (Vt1 m ρ) c 0))
theorem cy2_main_v2 (c : Dev nD) : Wt2 m ρ c (Proc.devRef .tc main_v2) = Wt1 m ρ c (Proc.devRef .tc main_v2) :=
  Wt2_of_ne m ρ c main_v2 (by decide)
theorem cy2_main_v3 (c : Dev nD) : Wt2 m ρ c (Proc.devRef .tc main_v3) = Wt1 m ρ c (Proc.devRef .tc main_v3) :=
  Wt2_of_ne m ρ c main_v3 (by decide)
theorem cy2_main_arg0 (c : Dev nD) : Wt2 m ρ c (Proc.devRef .tc main_arg0) = Wt1 m ρ c (Proc.devRef .tc main_arg0) :=
  Wt2_of_ne m ρ c main_arg0 (by decide)
theorem cy2_main_arg1 (c : Dev nD) : Wt2 m ρ c (Proc.devRef .tc main_arg1) = Wt1 m ρ c (Proc.devRef .tc main_arg1) :=
  (Wt2_arr m ρ c 1).trans (((dat0 (Vt1 m ρ) c).arrAt_in 1 rfl _).trans (A_eq0 (Vt1 m ρ) c 1))
theorem cy2_main_arg2 (c : Dev nD) : Wt2 m ρ c (Proc.devRef .tc main_arg2) = Wt1 m ρ c (Proc.devRef .tc main_arg2) :=
  (Wt2_arr m ρ c 2).trans (((dat0 (Vt1 m ρ) c).arrAt_in 2 rfl _).trans (A_eq0 (Vt1 m ρ) c 2))
theorem cy2_main_arg3 (c : Dev nD) : Wt2 m ρ c (Proc.devRef .tc main_arg3) = Wt1 m ρ c (Proc.devRef .tc main_arg3) :=
  Wt2_of_ne m ρ c main_arg3 (by decide)
theorem cy2_main_arg4 (c : Dev nD) : Wt2 m ρ c (Proc.devRef .tc main_arg4) = Wt1 m ρ c (Proc.devRef .tc main_arg4) :=
  Wt2_of_ne m ρ c main_arg4 (by decide)
theorem cy2_main_arg5 (c : Dev nD) : Wt2 m ρ c (Proc.devRef .tc main_arg5) = Wt1 m ρ c (Proc.devRef .tc main_arg5) :=
  Wt2_of_ne m ρ c main_arg5 (by decide)
theorem cy3_main_v0 (c : Dev nD) : Wt3 m ρ c (Proc.devRef .tc main_v0) = Wt2 m ρ c (Proc.devRef .tc main_v0) := by
  show StableHlo.after hostOps1 (Wt2 m ρ c) (Proc.devRef .tc main_v0) = _
  after_results
theorem cy3_main_v2 (c : Dev nD) : Wt3 m ρ c (Proc.devRef .tc main_v2) = Wt2 m ρ c (Proc.devRef .tc main_v2) := by
  show StableHlo.after hostOps1 (Wt2 m ρ c) (Proc.devRef .tc main_v2) = _
  after_results
theorem cy3_main_v3 (c : Dev nD) : Wt3 m ρ c (Proc.devRef .tc main_v3) = Wt2 m ρ c (Proc.devRef .tc main_v3) := by
  show StableHlo.after hostOps1 (Wt2 m ρ c) (Proc.devRef .tc main_v3) = _
  after_results
theorem cy3_main_arg0 (c : Dev nD) : Wt3 m ρ c (Proc.devRef .tc main_arg0) = Wt2 m ρ c (Proc.devRef .tc main_arg0) := by
  show StableHlo.after hostOps1 (Wt2 m ρ c) (Proc.devRef .tc main_arg0) = _
  after_results
theorem cy3_main_arg1 (c : Dev nD) : Wt3 m ρ c (Proc.devRef .tc main_arg1) = Wt2 m ρ c (Proc.devRef .tc main_arg1) := by
  show StableHlo.after hostOps1 (Wt2 m ρ c) (Proc.devRef .tc main_arg1) = _
  after_results
theorem cy3_main_arg2 (c : Dev nD) : Wt3 m ρ c (Proc.devRef .tc main_arg2) = Wt2 m ρ c (Proc.devRef .tc main_arg2) := by
  show StableHlo.after hostOps1 (Wt2 m ρ c) (Proc.devRef .tc main_arg2) = _
  after_results
theorem cy3_main_arg3 (c : Dev nD) : Wt3 m ρ c (Proc.devRef .tc main_arg3) = Wt2 m ρ c (Proc.devRef .tc main_arg3) := by
  show StableHlo.after hostOps1 (Wt2 m ρ c) (Proc.devRef .tc main_arg3) = _
  after_results
theorem cy3_main_arg4 (c : Dev nD) : Wt3 m ρ c (Proc.devRef .tc main_arg4) = Wt2 m ρ c (Proc.devRef .tc main_arg4) := by
  show StableHlo.after hostOps1 (Wt2 m ρ c) (Proc.devRef .tc main_arg4) = _
  after_results
theorem cy3_main_arg5 (c : Dev nD) : Wt3 m ρ c (Proc.devRef .tc main_arg5) = Wt2 m ρ c (Proc.devRef .tc main_arg5) := by
  show StableHlo.after hostOps1 (Wt2 m ρ c) (Proc.devRef .tc main_arg5) = _
  after_results
theorem cy4_main_v7 (c : Dev nD) : Wt4 m ρ c (Proc.devRef .tc main_v7) = Wt3 m ρ c (Proc.devRef .tc main_v7) :=
  Wt4_of_ne m ρ c main_v7 (by decide)
theorem cy4_main_v0 (c : Dev nD) : Wt4 m ρ c (Proc.devRef .tc main_v0) = Wt3 m ρ c (Proc.devRef .tc main_v0) :=
  Wt4_of_ne m ρ c main_v0 (by decide)
theorem cy4_main_v2 (c : Dev nD) : Wt4 m ρ c (Proc.devRef .tc main_v2) = Wt3 m ρ c (Proc.devRef .tc main_v2) :=
  Wt4_of_ne m ρ c main_v2 (by decide)
theorem cy4_main_v3 (c : Dev nD) : Wt4 m ρ c (Proc.devRef .tc main_v3) = Wt3 m ρ c (Proc.devRef .tc main_v3) :=
  Wt4_of_ne m ρ c main_v3 (by decide)
theorem cy4_main_arg0 (c : Dev nD) : Wt4 m ρ c (Proc.devRef .tc main_arg0) = Wt3 m ρ c (Proc.devRef .tc main_arg0) :=
  Wt4_of_ne m ρ c main_arg0 (by decide)
theorem cy4_main_arg1 (c : Dev nD) : Wt4 m ρ c (Proc.devRef .tc main_arg1) = Wt3 m ρ c (Proc.devRef .tc main_arg1) :=
  Wt4_of_ne m ρ c main_arg1 (by decide)
theorem cy4_main_arg2 (c : Dev nD) : Wt4 m ρ c (Proc.devRef .tc main_arg2) = Wt3 m ρ c (Proc.devRef .tc main_arg2) :=
  Wt4_of_ne m ρ c main_arg2 (by decide)
theorem cy4_main_arg3 (c : Dev nD) : Wt4 m ρ c (Proc.devRef .tc main_arg3) = Wt3 m ρ c (Proc.devRef .tc main_arg3) :=
  Wt4_of_ne m ρ c main_arg3 (by decide)
theorem cy4_main_arg4 (c : Dev nD) : Wt4 m ρ c (Proc.devRef .tc main_arg4) = Wt3 m ρ c (Proc.devRef .tc main_arg4) :=
  Wt4_of_ne m ρ c main_arg4 (by decide)
theorem cy4_main_arg5 (c : Dev nD) : Wt4 m ρ c (Proc.devRef .tc main_arg5) = Wt3 m ρ c (Proc.devRef .tc main_arg5) :=
  Wt4_of_ne m ρ c main_arg5 (by decide)
theorem cy5_main_v0 (c : Dev nD) : Wt5 m ρ c (Proc.devRef .tc main_v0) = Wt4 m ρ c (Proc.devRef .tc main_v0) :=
  Wt5_of_ne m ρ c main_v0 (by decide)
theorem cy5_main_v2 (c : Dev nD) : Wt5 m ρ c (Proc.devRef .tc main_v2) = Wt4 m ρ c (Proc.devRef .tc main_v2) :=
  Wt5_of_ne m ρ c main_v2 (by decide)
theorem cy5_main_v3 (c : Dev nD) : Wt5 m ρ c (Proc.devRef .tc main_v3) = Wt4 m ρ c (Proc.devRef .tc main_v3) :=
  Wt5_of_ne m ρ c main_v3 (by decide)
theorem cy5_main_arg0 (c : Dev nD) : Wt5 m ρ c (Proc.devRef .tc main_arg0) = Wt4 m ρ c (Proc.devRef .tc main_arg0) :=
  Wt5_of_ne m ρ c main_arg0 (by decide)
theorem cy5_main_arg1 (c : Dev nD) : Wt5 m ρ c (Proc.devRef .tc main_arg1) = Wt4 m ρ c (Proc.devRef .tc main_arg1) :=
  Wt5_of_ne m ρ c main_arg1 (by decide)
theorem cy5_main_arg2 (c : Dev nD) : Wt5 m ρ c (Proc.devRef .tc main_arg2) = Wt4 m ρ c (Proc.devRef .tc main_arg2) :=
  Wt5_of_ne m ρ c main_arg2 (by decide)
theorem cy5_main_arg3 (c : Dev nD) : Wt5 m ρ c (Proc.devRef .tc main_arg3) = Wt4 m ρ c (Proc.devRef .tc main_arg3) :=
  Wt5_of_ne m ρ c main_arg3 (by decide)
theorem cy5_main_arg4 (c : Dev nD) : Wt5 m ρ c (Proc.devRef .tc main_arg4) = Wt4 m ρ c (Proc.devRef .tc main_arg4) :=
  Wt5_of_ne m ρ c main_arg4 (by decide)
theorem cy5_main_arg5 (c : Dev nD) : Wt5 m ρ c (Proc.devRef .tc main_arg5) = Wt4 m ρ c (Proc.devRef .tc main_arg5) :=
  Wt5_of_ne m ρ c main_arg5 (by decide)
theorem cy6_main_v0 (c : Dev nD) : Wt6 m ρ c (Proc.devRef .tc main_v0) = Wt5 m ρ c (Proc.devRef .tc main_v0) := by
  show StableHlo.after hostOps3 (Wt5 m ρ c) (Proc.devRef .tc main_v0) = _
  after_results
theorem cy6_main_v2 (c : Dev nD) : Wt6 m ρ c (Proc.devRef .tc main_v2) = Wt5 m ρ c (Proc.devRef .tc main_v2) := by
  show StableHlo.after hostOps3 (Wt5 m ρ c) (Proc.devRef .tc main_v2) = _
  after_results
theorem cy6_main_v3 (c : Dev nD) : Wt6 m ρ c (Proc.devRef .tc main_v3) = Wt5 m ρ c (Proc.devRef .tc main_v3) := by
  show StableHlo.after hostOps3 (Wt5 m ρ c) (Proc.devRef .tc main_v3) = _
  after_results
theorem cy6_main_arg0 (c : Dev nD) : Wt6 m ρ c (Proc.devRef .tc main_arg0) = Wt5 m ρ c (Proc.devRef .tc main_arg0) := by
  show StableHlo.after hostOps3 (Wt5 m ρ c) (Proc.devRef .tc main_arg0) = _
  after_results
theorem cy6_main_arg1 (c : Dev nD) : Wt6 m ρ c (Proc.devRef .tc main_arg1) = Wt5 m ρ c (Proc.devRef .tc main_arg1) := by
  show StableHlo.after hostOps3 (Wt5 m ρ c) (Proc.devRef .tc main_arg1) = _
  after_results
theorem cy6_main_arg2 (c : Dev nD) : Wt6 m ρ c (Proc.devRef .tc main_arg2) = Wt5 m ρ c (Proc.devRef .tc main_arg2) := by
  show StableHlo.after hostOps3 (Wt5 m ρ c) (Proc.devRef .tc main_arg2) = _
  after_results
theorem cy6_main_arg3 (c : Dev nD) : Wt6 m ρ c (Proc.devRef .tc main_arg3) = Wt5 m ρ c (Proc.devRef .tc main_arg3) := by
  show StableHlo.after hostOps3 (Wt5 m ρ c) (Proc.devRef .tc main_arg3) = _
  after_results
theorem cy6_main_arg4 (c : Dev nD) : Wt6 m ρ c (Proc.devRef .tc main_arg4) = Wt5 m ρ c (Proc.devRef .tc main_arg4) := by
  show StableHlo.after hostOps3 (Wt5 m ρ c) (Proc.devRef .tc main_arg4) = _
  after_results
theorem cy6_main_arg5 (c : Dev nD) : Wt6 m ρ c (Proc.devRef .tc main_arg5) = Wt5 m ρ c (Proc.devRef .tc main_arg5) := by
  show StableHlo.after hostOps3 (Wt5 m ρ c) (Proc.devRef .tc main_arg5) = _
  after_results
theorem cy7_main_v0 (c : Dev nD) : Wt7 m ρ c (Proc.devRef .tc main_v0) = Wt6 m ρ c (Proc.devRef .tc main_v0) :=
  Wt7_of_ne m ρ c main_v0 (by decide)
theorem cy7_main_v3 (c : Dev nD) : Wt7 m ρ c (Proc.devRef .tc main_v3) = Wt6 m ρ c (Proc.devRef .tc main_v3) :=
  Wt7_of_ne m ρ c main_v3 (by decide)
theorem cy7_main_arg0 (c : Dev nD) : Wt7 m ρ c (Proc.devRef .tc main_arg0) = Wt6 m ρ c (Proc.devRef .tc main_arg0) :=
  Wt7_of_ne m ρ c main_arg0 (by decide)
theorem cy7_main_arg1 (c : Dev nD) : Wt7 m ρ c (Proc.devRef .tc main_arg1) = Wt6 m ρ c (Proc.devRef .tc main_arg1) :=
  Wt7_of_ne m ρ c main_arg1 (by decide)
theorem cy7_main_arg2 (c : Dev nD) : Wt7 m ρ c (Proc.devRef .tc main_arg2) = Wt6 m ρ c (Proc.devRef .tc main_arg2) :=
  Wt7_of_ne m ρ c main_arg2 (by decide)
theorem cy7_main_arg3 (c : Dev nD) : Wt7 m ρ c (Proc.devRef .tc main_arg3) = Wt6 m ρ c (Proc.devRef .tc main_arg3) :=
  Wt7_of_ne m ρ c main_arg3 (by decide)
theorem cy7_main_arg4 (c : Dev nD) : Wt7 m ρ c (Proc.devRef .tc main_arg4) = Wt6 m ρ c (Proc.devRef .tc main_arg4) :=
  Wt7_of_ne m ρ c main_arg4 (by decide)
theorem cy7_main_arg5 (c : Dev nD) : Wt7 m ρ c (Proc.devRef .tc main_arg5) = Wt6 m ρ c (Proc.devRef .tc main_arg5) :=
  Wt7_of_ne m ρ c main_arg5 (by decide)
theorem cy8_main_arg0 (c : Dev nD) : Wt8 m ρ c (Proc.devRef .tc main_arg0) = Wt7 m ρ c (Proc.devRef .tc main_arg0) :=
  Wt8_of_ne m ρ c main_arg0 (by decide)
theorem cy8_main_arg1 (c : Dev nD) : Wt8 m ρ c (Proc.devRef .tc main_arg1) = Wt7 m ρ c (Proc.devRef .tc main_arg1) :=
  Wt8_of_ne m ρ c main_arg1 (by decide)
theorem cy8_main_arg2 (c : Dev nD) : Wt8 m ρ c (Proc.devRef .tc main_arg2) = Wt7 m ρ c (Proc.devRef .tc main_arg2) :=
  Wt8_of_ne m ρ c main_arg2 (by decide)
theorem cy8_main_arg3 (c : Dev nD) : Wt8 m ρ c (Proc.devRef .tc main_arg3) = Wt7 m ρ c (Proc.devRef .tc main_arg3) :=
  Wt8_of_ne m ρ c main_arg3 (by decide)
theorem cy8_main_arg4 (c : Dev nD) : Wt8 m ρ c (Proc.devRef .tc main_arg4) = Wt7 m ρ c (Proc.devRef .tc main_arg4) :=
  Wt8_of_ne m ρ c main_arg4 (by decide)
theorem cy8_main_arg5 (c : Dev nD) : Wt8 m ρ c (Proc.devRef .tc main_arg5) = Wt7 m ρ c (Proc.devRef .tc main_arg5) :=
  Wt8_of_ne m ρ c main_arg5 (by decide)
theorem cy9_main_arg0 (c : Dev nD) : Wt9 m ρ c (Proc.devRef .tc main_arg0) = Wt8 m ρ c (Proc.devRef .tc main_arg0) := by
  show StableHlo.after hostOps5 (Wt8 m ρ c) (Proc.devRef .tc main_arg0) = _
  after_results
theorem cy9_main_arg1 (c : Dev nD) : Wt9 m ρ c (Proc.devRef .tc main_arg1) = Wt8 m ρ c (Proc.devRef .tc main_arg1) := by
  show StableHlo.after hostOps5 (Wt8 m ρ c) (Proc.devRef .tc main_arg1) = _
  after_results
theorem cy9_main_arg2 (c : Dev nD) : Wt9 m ρ c (Proc.devRef .tc main_arg2) = Wt8 m ρ c (Proc.devRef .tc main_arg2) := by
  show StableHlo.after hostOps5 (Wt8 m ρ c) (Proc.devRef .tc main_arg2) = _
  after_results
theorem cy9_main_arg3 (c : Dev nD) : Wt9 m ρ c (Proc.devRef .tc main_arg3) = Wt8 m ρ c (Proc.devRef .tc main_arg3) := by
  show StableHlo.after hostOps5 (Wt8 m ρ c) (Proc.devRef .tc main_arg3) = _
  after_results
theorem cy9_main_arg4 (c : Dev nD) : Wt9 m ρ c (Proc.devRef .tc main_arg4) = Wt8 m ρ c (Proc.devRef .tc main_arg4) := by
  show StableHlo.after hostOps5 (Wt8 m ρ c) (Proc.devRef .tc main_arg4) = _
  after_results
theorem cy9_main_arg5 (c : Dev nD) : Wt9 m ρ c (Proc.devRef .tc main_arg5) = Wt8 m ρ c (Proc.devRef .tc main_arg5) := by
  show StableHlo.after hostOps5 (Wt8 m ρ c) (Proc.devRef .tc main_arg5) = _
  after_results

/-! ## The argument arrays reach the end as launched -/

theorem Wt9_main_arg0 (c : Dev nD) : Wt9 m ρ c (Proc.devRef .tc main_arg0) = m ((c : Thread nD τ).loc main_arg0) :=
  (cy9_main_arg0 m ρ c).trans <| (cy8_main_arg0 m ρ c).trans <| (cy7_main_arg0 m ρ c).trans <| (cy6_main_arg0 m ρ c).trans <| (cy5_main_arg0 m ρ c).trans <| (cy4_main_arg0 m ρ c).trans <| (cy3_main_arg0 m ρ c).trans <| (cy2_main_arg0 m ρ c).trans <| (cy1_main_arg0 m ρ c).trans rfl
theorem Wt9_main_arg1 (c : Dev nD) : Wt9 m ρ c (Proc.devRef .tc main_arg1) = m ((c : Thread nD τ).loc main_arg1) :=
  (cy9_main_arg1 m ρ c).trans <| (cy8_main_arg1 m ρ c).trans <| (cy7_main_arg1 m ρ c).trans <| (cy6_main_arg1 m ρ c).trans <| (cy5_main_arg1 m ρ c).trans <| (cy4_main_arg1 m ρ c).trans <| (cy3_main_arg1 m ρ c).trans <| (cy2_main_arg1 m ρ c).trans <| (cy1_main_arg1 m ρ c).trans rfl
theorem Wt9_main_arg2 (c : Dev nD) : Wt9 m ρ c (Proc.devRef .tc main_arg2) = m ((c : Thread nD τ).loc main_arg2) :=
  (cy9_main_arg2 m ρ c).trans <| (cy8_main_arg2 m ρ c).trans <| (cy7_main_arg2 m ρ c).trans <| (cy6_main_arg2 m ρ c).trans <| (cy5_main_arg2 m ρ c).trans <| (cy4_main_arg2 m ρ c).trans <| (cy3_main_arg2 m ρ c).trans <| (cy2_main_arg2 m ρ c).trans <| (cy1_main_arg2 m ρ c).trans rfl
theorem Wt9_main_arg3 (c : Dev nD) : Wt9 m ρ c (Proc.devRef .tc main_arg3) = m ((c : Thread nD τ).loc main_arg3) :=
  (cy9_main_arg3 m ρ c).trans <| (cy8_main_arg3 m ρ c).trans <| (cy7_main_arg3 m ρ c).trans <| (cy6_main_arg3 m ρ c).trans <| (cy5_main_arg3 m ρ c).trans <| (cy4_main_arg3 m ρ c).trans <| (cy3_main_arg3 m ρ c).trans <| (cy2_main_arg3 m ρ c).trans <| (cy1_main_arg3 m ρ c).trans rfl
theorem Wt9_main_arg4 (c : Dev nD) : Wt9 m ρ c (Proc.devRef .tc main_arg4) = m ((c : Thread nD τ).loc main_arg4) :=
  (cy9_main_arg4 m ρ c).trans <| (cy8_main_arg4 m ρ c).trans <| (cy7_main_arg4 m ρ c).trans <| (cy6_main_arg4 m ρ c).trans <| (cy5_main_arg4 m ρ c).trans <| (cy4_main_arg4 m ρ c).trans <| (cy3_main_arg4 m ρ c).trans <| (cy2_main_arg4 m ρ c).trans <| (cy1_main_arg4 m ρ c).trans rfl
theorem Wt9_main_arg5 (c : Dev nD) : Wt9 m ρ c (Proc.devRef .tc main_arg5) = m ((c : Thread nD τ).loc main_arg5) :=
  (cy9_main_arg5 m ρ c).trans <| (cy8_main_arg5 m ρ c).trans <| (cy7_main_arg5 m ρ c).trans <| (cy6_main_arg5 m ρ c).trans <| (cy5_main_arg5 m ρ c).trans <| (cy4_main_arg5 m ρ c).trans <| (cy3_main_arg5 m ρ c).trans <| (cy2_main_arg5 m ρ c).trans <| (cy1_main_arg5 m ρ c).trans rfl

end Cert.KernelIdeal.Hand

end
-- ==== Proof.Spec.lean ====
/-
  What the five kernels compute, on the extended reals, as whole-array functions of their operand arrays.

  * `projT x w`: every row of `x` against every row of `w` (a linear layer whose weights are kept one row per output),
    `(x · wᵀ)(r, q) = ∑ k, x(r, k) · w(q, k)`, over 4096 × 4096 arrays.
  * `softRow`: a row normalised by its exponentials: the row's maximum taken from the f32 word of −∞ (the word is carried,
    never evaluated), each entry's exponential distance to it, over the sum of those exponentials.
  * `gramSoft A B`: per batch, the Gram matrix of two [2048, 4096] arrays over the sequence axis,
    `∑ s, A(b, s, d) · B(b, s, e)`, each row (over `e`) then normalised.
  * `attnSoft C Q`: per batch, `∑ d, C(b, s, d) · Q(b, d, e)`, each row (over `e`) then normalised.
  * `projSilu x w`: `x · wᵀ` followed entrywise by `z ↦ z · σ(z)`, σ the logistic function.
  * `residProj x y w`: `(x + y) · wᵀ`.
  * `flat` / `unflat`: a [2, 2048, 4096] array read as [4096, 4096] (row `b · 2048 + s`) and back.
-/
import Idealize.ShloMosaic.PureOps.Ideal.Laws
import Idealize.ShloMosaic.Lib.ValueIdx

noncomputable section

namespace Cert.Spec

open Idealize.ShloMosaic Idealize.ShloMosaic.ValueIdx

abbrev M2 : Type := (⟨2, ![4096, 4096]⟩ : Shape).Idx → EReal
abbrev T3 : Type := (⟨3, ![2, 2048, 4096]⟩ : Shape).Idx → EReal
abbrev Q3 : Type := (⟨3, ![2, 4096, 4096]⟩ : Shape).Idx → EReal

/-- `(x · wᵀ)(r, q) = ∑ k, x(r, k) · w(q, k)`. -/
def projT (x w : M2) : M2 := fun j => ∑ k : Fin 4096, x (ix2 (j 0) k) * w (ix2 (j 1) k)

/-- The maximum of a row, taken from the f32 word of −∞. -/
def rowMax {S : Nat} (sc : Fin S → EReal) : EReal :=
  (Finset.univ : Finset (Fin S)).fold max (Ideal.ofBits .f32 0xFF800000#32) sc

/-- A row normalised by its exponentials. -/
def softRow {S : Nat} (sc : Fin S → EReal) : Fin S → EReal :=
  fun s => Ideal.div (Ideal.exp (sc s - rowMax sc)) (∑ s' : Fin S, Ideal.exp (sc s' - rowMax sc))

/-- Per batch the Gram matrix over the sequence axis, each row normalised. -/
def gramSoft (A B : T3) : Q3 :=
  fun j => softRow (fun e : Fin 4096 => ∑ s : Fin 2048, A (ix3 (j 0) s (j 1)) * B (ix3 (j 0) s e)) (j 2)

/-- Per batch `C · Q`, each row normalised. -/
def attnSoft (C : T3) (Q : Q3) : T3 :=
  fun j => softRow (fun e : Fin 4096 => ∑ d : Fin 4096, C (ix3 (j 0) (j 1) d) * Q (ix3 (j 0) d e)) (j 2)

/-- `z · σ(z)`. -/
def silu (z : EReal) : EReal := z * Ideal.logistic z

def projSilu (x w : M2) : M2 := fun j => silu (projT x w j)

/-- `((x + y) · wᵀ)(r, q)`. -/
def residProj (x y w : M2) : M2 := fun j => ∑ k : Fin 4096, (x (ix2 (j 0) k) + y (ix2 (j 0) k)) * w (ix2 (j 1) k)

/-- `x · wᵀ` on a [2, 2048, 4096] array, batch and position kept: `∑ k, x(b, s, k) · w(e, k)`. -/
def projT3 (x : T3) (w : M2) : T3 := fun j => ∑ k : Fin 4096, x (ix3 (j 0) (j 1) k) * w (ix2 (j 2) k)

/-- The whole network on the [2, 2048, 4096] input: the three projections, the normalised Gram matrix of the first two,
    the third against it, normalised again, projected by W4 and passed through z·σ(z), added to the input, projected by W5. -/
def refOut (x : T3) (w1 w2 w3 w4 w5 : M2) : T3 :=
  fun j => ∑ d : Fin 4096,
    (x (ix3 (j 0) (j 1) d)
      + silu (∑ k : Fin 4096, attnSoft (projT3 x w3) (gramSoft (projT3 x w1) (projT3 x w2)) (ix3 (j 0) (j 1) k) * w4 (ix2 d k)))
    * w5 (ix2 (j 2) d)

theorem flat_lt (b : Fin 2) (s : Fin 2048) : b.val * 2048 + s.val < 4096 := by have := b.isLt; have := s.isLt; omega

/-- A [2, 2048, 4096] array read as [4096, 4096]: row `r` is (batch `r / 2048`, position `r % 2048`). -/
def flat (x : T3) : M2 :=
  fun j => x (ix3 ⟨(j 0).val / 2048, by have h : (j 0).val < 4096 := (j 0).isLt; omega⟩ ⟨(j 0).val % 2048, Nat.mod_lt _ (by norm_num)⟩ (j 1))

/-- A [4096, 4096] array read as [2, 2048, 4096]. -/
def unflat (y : M2) : T3 :=
  fun j => y (ix2 ⟨(j 0).val * 2048 + (j 1).val, flat_lt (j 0) (j 1)⟩ (j 2))

end Cert.Spec

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LibChunkFold.lean ====
/-
  A running total over chunks. A sum over `N = (n + 1) * m` consecutive indices is cut into `n + 1` chunks of `m`.
  A total that starts as zero plus the sum of chunk 0, and to which the sum of chunk `c + 1` is added at step
  `c + 1`, is after the last step the sum over all `N` indices: by induction the total after step `c` is the sum of
  the chunk sums 0 … c, and the sum of all the chunk sums is the whole sum. Only the laws of a commutative monoid
  are used, so nothing has to be finite on the extended reals.
-/
import proofs.«133833_j3100966388061_2_alg».proof.Proof.LibChunkSum

namespace ChunkSum

/-- The running total after step `c` is the sum of the chunk sums `0 … c`. -/
theorem fold_partial {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    ∀ c (_ : c < n + 1), acc c = ∑ i ∈ Finset.range (c + 1), if hi : i < n + 1 then g ⟨i, hi⟩ else 0 := by
  intro c
  induction c with
  | zero =>
    intro _
    rw [h0, zero_add, Finset.sum_range_one, dif_pos (Nat.succ_pos n)]
  | succ c ih =>
    intro hc
    rw [hs c hc, ih (by omega), Finset.sum_range_succ _ (c + 1), dif_pos hc]

/-- Terms added one after the other onto a zero are their sum. -/
theorem fold_terms {M : Type*} [AddCommMonoid M] {n : ℕ} (g : Fin (n + 1) → M) (acc : ℕ → M)
    (h0 : acc 0 = 0 + g ⟨0, Nat.succ_pos n⟩)
    (hs : ∀ c (hc : c + 1 < n + 1), acc (c + 1) = acc c + g ⟨c + 1, hc⟩) :
    acc n = ∑ c : Fin (n + 1), g c := by
  rw [fold_partial g acc h0 hs n (Nat.lt_succ_self n),
    ← Fin.sum_univ_eq_sum_range (fun i => if hi : i < n + 1 then g ⟨i, hi⟩ else 0) (n + 1)]
  exact Finset.sum_congr rfl fun c _ => dif_pos c.isLt

/-- A running total that starts from zero plus chunk 0 and adds chunk `c + 1` at step `c + 1` is, after the last
    chunk, the sum over all `N = (n + 1) * m` indices. -/
theorem fold_chunks {M : Type*} [AddCommMonoid M] {n m N : ℕ} (h : (n + 1) * m = N) (f : Fin N → M) (acc : ℕ → M)
    (h0 : acc 0 = 0 + ∑ k : Fin m, f (at_ h ⟨0, Nat.succ_pos n⟩ k))
    (hs : ∀ c (hc : c + 1 < n + 1), acc (c + 1) = acc c + ∑ k : Fin m, f (at_ h ⟨c + 1, hc⟩ k)) :
    acc n = ∑ j : Fin N, f j :=
  (fold_terms (fun c => ∑ k : Fin m, f (at_ h c k)) acc h0 hs).trans (sum_chunks h f)

end ChunkSum
-- ==== Proof.LibRowSoftmax.lean ====
/-
  A row normalised by its exponentials, and a one-axis contraction as a sum — general in every extent.

  * `rowMax`, `expRow`, `softRow`: for a row `sc` of extended reals indexed by `Fin S`, its maximum taken from the f32
    word of −∞ (the word is carried, never evaluated, so that two programs that print the same word agree by
    reading), the exponential of each entry's distance to that maximum, and each exponential over the sum of the
    row's exponentials. This is the row-wise softmax as both a kernel's lane reductions and a host's `reduce`
    operations compute it on the extended reals.
  * `max_fold_max_self`: a fold of `max` started from `a` is already at least `a`, so a further maximum with `a`
    changes nothing (a host softmax takes the maximum with −∞ once more after reducing from −∞).
  * `contraction_sum`: a contraction over ONE axis of extent `K` — how a matrix unit's product into a zero
    accumulator, and the host's `dot_general`, read on the extended reals — is the sum over that axis's coordinate
    of the two operands' entries, once each entry at the renamed contraction index is named. Whatever the operands'
    layouts (either may be contracted along either axis): the caller supplies the two index equations.

  No finiteness is needed anywhere.
-/
import Idealize.ShloMosaic.PureOps.Ideal.Laws
import Idealize.ShloMosaic.Lib.ValueIdx

noncomputable section

namespace Cert.Attn

open Idealize.ShloMosaic Idealize.ShloMosaic.ValueIdx

/-- The maximum of a row, taken from the f32 word of −∞. -/
def rowMax {S : Nat} (sc : Fin S → EReal) : EReal :=
  (Finset.univ : Finset (Fin S)).fold max (Ideal.ofBits .f32 0xFF800000#32) sc

/-- The exponential of each entry's distance to the row's maximum. -/
def expRow {S : Nat} (sc : Fin S → EReal) : Fin S → EReal := fun s => Ideal.exp (sc s - rowMax sc)

/-- A row normalised: each exponential over the sum of the row's exponentials. -/
def softRow {S : Nat} (sc : Fin S → EReal) : Fin S → EReal :=
  fun s => Ideal.div (expRow sc s) (∑ s' : Fin S, expRow sc s')

/-- The maximum with the starting value changes nothing: a fold of `max` from `a` is already at least `a`. -/
theorem max_fold_max_self {ι : Type} (s : Finset ι) (a : EReal) (f : ι → EReal) :
    max a (s.fold max a f) = s.fold max a f :=
  max_eq_right (by rw [Finset.le_fold_max]; exact Or.inl le_rfl)

/-- A contraction over ONE axis of extent `K` is the sum over that axis's coordinate, once each operand's entry at
    the renamed contraction index is named. -/
theorem contraction_sum {K : Nat} {sl sr so : Shape} (d : DotDims sl sr so) (hr : d.contr.rank = 1)
    (hs : d.contr.size ⟨0, by omega⟩ = K) (l : sl.Idx → EReal) (r : sr.Idx → EReal) (i : so.Idx) (L R : Fin K → EReal)
    (hl : ∀ k : Fin K, l (d.lhsIdx i ((contrEquiv1 d K hr hs).symm k)) = L k)
    (hw : ∀ k : Fin K, r (d.rhsIdx i ((contrEquiv1 d K hr hs).symm k)) = R k) :
    ∑ q : d.contr.Idx, l (d.lhsIdx i q) * r (d.rhsIdx i q) = ∑ k : Fin K, L k * R k := by
  rw [← Equiv.sum_comp (contrEquiv1 d K hr hs).symm]
  exact Finset.sum_congr rfl fun k _ => by rw [hl k, hw k]

end Cert.Attn

end
-- ==== Proof.R0Value.lean ====
/-
  The first kernel (the three projections of the input rows by W1, W2, W3): the arrays it leaves, on the extended reals.

  Each of the three accumulators is, at a first step of the contraction axis, the step's block product added to the zero
  block, and at every later step the step's block product added to what the step before left. A block product at
  `(p, q)` is the sum over the block's 1024 contraction positions of the products of the two operands' entries, and a
  block's entry is its array's entry at block index × block size + the coordinate inside the block. So at the last of
  the four steps an accumulator holds, at `(p, q)`, the four chunk sums of the row of `x` against the row of the weights:
  the whole sum over the 4096 positions. The output blocks stored at a last step are the accumulators (the third narrowed
  to bf16, which changes nothing on the extended reals), every entry of an output lies in the block some last step writes
  back, and so each output array ends holding `x · wᵀ`.
-/
import proofs.«133833_j3100966388061_2_alg».proof.Proof.R0Frame
import proofs.«133833_j3100966388061_2_alg».proof.Proof.Spec
import proofs.«133833_j3100966388061_2_alg».proof.Proof.LibChunkFold
import proofs.«133833_j3100966388061_2_alg».proof.Proof.LibRowSoftmax
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What a run leaves, as the step's payload

At a first step each accumulator is the step's product added to the zero block; at a later step it is the step's
product added to what the accumulator held; at a last step the output blocks are the accumulators so updated, the
third narrowed to bf16. -/

section Payload

variable {F : FTy → Type} [FloatOps F]

theorem hz0 : (![0, 0] : Fin 2 → Nat) = fun _ => 0 := funext fun a => by fin_cases a <;> rfl

variable (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole)
variable (x0 : Vec F S1024x1024 .f32) (x1 : Vec F S512x1024 .f32) (x2 : Vec F S512x1024 .f32) (x3 : Vec F S512x1024 .bf16)
variable (xs0 : Vec F S1024x512 .f32) (xs1 : Vec F S1024x512 .f32) (xs2 : Vec F S1024x512 .f32)

theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 = k0_pay6 x0 x1 (k0_pay2 (F := F)) := by
  unfold sout0_A_0
  unfold kernelRun0_A
  dsimp only
  sl_unfold_words
  rw [View.canon_cons_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 arg12 harg12 hc0 hc1 x0 x1 x2 x3 = k0_pay7 x0 x2 (k0_pay3 (F := F)) := by
  unfold sout0_A_1
  unfold kernelRun0_A
  dsimp only
  sl_unfold_words
  rw [View.canon_cons_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_A_2_eq (hc0 : cond0_0 i) (hc1 : ¬cond0_1 i) :
    sout0_A_2 c i arg3 harg3 arg4 harg4 arg5 harg5 arg6 harg6 arg7 harg7 arg8 harg8 arg9 harg9 arg10 harg10 arg11 harg11 arg12 harg12 hc0 hc1 x0 x1 x2 x3 = k0_pay8 x0 x3 (k0_pay4 (F := F)) := by
  unfold sout0_A_2
  unfold kernelRun0_A
  dsimp only
  sl_unfold_words
  rw [View.canon_cons_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_B_0_eq (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 xs0 xs1 xs2 = k0_pay6 x0 x1 xs0 := by
  unfold sout0_B_0
  unfold kernelRun0_B
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 hc0 hc1 x0 x1 x2 x3 xs0 xs1 xs2 = k0_pay7 x0 x2 xs1 := by
  unfold sout0_B_1
  unfold kernelRun0_B
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_B_2_eq (hc0 : ¬cond0_0 i) (hc1 : ¬cond0_1 i) :
    sout0_B_2 c i arg3 harg3 arg4 harg4 arg5 harg5 arg6 harg6 arg7 harg7 arg8 harg8 arg9 harg9 arg10 harg10 arg11 harg11 arg12 harg12 hc0 hc1 x0 x1 x2 x3 xs0 xs1 xs2 = k0_pay8 x0 x3 xs2 := by
  unfold sout0_B_2
  unfold kernelRun0_B
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_C_0_eq (hc0 : ¬cond0_0 i) (hc1 : cond0_1 i) :
    sout0_C_0 c i arg3 harg3 arg4 harg4 arg5 harg5 arg6 harg6 arg7 harg7 arg8 harg8 arg9 harg9 arg10 harg10 arg11 harg11 arg12 harg12 hc0 hc1 x0 x1 x2 x3 xs0 xs1 xs2 = k0_pay6 x0 x1 xs0 := by
  unfold sout0_C_0
  unfold kernelRun0_C
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_C_1_eq (hc0 : ¬cond0_0 i) (hc1 : cond0_1 i) :
    sout0_C_1 c i arg3 harg3 arg4 harg4 arg5 harg5 arg6 harg6 arg7 harg7 arg8 harg8 arg9 harg9 arg10 harg10 arg11 harg11 arg12 harg12 hc0 hc1 x0 x1 x2 x3 xs0 xs1 xs2 = k0_pay7 x0 x2 xs1 := by
  unfold sout0_C_1
  unfold kernelRun0_C
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem sout0_C_2_eq (hc0 : ¬cond0_0 i) (hc1 : cond0_1 i) :
    sout0_C_2 c i arg3 harg3 arg4 harg4 arg5 harg5 arg6 harg6 arg7 harg7 arg8 harg8 arg9 harg9 arg10 harg10 arg11 harg11 arg12 harg12 hc0 hc1 x0 x1 x2 x3 xs0 xs1 xs2 = k0_pay8 x0 x3 xs2 := by
  unfold sout0_C_2
  unfold kernelRun0_C
  dsimp only
  sl_unfold_words
  rw [View.canon_unit_zero (S := S1024x512) hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem out0_C_4_eq (hc0 : ¬cond0_0 i) (hc1 : cond0_1 i) :
    out0_C_4 c i arg3 harg3 arg4 harg4 arg5 harg5 arg6 harg6 arg7 harg7 arg8 harg8 arg9 harg9 arg10 harg10 arg11 harg11 arg12 harg12 hc0 hc1 x0 x1 x2 x3 xs0 xs1 xs2 = k0_pay6 x0 x1 xs0 := by
  unfold out0_C_4
  unfold kernelRun0_C
  dsimp only
  sl_unfold_words
  rw [View.canon_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem out0_C_5_eq (hc0 : ¬cond0_0 i) (hc1 : cond0_1 i) :
    out0_C_5 c i arg3 harg3 arg4 harg4 arg5 harg5 arg6 harg6 arg7 harg7 arg8 harg8 arg9 harg9 arg10 harg10 arg11 harg11 arg12 harg12 hc0 hc1 x0 x1 x2 x3 xs0 xs1 xs2 = k0_pay7 x0 x2 xs1 := by
  unfold out0_C_5
  unfold kernelRun0_C
  dsimp only
  sl_unfold_words
  rw [View.canon_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

theorem out0_C_6_eq (hc0 : ¬cond0_0 i) (hc1 : cond0_1 i) :
    out0_C_6 c i arg3 harg3 arg4 harg4 arg5 harg5 arg6 harg6 arg7 harg7 arg8 harg8 arg9 harg9 arg10 harg10 arg11 harg11 arg12 harg12 hc0 hc1 x0 x1 x2 x3 xs0 xs1 xs2 = k0_pay1 (k0_pay8 x0 x3 xs2) := by
  unfold out0_C_6
  unfold kernelRun0_C
  dsimp only
  sl_unfold_words
  rw [View.canon_unit_zero (S := S1024x512) hz0, View.readCov_unit_zero (S := S1024x512) _ hz0]
  simp only [View.readAt_eq_ld, harg3.read_unread, harg4.read_unread, harg5.read_unread, harg6.read_unread, harg10.read_unread, harg11.read_unread, harg12.read_unread, View.ld_unit_zero (S := S1024x1024) hz0, View.ld_unit_zero (S := S512x1024) hz0, View.ld_unit_zero (S := S1024x512) hz0]

end Payload

/-! ## A step's payload at an index, on the extended reals

The step's product at `(p, q)` is the sum over the block's 1024 contraction positions of the products of the two
operands' entries; a format change is the identity; the zero block reads zero. -/

section AtIdeal

/-- Row `p` of a [1024, 1024] block against row `q` of a [512, 1024] block. -/
def blockSum0 (l : S1024x1024.Idx → EReal) (r : S512x1024.Idx → EReal) (p : Fin 1024) (q : Fin 512) : EReal :=
  ∑ k : Fin 1024, l (ix2 p k) * r (ix2 q k)

/-- The block product at `(p, q)`: row `p` of the left block against row `q` of the right block. -/
theorem blockDot0_apply {φ₁ φ₂ : FTy} (prec : Option ContractPrecision) (l : FVec Ideal S1024x1024 φ₁) (r : FVec Ideal S512x1024 φ₂)
    (p : Fin 1024) (q : Fin 512) :
    matmul dot_S1024x1024_S512x1024_S1024x512_1_1_0_0_n_n prec l r (constant (F := Ideal) S1024x512 .f32 0x00000000#32) (ix2 p q)
      = blockSum0 l r p q := by
  refine (Ideal.matmul_constant_zero_apply dot_S1024x1024_S512x1024_S1024x512_1_1_0_0_n_n prec l r (ix2 p q)).trans ?_
  refine Cert.Attn.contraction_sum dot_S1024x1024_S512x1024_S1024x512_1_1_0_0_n_n rfl rfl l r (ix2 p q) _ _ (fun k => ?_) (fun k => ?_)
  · refine congrArg l (funext fun a => Fin.ext ?_)
    match a with
    | ⟨0, _⟩ => rfl
    | ⟨1, _⟩ =>
      exact (DotDims.lhsIdx_val_of_single dot_S1024x1024_S512x1024_S1024x512_1_1_0_0_n_n (cl := (1 : Fin 2)) rfl (ix2 p q) _).trans
        (contrEquiv1_symm_val dot_S1024x1024_S512x1024_S1024x512_1_1_0_0_n_n 1024 rfl rfl k)
  · refine congrArg r (funext fun a => Fin.ext ?_)
    match a with
    | ⟨0, _⟩ => rfl
    | ⟨1, _⟩ =>
      exact (DotDims.rhsIdx_val_of_single dot_S1024x1024_S512x1024_S1024x512_1_1_0_0_n_n (cr := (1 : Fin 2)) rfl (ix2 p q) _).trans
        (contrEquiv1_symm_val dot_S1024x1024_S512x1024_S1024x512_1_1_0_0_n_n 1024 rfl rfl k)

theorem k0_pay6_apply (x0 : Vec Ideal S1024x1024 .f32) (x1 : Vec Ideal S512x1024 .f32) (acc : Vec Ideal S1024x512 .f32)
    (p : Fin 1024) (q : Fin 512) :
    (k0_pay6 x0 x1 acc : S1024x512.Idx → EReal) (ix2 p q) = acc (ix2 p q) + blockSum0 x0 x1 p q := by
  unfold k0_pay6 k0_pay5
  simp only [shapeCast_self]
  exact congrArg (acc (ix2 p q) + ·) (blockDot0_apply (some .fp32) x0 x1 p q)

theorem k0_pay7_apply (x0 : Vec Ideal S1024x1024 .f32) (x2 : Vec Ideal S512x1024 .f32) (acc : Vec Ideal S1024x512 .f32)
    (p : Fin 1024) (q : Fin 512) :
    (k0_pay7 x0 x2 acc : S1024x512.Idx → EReal) (ix2 p q) = acc (ix2 p q) + blockSum0 x0 x2 p q := by
  unfold k0_pay7 k0_pay5
  simp only [shapeCast_self]
  exact congrArg (acc (ix2 p q) + ·) (blockDot0_apply (some .fp32) x0 x2 p q)

theorem k0_pay8_apply (x0 : Vec Ideal S1024x1024 .f32) (x3 : Vec Ideal S512x1024 .bf16) (acc : Vec Ideal S1024x512 .f32)
    (p : Fin 1024) (q : Fin 512) :
    (k0_pay8 x0 x3 acc : S1024x512.Idx → EReal) (ix2 p q) = acc (ix2 p q) + blockSum0 x0 x3 p q := by
  unfold k0_pay8 k0_pay5
  simp only [shapeCast_self]
  exact congrArg (acc (ix2 p q) + ·)
    (blockDot0_apply none (truncf .bf16 (x0 : FVec Ideal S1024x1024 .f32) bitsLt_bf16_f32) (x3 : FVec Ideal S512x1024 .bf16) p q)

theorem k0_pay2_apply (j : S1024x512.Idx) : (k0_pay2 (F := Ideal) : S1024x512.Idx → EReal) j = 0 := by
  unfold k0_pay2
  simp only [shapeCast_self]
  exact Ideal.ofBits_zero_f32

theorem k0_pay3_apply (j : S1024x512.Idx) : (k0_pay3 (F := Ideal) : S1024x512.Idx → EReal) j = 0 := by
  unfold k0_pay3
  simp only [shapeCast_self]
  exact Ideal.ofBits_zero_f32

theorem k0_pay4_apply (j : S1024x512.Idx) : (k0_pay4 (F := Ideal) : S1024x512.Idx → EReal) j = 0 := by
  unfold k0_pay4
  simp only [shapeCast_self]
  exact Ideal.ofBits_zero_f32

/-- Narrowing the third accumulator to bf16 changes nothing on the extended reals. -/
theorem k0_pay1_apply (v : Vec Ideal S1024x512 .f32) (j : S1024x512.Idx) : (k0_pay1 v : S1024x512.Idx → EReal) j = v j := rfl

end AtIdeal

/-! ## The four steps of a contraction, joined

An accumulator that is the first step's block product added to zero at a first step, and the step's block product
added to what the step before left at every later step, holds at the last of the four steps the whole contraction
over the 4096 positions: the four chunk sums are the sum. -/

section Fold

theorem chunks0 : 4 * 1024 = 4096 := rfl

/-- The grid's position read as block indices: rows of `x` by `t / 32`, rows of the weights by `t / 4 % 8`, the
    contraction chunk by `t % 4`. -/
theorem idx_facts0 : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 2) = t.val / 4 % 8 ∧ win0_3.index t (1 : Fin 2) = t.val % 4
    ∧ win0_4.index t (0 : Fin 2) = t.val / 32 ∧ win0_4.index t (1 : Fin 2) = t.val / 4 % 8
    ∧ win0_5.index t (0 : Fin 2) = t.val / 32 ∧ win0_5.index t (1 : Fin 2) = t.val / 4 % 8
    ∧ win0_6.index t (0 : Fin 2) = t.val / 32 ∧ win0_6.index t (1 : Fin 2) = t.val / 4 % 8 :=
  (by decide +kernel : ∀ t : Fin grid0.N, _)

/-- Four consecutive steps from a first one: the accumulator after the fourth is the four addends, in order. -/
theorem fold0_four {N : ℕ} {ι : Type} (f M : (n : ℕ) → n < N → ι → EReal)
    (h0 : ∀ n (h : n < N), n % 4 = 0 → ∀ i, f n h i = 0 + M n h i)
    (hs : ∀ n (h : n + 1 < N), ¬(n + 1) % 4 = 0 → ∀ i, f (n + 1) h i = f n (Nat.lt_of_succ_lt h) i + M (n + 1) h i)
    (u : ℕ) (hu : u % 4 = 0) (h : u + 3 < N) (i : ι) :
    f (u + 3) h i = M u (by omega) i + M (u + 1) (by omega) i + M (u + 2) (by omega) i + M (u + 3) h i := by
  have e3 : f (u + 3) h i = f (u + 2) (by omega) i + M (u + 3) h i := hs (u + 2) h (by omega) i
  have e2 : f (u + 2) (by omega) i = f (u + 1) (by omega) i + M (u + 2) (by omega) i := hs (u + 1) (by omega) (by omega) i
  have e1 : f (u + 1) (by omega) i = f u (by omega) i + M (u + 1) (by omega) i := hs u (by omega) (by omega) i
  rw [e3, e2, e1, h0 u (by omega) hu i, zero_add]

/-- The accumulator at a last step is the projection's entry: the row of `X` and the row of `W` the point's blocks sit in. -/
theorem acc0_at_last (X W : Cert.Spec.M2)
    (B0 : (n : ℕ) → n < cfg0.N → S1024x1024.Idx → EReal) (B1 : (n : ℕ) → n < cfg0.N → S512x1024.Idx → EReal)
    (hB0 : ∀ n h (p k : Fin 1024) (R C : Fin 4096), R.val = n / 32 * 1024 + p.val → C.val = n % 4 * 1024 + k.val →
      B0 n h (ix2 p k) = X (ix2 R C))
    (hB1 : ∀ n h (q : Fin 512) (k : Fin 1024) (R C : Fin 4096), R.val = n / 4 % 8 * 512 + q.val → C.val = n % 4 * 1024 + k.val →
      B1 n h (ix2 q k) = W (ix2 R C))
    (f : (n : ℕ) → n < cfg0.N → S1024x512.Idx → EReal)
    (h0 : ∀ n (h : n < cfg0.N), n % 4 = 0 → ∀ (p : Fin 1024) (q : Fin 512),
      f n h (ix2 p q) = 0 + blockSum0 (B0 n h) (B1 n h) p q)
    (hs : ∀ n (h : n + 1 < cfg0.N), ¬(n + 1) % 4 = 0 → ∀ (p : Fin 1024) (q : Fin 512),
      f (n + 1) h (ix2 p q) = f n (Nat.lt_of_succ_lt h) (ix2 p q) + blockSum0 (B0 (n + 1) h) (B1 (n + 1) h) p q)
    (t : ℕ) (ht : t < cfg0.N) (h3 : t % 4 = 3) (p : Fin 1024) (q : Fin 512) (R R' : Fin 4096)
    (hR : R.val = t / 32 * 1024 + p.val) (hR' : R'.val = t / 4 % 8 * 512 + q.val) :
    f t ht (ix2 p q) = Cert.Spec.projT X W (ix2 R R') := by
  have hN : cfg0.N = 128 := N_0
  obtain ⟨u, rfl⟩ : ∃ u, t = u + 3 := ⟨t - 3, by omega⟩
  have hu : u % 4 = 0 := by omega
  have step : ∀ (n : ℕ) (hn : n < cfg0.N) (s : Fin 4), n / 4 = (u + 3) / 4 → n % 4 = s.val →
      blockSum0 (B0 n hn) (B1 n hn) p q
        = ∑ k : Fin 1024, X (ix2 R (ChunkSum.at_ chunks0 s k)) * W (ix2 R' (ChunkSum.at_ chunks0 s k)) := fun n hn s hq hm =>
    Finset.sum_congr rfl fun k _ => by
      have hk : (ChunkSum.at_ chunks0 s k).val = s.val * 1024 + k.val := rfl
      rw [hB0 n hn p k R (ChunkSum.at_ chunks0 s k) (by omega) (by omega), hB1 n hn q k R' (ChunkSum.at_ chunks0 s k) (by omega) (by omega)]
  have e := fold0_four (fun n h (j : Fin 1024 × Fin 512) => f n h (ix2 j.1 j.2))
    (fun n h (j : Fin 1024 × Fin 512) => blockSum0 (B0 n h) (B1 n h) j.1 j.2)
    (fun n h hm j => h0 n h hm j.1 j.2) (fun n h hm j => hs n h hm j.1 j.2) u hu ht (p, q)
  dsimp only at e
  rw [e, step u _ 0 (by omega) (by simpa using hu), step (u + 1) _ 1 (by omega) (by simp; omega), step (u + 2) _ 2 (by omega) (by simp; omega), step (u + 3) _ 3 (by omega) (by simp; omega)]
  unfold Cert.Spec.projT
  rw [← ChunkSum.sum_chunks chunks0 (fun k => X (ix2 R k) * W (ix2 R' k)), Fin.sum_univ_four]

end Fold

/-! ## The operands' blocks as entries of their arrays

A block's entry sits in its array at block index × block size + the coordinate inside the block. -/

section Blocks

variable (V : (c : Dev nD) → (b : Ref sig .tc) → Buf (Elt Ideal) ((c : Thread nD τ).loc b))

theorem iblk0_0_apply (c : Dev nD) (t : Fin cfg0.N) (p : Fin 1024) (k : Fin 1024) (R C : Fin 4096)
    (hR : R.val = t.val / 32 * 1024 + p.val) (hC : C.val = t.val % 4 * 1024 + k.val) :
    (iblk0 V c 0 t : S1024x1024.Idx → EReal) (ix2 p k) = (V c main_v0 : S4096x4096.Idx → EReal) (ix2 R C) := by
  obtain ⟨a0, a1, b0, b1, c0, c1, d0, d1, -⟩ := idx_facts0 t
  unfold iblk0
  rw [View.read_apply]
  show (V c main_v0 : S4096x4096.Idx → EReal) _ = _
  congr 1
  funext a
  apply Fin.ext
  match a with
  | ⟨0, _⟩ => show win0_0.index t (0 : Fin 2) * 1024 + 1 * p.val = R.val; omega
  | ⟨1, _⟩ => show win0_0.index t (1 : Fin 2) * 1024 + 1 * k.val = C.val; omega

theorem iblk0_1_apply (c : Dev nD) (t : Fin cfg0.N) (p : Fin 512) (k : Fin 1024) (R C : Fin 4096)
    (hR : R.val = t.val / 4 % 8 * 512 + p.val) (hC : C.val = t.val % 4 * 1024 + k.val) :
    (iblk0 V c 1 t : S512x1024.Idx → EReal) (ix2 p k) = (V c main_arg1 : S4096x4096.Idx → EReal) (ix2 R C) := by
  obtain ⟨a0, a1, b0, b1, c0, c1, d0, d1, -⟩ := idx_facts0 t
  unfold iblk0
  rw [View.read_apply]
  show (V c main_arg1 : S4096x4096.Idx → EReal) _ = _
  congr 1
  funext a
  apply Fin.ext
  match a with
  | ⟨0, _⟩ => show win0_1.index t (0 : Fin 2) * 512 + 1 * p.val = R.val; omega
  | ⟨1, _⟩ => show win0_1.index t (1 : Fin 2) * 1024 + 1 * k.val = C.val; omega

theorem iblk0_2_apply (c : Dev nD) (t : Fin cfg0.N) (p : Fin 512) (k : Fin 1024) (R C : Fin 4096)
    (hR : R.val = t.val / 4 % 8 * 512 + p.val) (hC : C.val = t.val % 4 * 1024 + k.val) :
    (iblk0 V c 2 t : S512x1024.Idx → EReal) (ix2 p k) = (V c main_arg2 : S4096x4096.Idx → EReal) (ix2 R C) := by
  obtain ⟨a0, a1, b0, b1, c0, c1, d0, d1, -⟩ := idx_facts0 t
  unfold iblk0
  rw [View.read_apply]
  show (V c main_arg2 : S4096x4096.Idx → EReal) _ = _
  congr 1
  funext a
  apply Fin.ext
  match a with
  | ⟨0, _⟩ => show win0_2.index t (0 : Fin 2) * 512 + 1 * p.val = R.val; omega
  | ⟨1, _⟩ => show win0_2.index t (1 : Fin 2) * 1024 + 1 * k.val = C.val; omega

theorem iblk0_3_apply (c : Dev nD) (t : Fin cfg0.N) (p : Fin 512) (k : Fin 1024) (R C : Fin 4096)
    (hR : R.val = t.val / 4 % 8 * 512 + p.val) (hC : C.val = t.val % 4 * 1024 + k.val) :
    (iblk0 V c 3 t : S512x1024.Idx → EReal) (ix2 p k) = (V c main_v1 : S4096x4096.Idx → EReal) (ix2 R C) := by
  obtain ⟨a0, a1, b0, b1, c0, c1, d0, d1, -⟩ := idx_facts0 t
  unfold iblk0
  rw [View.read_apply]
  show (V c main_v1 : S4096x4096.Idx → EReal) _ = _
  congr 1
  funext a
  apply Fin.ext
  match a with
  | ⟨0, _⟩ => show win0_3.index t (0 : Fin 2) * 512 + 1 * p.val = R.val; omega
  | ⟨1, _⟩ => show win0_3.index t (1 : Fin 2) * 1024 + 1 * k.val = C.val; omega

end Blocks

/-! ## The accumulators over the grid, and the arrays the kernel leaves -/

section Arrays

variable (V : (c : Dev nD) → (b : Ref sig .tc) → Buf (Elt Ideal) ((c : Thread nD τ).loc b))

theorem acc0_0_first (c : Dev nD) (n : ℕ) (h : n < cfg0.N) (hm : n % 4 = 0) (p : Fin 1024) (q : Fin 512) :
    ((outsAt0 V c n h).2.2.2.1 : S1024x512.Idx → EReal) (ix2 p q)
      = 0 + blockSum0 (iblk0 V c 0 ⟨n, h⟩) (iblk0 V c 1 ⟨n, h⟩) p q := by
  rw [show outsAt0 V c n h = _ from outsAt0_A V c ⟨n, h⟩ hm]
  dsimp only
  rw [sout0_A_0_eq, k0_pay6_apply, k0_pay2_apply]

theorem acc0_0_step (c : Dev nD) (n : ℕ) (h : n + 1 < cfg0.N) (hm : ¬(n + 1) % 4 = 0) (p : Fin 1024) (q : Fin 512) :
    ((outsAt0 V c (n + 1) h).2.2.2.1 : S1024x512.Idx → EReal) (ix2 p q)
      = ((outsAt0 V c n (Nat.lt_of_succ_lt h)).2.2.2.1 : S1024x512.Idx → EReal) (ix2 p q)
        + blockSum0 (iblk0 V c 0 ⟨n + 1, h⟩) (iblk0 V c 1 ⟨n + 1, h⟩) p q := by
  by_cases h1 : (n + 1) % 4 = 3
  · rw [show outsAt0 V c (n + 1) h = _ from outsAt0_C V c ⟨n + 1, h⟩ hm h1]
    dsimp only
    rw [sout0_C_0_eq, k0_pay6_apply]
    rfl
  · rw [show outsAt0 V c (n + 1) h = _ from outsAt0_B V c ⟨n + 1, h⟩ hm h1]
    dsimp only
    rw [sout0_B_0_eq, k0_pay6_apply]
    rfl

/-- At a last step accumulator 0 holds the projection's entries of the point's block. -/
theorem acc0_0_last (c : Dev nD) (t : Fin cfg0.N) (h3 : t.val % 4 = 3) (p : Fin 1024) (q : Fin 512) (R R' : Fin 4096)
    (hR : R.val = t.val / 32 * 1024 + p.val) (hR' : R'.val = t.val / 4 % 8 * 512 + q.val) :
    ((outsAt0 V c t.val t.isLt).2.2.2.1 : S1024x512.Idx → EReal) (ix2 p q)
      = Cert.Spec.projT (V c main_v0) (V c main_arg1) (ix2 R R') :=
  acc0_at_last (V c main_v0) (V c main_arg1)
    (fun n h => iblk0 V c 0 ⟨n, h⟩) (fun n h => iblk0 V c 1 ⟨n, h⟩)
    (fun n h p k R C hR hC => iblk0_0_apply V c ⟨n, h⟩ p k R C hR hC)
    (fun n h q k R C hR hC => iblk0_1_apply V c ⟨n, h⟩ q k R C hR hC)
    (fun n h => (outsAt0 V c n h).2.2.2.1)
    (acc0_0_first V c) (acc0_0_step V c) t.val t.isLt h3 p q R R' hR hR'

theorem acc0_1_first (c : Dev nD) (n : ℕ) (h : n < cfg0.N) (hm : n % 4 = 0) (p : Fin 1024) (q : Fin 512) :
    ((outsAt0 V c n h).2.2.2.2.1 : S1024x512.Idx → EReal) (ix2 p q)
      = 0 + blockSum0 (iblk0 V c 0 ⟨n, h⟩) (iblk0 V c 2 ⟨n, h⟩) p q := by
  rw [show outsAt0 V c n h = _ from outsAt0_A V c ⟨n, h⟩ hm]
  dsimp only
  rw [sout0_A_1_eq, k0_pay7_apply, k0_pay3_apply]

theorem acc0_1_step (c : Dev nD) (n : ℕ) (h : n + 1 < cfg0.N) (hm : ¬(n + 1) % 4 = 0) (p : Fin 1024) (q : Fin 512) :
    ((outsAt0 V c (n + 1) h).2.2.2.2.1 : S1024x512.Idx → EReal) (ix2 p q)
      = ((outsAt0 V c n (Nat.lt_of_succ_lt h)).2.2.2.2.1 : S1024x512.Idx → EReal) (ix2 p q)
        + blockSum0 (iblk0 V c 0 ⟨n + 1, h⟩) (iblk0 V c 2 ⟨n + 1, h⟩) p q := by
  by_cases h1 : (n + 1) % 4 = 3
  · rw [show outsAt0 V c (n + 1) h = _ from outsAt0_C V c ⟨n + 1, h⟩ hm h1]
    dsimp only
    rw [sout0_C_1_eq, k0_pay7_apply]
    rfl
  · rw [show outsAt0 V c (n + 1) h = _ from outsAt0_B V c ⟨n + 1, h⟩ hm h1]
    dsimp only
    rw [sout0_B_1_eq, k0_pay7_apply]
    rfl

/-- At a last step accumulator 1 holds the projection's entries of the point's block. -/
theorem acc0_1_last (c : Dev nD) (t : Fin cfg0.N) (h3 : t.val % 4 = 3) (p : Fin 1024) (q : Fin 512) (R R' : Fin 4096)
    (hR : R.val = t.val / 32 * 1024 + p.val) (hR' : R'.val = t.val / 4 % 8 * 512 + q.val) :
    ((outsAt0 V c t.val t.isLt).2.2.2.2.1 : S1024x512.Idx → EReal) (ix2 p q)
      = Cert.Spec.projT (V c main_v0) (V c main_arg2) (ix2 R R') :=
  acc0_at_last (V c main_v0) (V c main_arg2)
    (fun n h => iblk0 V c 0 ⟨n, h⟩) (fun n h => iblk0 V c 2 ⟨n, h⟩)
    (fun n h p k R C hR hC => iblk0_0_apply V c ⟨n, h⟩ p k R C hR hC)
    (fun n h q k R C hR hC => iblk0_2_apply V c ⟨n, h⟩ q k R C hR hC)
    (fun n h => (outsAt0 V c n h).2.2.2.2.1)
    (acc0_1_first V c) (acc0_1_step V c) t.val t.isLt h3 p q R R' hR hR'

theorem acc0_2_first (c : Dev nD) (n : ℕ) (h : n < cfg0.N) (hm : n % 4 = 0) (p : Fin 1024) (q : Fin 512) :
    ((outsAt0 V c n h).2.2.2.2.2 : S1024x512.Idx → EReal) (ix2 p q)
      = 0 + blockSum0 (iblk0 V c 0 ⟨n, h⟩) (iblk0 V c 3 ⟨n, h⟩) p q := by
  rw [show outsAt0 V c n h = _ from outsAt0_A V c ⟨n, h⟩ hm]
  dsimp only
  rw [sout0_A_2_eq, k0_pay8_apply, k0_pay4_apply]

theorem acc0_2_step (c : Dev nD) (n : ℕ) (h : n + 1 < cfg0.N) (hm : ¬(n + 1) % 4 = 0) (p : Fin 1024) (q : Fin 512) :
    ((outsAt0 V c (n + 1) h).2.2.2.2.2 : S1024x512.Idx → EReal) (ix2 p q)
      = ((outsAt0 V c n (Nat.lt_of_succ_lt h)).2.2.2.2.2 : S1024x512.Idx → EReal) (ix2 p q)
        + blockSum0 (iblk0 V c 0 ⟨n + 1, h⟩) (iblk0 V c 3 ⟨n + 1, h⟩) p q := by
  by_cases h1 : (n + 1) % 4 = 3
  · rw [show outsAt0 V c (n + 1) h = _ from outsAt0_C V c ⟨n + 1, h⟩ hm h1]
    dsimp only
    rw [sout0_C_2_eq, k0_pay8_apply]
    rfl
  · rw [show outsAt0 V c (n + 1) h = _ from outsAt0_B V c ⟨n + 1, h⟩ hm h1]
    dsimp only
    rw [sout0_B_2_eq, k0_pay8_apply]
    rfl

/-- At a last step accumulator 2 holds the projection's entries of the point's block. -/
theorem acc0_2_last (c : Dev nD) (t : Fin cfg0.N) (h3 : t.val % 4 = 3) (p : Fin 1024) (q : Fin 512) (R R' : Fin 4096)
    (hR : R.val = t.val / 32 * 1024 + p.val) (hR' : R'.val = t.val / 4 % 8 * 512 + q.val) :
    ((outsAt0 V c t.val t.isLt).2.2.2.2.2 : S1024x512.Idx → EReal) (ix2 p q)
      = Cert.Spec.projT (V c main_v0) (V c main_v1) (ix2 R R') :=
  acc0_at_last (V c main_v0) (V c main_v1)
    (fun n h => iblk0 V c 0 ⟨n, h⟩) (fun n h => iblk0 V c 3 ⟨n, h⟩)
    (fun n h p k R C hR hC => iblk0_0_apply V c ⟨n, h⟩ p k R C hR hC)
    (fun n h q k R C hR hC => iblk0_3_apply V c ⟨n, h⟩ q k R C hR hC)
    (fun n h => (outsAt0 V c n h).2.2.2.2.2)
    (acc0_2_first V c) (acc0_2_step V c) t.val t.isLt h3 p q R R' hR hR'

/-- At a last step output block 4 is accumulator 0 as the step leaves it. -/
theorem out0_4_last (c : Dev nD) (t : Fin cfg0.N) (h3 : t.val % 4 = 3) (y : S1024x512.Idx) :
    ((outsAt0 V c t.val t.isLt).1 : S1024x512.Idx → EReal) y = ((outsAt0 V c t.val t.isLt).2.2.2.1 : S1024x512.Idx → EReal) y := by
  have hm : ¬t.val % 4 = 0 := by omega
  rw [show outsAt0 V c t.val t.isLt = _ from outsAt0_C V c t hm h3]
  dsimp only
  rw [out0_C_4_eq, sout0_C_0_eq]

/-- At a last step output block 5 is accumulator 1 as the step leaves it. -/
theorem out0_5_last (c : Dev nD) (t : Fin cfg0.N) (h3 : t.val % 4 = 3) (y : S1024x512.Idx) :
    ((outsAt0 V c t.val t.isLt).2.1 : S1024x512.Idx → EReal) y = ((outsAt0 V c t.val t.isLt).2.2.2.2.1 : S1024x512.Idx → EReal) y := by
  have hm : ¬t.val % 4 = 0 := by omega
  rw [show outsAt0 V c t.val t.isLt = _ from outsAt0_C V c t hm h3]
  dsimp only
  rw [out0_C_5_eq, sout0_C_1_eq]

/-- At a last step output block 6 is accumulator 2 as the step leaves it, narrowed. -/
theorem out0_6_last (c : Dev nD) (t : Fin cfg0.N) (h3 : t.val % 4 = 3) (y : S1024x512.Idx) :
    ((outsAt0 V c t.val t.isLt).2.2.1 : S1024x512.Idx → EReal) y = ((outsAt0 V c t.val t.isLt).2.2.2.2.2 : S1024x512.Idx → EReal) y := by
  have hm : ¬t.val % 4 = 0 := by omega
  rw [show outsAt0 V c t.val t.isLt = _ from outsAt0_C V c t hm h3]
  dsimp only
  rw [out0_C_6_eq, sout0_C_2_eq]
  rfl

/-- What a last step writes back into output 4 is its block of the projection. -/
theorem flushed0_4_eq (c : Dev nD) (t : Fin cfg0.N) (hf : (cfg0.win 4).flush t = true) :
    (dat0 V c).flushed 4 t = ((cfg0.win 4).blk t).view.read (Elt Ideal) (Cert.Spec.projT (V c main_v0) (V c main_arg1)) := by
  have h3 : t.val % 4 = 3 := (flush0_4 t).mp hf
  obtain ⟨-, -, -, -, -, -, -, -, e40, e41, e50, e51, e60, e61⟩ := idx_facts0 t
  show (cfg0.win 4).cut (grid0.coords t) ((dat0 V c).after 4 t) = _
  rw [after0_4]
  funext j
  obtain ⟨p, q, rfl⟩ : ∃ (p : Fin 1024) (q : Fin 512), j = ix2 p q := ⟨j 0, j 1, eq_ix2 j⟩
  show ((outsAt0 V c t.val t.isLt).1 : S1024x512.Idx → EReal) (ix2 p q)
    = Cert.Spec.projT (V c main_v0) (V c main_arg1) (((cfg0.win 4).blk t).view.emb (ix2 p q))
  rw [out0_4_last V c t h3, eq_ix2 (((cfg0.win 4).blk t).view.emb (ix2 p q))]
  refine acc0_0_last V c t h3 p q _ _ ?_ ?_
  · show win0_4.index t (0 : Fin 2) * 1024 + 1 * p.val = _; omega
  · show win0_4.index t (1 : Fin 2) * 512 + 1 * q.val = _; omega

/-- Every entry of output 4 lies in the block of the last step of its row block and column block. -/
theorem cover0_4 (i : S4096x4096.Idx) :
    ∃ t : Fin cfg0.N, (cfg0.win 4).flush t = true ∧ i ∈ ((cfg0.win 4).blk t).view.set := by
  have hN : cfg0.N = 128 := N_0
  have hi0 : (i 0).val < 4096 := (i 0).isLt
  have hi1 : (i 1).val < 4096 := (i 1).isLt
  let t : Fin cfg0.N := ⟨(i 0).val / 1024 * 32 + (i 1).val / 512 * 4 + 3, by omega⟩
  have htv : t.val = (i 0).val / 1024 * 32 + (i 1).val / 512 * 4 + 3 := rfl
  obtain ⟨-, -, -, -, -, -, -, -, e40, e41, e50, e51, e60, e61⟩ := idx_facts0 t
  refine ⟨t, (flush0_4 t).mpr (by omega), ?_⟩
  show i ∈ ((View.whole main_v4_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- Output 4 ends holding the projection of the input rows by W1. -/
theorem final0_4 (c : Dev nD) : (dat0 V c).arrAt 4 cfg0.N = Cert.Spec.projT (V c main_v0) (V c main_arg1) :=
  (dat0 V c).arrAt_eq_of_cover 4 (Cert.Spec.projT (V c main_v0) (V c main_arg1)) (flushed0_4_eq V c) (cover0_4)

/-- What a last step writes back into output 5 is its block of the projection. -/
theorem flushed0_5_eq (c : Dev nD) (t : Fin cfg0.N) (hf : (cfg0.win 5).flush t = true) :
    (dat0 V c).flushed 5 t = ((cfg0.win 5).blk t).view.read (Elt Ideal) (Cert.Spec.projT (V c main_v0) (V c main_arg2)) := by
  have h3 : t.val % 4 = 3 := (flush0_5 t).mp hf
  obtain ⟨-, -, -, -, -, -, -, -, e40, e41, e50, e51, e60, e61⟩ := idx_facts0 t
  show (cfg0.win 5).cut (grid0.coords t) ((dat0 V c).after 5 t) = _
  rw [after0_5]
  funext j
  obtain ⟨p, q, rfl⟩ : ∃ (p : Fin 1024) (q : Fin 512), j = ix2 p q := ⟨j 0, j 1, eq_ix2 j⟩
  show ((outsAt0 V c t.val t.isLt).2.1 : S1024x512.Idx → EReal) (ix2 p q)
    = Cert.Spec.projT (V c main_v0) (V c main_arg2) (((cfg0.win 5).blk t).view.emb (ix2 p q))
  rw [out0_5_last V c t h3, eq_ix2 (((cfg0.win 5).blk t).view.emb (ix2 p q))]
  refine acc0_1_last V c t h3 p q _ _ ?_ ?_
  · show win0_5.index t (0 : Fin 2) * 1024 + 1 * p.val = _; omega
  · show win0_5.index t (1 : Fin 2) * 512 + 1 * q.val = _; omega

/-- Every entry of output 5 lies in the block of the last step of its row block and column block. -/
theorem cover0_5 (i : S4096x4096.Idx) :
    ∃ t : Fin cfg0.N, (cfg0.win 5).flush t = true ∧ i ∈ ((cfg0.win 5).blk t).view.set := by
  have hN : cfg0.N = 128 := N_0
  have hi0 : (i 0).val < 4096 := (i 0).isLt
  have hi1 : (i 1).val < 4096 := (i 1).isLt
  let t : Fin cfg0.N := ⟨(i 0).val / 1024 * 32 + (i 1).val / 512 * 4 + 3, by omega⟩
  have htv : t.val = (i 0).val / 1024 * 32 + (i 1).val / 512 * 4 + 3 := rfl
  obtain ⟨-, -, -, -, -, -, -, -, e40, e41, e50, e51, e60, e61⟩ := idx_facts0 t
  refine ⟨t, (flush0_5 t).mpr (by omega), ?_⟩
  show i ∈ ((View.whole main_v4_1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- Output 5 ends holding the projection of the input rows by W2. -/
theorem final0_5 (c : Dev nD) : (dat0 V c).arrAt 5 cfg0.N = Cert.Spec.projT (V c main_v0) (V c main_arg2) :=
  (dat0 V c).arrAt_eq_of_cover 5 (Cert.Spec.projT (V c main_v0) (V c main_arg2)) (flushed0_5_eq V c) (cover0_5)

/-- What a last step writes back into output 6 is its block of the projection. -/
theorem flushed0_6_eq (c : Dev nD) (t : Fin cfg0.N) (hf : (cfg0.win 6).flush t = true) :
    (dat0 V c).flushed 6 t = ((cfg0.win 6).blk t).view.read (Elt Ideal) (Cert.Spec.projT (V c main_v0) (V c main_v1)) := by
  have h3 : t.val % 4 = 3 := (flush0_6 t).mp hf
  obtain ⟨-, -, -, -, -, -, -, -, e40, e41, e50, e51, e60, e61⟩ := idx_facts0 t
  show (cfg0.win 6).cut (grid0.coords t) ((dat0 V c).after 6 t) = _
  rw [after0_6]
  funext j
  obtain ⟨p, q, rfl⟩ : ∃ (p : Fin 1024) (q : Fin 512), j = ix2 p q := ⟨j 0, j 1, eq_ix2 j⟩
  show ((outsAt0 V c t.val t.isLt).2.2.1 : S1024x512.Idx → EReal) (ix2 p q)
    = Cert.Spec.projT (V c main_v0) (V c main_v1) (((cfg0.win 6).blk t).view.emb (ix2 p q))
  rw [out0_6_last V c t h3, eq_ix2 (((cfg0.win 6).blk t).view.emb (ix2 p q))]
  refine acc0_2_last V c t h3 p q _ _ ?_ ?_
  · show win0_6.index t (0 : Fin 2) * 1024 + 1 * p.val = _; omega
  · show win0_6.index t (1 : Fin 2) * 512 + 1 * q.val = _; omega

/-- Every entry of output 6 lies in the block of the last step of its row block and column block. -/
theorem cover0_6 (i : S4096x4096.Idx) :
    ∃ t : Fin cfg0.N, (cfg0.win 6).flush t = true ∧ i ∈ ((cfg0.win 6).blk t).view.set := by
  have hN : cfg0.N = 128 := N_0
  have hi0 : (i 0).val < 4096 := (i 0).isLt
  have hi1 : (i 1).val < 4096 := (i 1).isLt
  let t : Fin cfg0.N := ⟨(i 0).val / 1024 * 32 + (i 1).val / 512 * 4 + 3, by omega⟩
  have htv : t.val = (i 0).val / 1024 * 32 + (i 1).val / 512 * 4 + 3 := rfl
  obtain ⟨-, -, -, -, -, -, -, -, e40, e41, e50, e51, e60, e61⟩ := idx_facts0 t
  refine ⟨t, (flush0_6 t).mpr (by omega), ?_⟩
  show i ∈ ((View.whole main_v4_2).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

/-- Output 6 ends holding the projection of the input rows by W3. -/
theorem final0_6 (c : Dev nD) : (dat0 V c).arrAt 6 cfg0.N = Cert.Spec.projT (V c main_v0) (V c main_v1) :=
  (dat0 V c).arrAt_eq_of_cover 6 (Cert.Spec.projT (V c main_v0) (V c main_v1)) (flushed0_6_eq V c) (cover0_6)

end Arrays

end Cert.KernelIdeal.Hand

end
-- ==== Proof.R1Value.lean ====
/-
  The second kernel's value. Per batch and per block of 512 rows, the accumulator gathers over the eight steps of the
  sequence axis the products of a [256, 512] block of the first operand with a [256, 4096] block of the second,
  contracted over the 256 sequence positions of the step; after the last step it holds the whole Gram matrix rows
  `∑ s, A(b, s, d) · B(b, s, e)` over the 2048 positions, and each row is then normalised by its exponentials.
-/
import proofs.«133833_j3100966388061_2_alg».proof.Proof.R1Frame
import proofs.«133833_j3100966388061_2_alg».proof.Proof.Spec
import proofs.«133833_j3100966388061_2_alg».proof.Proof.LibChunkSum
import proofs.«133833_j3100966388061_2_alg».proof.Proof.LibRowSoftmax
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## What each case's stores leave, as the payloads -/

section Payloads

variable {F : FTy → Type} [FloatOps F]

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- A later step leaves the accumulator at the accumulate step of the two operand blocks and what it held. -/
theorem sout1_B_0_eq (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : ¬cond1_1 i)
    (x0 : Vec F S1x256x512 .f32) (x1 : Vec F S1x256x4096 .f32) (xs0 : Vec F S512x4096 .f32) :
    sout1_B_0 c i arg3 harg3 arg4 harg4 arg5 harg5 arg6 harg6 hc0 hc1 x0 x1 xs0 = k1_pay2 x0 x1 xs0 := by
  unfold sout1_B_0
  unfold kernelRun1_B
  dsimp only
  rw [View.canon_unit_zero hz1_2]
  simp only [View.readAt_eq_ld, harg3.read_unread, harg4.read_unread, harg6.read_unread,
    View.ld_unit_zero (S := S1x256x512) hz1_3, View.ld_unit_zero (S := S1x256x4096) hz1_3,
    View.ld_unit_zero (S := S512x4096) hz1_2]

/-- A first step zeroes the accumulator, reads the zeros back and leaves the accumulate step onto them. -/
theorem sout1_A_0_eq (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : cond1_0 i) (hc1 : ¬cond1_1 i)
    (x0 : Vec F S1x256x512 .f32) (x1 : Vec F S1x256x4096 .f32) :
    sout1_A_0 c i arg3 harg3 arg4 harg4 arg5 harg5 arg6 harg6 hc0 hc1 x0 x1 = k1_pay2 x0 x1 (k1_pay1 (F := F)) := by
  unfold sout1_A_0
  unfold kernelRun1_A
  dsimp only
  sl_unfold_words
  rw [View.canon_cons_unit_zero (S := S512x4096) hz1_2, View.readCov_unit_zero (S := S512x4096) _ hz1_2]
  simp only [View.readAt_eq_ld, harg3.read_unread, harg4.read_unread,
    View.ld_unit_zero (S := S1x256x512) hz1_3, View.ld_unit_zero (S := S1x256x4096) hz1_3]

/-- A last step leaves the accumulator as a later step does. -/
theorem sout1_C_0_eq (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) :
    sout1_C_0 c i arg3 harg3 arg4 harg4 arg5 harg5 arg6 harg6 hc0 hc1 x0 x1 xs0 = k1_pay2 x0 x1 xs0 := by
  unfold sout1_C_0
  unfold kernelRun1_C
  dsimp only
  sl_unfold_words
  rw [View.canon_unit_zero hz1_2]
  simp only [View.readAt_eq_ld, harg3.read_unread, harg4.read_unread, harg6.read_unread,
    View.ld_unit_zero (S := S1x256x512) hz1_3, View.ld_unit_zero (S := S1x256x4096) hz1_3,
    View.ld_unit_zero (S := S512x4096) hz1_2]

/-- A last step stores into the output block the epilogue of what it has just left in the accumulator. -/
theorem out1_C_2_eq (c : Dev nD) (i : grid1.Coords) (arg3 : Memref sig .tc .vmem S1x256x512 .f32) (harg3 : arg3.IsWhole) (arg4 : Memref sig .tc .vmem S1x256x4096 .f32) (harg4 : arg4.IsWhole) (arg5 : Memref sig .tc .vmem S1x512x4096 .bf16) (harg5 : arg5.IsWhole) (arg6 : Memref sig .tc .vmem S512x4096 .f32) (harg6 : arg6.IsWhole) (hc0 : ¬cond1_0 i) (hc1 : cond1_1 i)
    (x0 : Vec F S1x256x512 .f32) (x1 : Vec F S1x256x4096 .f32) (xs0 : Vec F S512x4096 .f32) :
    out1_C_2 c i arg3 harg3 arg4 harg4 arg5 harg5 arg6 harg6 hc0 hc1 x0 x1 xs0 = k1_pay3 (k1_pay2 x0 x1 xs0) := by
  unfold out1_C_2
  unfold kernelRun1_C
  dsimp only
  sl_unfold_words
  rw [View.canon_unit_zero hz1_3, View.readCov_unit_zero (S := S512x4096) _ hz1_2]
  simp only [View.readAt_eq_ld, harg3.read_unread, harg4.read_unread, harg6.read_unread,
    View.ld_unit_zero (S := S1x256x512) hz1_3, View.ld_unit_zero (S := S1x256x4096) hz1_3,
    View.ld_unit_zero (S := S512x4096) hz1_2]

end Payloads

/-! ## The payloads at an index, on the extended reals -/

section AtIdeal

/-- A [512] vector cast to a column and spread along 4096 lanes reads, at `(r, e)`, its entry `r`. -/
theorem colSpread_apply {α : Type} (v : S512.Idx → α) (h1 : S512.ShapeCasts S512x1) (h2 : S512x1.Broadcasts S512x4096)
    (r : Fin 512) (e : Fin 4096) : broadcastTo S512x4096 (shapeCast S512x1 v h1) h2 (ix2 r e) = v (ix1 r) := by
  refine (broadcastTo_apply _ h2 (ix2 r e) (ix2 r (0 : Fin 1)) fun a => ?_).trans ?_
  · match a with
    | ⟨0, _⟩ => rfl
    | ⟨1, _⟩ => rfl
  · exact shapeCast_apply v h1 _ _ (by
      rw [Shape.rowMajor_val_one, Shape.rowMajor_val_two]
      show r.val = r.val * 1 + 0
      omega)

/-- The zero block reads `0` everywhere. -/
theorem pay1_apply (i : S512x4096.Idx) : (k1_pay1 (F := Ideal) : FVec Ideal S512x4096 .f32) i = 0 := by
  unfold k1_pay1
  refine (congrFun (shapeCast_self _ _) i).trans ?_
  exact Ideal.ofBits_zero_f32

/-- The operand index of the first block at result `(r, e)` and contraction position `k` is `(k, r)`. -/
theorem dot1_lhsIdx (r : Fin 512) (e : Fin 4096) (k : Fin 256) :
    dot_S256x512_S256x4096_S512x4096_0_0_1_1_n_n.lhsIdx (ix2 r e)
      ((contrEquiv1 dot_S256x512_S256x4096_S512x4096_0_0_1_1_n_n 256 rfl rfl).symm k) = ix2 k r := by
  funext a
  refine Fin.ext ?_
  match a with
  | ⟨0, _⟩ =>
    exact (DotDims.lhsIdx_val_of_single dot_S256x512_S256x4096_S512x4096_0_0_1_1_n_n (cl := 0) rfl _ _).trans
      (contrEquiv1_symm_val _ 256 rfl rfl k)
  | ⟨1, _⟩ => rfl

/-- The operand index of the second block at result `(r, e)` and contraction position `k` is `(k, e)`. -/
theorem dot1_rhsIdx (r : Fin 512) (e : Fin 4096) (k : Fin 256) :
    dot_S256x512_S256x4096_S512x4096_0_0_1_1_n_n.rhsIdx (ix2 r e)
      ((contrEquiv1 dot_S256x512_S256x4096_S512x4096_0_0_1_1_n_n 256 rfl rfl).symm k) = ix2 k e := by
  funext a
  refine Fin.ext ?_
  match a with
  | ⟨0, _⟩ =>
    exact (DotDims.rhsIdx_val_of_single dot_S256x512_S256x4096_S512x4096_0_0_1_1_n_n (cr := 0) rfl _ _).trans
      (contrEquiv1_symm_val _ 256 rfl rfl k)
  | ⟨1, _⟩ => rfl

/-- The product of a [1, 256, 512] block with a [1, 256, 4096] block over their 256 sequence positions, at an entry. -/
def blockProd (x0 : Vec Ideal S1x256x512 .f32) (x1 : Vec Ideal S1x256x4096 .f32) (i : S512x4096.Idx) : EReal :=
  ∑ k : Fin 256, x0 (ix3 (0 : Fin 1) k (i 0)) * x1 (ix3 (0 : Fin 1) k (i 1))

/-- The accumulate step at `(r, e)`: what was held plus the step's product of the two blocks. -/
theorem pay2_apply (x0 : Vec Ideal S1x256x512 .f32) (x1 : Vec Ideal S1x256x4096 .f32) (acc : Vec Ideal S512x4096 .f32)
    (r : Fin 512) (e : Fin 4096) :
    (k1_pay2 x0 x1 acc : FVec Ideal S512x4096 .f32) (ix2 r e) = acc (ix2 r e) + blockProd x0 x1 (ix2 r e) := by
  unfold k1_pay2 blockProd
  refine (congrFun (shapeCast_self _ _) (ix2 r e)).trans ?_
  refine congrArg (acc (ix2 r e) + ·) ?_
  refine (Ideal.matmul_constant_zero_apply _ _ _ _ _).trans ?_
  refine Cert.Attn.contraction_sum dot_S256x512_S256x4096_S512x4096_0_0_1_1_n_n rfl rfl _ _ (ix2 r e) _ _
    (fun k => ?_) (fun k => ?_)
  · exact (congrArg _ (dot1_lhsIdx r e k)).trans (shapeCast_1ab_ab_apply x0 _ k r)
  · exact (congrArg _ (dot1_rhsIdx r e k)).trans (shapeCast_1ab_ab_apply x1 _ k e)

/-- The row maximum the epilogue takes, at row `r`. -/
theorem rowMax1_apply (X : FVec Ideal S512x4096 .f32) (h : S512x4096.Reduces [1] S512) (hφ : FKind.Formats .f32)
    (hacc : (0xFF800000#32 : BitVec 32) = FKind.maximumf.neutral .f32 hφ) (r : Fin 512) :
    multiReduction .maximumf [1] S512 X 0xFF800000#32 h hφ hacc (ix1 r) = Cert.Spec.rowMax (fun e : Fin 4096 => X (ix2 r e)) := by
  refine (Ideal.multiReduction_maximumf_single X _ h hφ hacc (ix1 r)).trans ?_
  unfold Cert.Spec.rowMax
  refine congrArg (Finset.fold max (Ideal.ofBits .f32 0xFF800000#32) · Finset.univ) ?_
  funext e
  refine congrArg X (funext fun a => Fin.ext ?_)
  match a with
  | ⟨0, _⟩ => rfl
  | ⟨1, _⟩ => rfl

/-- The lane sum the epilogue takes, at row `r`. -/
theorem laneSum1_apply (Y : FVec Ideal S512x4096 .f32) (h : S512x4096.Reduces [1] S512) (hφ : FKind.Formats .f32)
    (hacc : (0x00000000#32 : BitVec 32) = FKind.add.neutral .f32 hφ) (r : Fin 512) :
    multiReduction .add [1] S512 Y 0x00000000#32 h hφ hacc (ix1 r) = ∑ e : Fin 4096, Y (ix2 r e) := by
  refine (Ideal.multiReduction_add_single Y _ h hφ hacc (ix1 r)).trans ?_
  refine Finset.sum_congr rfl fun e _ => congrArg Y (funext fun a => Fin.ext ?_)
  match a with
  | ⟨0, _⟩ => rfl
  | ⟨1, _⟩ => rfl

/-- The exponential of an entry's distance to its row's maximum, as the epilogue computes it. -/
theorem expRow1_apply (X : FVec Ideal S512x4096 .f32) (h : S512x4096.Reduces [1] S512) (h1 : S512.ShapeCasts S512x1)
    (h2 : S512x1.Broadcasts S512x4096) (hφ : FKind.Formats .f32)
    (hacc : (0xFF800000#32 : BitVec 32) = FKind.maximumf.neutral .f32 hφ) (r : Fin 512) (e : Fin 4096) :
    exp (subf X (broadcastTo S512x4096 (shapeCast S512x1 (multiReduction .maximumf [1] S512 X 0xFF800000#32 h hφ hacc) h1) h2)) (ix2 r e)
      = Ideal.exp (X (ix2 r e) - Cert.Spec.rowMax fun e' : Fin 4096 => X (ix2 r e')) :=
  congrArg (fun m => Ideal.exp (X (ix2 r e) - m)) ((colSpread_apply _ h1 h2 r e).trans (rowMax1_apply X h hφ hacc r))

/-- The epilogue at `(u, r, e)`: row `r` of its argument, normalised by its exponentials, at `e`. -/
theorem pay3_apply (X : Vec Ideal S512x4096 .f32) (u : Fin 1) (r : Fin 512) (e : Fin 4096) :
    (k1_pay3 X : FVec Ideal S1x512x4096 .bf16) (ix3 u r e) = Cert.Spec.softRow (fun e' : Fin 4096 => X (ix2 r e')) e := by
  unfold k1_pay3
  refine (shapeCast_ab_1ab_apply _ _ u r e).trans ?_
  unfold Cert.Spec.softRow
  simp only [truncf_apply, divf_apply]
  refine congrArg₂ Ideal.div (expRow1_apply X _ _ _ _ _ r e) ?_
  exact (colSpread_apply _ _ _ r e).trans
    ((laneSum1_apply _ _ _ _ r).trans (Finset.sum_congr rfl fun x _ => expRow1_apply X _ _ _ _ _ r x))

end AtIdeal

/-! ## The accumulator over the eight steps, and the array -/

section Value

variable (V : (c : Dev nD) → (b : Ref sig .tc) → Buf (Elt Ideal) ((c : Thread nD τ).loc b))

/-- The block indices of the three windows at grid point `t = 64 b + 8 i + k`: `(b, k, i)`, `(b, k, 0)`, `(b, i, 0)`. -/
theorem idx_facts1 : ∀ t : Fin cfg1.N,
    win1_0.index t (0 : Fin 3) = t.val / 64 ∧ win1_0.index t (1 : Fin 3) = t.val % 8 ∧ win1_0.index t (2 : Fin 3) = t.val / 8 % 8
    ∧ win1_1.index t (0 : Fin 3) = t.val / 64 ∧ win1_1.index t (1 : Fin 3) = t.val % 8 ∧ win1_1.index t (2 : Fin 3) = 0
    ∧ win1_2.index t (0 : Fin 3) = t.val / 64 ∧ win1_2.index t (1 : Fin 3) = t.val / 8 % 8 ∧ win1_2.index t (2 : Fin 3) = 0 :=
  (by decide +kernel : ∀ t : Fin grid1.N, _)

/-- The two operand arrays, as functions of an index on the extended reals. -/
def arrA1 (c : Dev nD) : Cert.Spec.T3 := V c main_v5
def arrB1 (c : Dev nD) : Cert.Spec.T3 := V c main_v6

/-- An entry of the first operand's block at a point is the array's entry at block index × block size + the entry's
    coordinate, axis by axis. -/
theorem iblk1_0_apply (c : Dev nD) (t : Fin cfg1.N) (u : Fin 1) (k : Fin 256) (r : Fin 512) (j : S2x2048x4096.Idx)
    (hj0 : (j 0).val = t.val / 64) (hj1 : (j 1).val = t.val % 8 * 256 + k.val) (hj2 : (j 2).val = t.val / 8 % 8 * 512 + r.val) :
    (iblk1 V c 0 t : Vec Ideal S1x256x512 .f32) (ix3 u k r) = arrA1 V c j := by
  obtain ⟨e0, e1, e2, -⟩ := idx_facts1 t
  have hu : u.val = 0 := by omega
  unfold iblk1 arrA1
  show V c main_v5 _ = V c main_v5 _
  refine congrArg _ (funext fun a => Fin.ext ?_)
  match a with
  | ⟨0, _⟩ => show win1_0.index t (0 : Fin 3) * 1 + 1 * u.val = (j 0).val; rw [e0, hj0, hu]; omega
  | ⟨1, _⟩ => show win1_0.index t (1 : Fin 3) * 256 + 1 * k.val = (j 1).val; rw [e1, hj1]; omega
  | ⟨2, _⟩ => show win1_0.index t (2 : Fin 3) * 512 + 1 * r.val = (j 2).val; rw [e2, hj2]; omega

/-- The same for the second operand's block. -/
theorem iblk1_1_apply (c : Dev nD) (t : Fin cfg1.N) (u : Fin 1) (k : Fin 256) (e : Fin 4096) (j : S2x2048x4096.Idx)
    (hj0 : (j 0).val = t.val / 64) (hj1 : (j 1).val = t.val % 8 * 256 + k.val) (hj2 : (j 2).val = e.val) :
    (iblk1 V c 1 t : Vec Ideal S1x256x4096 .f32) (ix3 u k e) = arrB1 V c j := by
  obtain ⟨-, -, -, e0, e1, e2, -⟩ := idx_facts1 t
  have hu : u.val = 0 := by omega
  unfold iblk1 arrB1
  show V c main_v6 _ = V c main_v6 _
  refine congrArg _ (funext fun a => Fin.ext ?_)
  match a with
  | ⟨0, _⟩ => show win1_1.index t (0 : Fin 3) * 1 + 1 * u.val = (j 0).val; rw [e0, hj0, hu]; omega
  | ⟨1, _⟩ => show win1_1.index t (1 : Fin 3) * 256 + 1 * k.val = (j 1).val; rw [e1, hj1]; omega
  | ⟨2, _⟩ => show win1_1.index t (2 : Fin 3) * 4096 + 1 * e.val = (j 2).val; rw [e2, hj2]; omega

/-- What the accumulator holds after the body at position `n`. -/
def accOf (c : Dev nD) (n : ℕ) (h : n < cfg1.N) : S512x4096.Idx → EReal := (outsAt1 V c n h).2

/-- At a first step: the accumulate step of the point's blocks onto the zero block. -/
def accReset (c : Dev nD) (n : ℕ) (h : n < cfg1.N) : S512x4096.Idx → EReal :=
  k1_pay2 (iblk1 V c 0 ⟨n, h⟩) (iblk1 V c 1 ⟨n, h⟩) (k1_pay1 (F := Ideal))

/-- At a later step: the accumulate step of the point's blocks onto what the point before left. -/
def accStep (c : Dev nD) (n : ℕ) (h : n < cfg1.N) (x : S512x4096.Idx → EReal) : S512x4096.Idx → EReal :=
  k1_pay2 (iblk1 V c 0 ⟨n, h⟩) (iblk1 V c 1 ⟨n, h⟩) x

theorem accOf_reset (c : Dev nD) (n : ℕ) (h : n < cfg1.N) (h0 : n % 8 = 0) : accOf V c n h = accReset V c n h := by
  have e : outsAt1 V c n h = _ := outsAt1_A V c ⟨n, h⟩ h0
  unfold accOf accReset
  rw [e]
  dsimp only
  exact sout1_A_0_eq (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) scM1_0 (Memref.isWhole_whole _) ((hcond1_0 ⟨n, h⟩).mpr h0) (fun hh => not_last_of_first1 h0 ((hcond1_1 ⟨n, h⟩).mp hh)) (iblk1 V c 0 ⟨n, h⟩) (iblk1 V c 1 ⟨n, h⟩)

theorem accOf_step (c : Dev nD) (n : ℕ) (h : n + 1 < cfg1.N) (h0 : ¬(n + 1) % 8 = 0) :
    accOf V c (n + 1) h = accStep V c (n + 1) h (accOf V c n (Nat.lt_of_succ_lt h)) := by
  unfold accOf accStep
  by_cases h1 : (n + 1) % 8 = 7
  · have e : outsAt1 V c (n + 1) h = _ := outsAt1_C V c ⟨n + 1, h⟩ h0 h1
    rw [e]
    dsimp only
    exact sout1_C_0_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) _
  · have e : outsAt1 V c (n + 1) h = _ := outsAt1_B V c ⟨n + 1, h⟩ h0 h1
    rw [e]
    dsimp only
    exact sout1_B_0_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) _

/-- The accumulator at any point is the fold over the run of steps the point lies in. -/
theorem accOf_eq_fold (c : Dev nD) (t : ℕ) (ht : t < cfg1.N) (h' : 8 * (t / 8) + t % 8 < cfg1.N) :
    accOf V c t ht = Pipeline.accAt (accReset V c) (accStep V c) (8 * (t / 8)) (t % 8) h' :=
  Pipeline.eq_accAt_of_mod (accOf V c) 8 (accReset V c) (accStep V c) (fun n h h0 => accOf_reset V c n h h0)
    (fun n h h0 => accOf_step V c n h h0) (by norm_num) t ht h'

/-- The product a point adds into the accumulator, at an entry: over the point's 256 sequence positions. -/
def addend (c : Dev nD) (n : ℕ) (i : S512x4096.Idx) : EReal :=
  if h : n < cfg1.N then blockProd (iblk1 V c 0 ⟨n, h⟩) (iblk1 V c 1 ⟨n, h⟩) i else 0

theorem accReset_apply (c : Dev nD) (n : ℕ) (h : n < cfg1.N) (i : S512x4096.Idx) :
    accReset V c n h i = 0 + addend V c n i := by
  obtain ⟨r, e, rfl⟩ : ∃ (r : Fin 512) (e : Fin 4096), i = ix2 r e := ⟨i 0, i 1, eq_ix2 i⟩
  unfold accReset addend
  rw [dif_pos h]
  refine (pay2_apply _ _ _ r e).trans ?_
  rw [pay1_apply]

theorem accStep_apply (c : Dev nD) (n : ℕ) (h : n < cfg1.N) (x : S512x4096.Idx → EReal) (i : S512x4096.Idx) :
    accStep V c n h x i = x i + addend V c n i := by
  obtain ⟨r, e, rfl⟩ : ∃ (r : Fin 512) (e : Fin 4096), i = ix2 r e := ⟨i 0, i 1, eq_ix2 i⟩
  unfold accStep addend
  rw [dif_pos h]
  exact pay2_apply _ _ _ r e

/-- The accumulator at a point, at an entry: the addends of the run's points up to it. -/
theorem accOf_apply (c : Dev nD) (t : ℕ) (ht : t < cfg1.N) (i : S512x4096.Idx) :
    accOf V c t ht i = 0 + ∑ s ∈ Finset.range (t % 8 + 1), addend V c (8 * (t / 8) + s) i := by
  have h' : 8 * (t / 8) + t % 8 < cfg1.N := by rw [Nat.div_add_mod]; exact ht
  rw [accOf_eq_fold V c t ht h']
  exact Pipeline.accAt_add_apply (accReset V c) (accStep V c) (fun _ => 0) (addend V c) (8 * (t / 8)) 7
    (fun h i => accReset_apply V c _ h i) (fun n h acc i _ _ => accStep_apply V c n h acc i) (t % 8) (by omega) h' i

end Value

section Array

variable (V : (c : Dev nD) → (b : Ref sig .tc) → Buf (Elt Ideal) ((c : Thread nD τ).loc b))

/-- An addend of the run that a last step `t` closes, at an entry of row `r`: chunk `s` of the Gram sum of batch
    `b = t / 64` and row `d = 512 · (t / 8 % 8) + r`, the sequence positions `256 s … 256 s + 255`. -/
theorem addend_apply (c : Dev nD) (t : Fin cfg1.N) (s : Fin 8) (r : Fin 512) (e : Fin 4096) (b : Fin 2) (d : Fin 4096)
    (hb : b.val = t.val / 64) (hd : d.val = t.val / 8 % 8 * 512 + r.val) :
    addend V c (8 * (t.val / 8) + s.val) (ix2 r e)
      = ∑ k : Fin 256, (fun σ : Fin 2048 => arrA1 V c (ix3 b σ d) * arrB1 V c (ix3 b σ e))
          (ChunkSum.at_ (show 8 * 256 = 2048 from rfl) s k) := by
  have hN : cfg1.N = 128 := N_1
  have ht := t.isLt
  have hs := s.isLt
  have hn : 8 * (t.val / 8) + s.val < cfg1.N := by omega
  unfold addend blockProd
  rw [dif_pos hn]
  refine Finset.sum_congr rfl fun k _ => ?_
  have hk := k.isLt
  refine congrArg₂ (fun x y : EReal => x * y)
    (iblk1_0_apply V c ⟨_, hn⟩ 0 k r (ix3 b (ChunkSum.at_ (show 8 * 256 = 2048 from rfl) s k) d) ?_ ?_ ?_)
    (iblk1_1_apply V c ⟨_, hn⟩ 0 k e (ix3 b (ChunkSum.at_ (show 8 * 256 = 2048 from rfl) s k) e) ?_ ?_ ?_)
  · show b.val = (8 * (t.val / 8) + s.val) / 64; omega
  · show s.val * 256 + k.val = (8 * (t.val / 8) + s.val) % 8 * 256 + k.val; omega
  · show d.val = (8 * (t.val / 8) + s.val) / 8 % 8 * 512 + r.val; omega
  · show b.val = (8 * (t.val / 8) + s.val) / 64; omega
  · show s.val * 256 + k.val = (8 * (t.val / 8) + s.val) % 8 * 256 + k.val; omega
  · rfl

/-- After a last step the accumulator holds, at row `r` of its block, the whole Gram sum over the 2048 sequence
    positions: the eight chunk sums joined. -/
theorem accOf_last (c : Dev nD) (t : Fin cfg1.N) (h7 : t.val % 8 = 7) (r : Fin 512) (e : Fin 4096) (b : Fin 2) (d : Fin 4096)
    (hb : b.val = t.val / 64) (hd : d.val = t.val / 8 % 8 * 512 + r.val) :
    accOf V c t.val t.isLt (ix2 r e)
      = ∑ σ : Fin 2048, arrA1 V c (ix3 b σ d) * arrB1 V c (ix3 b σ e) := by
  rw [accOf_apply, zero_add, h7, show (7 + 1 : ℕ) = 8 from rfl, Finset.sum_range,
    ← ChunkSum.sum_chunks (show 8 * 256 = 2048 from rfl) (fun σ : Fin 2048 => arrA1 V c (ix3 b σ d) * arrB1 V c (ix3 b σ e))]
  exact Finset.sum_congr rfl fun s _ => addend_apply V c t s r e b d hb hd

/-- At a last step the output block is the epilogue of what the accumulator then holds. -/
theorem out_last (c : Dev nD) (t : Fin cfg1.N) (h0 : ¬t.val % 8 = 0) (h7 : t.val % 8 = 7) :
    (outsAt1 V c t.val t.isLt).1 = k1_pay3 (F := Ideal) (accOf V c t.val t.isLt) := by
  have e : outsAt1 V c t.val t.isLt = _ := outsAt1_C V c t h0 h7
  unfold accOf
  rw [e]
  dsimp only
  exact (out1_C_2_eq (F := Ideal) c (grid1.coords t) (ms1_0 t) (hs1_0 t) (ms1_1 t) (hs1_1 t) (ms1_2 t) (hs1_2 t) scM1_0 (Memref.isWhole_whole _) (fun hh => h0 ((hcond1_0 t).mp hh)) ((hcond1_1 t).mpr h7) (iblk1 V c 0 t) (iblk1 V c 1 t) _).trans
    (congrArg (k1_pay3 (F := Ideal)) (sout1_C_0_eq (F := Ideal) c (grid1.coords t) (ms1_0 t) (hs1_0 t) (ms1_1 t) (hs1_1 t) (ms1_2 t) (hs1_2 t) scM1_0 (Memref.isWhole_whole _) (fun hh => h0 ((hcond1_0 t).mp hh)) ((hcond1_1 t).mpr h7) (iblk1 V c 0 t) (iblk1 V c 1 t) _).symm)

/-- What a last step writes back is its block of the normalised Gram matrix. -/
theorem flushed1_eq (c : Dev nD) (t : Fin cfg1.N) (hf : (cfg1.win 2).flush t = true) :
    (dat1 V c).flushed 2 t
      = ((cfg1.win 2).blk t).view.read (Elt Ideal) (Cert.Spec.gramSoft (arrA1 V c) (arrB1 V c)) := by
  have h7 : t.val % 8 = 7 := (flush1_2 t).mp hf
  have h0 : ¬t.val % 8 = 0 := by omega
  obtain ⟨-, -, -, -, -, -, e0, e1, e2⟩ := idx_facts1 t
  show (cfg1.win 2).cut (grid1.coords t) ((dat1 V c).after 2 t) = _
  rw [after1_2, out_last V c t h0 h7]
  funext y
  have hy0 : (y 0).val < 1 := (y 0).isLt
  have hy1 : (y 1).val < 512 := (y 1).isLt
  have hy2 : (y 2).val < 4096 := (y 2).isLt
  have hx : (cfg1.win 2).xinj (grid1.coords t) y
      = ix3 (⟨(y 0).val, hy0⟩ : Fin 1) (⟨(y 1).val, hy1⟩ : Fin 512) (⟨(y 2).val, hy2⟩ : Fin 4096) :=
    funext fun a => by
      match a with
      | ⟨0, _⟩ => rfl
      | ⟨1, _⟩ => rfl
      | ⟨2, _⟩ => rfl
  show (k1_pay3 (F := Ideal) (accOf V c t.val t.isLt)) ((cfg1.win 2).xinj (grid1.coords t) y)
    = Cert.Spec.gramSoft (arrA1 V c) (arrB1 V c) (((cfg1.win 2).blk t).view.emb y)
  refine (congrArg _ hx).trans ((pay3_apply _ _ _ _).trans ?_)
  have hj0 : ((((cfg1.win 2).blk t).view.emb y) 0).val = t.val / 64 := by
    show win1_2.index t (0 : Fin 3) * 1 + 1 * (y 0).val = _; rw [e0]; omega
  have hj1 : ((((cfg1.win 2).blk t).view.emb y) 1).val = t.val / 8 % 8 * 512 + (y 1).val := by
    show win1_2.index t (1 : Fin 3) * 512 + 1 * (y 1).val = _; rw [e1]; omega
  have hj2 : ((((cfg1.win 2).blk t).view.emb y) 2).val = (y 2).val := by
    show win1_2.index t (2 : Fin 3) * 4096 + 1 * (y 2).val = _; rw [e2]; omega
  unfold Cert.Spec.gramSoft
  refine congrArg₂ (fun (f : Fin 4096 → EReal) (x : Fin 4096) => Cert.Spec.softRow f x) (funext fun e' => ?_) (Fin.ext hj2.symm)
  exact accOf_last V c t h7 ⟨(y 1).val, hy1⟩ e' _ _ hj0 hj1

/-- An index of the output array lies in point `t`'s block iff each coordinate lies in the block's range. -/
theorem mem_blk1_2 (t : Fin cfg1.N) (i : S2x4096x4096.Idx) :
    i ∈ ((cfg1.win 2).blk t).view.set ↔ ∀ a : Fin 3, win1_2.index t a * S1x512x4096.size a ≤ (i a).val
      ∧ (i a).val < win1_2.index t a * S1x512x4096.size a + S1x512x4096.size a := by
  show i ∈ ((View.whole main_v8).slice (win1_2.rect t)).set ↔ _
  rw [View.set_slice_whole, Rect.mem_set_unit]
  exact Iff.rfl

/-- The output array after the kernel: the Gram matrix of the two operands over the sequence axis, each row normalised
    by its exponentials. Entry `(b, d, e)` lies in the block of the last step of batch `b` and row block `d / 512`. -/
theorem final1 (c : Dev nD) : (dat1 V c).arrAt 2 cfg1.N = Cert.Spec.gramSoft (V c main_v5) (V c main_v6) :=
  (dat1 V c).arrAt_eq_of_cover 2 (Cert.Spec.gramSoft (arrA1 V c) (arrB1 V c)) (flushed1_eq V c) fun i => by
    have hN : cfg1.N = 128 := N_1
    have hi0 : (i 0).val < 2 := (i 0).isLt
    have hi1 : (i 1).val < 4096 := (i 1).isLt
    have hi2 : (i 2).val < 4096 := (i 2).isLt
    have hlt : 64 * (i 0).val + 8 * ((i 1).val / 512) + 7 < cfg1.N := by omega
    obtain ⟨-, -, -, -, -, -, e0, e1, e2⟩ := idx_facts1 ⟨_, hlt⟩
    refine ⟨⟨_, hlt⟩, (flush1_2 ⟨_, hlt⟩).mpr (by show (64 * (i 0).val + 8 * ((i 1).val / 512) + 7) % 8 = 7; omega), ?_⟩
    rw [mem_blk1_2]
    intro a
    match a with
    | ⟨0, _⟩ =>
      show win1_2.index ⟨_, hlt⟩ (0 : Fin 3) * 1 ≤ (i 0).val ∧ (i 0).val < win1_2.index ⟨_, hlt⟩ (0 : Fin 3) * 1 + 1
      rw [e0]; show (64 * (i 0).val + 8 * ((i 1).val / 512) + 7) / 64 * 1 ≤ (i 0).val ∧ (i 0).val < (64 * (i 0).val + 8 * ((i 1).val / 512) + 7) / 64 * 1 + 1; omega
    | ⟨1, _⟩ =>
      show win1_2.index ⟨_, hlt⟩ (1 : Fin 3) * 512 ≤ (i 1).val ∧ (i 1).val < win1_2.index ⟨_, hlt⟩ (1 : Fin 3) * 512 + 512
      rw [e1]; show (64 * (i 0).val + 8 * ((i 1).val / 512) + 7) / 8 % 8 * 512 ≤ (i 1).val ∧ (i 1).val < (64 * (i 0).val + 8 * ((i 1).val / 512) + 7) / 8 % 8 * 512 + 512; omega
    | ⟨2, _⟩ =>
      show win1_2.index ⟨_, hlt⟩ (2 : Fin 3) * 4096 ≤ (i 2).val ∧ (i 2).val < win1_2.index ⟨_, hlt⟩ (2 : Fin 3) * 4096 + 4096
      rw [e2]; omega

end Array

end Cert.KernelIdeal.Hand

end
-- ==== Proof.R2Value.lean ====
/-
  The third kernel (the third projection times the normalised Gram matrix, then a softmax along each row), read as
  values on the extended reals. Per batch b and row block i its grid walks the eight steps k of the contraction axis;
  at each step the [512, 512] block (b, i, k) of the first operand is multiplied into the [512, 4096] block (b, k, 0)
  of the second and added to a [512, 4096] accumulator that the first step starts from zero. So after the last step
  the accumulator holds, at (s, e), the contraction over all 4096 shared coordinates,
  ∑ D, C(b, 512 i + s, D) · Q(b, D, e): eight chunk sums of 512 joined into one sum. The last step then normalises
  each row of the accumulator by its exponentials and writes the result as block (b, i, 0) of the output; these blocks
  tile the output array, which therefore ends at the row-normalised product of the two operand arrays.
-/
import proofs.«133833_j3100966388061_2_alg».proof.Proof.R2Frame
import proofs.«133833_j3100966388061_2_alg».proof.Proof.Spec
import proofs.«133833_j3100966388061_2_alg».proof.Proof.LibChunkFold
import proofs.«133833_j3100966388061_2_alg».proof.Proof.LibRowSoftmax
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Payload
variable {F : FTy → Type} [FloatOps F]

theorem hz2_2 : (![0, 0] : Fin 2 → Nat) = fun _ => 0 := funext fun a => by fin_cases a <;> rfl
theorem hz2_3 : (![0, 0, 0] : Fin 3 → Nat) = fun _ => 0 := funext fun a => by fin_cases a <;> rfl

/-- At a first step the accumulator is left at the step's product added to the zero block. -/
theorem sout2_A_eq (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : cond2_0 i) (hc1 : ¬cond2_1 i)
    (x0 : Vec F S1x512x512 .bf16) (x1 : Vec F S1x512x4096 .bf16) :
    sout2_A_0 c i arg3 harg3 arg4 harg4 arg5 harg5 arg6 harg6 hc0 hc1 x0 x1 = k2_pay2 x0 x1 (k2_pay1 (F := F)) := by
  unfold sout2_A_0
  unfold kernelRun2_A
  dsimp only
  sl_unfold_words
  rw [View.canon_cons_unit_zero (S := S512x4096) hz2_2, View.readCov_unit_zero (S := S512x4096) _ hz2_2]
  simp only [View.readAt_eq_ld, harg3.read_unread, harg4.read_unread, View.ld_unit_zero (S := S1x512x512) hz2_3, View.ld_unit_zero (S := S1x512x4096) hz2_3]

/-- At a middle step the accumulator is left at the step's product added to what it held. -/
theorem sout2_B_eq (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : ¬cond2_1 i)
    (x0 : Vec F S1x512x512 .bf16) (x1 : Vec F S1x512x4096 .bf16) (xs0 : Vec F S512x4096 .f32) :
    sout2_B_0 c i arg3 harg3 arg4 harg4 arg5 harg5 arg6 harg6 hc0 hc1 x0 x1 xs0 = k2_pay2 x0 x1 xs0 := by
  unfold sout2_B_0
  unfold kernelRun2_B
  dsimp only
  rw [View.canon_unit_zero hz2_2]
  simp only [View.readAt_eq_ld, harg3.read_unread, harg4.read_unread, harg6.read_unread, View.ld_unit_zero (S := S1x512x512) hz2_3, View.ld_unit_zero (S := S1x512x4096) hz2_3, View.ld_unit_zero (S := S512x4096) hz2_2]

/-- At a last step the accumulator is left at the step's product added to what it held, -/
theorem sout2_C_eq (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) :
    sout2_C_0 c i arg3 harg3 arg4 harg4 arg5 harg5 arg6 harg6 hc0 hc1 x0 x1 xs0 = k2_pay2 x0 x1 xs0 := by
  unfold sout2_C_0
  unfold kernelRun2_C
  dsimp only
  sl_unfold_words
  rw [View.canon_unit_zero hz2_2]
  simp only [View.readAt_eq_ld, harg3.read_unread, harg4.read_unread, harg6.read_unread, View.ld_unit_zero (S := S1x512x512) hz2_3, View.ld_unit_zero (S := S1x512x4096) hz2_3, View.ld_unit_zero (S := S512x4096) hz2_2]

/-- and the output block at the row-normalised form of that. -/
theorem out2_C_eq (c : Dev nD) (i : grid2.Coords) (arg3 : Memref sig .tc .vmem S1x512x512 .bf16) (harg3 : arg3.IsWhole) (arg4 : Memref sig .tc .vmem S1x512x4096 .bf16) (harg4 : arg4.IsWhole) (arg5 : Memref sig .tc .vmem S1x512x4096 .bf16) (harg5 : arg5.IsWhole) (arg6 : Memref sig .tc .vmem S512x4096 .f32) (harg6 : arg6.IsWhole) (hc0 : ¬cond2_0 i) (hc1 : cond2_1 i)
    (x0 : Vec F S1x512x512 .bf16) (x1 : Vec F S1x512x4096 .bf16) (xs0 : Vec F S512x4096 .f32) :
    out2_C_2 c i arg3 harg3 arg4 harg4 arg5 harg5 arg6 harg6 hc0 hc1 x0 x1 xs0 = k2_pay3 (k2_pay2 x0 x1 xs0) := by
  unfold out2_C_2
  unfold kernelRun2_C
  dsimp only
  sl_unfold_words
  rw [View.canon_unit_zero hz2_3, View.readCov_unit_zero (S := S512x4096) _ hz2_2]
  simp only [View.readAt_eq_ld, harg3.read_unread, harg4.read_unread, harg6.read_unread, View.ld_unit_zero (S := S1x512x512) hz2_3, View.ld_unit_zero (S := S1x512x4096) hz2_3, View.ld_unit_zero (S := S512x4096) hz2_2]

end Payload

section Index

open Idealize.ShloMosaic.ValueIdx

/-- The kernel's one matrix product: [512, 512] against [512, 4096], contracted over the shared axis. -/
abbrev dot2 : DotDims S512x512 S512x4096 S512x4096 := dot_S512x512_S512x4096_S512x4096_1_0_0_1_n_n

theorem dot2_lhs0 (i : S512x4096.Idx) (q : dot2.contr.Idx) : (dot2.lhsIdx i q 0).val = (i 0).val := by
  unfold DotDims.lhsIdx
  rw [dif_neg (show ¬(0 : Fin S512x512.rank) ∈ dot2.lhsBatch by decide), dif_pos (show (0 : Fin S512x512.rank) ∈ dot2.lhsNonContracting by decide)]
  rfl
theorem dot2_lhs1 (i : S512x4096.Idx) (q : dot2.contr.Idx) : (dot2.lhsIdx i q 1).val = (q ⟨0, by decide⟩).val :=
  dot2.lhsIdx_val_of_single rfl i q
theorem dot2_rhs0 (i : S512x4096.Idx) (q : dot2.contr.Idx) : (dot2.rhsIdx i q 0).val = (q ⟨0, by decide⟩).val :=
  dot2.rhsIdx_val_of_single rfl i q
theorem dot2_rhs1 (i : S512x4096.Idx) (q : dot2.contr.Idx) : (dot2.rhsIdx i q 1).val = (i 1).val := by
  unfold DotDims.rhsIdx
  rw [dif_neg (show ¬(1 : Fin S512x4096.rank) ∈ dot2.rhsBatch by decide), dif_pos (show (1 : Fin S512x4096.rank) ∈ dot2.rhsNonContracting by decide)]
  rfl

theorem dot2_lhs (s : Fin 512) (e : Fin 4096) (k : Fin 512) :
    dot2.lhsIdx (ix2 s e) ((contrEquiv1 dot2 512 rfl rfl).symm k) = ix2 s k := by
  have hk := contrEquiv1_symm_val dot2 512 rfl rfl k
  funext a; apply Fin.ext
  match a with
  | ⟨0, _⟩ => exact dot2_lhs0 _ _
  | ⟨1, _⟩ => exact (dot2_lhs1 _ _).trans hk

theorem dot2_rhs (s : Fin 512) (e : Fin 4096) (k : Fin 512) :
    dot2.rhsIdx (ix2 s e) ((contrEquiv1 dot2 512 rfl rfl).symm k) = ix2 k e := by
  have hk := contrEquiv1_symm_val dot2 512 rfl rfl k
  funext a; apply Fin.ext
  match a with
  | ⟨0, _⟩ => exact (dot2_rhs0 _ _).trans hk
  | ⟨1, _⟩ => exact dot2_rhs1 _ _

/-- The zero block at an index. -/
theorem k2_pay1_apply (i : S512x4096.Idx) : k2_pay1 (F := Ideal) i = 0 := by
  unfold k2_pay1
  rw [shapeCast_self]
  exact Ideal.ofBits_zero_f32

/-- The accumulate step at an index: what was held plus the sum over the block's 512 contraction coordinates. -/
theorem k2_pay2_apply (a : Vec Ideal S1x512x512 .bf16) (b : Vec Ideal S1x512x4096 .bf16) (acc : Vec Ideal S512x4096 .f32)
    (s : Fin 512) (e : Fin 4096) :
    k2_pay2 a b acc (ix2 s e) = acc (ix2 s e) + ∑ d : Fin 512, a (ix3 (0 : Fin 1) s d) * b (ix3 (0 : Fin 1) d e) := by
  unfold k2_pay2
  rw [shapeCast_self, addf_apply]
  refine congrArg (acc (ix2 s e) + ·) ?_
  refine (Ideal.matmul_constant_zero_apply dot2 none _ _ (ix2 s e)).trans ?_
  refine Cert.Attn.contraction_sum (K := 512) dot2 rfl rfl _ _ (ix2 s e) (fun d => a (ix3 (0 : Fin 1) s d)) (fun d => b (ix3 (0 : Fin 1) d e)) (fun k => ?_) (fun k => ?_)
  · exact (congrArg _ (dot2_lhs s e k)).trans (shapeCast_1ab_ab_apply a _ s k)
  · exact (congrArg _ (dot2_rhs s e k)).trans (shapeCast_1ab_ab_apply b _ k e)

end Index

section Epilogue

open Idealize.ShloMosaic.ValueIdx

/-- A [512] vector kept as a [512, 1] column and repeated along the lanes reads, at (s, e), its entry s. -/
theorem column2_apply {α : Type} (w : S512.Idx → α) (h1 : S512.ShapeCasts S512x1) (h2 : S512x1.Broadcasts S512x4096)
    (s : Fin 512) (e : Fin 4096) :
    broadcastTo S512x4096 (shapeCast S512x1 w h1) h2 (ix2 s e) = w (ix1 s) := by
  refine (broadcastTo_apply _ h2 (ix2 s e) (ix2 s (0 : Fin 1)) fun a => ?_).trans ?_
  · match a with
    | ⟨0, _⟩ => rfl
    | ⟨1, _⟩ => rfl
  · exact shapeCast_apply w h1 _ _ (by rw [Shape.rowMajor_val_one, Shape.rowMajor_val_two]; show s.val = s.val * 1 + 0; omega)

/-- The index over row s with lane k inserted is (s, k). -/
theorem lift2_row (h : S512x4096.Reduces [1] S512) (s : Fin 512) (k : Fin 4096) : h.lift (ix1 s) k = ix2 s k := by
  funext c; apply Fin.ext
  match c with
  | ⟨0, _⟩ => rfl
  | ⟨1, _⟩ => rfl

/-- A row's maximum over its lanes, from the word of −∞. -/
theorem rowmax2_apply (src : FVec Ideal S512x4096 .f32) (h : S512x4096.Reduces [1] S512) (hφ : FKind.Formats .f32)
    (hacc : (0xFF800000#32 : BitVec 32) = 0xFF800000#32) (s : Fin 512) :
    multiReduction .maximumf [1] S512 src 0xFF800000#32 h hφ hacc (ix1 s) = Cert.Spec.rowMax (fun e : Fin 4096 => src (ix2 s e)) := by
  refine (Ideal.multiReduction_maximumf_single src 0xFF800000#32 h hφ hacc (ix1 s)).trans ?_
  unfold Cert.Spec.rowMax
  show (Finset.univ : Finset (Fin 4096)).fold max (Ideal.ofBits .f32 0xFF800000#32) (fun k : Fin 4096 => src (h.lift (ix1 s) k)) = _
  simp only [lift2_row]

/-- A row's sum over its lanes. -/
theorem rowsum2_apply (src : FVec Ideal S512x4096 .f32) (h : S512x4096.Reduces [1] S512) (hφ : FKind.Formats .f32)
    (hacc : (0x00000000#32 : BitVec 32) = 0x00000000#32) (s : Fin 512) :
    multiReduction .add [1] S512 src 0x00000000#32 h hφ hacc (ix1 s) = ∑ k : Fin 4096, src (ix2 s k) := by
  refine (Ideal.multiReduction_add_single src 0x00000000#32 h hφ hacc (ix1 s)).trans ?_
  show ∑ k : Fin 4096, _ = _
  exact Finset.sum_congr rfl fun k _ => congrArg src (lift2_row h s k)

theorem exp2_apply {s : Shape} {φ : FTy} (x : FVec Ideal s φ) (i : s.Idx) : exp x i = Ideal.exp (x i) := rfl

/-- The epilogue at an index: the row of the accumulator normalised by its exponentials. -/
theorem k2_pay3_apply (v : Vec Ideal S512x4096 .f32) (u : Fin 1) (s : Fin 512) (e : Fin 4096) :
    k2_pay3 v (ix3 u s e) = Cert.Spec.softRow (fun e' : Fin 4096 => v (ix2 s e')) e := by
  unfold k2_pay3
  refine (shapeCast_ab_1ab_apply _ _ u s e).trans ?_
  refine (truncf_apply (ψ := .bf16) _ bitsLt_bf16_f32 (ix2 s e)).trans ?_
  refine (divf_apply _ _ (ix2 s e)).trans ?_
  rw [column2_apply, rowsum2_apply]
  simp only [exp2_apply, subf_apply, column2_apply]
  rw [rowmax2_apply]
  rfl

end Epilogue

section Fold

open Idealize.ShloMosaic.ValueIdx

variable (V : (c : Dev nD) → (b : Ref sig .tc) → Buf (Elt Ideal) ((c : Thread nD τ).loc b))

/-- The two operand arrays, and their blocks at a grid point, as functions into the extended reals. -/
def arrC2 (c : Dev nD) : Cert.Spec.T3 := V c main_v7
def arrQ2 (c : Dev nD) : Cert.Spec.Q3 := V c main_v8
def blkC2 (c : Dev nD) (t : Fin cfg2.N) : S1x512x512.Idx → EReal := iblk2 V c 0 t
def blkQ2 (c : Dev nD) (t : Fin cfg2.N) : S1x512x4096.Idx → EReal := iblk2 V c 1 t

/-- The accumulator's reset value at a first step of the contraction axis, and its step elsewhere. -/
def reset2 (c : Dev nD) (n : ℕ) (h : n < cfg2.N) : S512x4096.Idx → EReal :=
  k2_pay2 (F := Ideal) (blkC2 V c ⟨n, h⟩) (blkQ2 V c ⟨n, h⟩) (k2_pay1 (F := Ideal))
def step2 (c : Dev nD) (n : ℕ) (h : n < cfg2.N) (prev : S512x4096.Idx → EReal) : S512x4096.Idx → EReal :=
  k2_pay2 (F := Ideal) (blkC2 V c ⟨n, h⟩) (blkQ2 V c ⟨n, h⟩) prev
/-- The accumulator after position n. -/
def acc2 (c : Dev nD) (n : ℕ) (h : n < cfg2.N) : S512x4096.Idx → EReal := (outsAt2 V c n h).2

theorem acc2_reset (c : Dev nD) (n : ℕ) (h : n < cfg2.N) (h0 : n % 8 = 0) : acc2 V c n h = reset2 V c n h := by
  have e : outsAt2 V c n h = _ := outsAt2_A V c ⟨n, h⟩ h0
  unfold acc2 reset2 blkC2 blkQ2
  rw [e]
  dsimp only
  exact sout2_A_eq c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) scM2_0 (Memref.isWhole_whole _) ((hcond2_0 ⟨n, h⟩).mpr h0) (fun hh => not_last_of_first2 h0 ((hcond2_1 ⟨n, h⟩).mp hh)) (iblk2 V c 0 ⟨n, h⟩) (iblk2 V c 1 ⟨n, h⟩)

theorem acc2_step (c : Dev nD) (n : ℕ) (h : n + 1 < cfg2.N) (hne : ¬(n + 1) % 8 = 0) :
    acc2 V c (n + 1) h = step2 V c (n + 1) h (acc2 V c n (Nat.lt_of_succ_lt h)) := by
  unfold acc2 step2 blkC2 blkQ2
  by_cases h1 : (n + 1) % 8 = 7
  · have e : outsAt2 V c (n + 1) h = _ := outsAt2_C V c ⟨n + 1, h⟩ hne h1
    rw [e]
    dsimp only
    exact sout2_C_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) scM2_0 (Memref.isWhole_whole _) (fun hh => hne ((hcond2_0 ⟨n + 1, h⟩).mp hh)) ((hcond2_1 ⟨n + 1, h⟩).mpr h1) (iblk2 V c 0 ⟨n + 1, h⟩) (iblk2 V c 1 ⟨n + 1, h⟩) _
  · have e : outsAt2 V c (n + 1) h = _ := outsAt2_B V c ⟨n + 1, h⟩ hne h1
    rw [e]
    dsimp only
    exact sout2_B_eq c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) scM2_0 (Memref.isWhole_whole _) (fun hh => hne ((hcond2_0 ⟨n + 1, h⟩).mp hh)) (fun hh => h1 ((hcond2_1 ⟨n + 1, h⟩).mp hh)) (iblk2 V c 0 ⟨n + 1, h⟩) (iblk2 V c 1 ⟨n + 1, h⟩) _

/-- At any point the accumulator is the fold over its run of the contraction axis. -/
theorem acc2_fold (c : Dev nD) (t : ℕ) (ht : t < cfg2.N) (h' : 8 * (t / 8) + t % 8 < cfg2.N) :
    acc2 V c t ht = Pipeline.accAt (reset2 V c) (step2 V c) (8 * (t / 8)) (t % 8) h' :=
  Pipeline.eq_accAt_of_mod (acc2 V c) 8 (reset2 V c) (step2 V c)
    (fun n h h0 => acc2_reset V c n h h0) (fun n h hne => acc2_step V c n h hne) (by norm_num) t ht h'

/-- What one step adds at (s, e): that point's two blocks contracted over their 512 shared coordinates. -/
def addend2 (c : Dev nD) (n : ℕ) : S512x4096.Idx → EReal := fun j =>
  if h : n < cfg2.N then ∑ d : Fin 512, blkC2 V c ⟨n, h⟩ (ix3 (0 : Fin 1) (j 0) d) * blkQ2 V c ⟨n, h⟩ (ix3 (0 : Fin 1) d (j 1)) else 0

theorem reset2_apply (c : Dev nD) (n : ℕ) (h : n < cfg2.N) (j : S512x4096.Idx) :
    reset2 V c n h j = 0 + addend2 V c n j := by
  obtain ⟨s, e, rfl⟩ : ∃ (s : Fin 512) (e : Fin 4096), j = ix2 s e := ⟨j 0, j 1, eq_ix2 j⟩
  unfold reset2 addend2
  rw [dif_pos h]
  refine (k2_pay2_apply _ _ _ s e).trans ?_
  rw [k2_pay1_apply]

theorem step2_apply (c : Dev nD) (n : ℕ) (h : n < cfg2.N) (prev : S512x4096.Idx → EReal) (j : S512x4096.Idx) :
    step2 V c n h prev j = prev j + addend2 V c n j := by
  obtain ⟨s, e, rfl⟩ : ∃ (s : Fin 512) (e : Fin 4096), j = ix2 s e := ⟨j 0, j 1, eq_ix2 j⟩
  unfold step2 addend2
  rw [dif_pos h]
  exact k2_pay2_apply _ _ _ s e

/-- At a last step the accumulator is the sum of the eight steps' block products. -/
theorem acc2_last (c : Dev nD) (t : Fin cfg2.N) (h7 : t.val % 8 = 7) (j : S512x4096.Idx) :
    acc2 V c t.val t.isLt j = ∑ s ∈ Finset.range 8, addend2 V c (8 * (t.val / 8) + s) j := by
  have h' : 8 * (t.val / 8) + t.val % 8 < cfg2.N := by rw [Nat.div_add_mod]; exact t.isLt
  rw [acc2_fold V c t.val t.isLt h']
  have hb := Pipeline.accAt_add_apply (reset2 V c) (step2 V c) (fun _ => (0 : EReal)) (addend2 V c) (8 * (t.val / 8)) 7
    (fun h i => reset2_apply V c _ h i) (fun n h acc i _ _ => step2_apply V c n h acc i) (t.val % 8) (by omega) h' j
  rw [hb, zero_add, h7]

/-! ## The blocks as entries of the arrays -/

/-- Where each window's block sits at a grid point: the point is (batch, row block, contraction step) in row-major
    order over (2, 4, 8). -/
theorem idx2 : ∀ t : Fin cfg2.N,
    win2_0.index t 0 = t.val / 32 ∧ win2_0.index t 1 = t.val / 8 % 4 ∧ win2_0.index t 2 = t.val % 8
    ∧ win2_1.index t 0 = t.val / 32 ∧ win2_1.index t 1 = t.val % 8 ∧ win2_1.index t 2 = 0
    ∧ win2_2.index t 0 = t.val / 32 ∧ win2_2.index t 1 = t.val / 8 % 4 ∧ win2_2.index t 2 = 0 :=
  (by decide +kernel : ∀ t : Fin grid2.N, _)

theorem blkC2_apply (c : Dev nD) (t : Fin cfg2.N) (u : Fin 1) (s : Fin 512) (d : Fin 512)
    (B : Fin 2) (R : Fin 2048) (D : Fin 4096) (hB : B.val = t.val / 32) (hR : R.val = t.val / 8 % 4 * 512 + s.val)
    (hD : D.val = t.val % 8 * 512 + d.val) :
    blkC2 V c t (ix3 u s d) = arrC2 V c (ix3 B R D) := by
  unfold blkC2 arrC2 iblk2
  rw [View.read_apply]
  show (V c main_v7 : S2x2048x4096.Idx → EReal) (((cfg2.win 0).blk t).view.emb (ix3 u s d)) = _
  congr 1
  funext a
  apply Fin.ext
  obtain ⟨e0, e1, e2, -⟩ := idx2 t
  have hu := u.isLt
  match a with
  | ⟨0, _⟩ => show win2_0.index t 0 * 1 + 1 * u.val = B.val; rw [e0, hB]; omega
  | ⟨1, _⟩ => show win2_0.index t 1 * 512 + 1 * s.val = R.val; rw [e1, hR]; omega
  | ⟨2, _⟩ => show win2_0.index t 2 * 512 + 1 * d.val = D.val; rw [e2, hD]; omega

theorem blkQ2_apply (c : Dev nD) (t : Fin cfg2.N) (u : Fin 1) (d : Fin 512) (e : Fin 4096)
    (B : Fin 2) (D : Fin 4096) (hB : B.val = t.val / 32) (hD : D.val = t.val % 8 * 512 + d.val) :
    blkQ2 V c t (ix3 u d e) = arrQ2 V c (ix3 B D e) := by
  unfold blkQ2 arrQ2 iblk2
  rw [View.read_apply]
  show (V c main_v8 : S2x4096x4096.Idx → EReal) (((cfg2.win 1).blk t).view.emb (ix3 u d e)) = _
  congr 1
  funext a
  apply Fin.ext
  obtain ⟨-, -, -, e0, e1, e2, -⟩ := idx2 t
  have hu := u.isLt
  match a with
  | ⟨0, _⟩ => show win2_1.index t 0 * 1 + 1 * u.val = B.val; rw [e0, hB]; omega
  | ⟨1, _⟩ => show win2_1.index t 1 * 512 + 1 * d.val = D.val; rw [e1, hD]; omega
  | ⟨2, _⟩ => show win2_1.index t 2 * 4096 + 1 * e.val = e.val; rw [e2]; omega

/-! ## The whole sum, the written-back blocks, and the array -/

theorem t2_lt (t : Fin cfg2.N) : t.val < 64 := lt_of_lt_of_eq t.isLt N_2

/-- At a last step the accumulator holds, at (s, e) of the block, the whole 4096-term contraction at the array position. -/
theorem acc2_total (c : Dev nD) (t : Fin cfg2.N) (h7 : t.val % 8 = 7) (s : Fin 512) (e : Fin 4096)
    (B : Fin 2) (R : Fin 2048) (hB : B.val = t.val / 32) (hR : R.val = t.val / 8 % 4 * 512 + s.val) :
    acc2 V c t.val t.isLt (ix2 s e) = ∑ D : Fin 4096, arrC2 V c (ix3 B R D) * arrQ2 V c (ix3 B D e) := by
  have ht := t2_lt t
  rw [acc2_last V c t h7, Finset.sum_range]
  rw [← ChunkSum.sum_chunks (show 8 * 512 = 4096 from rfl) (fun D : Fin 4096 => arrC2 V c (ix3 B R D) * arrQ2 V c (ix3 B D e))]
  refine Finset.sum_congr rfl fun j _ => ?_
  have hj : 8 * (t.val / 8) + j.val < cfg2.N := lt_of_lt_of_eq (by have := j.isLt; omega : 8 * (t.val / 8) + j.val < 64) N_2.symm
  unfold addend2
  rw [dif_pos hj]
  refine Finset.sum_congr rfl fun d _ => ?_
  have hd := d.isLt
  have hjl := j.isLt
  rw [blkC2_apply V c ⟨_, hj⟩ 0 s d B R (ChunkSum.at_ (show 8 * 512 = 4096 from rfl) j d)
        (by rw [hB]; show _ = (8 * (t.val / 8) + j.val) / 32; omega)
        (by rw [hR]; show _ = (8 * (t.val / 8) + j.val) / 8 % 4 * 512 + s.val; omega)
        (by rw [ChunkSum.at_val]; show _ = (8 * (t.val / 8) + j.val) % 8 * 512 + d.val; omega),
      blkQ2_apply V c ⟨_, hj⟩ 0 d e B (ChunkSum.at_ (show 8 * 512 = 4096 from rfl) j d)
        (by rw [hB]; show _ = (8 * (t.val / 8) + j.val) / 32; omega)
        (by rw [ChunkSum.at_val]; show _ = (8 * (t.val / 8) + j.val) % 8 * 512 + d.val; omega)]

end Fold

section Final

open Idealize.ShloMosaic.ValueIdx

variable (V : (c : Dev nD) → (b : Ref sig .tc) → Buf (Elt Ideal) ((c : Thread nD τ).loc b))

/-- What a last step writes back is its block of the row-normalised product of the two operand arrays. -/
theorem flushed2_eq (c : Dev nD) (t : Fin cfg2.N) (hf : (cfg2.win 2).flush t = true) :
    (dat2 V c).flushed 2 t = ((cfg2.win 2).blk t).view.read (Elt Ideal) (Cert.Spec.attnSoft (arrC2 V c) (arrQ2 V c)) := by
  have h7 : t.val % 8 = 7 := (flush2_2 t).mp hf
  have h0 : ¬t.val % 8 = 0 := by omega
  have ht := t2_lt t
  show (cfg2.win 2).cut (grid2.coords t) ((dat2 V c).after 2 t) = _
  rw [after2_2]
  have e1 : (outsAt2 V c t.val t.isLt).1 = k2_pay3 (F := Ideal) (acc2 V c t.val t.isLt) := by
    unfold acc2
    rw [outsAt2_C V c t h0 h7]
    dsimp only
    exact (out2_C_eq c (grid2.coords t) (ms2_0 t) (hs2_0 t) (ms2_1 t) (hs2_1 t) (ms2_2 t) (hs2_2 t) scM2_0 (Memref.isWhole_whole _) (fun hh => h0 ((hcond2_0 t).mp hh)) ((hcond2_1 t).mpr h7) (iblk2 V c 0 t) (iblk2 V c 1 t) _).trans
      (congrArg (k2_pay3 (F := Ideal)) (sout2_C_eq c (grid2.coords t) (ms2_0 t) (hs2_0 t) (ms2_1 t) (hs2_1 t) (ms2_2 t) (hs2_2 t) scM2_0 (Memref.isWhole_whole _) (fun hh => h0 ((hcond2_0 t).mp hh)) ((hcond2_1 t).mpr h7) (iblk2 V c 0 t) (iblk2 V c 1 t) _).symm)
  funext y
  obtain ⟨u, s, e, rfl⟩ : ∃ (u : Fin 1) (s : Fin 512) (e : Fin 4096), y = ix3 u s e := ⟨y 0, y 1, y 2, eq_ix3 y⟩
  rw [View.read_apply]
  show (outsAt2 V c t.val t.isLt).1 (ix3 u s e) = _
  rw [e1, k2_pay3_apply]
  obtain ⟨-, -, -, -, -, -, e6, e7, e8⟩ := idx2 t
  have hs := s.isLt
  have he := e.isLt
  have hu := u.isLt
  have hemb : ((cfg2.win 2).blk t).view.emb (ix3 u s e)
      = ix3 (⟨t.val / 32, by omega⟩ : Fin 2) (⟨t.val / 8 % 4 * 512 + s.val, by omega⟩ : Fin 2048) e := by
    funext a
    apply Fin.ext
    match a with
    | ⟨0, _⟩ => show win2_2.index t 0 * 1 + 1 * u.val = t.val / 32; rw [e6]; omega
    | ⟨1, _⟩ => show win2_2.index t 1 * 512 + 1 * s.val = t.val / 8 % 4 * 512 + s.val; rw [e7]; omega
    | ⟨2, _⟩ => show win2_2.index t 2 * 4096 + 1 * e.val = e.val; rw [e8]; omega
  rw [hemb]
  unfold Cert.Spec.attnSoft
  have hrow : (fun e' : Fin 4096 => acc2 V c t.val t.isLt (ix2 s e'))
      = fun e' : Fin 4096 => ∑ D : Fin 4096, arrC2 V c (ix3 (⟨t.val / 32, by omega⟩ : Fin 2) (⟨t.val / 8 % 4 * 512 + s.val, by omega⟩ : Fin 2048) D)
          * arrQ2 V c (ix3 (⟨t.val / 32, by omega⟩ : Fin 2) D e') :=
    funext fun e' => acc2_total V c t h7 s e' ⟨t.val / 32, by omega⟩ ⟨t.val / 8 % 4 * 512 + s.val, by omega⟩ rfl rfl
  rw [hrow]
  exact (cast_eq _ _).symm

theorem mem_blk2 (t : Fin cfg2.N) (i : S2x2048x4096.Idx) :
    i ∈ ((cfg2.win 2).blk t).view.set ↔ ∀ a : Fin 3, win2_2.index t a * S1x512x4096.size a ≤ (i a).val ∧ (i a).val < win2_2.index t a * S1x512x4096.size a + S1x512x4096.size a := by
  show i ∈ ((View.whole main_v9).slice (win2_2.rect t)).set ↔ _
  rw [View.set_slice_whole, Rect.mem_set_unit]
  exact Iff.rfl

/-- Every entry of the result array lies in the block written back at the last step of its (batch, row block). -/
theorem cover2 (i : S2x2048x4096.Idx) : ∃ t : Fin cfg2.N, (cfg2.win 2).flush t = true ∧ i ∈ ((cfg2.win 2).blk t).view.set := by
  have hi0 : (i 0).val < 2 := (i 0).isLt
  have hi1 : (i 1).val < 2048 := (i 1).isLt
  have hi2 : (i 2).val < 4096 := (i 2).isLt
  have hN : cfg2.N = 64 := N_2
  have hlt : (((i 0).val * 4 + (i 1).val / 512) * 8 + 7) < cfg2.N := by rw [hN]; omega
  refine ⟨⟨(((i 0).val * 4 + (i 1).val / 512) * 8 + 7), hlt⟩, (flush2_2 _).mpr (by show (((i 0).val * 4 + (i 1).val / 512) * 8 + 7) % 8 = 7; omega), ?_⟩
  rw [mem_blk2]
  obtain ⟨-, -, -, -, -, -, e6, e7, e8⟩ := idx2 ⟨(((i 0).val * 4 + (i 1).val / 512) * 8 + 7), hlt⟩
  intro a
  match a with
  | ⟨0, _⟩ =>
    show win2_2.index _ 0 * 1 ≤ (i 0).val ∧ (i 0).val < win2_2.index _ 0 * 1 + 1
    rw [e6]; show (((i 0).val * 4 + (i 1).val / 512) * 8 + 7) / 32 * 1 ≤ (i 0).val ∧ (i 0).val < (((i 0).val * 4 + (i 1).val / 512) * 8 + 7) / 32 * 1 + 1
    omega
  | ⟨1, _⟩ =>
    show win2_2.index _ 1 * 512 ≤ (i 1).val ∧ (i 1).val < win2_2.index _ 1 * 512 + 512
    rw [e7]; show (((i 0).val * 4 + (i 1).val / 512) * 8 + 7) / 8 % 4 * 512 ≤ (i 1).val ∧ (i 1).val < (((i 0).val * 4 + (i 1).val / 512) * 8 + 7) / 8 % 4 * 512 + 512
    omega
  | ⟨2, _⟩ =>
    show win2_2.index _ 2 * 4096 ≤ (i 2).val ∧ (i 2).val < win2_2.index _ 2 * 4096 + 4096
    rw [e8]; omega

/-- The third kernel's result array: per batch the product of its two operand arrays, each row normalised by its exponentials. -/
theorem final2 (c : Dev nD) : (dat2 V c).arrAt 2 cfg2.N = Cert.Spec.attnSoft (V c main_v7) (V c main_v8) :=
  (dat2 V c).arrAt_eq_of_cover 2 (Cert.Spec.attnSoft (arrC2 V c) (arrQ2 V c)) (fun t hf => flushed2_eq V c t hf) cover2

end Final

end Cert.KernelIdeal.Hand

end
-- ==== Proof.R3Value.lean ====
/-
  The fourth kernel's result array on the extended reals. At a grid point (row block i0, column block i1, step k of the
  contraction axis) the accumulator gains the product of the activations' block (i0, k) with the weights' block (i1, k),
  both contracted along their second axis; it starts from zero at k = 0, so after the last step it holds, at (r, q),
  the sum over the four steps of the 1024-term block sums: the whole 4096-term sum ∑ k, x(R, k) · w(Q, k) at the array
  position (R, Q) of (r, q). The output block stored there is z · σ(z) of that sum; the 8 blocks written back at the
  last steps tile the [4096, 4096] result array.
-/
import proofs.«133833_j3100966388061_2_alg».proof.Proof.R3Frame
import proofs.«133833_j3100966388061_2_alg».proof.Proof.Spec
import proofs.«133833_j3100966388061_2_alg».proof.Proof.LibChunkFold
import proofs.«133833_j3100966388061_2_alg».proof.Proof.LibRowSoftmax
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec

/-! ## What one run of the body leaves, as the payloads -/

theorem hz2 : (![0, 0] : Fin 2 → Nat) = fun _ => 0 := funext fun a => by fin_cases a <;> rfl

/-- A middle step leaves the accumulator at the accumulate step of the two blocks and what it held. -/
theorem sout3_B_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : ¬cond3_1 i)
    (x0 : Vec F S2048x1024 .bf16) (x1 : Vec F S1024x1024 .bf16) (xs0 : Vec F S2048x1024 .f32) :
    sout3_B_0 c i arg3 harg3 arg4 harg4 arg5 harg5 arg6 harg6 hc0 hc1 x0 x1 xs0 = k3_pay2 x0 x1 xs0 := by
  unfold sout3_B_0 kernelRun3_B
  dsimp only
  rw [View.canon_unit_zero (S := S2048x1024) hz2]
  simp only [View.readAt_eq_ld, harg3.read_unread, harg4.read_unread, harg6.read_unread, View.ld_unit_zero (S := S2048x1024) hz2, View.ld_unit_zero (S := S1024x1024) hz2]

/-- A first step leaves it at the accumulate step over the zero block. -/
theorem sout3_A_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : cond3_0 i) (hc1 : ¬cond3_1 i)
    (x0 : Vec F S2048x1024 .bf16) (x1 : Vec F S1024x1024 .bf16) :
    sout3_A_0 c i arg3 harg3 arg4 harg4 arg5 harg5 arg6 harg6 hc0 hc1 x0 x1 = k3_pay2 x0 x1 (k3_pay1 (F := F)) := by
  unfold sout3_A_0 kernelRun3_A
  dsimp only
  sl_unfold_words
  rw [View.canon_cons_unit_zero (S := S2048x1024) hz2, View.readCov_unit_zero (S := S2048x1024) _ hz2]
  simp only [View.readAt_eq_ld, harg3.read_unread, harg4.read_unread, View.ld_unit_zero (S := S2048x1024) hz2, View.ld_unit_zero (S := S1024x1024) hz2]

/-- A last step leaves the accumulator at the accumulate step, -/
theorem sout3_C_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) :
    sout3_C_0 c i arg3 harg3 arg4 harg4 arg5 harg5 arg6 harg6 hc0 hc1 x0 x1 xs0 = k3_pay2 x0 x1 xs0 := by
  unfold sout3_C_0 kernelRun3_C
  dsimp only
  sl_unfold_words
  rw [View.canon_unit_zero (S := S2048x1024) hz2]
  simp only [View.readAt_eq_ld, harg3.read_unread, harg4.read_unread, harg6.read_unread, View.ld_unit_zero (S := S2048x1024) hz2, View.ld_unit_zero (S := S1024x1024) hz2]

/-- and the output block at the epilogue of that. -/
theorem out3_C_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .f32) (harg6 : arg6.IsWhole) (hc0 : ¬cond3_0 i) (hc1 : cond3_1 i)
    (x0 : Vec F S2048x1024 .bf16) (x1 : Vec F S1024x1024 .bf16) (xs0 : Vec F S2048x1024 .f32) :
    out3_C_2 c i arg3 harg3 arg4 harg4 arg5 harg5 arg6 harg6 hc0 hc1 x0 x1 xs0 = k3_pay3 (k3_pay2 x0 x1 xs0) := by
  unfold out3_C_2 kernelRun3_C
  dsimp only
  sl_unfold_words
  rw [View.canon_unit_zero (S := S2048x1024) hz2, View.readCov_unit_zero (S := S2048x1024) _ hz2]
  simp only [View.readAt_eq_ld, harg3.read_unread, harg4.read_unread, harg6.read_unread, View.ld_unit_zero (S := S2048x1024) hz2, View.ld_unit_zero (S := S1024x1024) hz2]

/-! ## The steps read at an index, on the extended reals -/

theorem lhs3_0 (i : S2048x1024.Idx) (q : dot_S2048x1024_S1024x1024_S2048x1024_1_1_0_0_n_n.contr.Idx) : (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs3_1 (i : S2048x1024.Idx) (q : dot_S2048x1024_S1024x1024_S2048x1024_1_1_0_0_n_n.contr.Idx) : (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs3_0 (i : S2048x1024.Idx) (q : dot_S2048x1024_S1024x1024_S2048x1024_1_1_0_0_n_n.contr.Idx) : (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs3_1 (i : S2048x1024.Idx) (q : dot_S2048x1024_S1024x1024_S2048x1024_1_1_0_0_n_n.contr.Idx) : (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The block product at (r, q): the 1024-term sum of row r of the activations' block against row q of the weights'. -/
theorem blockProd3 (x0 : FVec Ideal S2048x1024 .bf16) (x1 : FVec Ideal S1024x1024 .bf16) (r : Fin 2048) (q : Fin 1024) :
    ∑ k : dot_S2048x1024_S1024x1024_S2048x1024_1_1_0_0_n_n.contr.Idx, x0 (dot_S2048x1024_S1024x1024_S2048x1024_1_1_0_0_n_n.lhsIdx (ix2 r q) k) * x1 (dot_S2048x1024_S1024x1024_S2048x1024_1_1_0_0_n_n.rhsIdx (ix2 r q) k)
      = ∑ k : Fin 1024, x0 (ix2 r k) * x1 (ix2 q k) :=
  Cert.Attn.contraction_sum dot_S2048x1024_S1024x1024_S2048x1024_1_1_0_0_n_n rfl rfl x0 x1 (ix2 r q) _ _
    (fun k => congrArg x0 (funext fun a => Fin.ext (by
      have hk := contrEquiv1_symm_val dot_S2048x1024_S1024x1024_S2048x1024_1_1_0_0_n_n 1024 rfl rfl k
      match a with
      | ⟨0, _⟩ => exact lhs3_0 _ _
      | ⟨1, _⟩ => exact (lhs3_1 _ _).trans hk)))
    (fun k => congrArg x1 (funext fun a => Fin.ext (by
      have hk := contrEquiv1_symm_val dot_S2048x1024_S1024x1024_S2048x1024_1_1_0_0_n_n 1024 rfl rfl k
      match a with
      | ⟨0, _⟩ => exact rhs3_0 _ _
      | ⟨1, _⟩ => exact (rhs3_1 _ _).trans hk)))

/-- The accumulate step at (r, q): what was there plus the block product. -/
theorem pay2_apply3 (x0 : Vec Ideal S2048x1024 .bf16) (x1 : Vec Ideal S1024x1024 .bf16) (acc : Vec Ideal S2048x1024 .f32)
    (r : Fin 2048) (q : Fin 1024) :
    k3_pay2 (F := Ideal) x0 x1 acc (ix2 r q) = acc (ix2 r q) + ∑ k : Fin 1024, x0 (ix2 r k) * x1 (ix2 q k) := by
  unfold k3_pay2
  simp only [shapeCast_self]
  refine (addf_apply _ _ _).trans ?_
  refine congrArg (acc (ix2 r q) + ·) ?_
  exact (Ideal.matmul_constant_zero_apply (φ₁ := .bf16) (φ₂ := .bf16) dot_S2048x1024_S1024x1024_S2048x1024_1_1_0_0_n_n none x0 x1 (ix2 r q)).trans (blockProd3 x0 x1 r q)

/-- The zero block at an index. -/
theorem pay1_apply3 (j : S2048x1024.Idx) : k3_pay1 (F := Ideal) j = 0 := by
  unfold k3_pay1
  simp only [shapeCast_self]
  exact Ideal.ofBits_zero_f32

/-- The epilogue at an index: z · σ(z). -/
theorem pay3_apply3 (v : Vec Ideal S2048x1024 .f32) (j : S2048x1024.Idx) : k3_pay3 (F := Ideal) v j = silu (v j) := rfl

/-! ## The accumulator over a run of the contraction axis -/

section Values

variable (V : (c : Dev nD) → (b : Ref sig .tc) → Buf (Elt Ideal) ((c : Thread nD τ).loc b))

/-- The two operand arrays, and their blocks at a grid point, as functions into the extended reals. -/
def arrX3 (c : Dev nD) : M2 := V c main_v10
def arrW3 (c : Dev nD) : M2 := V c main_v2
def blkA3 (c : Dev nD) (t : Fin cfg3.N) : S2048x1024.Idx → EReal := iblk3 V c 0 t
def blkB3 (c : Dev nD) (t : Fin cfg3.N) : S1024x1024.Idx → EReal := iblk3 V c 1 t

/-- The accumulator's reset value at a first step, and its step elsewhere. -/
def reset3 (c : Dev nD) (n : ℕ) (h : n < cfg3.N) : S2048x1024.Idx → EReal :=
  k3_pay2 (F := Ideal) (blkA3 V c ⟨n, h⟩) (blkB3 V c ⟨n, h⟩) (k3_pay1 (F := Ideal))
def step3 (c : Dev nD) (n : ℕ) (h : n < cfg3.N) (prev : S2048x1024.Idx → EReal) : S2048x1024.Idx → EReal :=
  k3_pay2 (F := Ideal) (blkA3 V c ⟨n, h⟩) (blkB3 V c ⟨n, h⟩) prev
/-- The accumulator after position `n`. -/
def acc3 (c : Dev nD) (n : ℕ) (h : n < cfg3.N) : S2048x1024.Idx → EReal := (outsAt3 V c n h).2

theorem acc3_reset (c : Dev nD) (n : ℕ) (h : n < cfg3.N) (h0 : n % 4 = 0) : acc3 V c n h = reset3 V c n h := by
  have e : outsAt3 V c n h = _ := outsAt3_A V c ⟨n, h⟩ h0
  unfold acc3 reset3 blkA3 blkB3
  rw [e]
  dsimp only
  exact sout3_A_eq c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) scM3_0 (Memref.isWhole_whole _) ((hcond3_0 ⟨n, h⟩).mpr h0) (fun hh => not_last_of_first3 h0 ((hcond3_1 ⟨n, h⟩).mp hh)) (iblk3 V c 0 ⟨n, h⟩) (iblk3 V c 1 ⟨n, h⟩)

theorem acc3_step (c : Dev nD) (n : ℕ) (h : n + 1 < cfg3.N) (hne : ¬(n + 1) % 4 = 0) :
    acc3 V c (n + 1) h = step3 V c (n + 1) h (acc3 V c n (Nat.lt_of_succ_lt h)) := by
  unfold acc3 step3 blkA3 blkB3
  by_cases h1 : (n + 1) % 4 = 3
  · have e : outsAt3 V c (n + 1) h = _ := outsAt3_C V c ⟨n + 1, h⟩ hne h1
    rw [e]
    dsimp only
    exact sout3_C_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) scM3_0 (Memref.isWhole_whole _) (fun hh => hne ((hcond3_0 ⟨n + 1, h⟩).mp hh)) ((hcond3_1 ⟨n + 1, h⟩).mpr h1) (iblk3 V c 0 ⟨n + 1, h⟩) (iblk3 V c 1 ⟨n + 1, h⟩) _
  · have e : outsAt3 V c (n + 1) h = _ := outsAt3_B V c ⟨n + 1, h⟩ hne h1
    rw [e]
    dsimp only
    exact sout3_B_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) scM3_0 (Memref.isWhole_whole _) (fun hh => hne ((hcond3_0 ⟨n + 1, h⟩).mp hh)) (fun hh => h1 ((hcond3_1 ⟨n + 1, h⟩).mp hh)) (iblk3 V c 0 ⟨n + 1, h⟩) (iblk3 V c 1 ⟨n + 1, h⟩) _

/-- At any point the accumulator is the fold over its run of the contraction axis. -/
theorem acc3_fold (c : Dev nD) (t : ℕ) (ht : t < cfg3.N) (h' : 4 * (t / 4) + t % 4 < cfg3.N) :
    acc3 V c t ht = Pipeline.accAt (reset3 V c) (step3 V c) (4 * (t / 4)) (t % 4) h' :=
  Pipeline.eq_accAt_of_mod (acc3 V c) 4 (reset3 V c) (step3 V c)
    (fun n h h0 => acc3_reset V c n h h0) (fun n h hne => acc3_step V c n h hne) (by norm_num) t ht h'

/-- What one step adds at (r, q): the block product of that point's two blocks. -/
def addend3 (c : Dev nD) (n : ℕ) : S2048x1024.Idx → EReal := fun j =>
  if h : n < cfg3.N then ∑ k : Fin 1024, blkA3 V c ⟨n, h⟩ (ix2 (j 0) k) * blkB3 V c ⟨n, h⟩ (ix2 (j 1) k) else 0

theorem reset3_apply (c : Dev nD) (n : ℕ) (h : n < cfg3.N) (j : S2048x1024.Idx) :
    reset3 V c n h j = 0 + addend3 V c n j := by
  obtain ⟨r, q, rfl⟩ : ∃ (r : Fin 2048) (q : Fin 1024), j = ix2 r q := ⟨j 0, j 1, eq_ix2 j⟩
  unfold reset3 addend3
  rw [dif_pos h]
  refine (pay2_apply3 _ _ _ r q).trans ?_
  rw [pay1_apply3]

theorem step3_apply (c : Dev nD) (n : ℕ) (h : n < cfg3.N) (prev : S2048x1024.Idx → EReal) (j : S2048x1024.Idx) :
    step3 V c n h prev j = prev j + addend3 V c n j := by
  obtain ⟨r, q, rfl⟩ : ∃ (r : Fin 2048) (q : Fin 1024), j = ix2 r q := ⟨j 0, j 1, eq_ix2 j⟩
  unfold step3 addend3
  rw [dif_pos h]
  exact pay2_apply3 _ _ _ r q

/-- At a last step the accumulator is the sum of the four steps' block products. -/
theorem acc3_last (c : Dev nD) (t : Fin cfg3.N) (h3 : t.val % 4 = 3) (j : S2048x1024.Idx) :
    acc3 V c t.val t.isLt j = ∑ s ∈ Finset.range 4, addend3 V c (4 * (t.val / 4) + s) j := by
  have h' : 4 * (t.val / 4) + t.val % 4 < cfg3.N := by rw [Nat.div_add_mod]; exact t.isLt
  rw [acc3_fold V c t.val t.isLt h']
  have hb := Pipeline.accAt_add_apply (reset3 V c) (step3 V c) (fun _ => (0 : EReal)) (addend3 V c) (4 * (t.val / 4)) 3
    (fun h i => reset3_apply V c _ h i) (fun n h acc i _ _ => step3_apply V c n h acc i) (t.val % 4) (by omega) h' j
  rw [hb, zero_add, h3]

/-! ## The blocks as entries of the arrays -/

/-- The printed index maps over the 32 points: row block, column block and step from the point's position. -/
theorem idx3 : ∀ t : Fin cfg3.N, win3_0.index t 0 = t.val / 16 ∧ win3_0.index t 1 = t.val % 4
    ∧ win3_1.index t 0 = t.val / 4 % 4 ∧ win3_1.index t 1 = t.val % 4
    ∧ win3_2.index t 0 = t.val / 16 ∧ win3_2.index t 1 = t.val / 4 % 4 :=
  (by decide +kernel : ∀ t : Fin grid3.N, _)

theorem blkA3_apply (c : Dev nD) (t : Fin cfg3.N) (r : Fin 2048) (k : Fin 1024)
    (R : Fin 4096) (K : Fin 4096) (hR : R.val = t.val / 16 * 2048 + r.val) (hK : K.val = t.val % 4 * 1024 + k.val) :
    blkA3 V c t (ix2 r k) = arrX3 V c (ix2 R K) := by
  unfold blkA3 arrX3 iblk3
  rw [View.read_apply]
  show (V c main_v10 : S4096x4096.Idx → EReal) (((cfg3.win 0).blk t).view.emb (ix2 r k)) = _
  congr 1
  funext a
  apply Fin.ext
  obtain ⟨e0, e1, -⟩ := idx3 t
  match a with
  | ⟨0, _⟩ => show win3_0.index t 0 * 2048 + 1 * r.val = R.val; rw [e0, hR]; omega
  | ⟨1, _⟩ => show win3_0.index t 1 * 1024 + 1 * k.val = K.val; rw [e1, hK]; omega

theorem blkB3_apply (c : Dev nD) (t : Fin cfg3.N) (q : Fin 1024) (k : Fin 1024)
    (Q : Fin 4096) (K : Fin 4096) (hQ : Q.val = t.val / 4 % 4 * 1024 + q.val) (hK : K.val = t.val % 4 * 1024 + k.val) :
    blkB3 V c t (ix2 q k) = arrW3 V c (ix2 Q K) := by
  unfold blkB3 arrW3 iblk3
  rw [View.read_apply]
  show (V c main_v2 : S4096x4096.Idx → EReal) (((cfg3.win 1).blk t).view.emb (ix2 q k)) = _
  congr 1
  funext a
  apply Fin.ext
  obtain ⟨-, -, e2, e3, -⟩ := idx3 t
  match a with
  | ⟨0, _⟩ => show win3_1.index t 0 * 1024 + 1 * q.val = Q.val; rw [e2, hQ]; omega
  | ⟨1, _⟩ => show win3_1.index t 1 * 1024 + 1 * k.val = K.val; rw [e3, hK]; omega

/-! ## The whole sum, the written-back blocks, and the array -/

theorem t3_lt (t : Fin cfg3.N) : t.val < 32 := lt_of_lt_of_eq t.isLt N_3

/-- At a last step the accumulator holds, at (r, q) of the block, the whole 4096-term sum at the array position. -/
theorem acc3_total (c : Dev nD) (t : Fin cfg3.N) (h3 : t.val % 4 = 3) (r : Fin 2048) (q : Fin 1024)
    (R Q : Fin 4096) (hR : R.val = t.val / 16 * 2048 + r.val) (hQ : Q.val = t.val / 4 % 4 * 1024 + q.val) :
    acc3 V c t.val t.isLt (ix2 r q) = projT (arrX3 V c) (arrW3 V c) (ix2 R Q) := by
  have ht := t3_lt t
  rw [acc3_last V c t h3, Finset.sum_range]
  show _ = ∑ K : Fin 4096, arrX3 V c (ix2 R K) * arrW3 V c (ix2 Q K)
  rw [← ChunkSum.sum_chunks (show 4 * 1024 = 4096 from rfl) (fun K : Fin 4096 => arrX3 V c (ix2 R K) * arrW3 V c (ix2 Q K))]
  refine Finset.sum_congr rfl fun s _ => ?_
  have hs : 4 * (t.val / 4) + s.val < cfg3.N := lt_of_lt_of_eq (by have := s.isLt; omega : 4 * (t.val / 4) + s.val < 32) N_3.symm
  unfold addend3
  rw [dif_pos hs]
  refine Finset.sum_congr rfl fun k _ => ?_
  have hk := k.isLt
  have hsl := s.isLt
  rw [blkA3_apply V c ⟨_, hs⟩ r k R (ChunkSum.at_ (show 4 * 1024 = 4096 from rfl) s k)
        (by rw [hR]; show _ = (4 * (t.val / 4) + s.val) / 16 * 2048 + r.val; omega)
        (by rw [ChunkSum.at_val]; show _ = (4 * (t.val / 4) + s.val) % 4 * 1024 + k.val; omega),
      blkB3_apply V c ⟨_, hs⟩ q k Q (ChunkSum.at_ (show 4 * 1024 = 4096 from rfl) s k)
        (by rw [hQ]; show _ = (4 * (t.val / 4) + s.val) / 4 % 4 * 1024 + q.val; omega)
        (by rw [ChunkSum.at_val]; show _ = (4 * (t.val / 4) + s.val) % 4 * 1024 + k.val; omega)]

/-- What a last step writes back is its block of `projSilu` of the two operand arrays. -/
theorem flushed3_eq (c : Dev nD) (t : Fin cfg3.N) (hf : (cfg3.win 2).flush t = true) :
    (dat3 V c).flushed 2 t = ((cfg3.win 2).blk t).view.read (Elt Ideal) (projSilu (arrX3 V c) (arrW3 V c)) := by
  have h3 : t.val % 4 = 3 := (flush3_2 t).mp hf
  have h0 : ¬t.val % 4 = 0 := by omega
  have ht := t3_lt t
  show (cfg3.win 2).cut (grid3.coords t) ((dat3 V c).after 2 t) = _
  rw [after3_2]
  have e1 : (outsAt3 V c t.val t.isLt).1 = k3_pay3 (F := Ideal) (acc3 V c t.val t.isLt) := by
    unfold acc3
    rw [outsAt3_C V c t h0 h3]
    dsimp only
    exact (out3_C_eq c (grid3.coords t) (ms3_0 t) (hs3_0 t) (ms3_1 t) (hs3_1 t) (ms3_2 t) (hs3_2 t) scM3_0 (Memref.isWhole_whole _) (fun hh => h0 ((hcond3_0 t).mp hh)) ((hcond3_1 t).mpr h3) (iblk3 V c 0 t) (iblk3 V c 1 t) _).trans
      (congrArg (k3_pay3 (F := Ideal)) (sout3_C_eq c (grid3.coords t) (ms3_0 t) (hs3_0 t) (ms3_1 t) (hs3_1 t) (ms3_2 t) (hs3_2 t) scM3_0 (Memref.isWhole_whole _) (fun hh => h0 ((hcond3_0 t).mp hh)) ((hcond3_1 t).mpr h3) (iblk3 V c 0 t) (iblk3 V c 1 t) _).symm)
  funext y
  obtain ⟨r, q, rfl⟩ : ∃ (r : Fin 2048) (q : Fin 1024), y = ix2 r q := ⟨y 0, y 1, eq_ix2 y⟩
  rw [View.read_apply]
  show (outsAt3 V c t.val t.isLt).1 (ix2 r q) = _
  rw [e1, pay3_apply3]
  obtain ⟨-, -, -, -, e4, e5⟩ := idx3 t
  have hr := r.isLt
  have hq := q.isLt
  have hemb : ((cfg3.win 2).blk t).view.emb (ix2 r q)
      = ix2 (⟨t.val / 16 * 2048 + r.val, by omega⟩ : Fin 4096) (⟨t.val / 4 % 4 * 1024 + q.val, by omega⟩ : Fin 4096) := by
    funext a
    apply Fin.ext
    match a with
    | ⟨0, _⟩ => show win3_2.index t 0 * 2048 + 1 * r.val = t.val / 16 * 2048 + r.val; rw [e4]; omega
    | ⟨1, _⟩ => show win3_2.index t 1 * 1024 + 1 * q.val = t.val / 4 % 4 * 1024 + q.val; rw [e5]; omega
  rw [hemb]
  unfold projSilu
  rw [acc3_total V c t h3 r q ⟨t.val / 16 * 2048 + r.val, by omega⟩ ⟨t.val / 4 % 4 * 1024 + q.val, by omega⟩ rfl rfl]
  exact (cast_eq _ _).symm

theorem mem_blk3 (t : Fin cfg3.N) (i : S4096x4096.Idx) :
    i ∈ ((cfg3.win 2).blk t).view.set ↔ ∀ a : Fin 2, win3_2.index t a * S2048x1024.size a ≤ (i a).val ∧ (i a).val < win3_2.index t a * S2048x1024.size a + S2048x1024.size a := by
  show i ∈ ((View.whole main_v11).slice (win3_2.rect t)).set ↔ _
  rw [View.set_slice_whole, Rect.mem_set_unit]
  exact Iff.rfl

/-- Every entry of the result array lies in the block written back at the last step of its (row block, column block). -/
theorem cover3 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  have hN : cfg3.N = 32 := N_3
  have hlt : ((i 0).val / 2048 * 4 + (i 1).val / 1024) * 4 + 3 < cfg3.N := by rw [hN]; omega
  refine ⟨⟨((i 0).val / 2048 * 4 + (i 1).val / 1024) * 4 + 3, hlt⟩, (flush3_2 _).mpr (by show (((i 0).val / 2048 * 4 + (i 1).val / 1024) * 4 + 3) % 4 = 3; omega), ?_⟩
  rw [mem_blk3]
  obtain ⟨-, -, -, -, e4, e5⟩ := idx3 ⟨((i 0).val / 2048 * 4 + (i 1).val / 1024) * 4 + 3, hlt⟩
  intro a
  match a with
  | ⟨0, _⟩ =>
    show win3_2.index _ 0 * 2048 ≤ (i 0).val ∧ (i 0).val < win3_2.index _ 0 * 2048 + 2048
    rw [e4]; show (((i 0).val / 2048 * 4 + (i 1).val / 1024) * 4 + 3) / 16 * 2048 ≤ (i 0).val ∧ (i 0).val < (((i 0).val / 2048 * 4 + (i 1).val / 1024) * 4 + 3) / 16 * 2048 + 2048
    omega
  | ⟨1, _⟩ =>
    show win3_2.index _ 1 * 1024 ≤ (i 1).val ∧ (i 1).val < win3_2.index _ 1 * 1024 + 1024
    rw [e5]; show (((i 0).val / 2048 * 4 + (i 1).val / 1024) * 4 + 3) / 4 % 4 * 1024 ≤ (i 1).val ∧ (i 1).val < (((i 0).val / 2048 * 4 + (i 1).val / 1024) * 4 + 3) / 4 % 4 * 1024 + 1024
    omega

/-- The fourth kernel's result array: `x · wᵀ` followed by z · σ(z), of its two operand arrays. -/
theorem final3 (c : Dev nD) : (dat3 V c).arrAt 2 cfg3.N = projSilu (V c main_v10) (V c main_v2) :=
  (dat3 V c).arrAt_eq_of_cover 2 (projSilu (arrX3 V c) (arrW3 V c)) (fun t hf => flushed3_eq V c t hf) cover3

end Values

end Cert.KernelIdeal.Hand

end
-- ==== Proof.R4Value.lean ====
/-
  The fifth kernel's value on the extended reals: its result array ends holding ((x + y) · wᵀ)(r, q) = ∑ k, (x(r, k) + y(r, k)) · w(q, k),
  x the input rows, y the fourth kernel's result, w the weights W5, all [4096, 4096].

  The grid is (4, 4, 4): point t is (row block t / 16, column block t / 4 % 4, step t % 4 of the contraction axis). The
  output block (t / 16, t / 4 % 4) is accumulated in a [1024, 1024] buffer over the four steps and written back at the last.

  * What one run of the body leaves: at a first step the step's product added to the zero block, at a later step the
    product added to what the accumulator held; the last step also stores the accumulator into the output block.
  * The step at an index: the accumulator's entry plus ∑ k < 1024 of (x + y)(p, k) · w(q, k) over the step's blocks (the
    conversions between the two float formats are the identity on the extended reals; the matrix unit's product into a
    zero block is the sum over its one contraction coordinate).
  * The accumulator resets at the multiples of four and steps elsewhere, so after the last of four steps it is the fold
    over the run, which at an index is zero plus the four steps' products.
  * A block's entry is the array's entry at block index × 1024 + the coordinate inside the block, so step s contributes
    columns s · 1024 … s · 1024 + 1023, and the four chunk sums are the sum over all 4096 columns. Only the laws of a
    commutative monoid are used: nothing has to be finite.
  * The sixteen output blocks tile the array: index (r, q) lies in the block written back at point
    (r / 1024) · 16 + (q / 1024) · 4 + 3.
-/
import proofs.«133833_j3100966388061_2_alg».proof.Proof.R4Frame
import proofs.«133833_j3100966388061_2_alg».proof.Proof.Spec
import proofs.«133833_j3100966388061_2_alg».proof.Proof.LibChunkSum
import proofs.«133833_j3100966388061_2_alg».proof.Proof.LibRowSoftmax
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Payload
variable {F : FTy → Type} [FloatOps F]

theorem hz4 : (![0, 0] : Fin 2 → Nat) = fun _ => 0 := funext fun a => by fin_cases a <;> rfl

/-- A first step leaves in the accumulator the step's product added to the zero block. -/
theorem sout4_A_0_eq (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond4_0 i) (hc1 : ¬cond4_1 i)
    (x0 : Vec F S1024x1024 .f32) (x1 : Vec F S1024x1024 .bf16) (x2 : Vec F S1024x1024 .bf16) :
    sout4_A_0 c i arg3 harg3 arg4 harg4 arg5 harg5 arg6 harg6 arg7 harg7 hc0 hc1 x0 x1 x2 = k4_pay2 x0 x1 x2 (k4_pay1 (F := F)) := by
  unfold sout4_A_0
  unfold kernelRun4_A
  dsimp only
  sl_unfold_words
  rw [View.canon_cons_unit_zero (S := S1024x1024) hz4, View.readCov_unit_zero (S := S1024x1024) _ hz4]
  simp only [View.readAt_eq_ld, harg3.read_unread, harg4.read_unread, harg5.read_unread, View.ld_unit_zero (S := S1024x1024) hz4]

/-- A later step that is not the last leaves the step's product added to what the accumulator held. -/
theorem sout4_B_0_eq (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : ¬cond4_1 i)
    (x0 : Vec F S1024x1024 .f32) (x1 : Vec F S1024x1024 .bf16) (x2 : Vec F S1024x1024 .bf16) (xs0 : Vec F S1024x1024 .f32) :
    sout4_B_0 c i arg3 harg3 arg4 harg4 arg5 harg5 arg6 harg6 arg7 harg7 hc0 hc1 x0 x1 x2 xs0 = k4_pay2 x0 x1 x2 xs0 := by
  unfold sout4_B_0
  unfold kernelRun4_B
  dsimp only
  rw [View.canon_unit_zero hz4]
  simp only [View.readAt_eq_ld, harg3.read_unread, harg4.read_unread, harg5.read_unread, harg7.read_unread, View.ld_unit_zero (S := S1024x1024) hz4]

/-- The last step leaves the same in the accumulator, -/
theorem sout4_C_0_eq (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) :
    sout4_C_0 c i arg3 harg3 arg4 harg4 arg5 harg5 arg6 harg6 arg7 harg7 hc0 hc1 x0 x1 x2 xs0 = k4_pay2 x0 x1 x2 xs0 := by
  unfold sout4_C_0
  unfold kernelRun4_C
  dsimp only
  sl_unfold_words
  rw [View.canon_unit_zero hz4]
  simp only [View.readAt_eq_ld, harg3.read_unread, harg4.read_unread, harg5.read_unread, harg7.read_unread, View.ld_unit_zero (S := S1024x1024) hz4]

/-- and stores that accumulator, read back, into the output block. -/
theorem out4_C_3_eq (c : Dev nD) (i : grid4.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond4_0 i) (hc1 : cond4_1 i)
    (x0 : Vec F S1024x1024 .f32) (x1 : Vec F S1024x1024 .bf16) (x2 : Vec F S1024x1024 .bf16) (xs0 : Vec F S1024x1024 .f32) :
    out4_C_3 c i arg3 harg3 arg4 harg4 arg5 harg5 arg6 harg6 arg7 harg7 hc0 hc1 x0 x1 x2 xs0 = k4_pay2 x0 x1 x2 xs0 := by
  unfold out4_C_3
  unfold kernelRun4_C
  dsimp only
  sl_unfold_words
  rw [View.canon_unit_zero hz4, View.readCov_unit_zero (S := S1024x1024) _ hz4]
  simp only [View.readAt_eq_ld, harg3.read_unread, harg4.read_unread, harg5.read_unread, harg7.read_unread, View.ld_unit_zero (S := S1024x1024) hz4]

end Payload

/-! ## The accumulate step at an index, on the extended reals -/

section StepAtIndex

/-- The matrix unit's dimension record: both operands contracted along their second axis. -/
abbrev D4 : DotDims S1024x1024 S1024x1024 S1024x1024 := dot_S1024x1024_S1024x1024_S1024x1024_1_1_0_0_n_n

theorem D4_lhs0 (i : S1024x1024.Idx) (q : D4.contr.Idx) : (D4.lhsIdx i q 0).val = (i 0).val := by
  unfold DotDims.lhsIdx
  rw [dif_neg (show ¬(0 : Fin S1024x1024.rank) ∈ D4.lhsBatch by decide), dif_pos (show (0 : Fin S1024x1024.rank) ∈ D4.lhsNonContracting by decide)]
  rfl
theorem D4_lhs1 (i : S1024x1024.Idx) (q : D4.contr.Idx) : (D4.lhsIdx i q 1).val = (q ⟨0, by decide⟩).val :=
  D4.lhsIdx_val_of_single rfl i q
theorem D4_rhs0 (i : S1024x1024.Idx) (q : D4.contr.Idx) : (D4.rhsIdx i q 0).val = (i 1).val := by
  unfold DotDims.rhsIdx
  rw [dif_neg (show ¬(0 : Fin S1024x1024.rank) ∈ D4.rhsBatch by decide), dif_pos (show (0 : Fin S1024x1024.rank) ∈ D4.rhsNonContracting by decide)]
  rfl
theorem D4_rhs1 (i : S1024x1024.Idx) (q : D4.contr.Idx) : (D4.rhsIdx i q 1).val = (q ⟨0, by decide⟩).val :=
  D4.rhsIdx_val_of_single rfl i q

theorem D4_lhsIdx (p q : Fin 1024) (k : Fin 1024) :
    D4.lhsIdx (ix2 p q) ((contrEquiv1 D4 1024 rfl rfl).symm k) = ix2 p k := funext fun a => Fin.ext (by
  have hk := contrEquiv1_symm_val D4 1024 rfl rfl k
  match a with
  | ⟨0, _⟩ => exact D4_lhs0 _ _
  | ⟨1, _⟩ => exact (D4_lhs1 _ _).trans hk)

theorem D4_rhsIdx (p q : Fin 1024) (k : Fin 1024) :
    D4.rhsIdx (ix2 p q) ((contrEquiv1 D4 1024 rfl rfl).symm k) = ix2 q k := funext fun a => Fin.ext (by
  have hk := contrEquiv1_symm_val D4 1024 rfl rfl k
  match a with
  | ⟨0, _⟩ => exact D4_rhs0 _ _
  | ⟨1, _⟩ => exact (D4_rhs1 _ _).trans hk)

/-- The zero block at an index. -/
theorem k4_pay1_apply (j : S1024x1024.Idx) : k4_pay1 (F := Ideal) j = 0 := by
  unfold k4_pay1
  simp only [shapeCast_self]
  show Ideal.ofBits .f32 0x00000000#32 = 0
  exact Ideal.ofBits_zero_f32

/-- The accumulate step at an index: what the accumulator held there plus the sum, over the block's 1024 columns,
    of (x + y)(p, k) · w(q, k). -/
theorem k4_pay2_apply (x0 : Vec Ideal S1024x1024 .f32) (x1 x2 : Vec Ideal S1024x1024 .bf16) (acc : Vec Ideal S1024x1024 .f32)
    (p q : Fin 1024) :
    k4_pay2 x0 x1 x2 acc (ix2 p q)
      = acc (ix2 p q) + ∑ k : Fin 1024, (x0 (ix2 p k) + x1 (ix2 p k)) * x2 (ix2 q k) := by
  unfold k4_pay2
  simp only [shapeCast_self]
  rw [addf_apply]
  refine congrArg (acc (ix2 p q) + ·) ?_
  simp only [matmul]
  rw [Ideal.matmul_constant_zero_apply]
  refine Cert.Attn.contraction_sum (K := 1024) D4 rfl rfl _ _ (ix2 p q) (fun k => x0 (ix2 p k) + x1 (ix2 p k)) (fun k => x2 (ix2 q k))
    (fun k => ?_) (fun k => ?_)
  · exact congrArg (fun i => x0 i + x1 i) (D4_lhsIdx p q k)
  · exact congrArg x2 (D4_rhsIdx p q k)

end StepAtIndex

/-! ## Blocks of the operand arrays -/

section Blocks
variable {F : FTy → Type} [FloatOps F]
variable (V : (c : Dev nD) → (b : Ref sig .tc) → Buf (Elt F) ((c : Thread nD τ).loc b))

/-- Point `t` of the grid (4, 4, 4) is (t / 16, t / 4 % 4, t % 4); the first two operands' blocks sit at
    (row block t / 16, column block t % 4), -/
theorem idx4_0 : ∀ t : Fin cfg4.N, win4_0.index t 0 = t.val / 16 ∧ win4_0.index t 1 = t.val % 4 :=
  (by decide +kernel : ∀ t : Fin grid4.N, win4_0.index t 0 = t.val / 16 ∧ win4_0.index t 1 = t.val % 4)
theorem idx4_1 : ∀ t : Fin cfg4.N, win4_1.index t 0 = t.val / 16 ∧ win4_1.index t 1 = t.val % 4 :=
  (by decide +kernel : ∀ t : Fin grid4.N, win4_1.index t 0 = t.val / 16 ∧ win4_1.index t 1 = t.val % 4)
/-- the weights' block at (row block t / 4 % 4, column block t % 4), -/
theorem idx4_2 : ∀ t : Fin cfg4.N, win4_2.index t 0 = t.val / 4 % 4 ∧ win4_2.index t 1 = t.val % 4 :=
  (by decide +kernel : ∀ t : Fin grid4.N, win4_2.index t 0 = t.val / 4 % 4 ∧ win4_2.index t 1 = t.val % 4)
/-- the output's block at (row block t / 16, column block t / 4 % 4). -/
theorem idx4_3 : ∀ t : Fin cfg4.N, win4_3.index t 0 = t.val / 16 ∧ win4_3.index t 1 = t.val / 4 % 4 :=
  (by decide +kernel : ∀ t : Fin grid4.N, win4_3.index t 0 = t.val / 16 ∧ win4_3.index t 1 = t.val / 4 % 4)

/-- An entry of the first operand's block at point `t` is the array's entry at block index × 1024 + the coordinate inside. -/
theorem iblk4_0_apply (c : Dev nD) (t : Fin cfg4.N) (x : S1024x1024.Idx) (k : S4096x4096.Idx)
    (hk0 : (k 0).val = t.val / 16 * 1024 + (x 0).val) (hk1 : (k 1).val = t.val % 4 * 1024 + (x 1).val) :
    (iblk4 V c 0 t : Vec F S1024x1024 .f32) x = (V c main_v0 : S4096x4096.Idx → Elt F .f32) k := by
  have hi := idx4_0 t
  unfold iblk4
  rw [View.read_apply]
  show V c main_v0 _ = V c main_v0 _
  congr 1
  funext a
  apply Fin.ext
  match a with
  | ⟨0, _⟩ => show win4_0.index t 0 * 1024 + 1 * (x 0).val = (k 0).val; rw [hi.1, hk0]; omega
  | ⟨1, _⟩ => show win4_0.index t 1 * 1024 + 1 * (x 1).val = (k 1).val; rw [hi.2, hk1]; omega

theorem iblk4_1_apply (c : Dev nD) (t : Fin cfg4.N) (x : S1024x1024.Idx) (k : S4096x4096.Idx)
    (hk0 : (k 0).val = t.val / 16 * 1024 + (x 0).val) (hk1 : (k 1).val = t.val % 4 * 1024 + (x 1).val) :
    (iblk4 V c 1 t : Vec F S1024x1024 .bf16) x = (V c main_v11 : S4096x4096.Idx → Elt F .bf16) k := by
  have hi := idx4_1 t
  unfold iblk4
  rw [View.read_apply]
  show V c main_v11 _ = V c main_v11 _
  congr 1
  funext a
  apply Fin.ext
  match a with
  | ⟨0, _⟩ => show win4_1.index t 0 * 1024 + 1 * (x 0).val = (k 0).val; rw [hi.1, hk0]; omega
  | ⟨1, _⟩ => show win4_1.index t 1 * 1024 + 1 * (x 1).val = (k 1).val; rw [hi.2, hk1]; omega

theorem iblk4_2_apply (c : Dev nD) (t : Fin cfg4.N) (x : S1024x1024.Idx) (k : S4096x4096.Idx)
    (hk0 : (k 0).val = t.val / 4 % 4 * 1024 + (x 0).val) (hk1 : (k 1).val = t.val % 4 * 1024 + (x 1).val) :
    (iblk4 V c 2 t : Vec F S1024x1024 .bf16) x = (V c main_v3 : S4096x4096.Idx → Elt F .bf16) k := by
  have hi := idx4_2 t
  unfold iblk4
  rw [View.read_apply]
  show V c main_v3 _ = V c main_v3 _
  congr 1
  funext a
  apply Fin.ext
  match a with
  | ⟨0, _⟩ => show win4_2.index t 0 * 1024 + 1 * (x 0).val = (k 0).val; rw [hi.1, hk0]; omega
  | ⟨1, _⟩ => show win4_2.index t 1 * 1024 + 1 * (x 1).val = (k 1).val; rw [hi.2, hk1]; omega

end Blocks

/-! ## The accumulator over a run of four points, on the extended reals -/

section Fold
variable (V : (c : Dev nD) → (b : Ref sig .tc) → Buf (Elt Ideal) ((c : Thread nD τ).loc b))

/-- One step's product at an index: the sum over the block's 1024 columns of (x + y)(p, k) · w(q, k). -/
def prod4 (x0 : Vec Ideal S1024x1024 .f32) (x1 x2 : Vec Ideal S1024x1024 .bf16) : S1024x1024.Idx → EReal :=
  fun j => ∑ k : Fin 1024, (x0 (ix2 (n0 := 1024) (n1 := 1024) (j 0) k) + x1 (ix2 (n0 := 1024) (n1 := 1024) (j 0) k))
    * x2 (ix2 (n0 := 1024) (n1 := 1024) (j 1) k)

theorem k4_pay2_at (x0 : Vec Ideal S1024x1024 .f32) (x1 x2 : Vec Ideal S1024x1024 .bf16) (acc : Vec Ideal S1024x1024 .f32)
    (j : S1024x1024.Idx) : k4_pay2 x0 x1 x2 acc j = acc j + prod4 x0 x1 x2 j := by
  obtain ⟨p, q, rfl⟩ : ∃ (p q : Fin 1024), j = ix2 p q := ⟨j 0, j 1, eq_ix2 j⟩
  exact k4_pay2_apply x0 x1 x2 acc p q

/-- What a first step leaves in the accumulator at point `n`, -/
abbrev reset4 (c : Dev nD) (n : ℕ) (h : n < cfg4.N) : Vec Ideal S1024x1024 .f32 :=
  k4_pay2 (iblk4 V c 0 ⟨n, h⟩) (iblk4 V c 1 ⟨n, h⟩) (iblk4 V c 2 ⟨n, h⟩) (k4_pay1 (F := Ideal))

/-- what a later step makes of the accumulator at point `n`, -/
abbrev step4 (c : Dev nD) (n : ℕ) (h : n < cfg4.N) (acc : Vec Ideal S1024x1024 .f32) : Vec Ideal S1024x1024 .f32 :=
  k4_pay2 (iblk4 V c 0 ⟨n, h⟩) (iblk4 V c 1 ⟨n, h⟩) (iblk4 V c 2 ⟨n, h⟩) acc

/-- and the product point `n` adds (nothing past the grid). -/
def addend4 (c : Dev nD) (n : ℕ) : S1024x1024.Idx → EReal := fun j =>
  if h : n < cfg4.N then prod4 (iblk4 V c 0 ⟨n, h⟩) (iblk4 V c 1 ⟨n, h⟩) (iblk4 V c 2 ⟨n, h⟩) j else 0

theorem acc4_reset (c : Dev nD) (n : ℕ) (h : n < cfg4.N) (h0 : n % 4 = 0) :
    (outsAt4 V c n h).2 = reset4 V c n h := by
  rw [outsAt4_A V c ⟨n, h⟩ h0]
  dsimp only
  exact sout4_A_0_eq ..

theorem acc4_step (c : Dev nD) (n : ℕ) (h : n + 1 < cfg4.N) (h0 : ¬(n + 1) % 4 = 0) :
    (outsAt4 V c (n + 1) h).2 = step4 V c (n + 1) h ((outsAt4 V c n (Nat.lt_of_succ_lt h)).2) := by
  by_cases h1 : (n + 1) % 4 = 3
  · rw [outsAt4_C V c ⟨n + 1, h⟩ h0 h1]
    dsimp only
    exact sout4_C_0_eq ..
  · rw [outsAt4_B V c ⟨n + 1, h⟩ h0 h1]
    dsimp only
    exact sout4_B_0_eq ..

/-- The accumulator after point `t` is the fold over the run of points from the multiple of four below `t`. -/
theorem acc4_eq_fold (c : Dev nD) (t : Fin cfg4.N) (j : ℕ) (hj : t.val % 4 = j) (h' : 4 * (t.val / 4) + j < cfg4.N) :
    (outsAt4 V c t.val t.isLt).2 = Pipeline.accAt (reset4 V c) (step4 V c) (4 * (t.val / 4)) j h' := by
  subst hj
  exact Pipeline.eq_accAt_of_mod (fun n h => (outsAt4 V c n h).2) 4 (reset4 V c) (step4 V c)
    (fun n h h0 => acc4_reset V c n h h0) (fun n h h0 => acc4_step V c n h h0) (by norm_num) t.val t.isLt h'

/-- The fold over four points at an index: the four products added onto zero. -/
theorem fold4_apply (c : Dev nD) (b : ℕ) (hb : b + 3 < cfg4.N) (i : S1024x1024.Idx) :
    Pipeline.accAt (reset4 V c) (step4 V c) b 3 hb i = 0 + ∑ s ∈ Finset.range 4, addend4 V c (b + s) i :=
  Pipeline.accAt_add_apply (reset4 V c) (step4 V c) (fun _ => 0) (addend4 V c) b 3
    (fun h i => by
      show reset4 V c b h i = 0 + addend4 V c b i
      refine (k4_pay2_at (iblk4 V c 0 ⟨b, h⟩) (iblk4 V c 1 ⟨b, h⟩) (iblk4 V c 2 ⟨b, h⟩) _ i).trans ?_
      rw [k4_pay1_apply]; unfold addend4; rw [dif_pos h])
    (fun n h acc i _ _ => by
      refine (k4_pay2_at (iblk4 V c 0 ⟨n, h⟩) (iblk4 V c 1 ⟨n, h⟩) (iblk4 V c 2 ⟨n, h⟩) acc i).trans ?_
      unfold addend4; rw [dif_pos h]) 3 le_rfl hb i

/-- At a last step the output block is stored with what the accumulator then holds: the four products added onto zero. -/
theorem out4_at_flush (c : Dev nD) (t : Fin cfg4.N) (h3 : t.val % 4 = 3) (i : S1024x1024.Idx) :
    (outsAt4 V c t.val t.isLt).1 i = 0 + ∑ s ∈ Finset.range 4, addend4 V c (4 * (t.val / 4) + s) i := by
  have hN : cfg4.N = 64 := N_4
  have h0 : ¬t.val % 4 = 0 := by omega
  have e1 : (outsAt4 V c t.val t.isLt).1 = (outsAt4 V c t.val t.isLt).2 := by
    rw [outsAt4_C V c t h0 h3]
    dsimp only
    exact (out4_C_3_eq ..).trans (sout4_C_0_eq ..).symm
  have h' : 4 * (t.val / 4) + 3 < cfg4.N := by have := t.isLt; omega
  rw [e1, acc4_eq_fold V c t 3 h3 h', fold4_apply]

end Fold

/-! ## From the blocks to the array -/

section Whole
variable (V : (c : Dev nD) → (b : Ref sig .tc) → Buf (Elt Ideal) ((c : Thread nD τ).loc b))

/-- What the result array is to hold: ((x + y) · wᵀ)(r, q) = ∑ k, (x(r, k) + y(r, k)) · w(q, k). -/
abbrev G4 (c : Dev nD) : Buf (Elt Ideal) ((c : Thread nD τ).loc main_v12) :=
  Cert.Spec.residProj (V c main_v0) (V c main_v11) (V c main_v3)

/-- The three operand arrays, as functions of an index of [4096, 4096] on the extended reals. -/
abbrev X4 (c : Dev nD) : Cert.Spec.M2 := V c main_v0
abbrev Y4 (c : Dev nD) : Cert.Spec.M2 := V c main_v11
abbrev W4 (c : Dev nD) : Cert.Spec.M2 := V c main_v3

/-- The product a point adds, in the arrays' entries: columns `s · 1024 + k` of rows `r` of x and y and row `q` of w,
    `s` the point's step along the contraction axis. -/
theorem addend4_apply (c : Dev nD) (n : ℕ) (h : n < cfg4.N) (s : Fin 4) (hs : n % 4 = s.val) (p q : Fin 1024) (r qq : Fin 4096)
    (hr : r.val = n / 16 * 1024 + p.val) (hq : qq.val = n / 4 % 4 * 1024 + q.val) :
    addend4 V c n (ix2 p q) = ∑ k : Fin 1024,
      (X4 V c (ix2 r (ChunkSum.at_ (n := 4) (m := 1024) (N := 4096) rfl s k))
        + Y4 V c (ix2 r (ChunkSum.at_ (n := 4) (m := 1024) (N := 4096) rfl s k)))
      * W4 V c (ix2 qq (ChunkSum.at_ (n := 4) (m := 1024) (N := 4096) rfl s k)) := by
  unfold addend4
  rw [dif_pos h]
  unfold prod4
  refine Finset.sum_congr rfl fun k _ => ?_
  have e0 : @Eq EReal ((iblk4 V c 0 ⟨n, h⟩ : Vec Ideal S1024x1024 .f32) (ix2 p k))
      (X4 V c (ix2 r (ChunkSum.at_ (n := 4) (m := 1024) (N := 4096) rfl s k))) :=
    iblk4_0_apply V c ⟨n, h⟩ (ix2 p k) (ix2 r (ChunkSum.at_ (n := 4) (m := 1024) (N := 4096) rfl s k)) hr
    (show s.val * 1024 + k.val = n % 4 * 1024 + k.val by rw [hs])
  have e1 : @Eq EReal ((iblk4 V c 1 ⟨n, h⟩ : Vec Ideal S1024x1024 .bf16) (ix2 p k))
      (Y4 V c (ix2 r (ChunkSum.at_ (n := 4) (m := 1024) (N := 4096) rfl s k))) :=
    iblk4_1_apply V c ⟨n, h⟩ (ix2 p k) (ix2 r (ChunkSum.at_ (n := 4) (m := 1024) (N := 4096) rfl s k)) hr
    (show s.val * 1024 + k.val = n % 4 * 1024 + k.val by rw [hs])
  have e2 : @Eq EReal ((iblk4 V c 2 ⟨n, h⟩ : Vec Ideal S1024x1024 .bf16) (ix2 q k))
      (W4 V c (ix2 qq (ChunkSum.at_ (n := 4) (m := 1024) (N := 4096) rfl s k))) :=
    iblk4_2_apply V c ⟨n, h⟩ (ix2 q k) (ix2 qq (ChunkSum.at_ (n := 4) (m := 1024) (N := 4096) rfl s k)) hq
    (show s.val * 1024 + k.val = n % 4 * 1024 + k.val by rw [hs])
  exact congrArg₂ (· * ·) (congrArg₂ (· + ·) e0 e1) e2

/-- At a last step the output block holds, at (p, q), the whole contraction at row `r` and column `q` of the array:
    the four chunk sums join into the sum over all 4096 columns. -/
theorem out4_flush_apply (c : Dev nD) (t : Fin cfg4.N) (h3 : t.val % 4 = 3) (p q : Fin 1024) (r qq : Fin 4096)
    (hr : r.val = t.val / 16 * 1024 + p.val) (hq : qq.val = t.val / 4 % 4 * 1024 + q.val) :
    (outsAt4 V c t.val t.isLt).1 (ix2 p q) = G4 V c (ix2 r qq) := by
  have hN : cfg4.N = 64 := N_4
  have ht := t.isLt
  rw [out4_at_flush V c t h3, zero_add, Finset.sum_range]
  have hs : ∀ s : Fin 4, addend4 V c (4 * (t.val / 4) + s.val) (ix2 p q)
      = ∑ k : Fin 1024, (fun kk : Fin 4096 => (X4 V c (ix2 r kk) + Y4 V c (ix2 r kk)) * W4 V c (ix2 qq kk))
        (ChunkSum.at_ (n := 4) (m := 1024) (N := 4096) rfl s k) := fun s => by
    have hsl := s.isLt
    exact addend4_apply V c _ (by omega) s (by omega) p q r qq (by omega) (by omega)
  refine (Finset.sum_congr rfl fun s _ => hs s).trans ?_
  exact ChunkSum.sum_chunks (M := EReal) (n := 4) (m := 1024) (N := 4096) rfl
    (fun kk : Fin 4096 => (X4 V c (ix2 r kk) + Y4 V c (ix2 r kk)) * W4 V c (ix2 qq kk))

/-- What a last step writes back is its block of that function. -/
theorem flushed4_eq (c : Dev nD) (t : Fin cfg4.N) (hf : (cfg4.win 3).flush t = true) :
    (dat4 V c).flushed 3 t = ((cfg4.win 3).blk t).view.read (Elt Ideal) (G4 V c) := by
  have h3 : t.val % 4 = 3 := (flush4_3 t).mp hf
  have hN : cfg4.N = 64 := N_4
  have ht := t.isLt
  have hi := idx4_3 t
  refine funext fun (y : S1024x1024.Idx) => ?_
  obtain ⟨p, q, rfl⟩ : ∃ (p q : Fin 1024), y = ix2 p q := ⟨y 0, y 1, eq_ix2 y⟩
  rw [View.read_apply]
  show (outsAt4 V c t.val t.isLt).1 (ix2 p q) = G4 V c _
  rw [out4_flush_apply V c t h3 p q ⟨t.val / 16 * 1024 + p.val, by omega⟩ ⟨t.val / 4 % 4 * 1024 + q.val, by omega⟩ rfl rfl]
  refine congrArg (G4 V c) (funext fun a => Fin.ext ?_)
  match a with
  | ⟨0, _⟩ => show t.val / 16 * 1024 + p.val = win4_3.index t 0 * 1024 + 1 * p.val; rw [hi.1]; omega
  | ⟨1, _⟩ => show t.val / 4 % 4 * 1024 + q.val = win4_3.index t 1 * 1024 + 1 * q.val; rw [hi.2]; omega

/-- The sixteen output blocks, each written back at the last of its four steps, tile the array: the result array ends
    holding (x + y) · wᵀ. -/
theorem final4 (c : Dev nD) :
    (dat4 V c).arrAt 3 cfg4.N = Cert.Spec.residProj (V c main_v0) (V c main_v11) (V c main_v3) :=
  (dat4 V c).arrAt_eq_of_cover 3 (G4 V c) (flushed4_eq V c) fun i => by
    have hN : cfg4.N = 64 := N_4
    have h0 : (i 0 : ℕ) < 4096 := (i 0).isLt
    have h1 : (i 1 : ℕ) < 4096 := (i 1).isLt
    obtain ⟨t, ht⟩ : ∃ t : Fin cfg4.N, t.val = (i 0 : ℕ) / 1024 * 16 + (i 1 : ℕ) / 1024 * 4 + 3 :=
      ⟨⟨(i 0 : ℕ) / 1024 * 16 + (i 1 : ℕ) / 1024 * 4 + 3, by omega⟩, rfl⟩
    have hi := idx4_3 t
    refine ⟨t, (flush4_3 t).mpr (by omega), ?_⟩
    show i ∈ ((View.whole main_v12).slice (win4_3.rect t)).set
    rw [View.set_slice_whole, Rect.mem_set_unit]
    intro a
    match a with
    | ⟨0, _⟩ =>
      show win4_3.index t 0 * 1024 ≤ (i 0 : ℕ) ∧ (i 0 : ℕ) < win4_3.index t 0 * 1024 + 1024
      rw [hi.1]; omega
    | ⟨1, _⟩ =>
      show win4_3.index t 1 * 1024 ≤ (i 1 : ℕ) ∧ (i 1 : ℕ) < win4_3.index t 1 * 1024 + 1024
      rw [hi.2]; omega

end Whole

end Cert.KernelIdeal.Hand

end
-- ==== Proof.SpecLaws.lean ====
/-
  Laws of the specification functions: a [2, 2048, 4096] array re-laid as [4096, 4096] (row b · 2048 + s) and back is the
  row-major reshape either way; re-laying, projecting every row, and re-laying back is the projection on the [2, 2048, 4096]
  array itself; and the network assembled from the five kernels' whole-array functions is the reference's formula. Only
  index arithmetic and the definitions are used: every sum on both sides is the same sum of the same products.
-/
import proofs.«133833_j3100966388061_2_alg».proof.Proof.Spec
import Idealize.ShloMosaic.Lib.Pipeline.Value

noncomputable section

namespace Cert.Spec

open Idealize.ShloMosaic Idealize.ShloMosaic.ValueIdx

/-- The row-major reshape [2, 2048, 4096] → [4096, 4096] is `flat`. -/
theorem shapeCast_flat (x : T3) (h : (⟨3, ![2, 2048, 4096]⟩ : Shape).ShapeCasts ⟨2, ![4096, 4096]⟩) :
    shapeCast ⟨2, ![4096, 4096]⟩ x h = flat x := by
  funext j
  have h0 : (j 0).val < 4096 := (j 0).isLt
  have h1 : (j 1).val < 4096 := (j 1).isLt
  refine shapeCast_apply x h j _ ?_
  rw [Shape.rowMajor_val_three, Shape.rowMajor_val_two]
  show ((j 0).val / 2048 * 2048 + (j 0).val % 2048) * 4096 + (j 1).val = (j 0).val * 4096 + (j 1).val
  omega

/-- The row-major reshape [4096, 4096] → [2, 2048, 4096] is `unflat`. -/
theorem shapeCast_unflat (y : M2) (h : (⟨2, ![4096, 4096]⟩ : Shape).ShapeCasts ⟨3, ![2, 2048, 4096]⟩) :
    shapeCast ⟨3, ![2, 2048, 4096]⟩ y h = unflat y := by
  funext j
  refine shapeCast_apply y h j _ ?_
  rw [Shape.rowMajor_val_three, Shape.rowMajor_val_two]
  show ((j 0).val * 2048 + (j 1).val) * 4096 + (j 2).val = ((j 0).val * 2048 + (j 1).val) * 4096 + (j 2).val
  rfl

/-- `flat x` at row b · 2048 + s is `x` at (b, s). -/
theorem flat_apply (x : T3) (b : Fin 2) (s : Fin 2048) (k : Fin 4096) :
    flat x (ix2 ⟨b.val * 2048 + s.val, flat_lt b s⟩ k) = x (ix3 b s k) := by
  unfold flat
  have hb := b.isLt
  have hs := s.isLt
  refine congrArg x (funext fun a => Fin.ext ?_)
  match a with
  | ⟨0, _⟩ => show (b.val * 2048 + s.val) / 2048 = b.val; omega
  | ⟨1, _⟩ => show (b.val * 2048 + s.val) % 2048 = s.val; omega
  | ⟨2, _⟩ => rfl

/-- Re-laying, projecting every row, and re-laying back is the projection on the array itself. -/
theorem unflat_projT_flat (x : T3) (w : M2) : unflat (projT (flat x) w) = projT3 x w := by
  funext j
  obtain ⟨b, s, e, rfl⟩ : ∃ (b : Fin 2) (s : Fin 2048) (e : Fin 4096), j = ix3 b s e := ⟨j 0, j 1, j 2, eq_ix3 j⟩
  show ∑ k : Fin 4096, flat x (ix2 ⟨b.val * 2048 + s.val, flat_lt b s⟩ k) * w (ix2 e k) = ∑ k : Fin 4096, x (ix3 b s k) * w (ix2 e k)
  exact Finset.sum_congr rfl fun k _ => by rw [flat_apply]

/-- The network assembled from the five kernels' whole-array functions is the reference's formula. -/
theorem assembled_eq (x : T3) (w1 w2 w3 w4 w5 : M2) :
    unflat (residProj (flat x)
      (projSilu (flat (attnSoft (unflat (projT (flat x) w3)) (gramSoft (unflat (projT (flat x) w1)) (unflat (projT (flat x) w2))))) w4) w5)
      = refOut x w1 w2 w3 w4 w5 := by
  rw [unflat_projT_flat, unflat_projT_flat, unflat_projT_flat]
  funext j
  obtain ⟨b, s, e, rfl⟩ : ∃ (b : Fin 2) (s : Fin 2048) (e : Fin 4096), j = ix3 b s e := ⟨j 0, j 1, j 2, eq_ix3 j⟩
  show ∑ d : Fin 4096, (flat x (ix2 ⟨b.val * 2048 + s.val, flat_lt b s⟩ d)
        + silu (∑ k : Fin 4096, flat (attnSoft (projT3 x w3) (gramSoft (projT3 x w1) (projT3 x w2))) (ix2 ⟨b.val * 2048 + s.val, flat_lt b s⟩ k) * w4 (ix2 d k)))
      * w5 (ix2 e d) = _
  unfold refOut
  refine Finset.sum_congr rfl fun d _ => ?_
  rw [flat_apply]
  refine congrArg (fun z => (x (ix3 b s d) + silu z) * w5 (ix2 e d)) ?_
  exact Finset.sum_congr rfl fun k _ => by rw [flat_apply]

end Cert.Spec

end
-- ==== Proof.Compose.lean ====
/-
  The program's result array as one expression of its six argument arrays, on the extended reals. Boundary by boundary:
  the host steps re-lay the input as [4096, 4096] and copy the last three weight arrays (a change of float format is the
  identity here); each kernel's output array is its whole-array function of its operand arrays as the boundary before it
  holds them; arrays that an item neither writes nor re-lays are carried along unchanged. The argument arrays reach the
  end as launched.
-/
import proofs.«133833_j3100966388061_2_alg».proof.Proof.Carry
import proofs.«133833_j3100966388061_2_alg».proof.Proof.R0Value
import proofs.«133833_j3100966388061_2_alg».proof.Proof.R1Value
import proofs.«133833_j3100966388061_2_alg».proof.Proof.R2Value
import proofs.«133833_j3100966388061_2_alg».proof.Proof.R3Value
import proofs.«133833_j3100966388061_2_alg».proof.Proof.R4Value
import proofs.«133833_j3100966388061_2_alg».proof.Proof.SpecLaws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- The six argument arrays on core `c`. -/
def ar0 (c : Dev nD) : T3 := m ((c : Thread nD τ).loc main_arg0)
def ar1 (c : Dev nD) : M2 := m ((c : Thread nD τ).loc main_arg1)
def ar2 (c : Dev nD) : M2 := m ((c : Thread nD τ).loc main_arg2)
def ar3 (c : Dev nD) : M2 := m ((c : Thread nD τ).loc main_arg3)
def ar4 (c : Dev nD) : M2 := m ((c : Thread nD τ).loc main_arg4)
def ar5 (c : Dev nD) : M2 := m ((c : Thread nD τ).loc main_arg5)

/-! ## The values, boundary by boundary -/

theorem W1_v0 (c : Dev nD) : Wt1 m ρ c (Proc.devRef .tc main_v0) = flat (ar0 m c) := by
  show StableHlo.after hostOps0 (Wt0 m ρ c) (Proc.devRef .tc main_v0) = _
  after_results
  exact shapeCast_flat (ar0 m c) shapeCasts_S2x2048x4096_S4096x4096
theorem W1_v1 (c : Dev nD) : Wt1 m ρ c (Proc.devRef .tc main_v1) = ar3 m c := by
  show StableHlo.after hostOps0 (Wt0 m ρ c) (Proc.devRef .tc main_v1) = _
  after_results
  rfl
theorem W1_v2 (c : Dev nD) : Wt1 m ρ c (Proc.devRef .tc main_v2) = ar4 m c := by
  show StableHlo.after hostOps0 (Wt0 m ρ c) (Proc.devRef .tc main_v2) = _
  after_results
  rfl
theorem W1_v3 (c : Dev nD) : Wt1 m ρ c (Proc.devRef .tc main_v3) = ar5 m c := by
  show StableHlo.after hostOps0 (Wt0 m ρ c) (Proc.devRef .tc main_v3) = _
  after_results
  rfl
theorem W1_arg1 (c : Dev nD) : Wt1 m ρ c (Proc.devRef .tc main_arg1) = ar1 m c := (cy1_main_arg1 m ρ c).trans rfl
theorem W1_arg2 (c : Dev nD) : Wt1 m ρ c (Proc.devRef .tc main_arg2) = ar2 m c := (cy1_main_arg2 m ρ c).trans rfl

/-- The input re-laid as [4096, 4096], and the last three weight arrays, as every later kernel finds them. -/
theorem W7_v0 (c : Dev nD) : Wt7 m ρ c (Proc.devRef .tc main_v0) = flat (ar0 m c) :=
  (cy7_main_v0 m ρ c).trans <| (cy6_main_v0 m ρ c).trans <| (cy5_main_v0 m ρ c).trans <| (cy4_main_v0 m ρ c).trans <| (cy3_main_v0 m ρ c).trans <| (cy2_main_v0 m ρ c).trans (W1_v0 m ρ c)
theorem W6_v2 (c : Dev nD) : Wt6 m ρ c (Proc.devRef .tc main_v2) = ar4 m c :=
  (cy6_main_v2 m ρ c).trans <| (cy5_main_v2 m ρ c).trans <| (cy4_main_v2 m ρ c).trans <| (cy3_main_v2 m ρ c).trans <| (cy2_main_v2 m ρ c).trans (W1_v2 m ρ c)
theorem W7_v3 (c : Dev nD) : Wt7 m ρ c (Proc.devRef .tc main_v3) = ar5 m c :=
  (cy7_main_v3 m ρ c).trans <| (cy6_main_v3 m ρ c).trans <| (cy5_main_v3 m ρ c).trans <| (cy4_main_v3 m ρ c).trans <| (cy3_main_v3 m ρ c).trans <| (cy2_main_v3 m ρ c).trans (W1_v3 m ρ c)

/-- The first kernel's three outputs. -/
theorem W2_v4_0 (c : Dev nD) : Wt2 m ρ c (Proc.devRef .tc main_v4_0) = projT (flat (ar0 m c)) (ar1 m c) :=
  (Wt2_arr m ρ c 4).trans ((final0_4 (Vt1 m ρ) c).trans (by rw [show Vt1 m ρ c main_v0 = flat (ar0 m c) from W1_v0 m ρ c, show Vt1 m ρ c main_arg1 = ar1 m c from W1_arg1 m ρ c]))
theorem W2_v4_1 (c : Dev nD) : Wt2 m ρ c (Proc.devRef .tc main_v4_1) = projT (flat (ar0 m c)) (ar2 m c) :=
  (Wt2_arr m ρ c 5).trans ((final0_5 (Vt1 m ρ) c).trans (by rw [show Vt1 m ρ c main_v0 = flat (ar0 m c) from W1_v0 m ρ c, show Vt1 m ρ c main_arg2 = ar2 m c from W1_arg2 m ρ c]))
theorem W2_v4_2 (c : Dev nD) : Wt2 m ρ c (Proc.devRef .tc main_v4_2) = projT (flat (ar0 m c)) (ar3 m c) :=
  (Wt2_arr m ρ c 6).trans ((final0_6 (Vt1 m ρ) c).trans (by rw [show Vt1 m ρ c main_v0 = flat (ar0 m c) from W1_v0 m ρ c, show Vt1 m ρ c main_v1 = ar3 m c from W1_v1 m ρ c]))

/-- Re-laid as [2, 2048, 4096]. -/
theorem W3_v5 (c : Dev nD) : Wt3 m ρ c (Proc.devRef .tc main_v5) = unflat (projT (flat (ar0 m c)) (ar1 m c)) := by
  show StableHlo.after hostOps1 (Wt2 m ρ c) (Proc.devRef .tc main_v5) = _
  after_results
  rw [W2_v4_0]
  exact shapeCast_unflat _ shapeCasts_S4096x4096_S2x2048x4096
theorem W3_v6 (c : Dev nD) : Wt3 m ρ c (Proc.devRef .tc main_v6) = unflat (projT (flat (ar0 m c)) (ar2 m c)) := by
  show StableHlo.after hostOps1 (Wt2 m ρ c) (Proc.devRef .tc main_v6) = _
  after_results
  rw [W2_v4_1]
  exact shapeCast_unflat _ shapeCasts_S4096x4096_S2x2048x4096
theorem W3_v7 (c : Dev nD) : Wt3 m ρ c (Proc.devRef .tc main_v7) = unflat (projT (flat (ar0 m c)) (ar3 m c)) := by
  show StableHlo.after hostOps1 (Wt2 m ρ c) (Proc.devRef .tc main_v7) = _
  after_results
  rw [W2_v4_2]
  exact shapeCast_unflat _ shapeCasts_S4096x4096_S2x2048x4096

/-- The second kernel's output. -/
theorem W4_v8 (c : Dev nD) : Wt4 m ρ c (Proc.devRef .tc main_v8)
    = gramSoft (unflat (projT (flat (ar0 m c)) (ar1 m c))) (unflat (projT (flat (ar0 m c)) (ar2 m c))) :=
  (Wt4_arr m ρ c 2).trans ((final1 (Vt3 m ρ) c).trans (by rw [show Vt3 m ρ c main_v5 = _ from W3_v5 m ρ c, show Vt3 m ρ c main_v6 = _ from W3_v6 m ρ c]))
theorem W4_v7 (c : Dev nD) : Wt4 m ρ c (Proc.devRef .tc main_v7) = unflat (projT (flat (ar0 m c)) (ar3 m c)) :=
  (cy4_main_v7 m ρ c).trans (W3_v7 m ρ c)

/-- The third kernel's output. -/
theorem W5_v9 (c : Dev nD) : Wt5 m ρ c (Proc.devRef .tc main_v9)
    = attnSoft (unflat (projT (flat (ar0 m c)) (ar3 m c))) (gramSoft (unflat (projT (flat (ar0 m c)) (ar1 m c))) (unflat (projT (flat (ar0 m c)) (ar2 m c)))) :=
  (Wt5_arr m ρ c 2).trans ((final2 (Vt4 m ρ) c).trans (by rw [show Vt4 m ρ c main_v7 = _ from W4_v7 m ρ c, show Vt4 m ρ c main_v8 = _ from W4_v8 m ρ c]))

theorem W6_v10 (c : Dev nD) : Wt6 m ρ c (Proc.devRef .tc main_v10)
    = flat (attnSoft (unflat (projT (flat (ar0 m c)) (ar3 m c))) (gramSoft (unflat (projT (flat (ar0 m c)) (ar1 m c))) (unflat (projT (flat (ar0 m c)) (ar2 m c))))) := by
  show StableHlo.after hostOps3 (Wt5 m ρ c) (Proc.devRef .tc main_v10) = _
  after_results
  rw [W5_v9]
  exact shapeCast_flat _ shapeCasts_S2x2048x4096_S4096x4096

/-- The fourth kernel's output. -/
theorem W7_v11 (c : Dev nD) : Wt7 m ρ c (Proc.devRef .tc main_v11)
    = projSilu (flat (attnSoft (unflat (projT (flat (ar0 m c)) (ar3 m c))) (gramSoft (unflat (projT (flat (ar0 m c)) (ar1 m c))) (unflat (projT (flat (ar0 m c)) (ar2 m c)))))) (ar4 m c) :=
  (Wt7_arr m ρ c 2).trans ((final3 (Vt6 m ρ) c).trans (by rw [show Vt6 m ρ c main_v10 = _ from W6_v10 m ρ c, show Vt6 m ρ c main_v2 = _ from W6_v2 m ρ c]))

/-- The fifth kernel's output. -/
theorem W8_v12 (c : Dev nD) : Wt8 m ρ c (Proc.devRef .tc main_v12)
    = residProj (flat (ar0 m c)) (projSilu (flat (attnSoft (unflat (projT (flat (ar0 m c)) (ar3 m c))) (gramSoft (unflat (projT (flat (ar0 m c)) (ar1 m c))) (unflat (projT (flat (ar0 m c)) (ar2 m c)))))) (ar4 m c)) (ar5 m c) :=
  (Wt8_arr m ρ c 3).trans ((final4 (Vt7 m ρ) c).trans (by rw [show Vt7 m ρ c main_v0 = _ from W7_v0 m ρ c, show Vt7 m ρ c main_v11 = _ from W7_v11 m ρ c, show Vt7 m ρ c main_v3 = _ from W7_v3 m ρ c]))

/-- THE RESULT ARRAY: the reference's formula of the six argument arrays. -/
theorem W9_v13 (c : Dev nD) : Wt9 m ρ c (Proc.devRef .tc main_v13) = refOut (ar0 m c) (ar1 m c) (ar2 m c) (ar3 m c) (ar4 m c) (ar5 m c) := by
  show StableHlo.after hostOps5 (Wt8 m ρ c) (Proc.devRef .tc main_v13) = _
  after_results
  rw [W8_v12]
  exact (shapeCast_unflat _ shapeCasts_S4096x4096_S2x2048x4096).trans (assembled_eq _ _ _ _ _ _)

end Cert.KernelIdeal.Hand

end
-- ==== Proof.RefValue.lean ====
/-
  The reference on the extended reals: its result array is `Cert.Spec.refOut` of its six argument arrays.
-/
import proofs.«133833_j3100966388061_2_alg».proof.Proof.Gen.ReferenceIdeal.Read
import proofs.«133833_j3100966388061_2_alg».proof.Proof.Spec
import proofs.«133833_j3100966388061_2_alg».proof.Proof.LibRowSoftmax

noncomputable section

namespace Cert.ReferenceIdeal.RefValue

open Idealize.ShloMosaic Idealize.ShloMosaic.ValueIdx Cert.ReferenceIdeal Cert.Spec

/-- A [2, 2048, 4096] argument array and a [4096, 4096] one, on the extended reals. -/
abbrev A3 : Type := (⟨S2x2048x4096, .f32⟩ : BufTy).Contents (Elt Ideal)
abbrev W2 : Type := (⟨S4096x4096, .f32⟩ : BufTy).Contents (Elt Ideal)

/-- Indices of the three array shapes from coordinates of the literal extents. -/
abbrev t3 (b : Fin 2) (s : Fin 2048) (e : Fin 4096) : S2x2048x4096.Idx := ix3 b s e
abbrev q3 (b : Fin 2) (d e : Fin 4096) : S2x4096x4096.Idx := ix3 b d e
abbrev m2 (r k : Fin 4096) : S4096x4096.Idx := ix2 r k

/-! ## The three projections -/

/-- A projection's left operand at (b, s, e) and contraction index k is the input at (b, s, k). -/
theorem lidx_proj (i : S2x2048x4096.Idx) (k : Fin 4096) : Read.lidx_main_v0 i k = t3 (i 0) (i 1) k :=
  funext fun a => Fin.ext (by match a with | ⟨0, _⟩ => rfl | ⟨1, _⟩ => rfl | ⟨2, _⟩ => rfl)

/-- … and its right operand is the weight at (e, k). -/
theorem ridx_proj (i : S2x2048x4096.Idx) (k : Fin 4096) : Read.ridx_main_v0 i k = m2 (i 2) k :=
  funext fun a => Fin.ext (by match a with | ⟨0, _⟩ => rfl | ⟨1, _⟩ => rfl)

/-- A sum over the contraction index of the input at (b, s, k) against the weight at (e, k) is `projT3`. -/
theorem proj_sum (x : A3) (w : W2) (i : S2x2048x4096.Idx) :
    ∑ k : Fin 4096, x (Read.lidx_main_v0 i k) * w (Read.ridx_main_v0 i k) = projT3 x w i :=
  Finset.sum_congr rfl fun k _ => by rw [lidx_proj, ridx_proj]

theorem v0_eq (x0 : A3) (x1 : W2) : Read.val_main_v0 (F := Ideal) x0 x1 = projT3 x0 x1 :=
  funext fun i => (Read.val_main_v0_apply x0 x1 i).trans (proj_sum x0 x1 i)

theorem v1_eq (x0 : A3) (x2 : W2) : Read.val_main_v1 (F := Ideal) x0 x2 = projT3 x0 x2 :=
  funext fun i => (Read.val_main_v1_apply x0 x2 i).trans (proj_sum x0 x2 i)

theorem v2_eq (x0 : A3) (x3 : W2) : Read.val_main_v2 (F := Ideal) x0 x3 = projT3 x0 x3 :=
  funext fun i => (Read.val_main_v2_apply x0 x3 i).trans (proj_sum x0 x3 i)

/-! ## The Gram matrix over the sequence axis -/

theorem lidx_gram (i : S2x4096x4096.Idx) (s : Fin 2048) : Read.lidx_main_v3 i s = t3 (i 0) s (i 1) :=
  funext fun a => Fin.ext (by match a with | ⟨0, _⟩ => rfl | ⟨1, _⟩ => rfl | ⟨2, _⟩ => rfl)

theorem ridx_gram (i : S2x4096x4096.Idx) (s : Fin 2048) : Read.ridx_main_v3 i s = t3 (i 0) s (i 2) :=
  funext fun a => Fin.ext (by match a with | ⟨0, _⟩ => rfl | ⟨1, _⟩ => rfl | ⟨2, _⟩ => rfl)

/-- The Gram entry at (b, d, e): the sum over the sequence axis of the two projections' products. -/
theorem v3_apply (x0 : A3) (x1 x2 : W2) (i : S2x4096x4096.Idx) :
    Read.val_main_v3 (F := Ideal) x0 x1 x2 i
      = ∑ s : Fin 2048, projT3 x0 x1 (t3 (i 0) s (i 1)) * projT3 x0 x2 (t3 (i 0) s (i 2)) := by
  rw [Read.val_main_v3_apply, v0_eq, v1_eq]
  exact Finset.sum_congr rfl fun s _ => by rw [lidx_gram, ridx_gram]

/-! ## The first normalisation: each row of the Gram matrix, over its last axis -/

theorem red_gram : S2x4096x4096.Reduces [2] S2x4096 := by decide

/-- The reduced index (b, d) with the coordinate e put back on the last axis is (b, d, e). -/
theorem lift_gram (j : S2x4096.Idx) (k : Fin 4096) : red_gram.lift j k = q3 (j 0) (j 1) k :=
  funext fun c => Fin.ext (by match c with | ⟨0, _⟩ => rfl | ⟨1, _⟩ => rfl | ⟨2, _⟩ => rfl)

/-- The maximum-reduction over the last axis is the row's maximum taken from the word of −∞. -/
theorem v4_apply (x0 : A3) (x1 x2 : W2) (j : S2x4096.Idx) :
    Read.val_main_v4 (F := Ideal) x0 x1 x2 j
      = rowMax (fun e : Fin 4096 => Read.val_main_v3 (F := Ideal) x0 x1 x2 (q3 (j 0) (j 1) e)) := by
  unfold Read.val_main_v4
  rw [Host.reduce_eq_fold_single FloatOps.maximumf _ _ Gen.reducesTo_S2x4096x4096_S2x4096_d2 red_gram Gen.h_S_ j]
  have hf : (Read.val_main_v3 (F := Ideal) x0 x1 x2 ∘ red_gram.lift j)
      = fun e : Fin 4096 => Read.val_main_v3 (F := Ideal) x0 x1 x2 (q3 (j 0) (j 1) e) :=
    funext fun k => congrArg (Read.val_main_v3 (F := Ideal) x0 x1 x2) (lift_gram j k)
  rw [hf]
  rfl

/-- The broadcast row maximum at (b, d, e): a fold of the maximum from −∞ is already above −∞, so the further
    maximum with −∞ changes nothing. -/
theorem v8_apply (x0 : A3) (x1 x2 : W2) (i : S2x4096x4096.Idx) :
    Read.val_main_v8 (F := Ideal) x0 x1 x2 i
      = rowMax (fun e : Fin 4096 => Read.val_main_v3 (F := Ideal) x0 x1 x2 (q3 (i 0) (i 1) e)) := by
  rw [Read.val_main_v8_apply, Read.val_main_v7_apply, Read.val_main_v6_apply, Read.val_main_v5_apply,
    Read.val_main_cst_0_apply, v4_apply]
  exact Cert.Attn.max_fold_max_self _ _ _

/-- The exponential of an entry's distance to its row's maximum. -/
theorem v10_apply (x0 : A3) (x1 x2 : W2) (i : S2x4096x4096.Idx) :
    Read.val_main_v10 (F := Ideal) x0 x1 x2 i
      = Ideal.exp (Read.val_main_v3 (F := Ideal) x0 x1 x2 i
          - rowMax (fun e : Fin 4096 => Read.val_main_v3 (F := Ideal) x0 x1 x2 (q3 (i 0) (i 1) e))) := by
  rw [Read.val_main_v10_apply, Read.val_main_v9_apply, v8_apply]
  rfl

/-- The broadcast row sum of the exponentials at (b, d, e): the zero word adds nothing. -/
theorem v13_apply (x0 : A3) (x1 x2 : W2) (i : S2x4096x4096.Idx) :
    Read.val_main_v13 (F := Ideal) x0 x1 x2 i
      = ∑ e' : Fin 4096, Ideal.exp (Read.val_main_v3 (F := Ideal) x0 x1 x2 (q3 (i 0) (i 1) e')
          - rowMax (fun e : Fin 4096 => Read.val_main_v3 (F := Ideal) x0 x1 x2 (q3 (i 0) (i 1) e))) := by
  rw [Read.val_main_v13_apply, Read.val_main_v12_apply, Read.val_main_v11_apply, Read.val_main_cst_1_apply,
    Ideal.ofBits_def, Ideal.ofBits_zero_f32, zero_add]
  refine Finset.sum_congr rfl fun k _ => ?_
  rw [show Read.idx_main_v11 (Read.idx_main_v12 (Read.idx_main_v13 i)) k = q3 (i 0) (i 1) k from
    funext fun a => Fin.ext (by match a with | ⟨0, _⟩ => rfl | ⟨1, _⟩ => rfl | ⟨2, _⟩ => rfl), v10_apply]

/-- The normalised entry at (b, d, e) is the normalised row at e. -/
theorem v14_apply (x0 : A3) (x1 x2 : W2) (i : S2x4096x4096.Idx) :
    Read.val_main_v14 (F := Ideal) x0 x1 x2 i
      = softRow (fun e : Fin 4096 => Read.val_main_v3 (F := Ideal) x0 x1 x2 (q3 (i 0) (i 1) e)) (i 2) := by
  rw [Read.val_main_v14_apply, v13_apply, v10_apply, congrArg (Read.val_main_v3 (F := Ideal) x0 x1 x2) (show i = q3 (i 0) (i 1) (i 2) from eq_ix3 i)]
  rfl

theorem v14_eq (x0 : A3) (x1 x2 : W2) :
    Read.val_main_v14 (F := Ideal) x0 x1 x2 = gramSoft (projT3 x0 x1) (projT3 x0 x2) :=
  funext fun i => (v14_apply x0 x1 x2 i).trans
    (congrArg (fun sc : Fin 4096 → EReal => softRow sc (i 2)) (funext fun e => v3_apply x0 x1 x2 (q3 (i 0) (i 1) e)))

/-! ## The third projection against the normalised Gram matrix -/

theorem lidx_attn (i : S2x2048x4096.Idx) (d : Fin 4096) : Read.lidx_main_v15 i d = t3 (i 0) (i 1) d :=
  funext fun a => Fin.ext (by match a with | ⟨0, _⟩ => rfl | ⟨1, _⟩ => rfl | ⟨2, _⟩ => rfl)

theorem ridx_attn (i : S2x2048x4096.Idx) (d : Fin 4096) : Read.ridx_main_v15 i d = q3 (i 0) d (i 2) :=
  funext fun a => Fin.ext (by match a with | ⟨0, _⟩ => rfl | ⟨1, _⟩ => rfl | ⟨2, _⟩ => rfl)

/-- The entry at (b, s, e): the sum over d of the third projection at (b, s, d) against the normalised Gram matrix
    at (b, d, e). -/
theorem v15_apply (x0 : A3) (x1 x2 x3 : W2) (i : S2x2048x4096.Idx) :
    Read.val_main_v15 (F := Ideal) x0 x1 x2 x3 i
      = ∑ d : Fin 4096, projT3 x0 x3 (t3 (i 0) (i 1) d) * gramSoft (projT3 x0 x1) (projT3 x0 x2) (q3 (i 0) d (i 2)) := by
  rw [Read.val_main_v15_apply, v2_eq, v14_eq]
  exact Finset.sum_congr rfl fun d _ => by rw [lidx_attn, ridx_attn]

/-! ## The second normalisation: each row over its last axis -/

theorem red_attn : S2x2048x4096.Reduces [2] S2x2048 := by decide

/-- The reduced index (b, s) with the coordinate e put back on the last axis is (b, s, e). -/
theorem lift_attn (j : S2x2048.Idx) (k : Fin 4096) : red_attn.lift j k = t3 (j 0) (j 1) k :=
  funext fun c => Fin.ext (by match c with | ⟨0, _⟩ => rfl | ⟨1, _⟩ => rfl | ⟨2, _⟩ => rfl)

/-- The maximum-reduction over the last axis is the row's maximum taken from the word of −∞. -/
theorem v16_apply (x0 : A3) (x1 x2 x3 : W2) (j : S2x2048.Idx) :
    Read.val_main_v16 (F := Ideal) x0 x1 x2 x3 j
      = rowMax (fun e : Fin 4096 => Read.val_main_v15 (F := Ideal) x0 x1 x2 x3 (t3 (j 0) (j 1) e)) := by
  unfold Read.val_main_v16
  rw [Host.reduce_eq_fold_single FloatOps.maximumf _ _ Gen.reducesTo_S2x2048x4096_S2x2048_d2 red_attn Gen.h_S_ j]
  have hf : (Read.val_main_v15 (F := Ideal) x0 x1 x2 x3 ∘ red_attn.lift j)
      = fun e : Fin 4096 => Read.val_main_v15 (F := Ideal) x0 x1 x2 x3 (t3 (j 0) (j 1) e) :=
    funext fun k => congrArg (Read.val_main_v15 (F := Ideal) x0 x1 x2 x3) (lift_attn j k)
  rw [hf]
  rfl

/-- The broadcast row maximum at (b, s, e); the further maximum with −∞ changes nothing. -/
theorem v20_apply (x0 : A3) (x1 x2 x3 : W2) (i : S2x2048x4096.Idx) :
    Read.val_main_v20 (F := Ideal) x0 x1 x2 x3 i
      = rowMax (fun e : Fin 4096 => Read.val_main_v15 (F := Ideal) x0 x1 x2 x3 (t3 (i 0) (i 1) e)) := by
  rw [Read.val_main_v20_apply, Read.val_main_v19_apply, Read.val_main_v18_apply, Read.val_main_v17_apply,
    Read.val_main_cst_3_apply, v16_apply]
  exact Cert.Attn.max_fold_max_self _ _ _

/-- The exponential of an entry's distance to its row's maximum. -/
theorem v22_apply (x0 : A3) (x1 x2 x3 : W2) (i : S2x2048x4096.Idx) :
    Read.val_main_v22 (F := Ideal) x0 x1 x2 x3 i
      = Ideal.exp (Read.val_main_v15 (F := Ideal) x0 x1 x2 x3 i
          - rowMax (fun e : Fin 4096 => Read.val_main_v15 (F := Ideal) x0 x1 x2 x3 (t3 (i 0) (i 1) e))) := by
  rw [Read.val_main_v22_apply, Read.val_main_v21_apply, v20_apply]
  rfl

/-- The broadcast row sum of the exponentials at (b, s, e): the zero word adds nothing. -/
theorem v25_apply (x0 : A3) (x1 x2 x3 : W2) (i : S2x2048x4096.Idx) :
    Read.val_main_v25 (F := Ideal) x0 x1 x2 x3 i
      = ∑ e' : Fin 4096, Ideal.exp (Read.val_main_v15 (F := Ideal) x0 x1 x2 x3 (t3 (i 0) (i 1) e')
          - rowMax (fun e : Fin 4096 => Read.val_main_v15 (F := Ideal) x0 x1 x2 x3 (t3 (i 0) (i 1) e))) := by
  rw [Read.val_main_v25_apply, Read.val_main_v24_apply, Read.val_main_v23_apply, Read.val_main_cst_4_apply,
    Ideal.ofBits_def, Ideal.ofBits_zero_f32, zero_add]
  refine Finset.sum_congr rfl fun k _ => ?_
  rw [show Read.idx_main_v23 (Read.idx_main_v24 (Read.idx_main_v25 i)) k = t3 (i 0) (i 1) k from
    funext fun a => Fin.ext (by match a with | ⟨0, _⟩ => rfl | ⟨1, _⟩ => rfl | ⟨2, _⟩ => rfl), v22_apply]

/-- The normalised entry at (b, s, e) is the normalised row at e. -/
theorem v26_apply (x0 : A3) (x1 x2 x3 : W2) (i : S2x2048x4096.Idx) :
    Read.val_main_v26 (F := Ideal) x0 x1 x2 x3 i
      = softRow (fun e : Fin 4096 => Read.val_main_v15 (F := Ideal) x0 x1 x2 x3 (t3 (i 0) (i 1) e)) (i 2) := by
  rw [Read.val_main_v26_apply, v25_apply, v22_apply,
    congrArg (Read.val_main_v15 (F := Ideal) x0 x1 x2 x3) (show i = t3 (i 0) (i 1) (i 2) from eq_ix3 i)]
  rfl

theorem v26_eq (x0 : A3) (x1 x2 x3 : W2) :
    Read.val_main_v26 (F := Ideal) x0 x1 x2 x3
      = attnSoft (projT3 x0 x3) (gramSoft (projT3 x0 x1) (projT3 x0 x2)) :=
  funext fun i => (v26_apply x0 x1 x2 x3 i).trans
    (congrArg (fun sc : Fin 4096 → EReal => softRow sc (i 2))
      (funext fun e => v15_apply x0 x1 x2 x3 (t3 (i 0) (i 1) e)))

/-! ## The fourth projection, z ↦ z · σ(z), the residual and the last projection -/

/-- The fourth projection at (b, s, d). -/
theorem v27_apply (x0 : A3) (x1 x2 x3 x4 : W2) (i : S2x2048x4096.Idx) :
    Read.val_main_v27 (F := Ideal) x0 x1 x2 x3 x4 i
      = ∑ k : Fin 4096, attnSoft (projT3 x0 x3) (gramSoft (projT3 x0 x1) (projT3 x0 x2)) (t3 (i 0) (i 1) k)
          * x4 (m2 (i 2) k) := by
  rw [Read.val_main_v27_apply, v26_eq]
  exact Finset.sum_congr rfl fun k _ => by
    rw [show Read.lidx_main_v27 i k = t3 (i 0) (i 1) k from lidx_proj i k,
      show Read.ridx_main_v27 i k = m2 (i 2) k from ridx_proj i k]

/-- The f32 word of one is one. -/
theorem one_word : Ideal.ofBits .f32 0x3F800000#32 = 1 := IdealRules.sign_bit.ideal_onePat .f32

/-- z · (1 / (1 + e^(−z))) is z · σ(z). -/
theorem v28_apply (x0 : A3) (x1 x2 x3 x4 : W2) (i : S2x2048x4096.Idx) :
    Read.val_main_v28 (F := Ideal) x0 x1 x2 x3 x4 i = silu (Read.val_main_v27 (F := Ideal) x0 x1 x2 x3 x4 i) := by
  rw [Read.val_main_v28_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    Ideal.ofBits_def, one_word]
  rfl

/-- The reference's result is `refOut` of its six argument arrays. -/
theorem ref_eq (x0 : (⟨S2x2048x4096, .f32⟩ : BufTy).Contents (Elt Ideal))
    (x1 x2 x3 x4 x5 : (⟨S4096x4096, .f32⟩ : BufTy).Contents (Elt Ideal)) :
    Read.val_main_v30 (F := Ideal) x0 x1 x2 x3 x4 x5 = Cert.Spec.refOut x0 x1 x2 x3 x4 x5 := by
  funext i
  rw [Read.val_main_v30_apply]
  unfold Cert.Spec.refOut
  refine Finset.sum_congr rfl fun d _ => ?_
  rw [show Read.lidx_main_v30 i d = t3 (i 0) (i 1) d from lidx_proj i d,
    show Read.ridx_main_v30 i d = m2 (i 2) d from ridx_proj i d, Read.val_main_v29_apply, v28_apply, v27_apply]
  rfl

end Cert.ReferenceIdeal.RefValue

end
-- ==== Proof.lean ====
/-
  The certificate's five claims.

  The kernel program is five matrix-product kernels with host re-layings between them; each kernel keeps its running
  sums in scratch buffers over the steps of its contraction axis. Its frame (at the word level and on the extended reals
  alike) is the run of its items in order, every array's contents named at every boundary, the six argument arrays carried
  to the end unchanged. On the extended reals each kernel's output array is one whole-array function of its operand arrays
  (the chunked running sums are the whole sums; only associativity and commutativity of addition are used), the host steps
  re-lay [2, 2048, 4096] as [4096, 4096] and back, and the assembled network is the reference's formula
  `((x + silu(softmax(C · softmax(Aᵀ B)) · W4ᵀ)) · W5ᵀ)` of the same arguments; the reference's own run computes that
  formula stage by stage. No finiteness of the inputs is used. The idealization changed no operation, so nothing is to be
  preserved.
-/
import proofs.«133833_j3100966388061_2_alg».proof.Defs
import proofs.«133833_j3100966388061_2_alg».proof.Proof.Gen.Kernel
import proofs.«133833_j3100966388061_2_alg».proof.Proof.Gen.Kernel.Skeleton
import proofs.«133833_j3100966388061_2_alg».proof.Proof.Gen.Kernel.Launch
import proofs.«133833_j3100966388061_2_alg».proof.Proof.Gen.Kernel.Regions
import proofs.«133833_j3100966388061_2_alg».proof.Proof.Gen.Kernel.Points
import proofs.«133833_j3100966388061_2_alg».proof.Proof.Gen.KernelIdeal
import proofs.«133833_j3100966388061_2_alg».proof.Proof.Gen.KernelIdeal.Skeleton
import proofs.«133833_j3100966388061_2_alg».proof.Proof.Gen.KernelIdeal.Launch
import proofs.«133833_j3100966388061_2_alg».proof.Proof.Gen.KernelIdeal.Regions
import proofs.«133833_j3100966388061_2_alg».proof.Proof.Gen.KernelIdeal.Points
import proofs.«133833_j3100966388061_2_alg».proof.Proof.Gen.ReferenceIdeal
import proofs.«133833_j3100966388061_2_alg».proof.Proof.Gen.Pre_finite_inputs
import proofs.«133833_j3100966388061_2_alg».proof.Proof.Gen.ReferenceIdeal.Run
import proofs.«133833_j3100966388061_2_alg».proof.Proof.Gen.ReferenceIdeal.Read
import proofs.«133833_j3100966388061_2_alg».proof.Proof.BCarry
import proofs.«133833_j3100966388061_2_alg».proof.Proof.Compose
import proofs.«133833_j3100966388061_2_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ =>
  (θ_run (Cert.Kernel.defs (F := Bits)) _ _).mono (fun r h c =>
    ⟨(h c _ (Cert.Kernel.Hand.mem_ucH Cert.Kernel.main_arg0 (by decide))).trans (Cert.Kernel.Hand.Wt9_main_arg0 m ρ c),
     (h c _ (Cert.Kernel.Hand.mem_ucH Cert.Kernel.main_arg1 (by decide))).trans (Cert.Kernel.Hand.Wt9_main_arg1 m ρ c),
     (h c _ (Cert.Kernel.Hand.mem_ucH Cert.Kernel.main_arg2 (by decide))).trans (Cert.Kernel.Hand.Wt9_main_arg2 m ρ c),
     (h c _ (Cert.Kernel.Hand.mem_ucH Cert.Kernel.main_arg3 (by decide))).trans (Cert.Kernel.Hand.Wt9_main_arg3 m ρ c),
     (h c _ (Cert.Kernel.Hand.mem_ucH Cert.Kernel.main_arg4 (by decide))).trans (Cert.Kernel.Hand.Wt9_main_arg4 m ρ c),
     (h c _ (Cert.Kernel.Hand.mem_ucH Cert.Kernel.main_arg5 (by decide))).trans (Cert.Kernel.Hand.Wt9_main_arg5 m ρ c)⟩)
    (Cert.Kernel.Hand.run_all (F := Bits) m ρ)

/-- The idealized program runs and leaves its arguments unchanged. -/
theorem frame_ki : Cert.frame_KernelIdeal := fun m ρ _ =>
  (θ_run (Cert.KernelIdeal.defs (F := Ideal)) _ _).mono (fun r h c =>
    ⟨(h c _ (Cert.KernelIdeal.Hand.mem_ucH Cert.KernelIdeal.main_arg0 (by decide))).trans (Cert.KernelIdeal.Hand.Wt9_main_arg0 m ρ c),
     (h c _ (Cert.KernelIdeal.Hand.mem_ucH Cert.KernelIdeal.main_arg1 (by decide))).trans (Cert.KernelIdeal.Hand.Wt9_main_arg1 m ρ c),
     (h c _ (Cert.KernelIdeal.Hand.mem_ucH Cert.KernelIdeal.main_arg2 (by decide))).trans (Cert.KernelIdeal.Hand.Wt9_main_arg2 m ρ c),
     (h c _ (Cert.KernelIdeal.Hand.mem_ucH Cert.KernelIdeal.main_arg3 (by decide))).trans (Cert.KernelIdeal.Hand.Wt9_main_arg3 m ρ c),
     (h c _ (Cert.KernelIdeal.Hand.mem_ucH Cert.KernelIdeal.main_arg4 (by decide))).trans (Cert.KernelIdeal.Hand.Wt9_main_arg4 m ρ c),
     (h c _ (Cert.KernelIdeal.Hand.mem_ucH Cert.KernelIdeal.main_arg5 (by decide))).trans (Cert.KernelIdeal.Hand.Wt9_main_arg5 m ρ c)⟩)
    (Cert.KernelIdeal.Hand.run_all (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result array at the one formula of them. -/
theorem algebraic : Cert.algebraic_KernelIdeal_ReferenceIdeal := by
  intro m ρ m' ρ' _ hagree
  refine ⟨fun c => Cert.Spec.refOut (Cert.KernelIdeal.Hand.ar0 m c) (Cert.KernelIdeal.Hand.ar1 m c) (Cert.KernelIdeal.Hand.ar2 m c)
      (Cert.KernelIdeal.Hand.ar3 m c) (Cert.KernelIdeal.Hand.ar4 m c) (Cert.KernelIdeal.Hand.ar5 m c), ?_, ?_⟩
  · exact (θ_run (Cert.KernelIdeal.defs (F := Ideal)) _ _).mono (fun r h c =>
      ⟨(h c _ (Cert.KernelIdeal.Hand.mem_ucH Cert.KernelIdeal.main_v13 (by decide))).trans (Cert.KernelIdeal.Hand.W9_v13 m ρ c),
       (h c _ (Cert.KernelIdeal.Hand.mem_ucH Cert.KernelIdeal.main_arg0 (by decide))).trans (Cert.KernelIdeal.Hand.Wt9_main_arg0 m ρ c),
       (h c _ (Cert.KernelIdeal.Hand.mem_ucH Cert.KernelIdeal.main_arg1 (by decide))).trans (Cert.KernelIdeal.Hand.Wt9_main_arg1 m ρ c),
       (h c _ (Cert.KernelIdeal.Hand.mem_ucH Cert.KernelIdeal.main_arg2 (by decide))).trans (Cert.KernelIdeal.Hand.Wt9_main_arg2 m ρ c),
       (h c _ (Cert.KernelIdeal.Hand.mem_ucH Cert.KernelIdeal.main_arg3 (by decide))).trans (Cert.KernelIdeal.Hand.Wt9_main_arg3 m ρ c),
       (h c _ (Cert.KernelIdeal.Hand.mem_ucH Cert.KernelIdeal.main_arg4 (by decide))).trans (Cert.KernelIdeal.Hand.Wt9_main_arg4 m ρ c),
       (h c _ (Cert.KernelIdeal.Hand.mem_ucH Cert.KernelIdeal.main_arg5 (by decide))).trans (Cert.KernelIdeal.Hand.Wt9_main_arg5 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.RefValue.ref_eq,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
